-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x64 : Shape := ⟨2, ![1600000, 64]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg15 : FVec F S64 .f32) (main_arg16 : FVec F S64 .f32) (main_arg17 : FVec F S64x64 .f32) (main_arg18 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg17
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_v83 main_v84 main_cst_32

def fn_part3 {F : FTy → Type} [FloatOps F] (main_arg12 : FVec F S64 .f32) (main_arg13 : FVec F S64x64 .f32) (main_arg14 : FVec F S64 .f32) (main_arg15 : FVec F S64 .f32) (main_arg16 : FVec F S64 .f32) (main_arg17 : FVec F S64x64 .f32) (main_arg18 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_v63 main_v67

def fn_part2 {F : FTy → Type} [FloatOps F] (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64 .f32) (main_arg17 : FVec F S64x64 .f32) (main_arg18 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_arg18 main_v48 main_v49 main_v50

def fn_part1 {F : FTy → Type} [FloatOps F] (main_arg5 : FVec F S64x64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64 .f32) (main_arg17 : FVec F S64x64 .f32) (main_arg18 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x64 .f32) (main_arg1 : IVec S2x1600000 32) (main_arg2 : FVec F S1600000x64 .f32) (main_arg3 : FVec F S64x64 .f32) (main_arg4 : FVec F S64 .f32) (main_arg5 : FVec F S64x64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64 .f32) (main_arg17 : FVec F S64x64 .f32) (main_arg18 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x64 : Shape := ⟨2, ![100000, 64]⟩
abbrev S2x1600000 : Shape := ⟨2, ![2, 1600000]⟩
abbrev S1600000x64 : Shape := ⟨2, ![1600000, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S1x64 : Shape := ⟨2, ![1, 64]⟩
abbrev S_ : Shape := ⟨0, ![]⟩
abbrev S1600000x1 : Shape := ⟨2, ![1600000, 1]⟩
abbrev S8000x64 : Shape := ⟨2, ![8000, 64]⟩
abbrev S2x64 : Shape := ⟨2, ![2, 64]⟩
abbrev S10000x64 : Shape := ⟨2, ![10000, 64]⟩

abbrev nBuf : Space → Nat
  | .hbm => 91
  | .vmem => 58
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S2x64, .f32⟩
  | .hbm, ⟨48, _⟩ => ⟨S1x64, .f32⟩
  | .hbm, ⟨49, _⟩ => ⟨S1x64, .f32⟩
  | .hbm, ⟨50, _⟩ => ⟨S_, .f32⟩
  | .hbm, ⟨51, _⟩ => ⟨S1x64, .f32⟩
  | .hbm, ⟨52, _⟩ => ⟨S1x64, .f32⟩
  | .hbm, ⟨53, _⟩ => ⟨S_, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S_, .f32⟩
  | .hbm, ⟨59, _⟩ => ⟨S1x64, .f32⟩
  | .hbm, ⟨60, _⟩ => ⟨S1x64, .f32⟩
  | .hbm, ⟨61, _⟩ => ⟨S100000x64, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S2x64, .f32⟩
  | .hbm, ⟨77, _⟩ => ⟨S1x64, .f32⟩
  | .hbm, ⟨78, _⟩ => ⟨S1x64, .f32⟩
  | .hbm, ⟨79, _⟩ => ⟨S_, .f32⟩
  | .hbm, ⟨80, _⟩ => ⟨S1x64, .f32⟩
  | .hbm, ⟨81, _⟩ => ⟨S1x64, .f32⟩
  | .hbm, ⟨82, _⟩ => ⟨S_, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S_, .f32⟩
  | .hbm, ⟨88, _⟩ => ⟨S1x64, .f32⟩
  | .hbm, ⟨89, _⟩ => ⟨S1x64, .f32⟩
  | .hbm, ⟨90, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S1x64, .f32⟩
  | .local _ .vmem, ⟨14, _⟩ => ⟨S2x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S64x64, .f32⟩
  | .local _ .vmem, ⟨26, _⟩ => ⟨S1x64, .f32⟩
  | .local _ .vmem, ⟨27, _⟩ => ⟨S10000x64, .f32⟩
  | .local _ .vmem, ⟨28, _⟩ => ⟨S10000x64, .f32⟩
  | .local _ .vmem, ⟨29, _⟩ => ⟨S8000x64, .f32⟩
  | .local _ .vmem, ⟨30, _⟩ => ⟨S8000x64, .f32⟩
  | .local _ .vmem, ⟨31, _⟩ => ⟨S8000x64, .f32⟩
  | .local _ .vmem, ⟨32, _⟩ => ⟨S8000x64, .f32⟩
  | .local _ .vmem, ⟨33, _⟩ => ⟨S64x64, .f32⟩
  | .local _ .vmem, ⟨34, _⟩ => ⟨S1x64, .f32⟩
  | .local _ .vmem, ⟨35, _⟩ => ⟨S8000x64, .f32⟩
  | .local _ .vmem, ⟨36, _⟩ => ⟨S8000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S64x64, .f32⟩
  | .local _ .vmem, ⟨42, _⟩ => ⟨S1x64, .f32⟩
  | .local _ .vmem, ⟨43, _⟩ => ⟨S2x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S64x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S64x64, .f32⟩
  | .local _ .vmem, ⟨55, _⟩ => ⟨S1x64, .f32⟩
  | .local _ .vmem, ⟨56, _⟩ => ⟨S10000x64, .f32⟩
  | .local _ .vmem, ⟨57, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_1 : Ref sig .tc := ⟨.hbm, 50, rfl⟩
abbrev main_v28 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_4 : Ref sig .tc := ⟨.hbm, 62, rfl⟩
abbrev main_v37 : Ref sig .tc := ⟨.hbm, 63, rfl⟩
abbrev main_v38 : Ref sig .tc := ⟨.hbm, 64, rfl⟩
abbrev main_c_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg10_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg4_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg7_0 : Ref sig .tc := ⟨.vmem, 53, rfl⟩
abbrev cc5_stg8_0 : Ref sig .tc := ⟨.vmem, 54, rfl⟩
abbrev cc5_stg9_0 : Ref sig .tc := ⟨.vmem, 55, rfl⟩
abbrev cc5_stg10_0 : Ref sig .tc := ⟨.vmem, 56, rfl⟩
abbrev cc5_stg10_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem10_0 : DmaSem sig := 27
abbrev cc2_sem10_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem4_0 : DmaSem sig := 35
abbrev cc3_sem4_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem3_0 : DmaSem sig := 42
abbrev cc4_sem4_0 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem7_0 : DmaSem sig := 53
abbrev cc5_sem8_0 : DmaSem sig := 54
abbrev cc5_sem9_0 : DmaSem sig := 55
abbrev cc5_sem10_0 : DmaSem sig := 56
abbrev cc5_sem10_1 : DmaSem sig := 57

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S10000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S64x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x64 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S10000x64 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  shapeCasts_S8000x64_S8000x64 : S8000x64.ShapeCasts S8000x64
  bcast_S_S100000x64 : S_.BroadcastsInDim S100000x64 (![] : Fin 0 → Fin S100000x64.rank)
  inb_S2x64_S2x64_0_0 : ∀ a, (![0, 0] : Fin 2 → Nat) a + S2x64.size a ≤ S2x64.size a
  h_S2x64 : 0 < S2x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  reduces_S10000x64_S64 : S10000x64.Reduces [0] S64
  inb_S2x64_S1x64_0_0 : ∀ a, (![0, 0] : Fin 2 → Nat) a + S1x64.size a ≤ S2x64.size a
  inb_S2x64_S1x64_1_0 : ∀ a, (![1, 0] : Fin 2 → Nat) a + S1x64.size a ≤ S2x64.size a
  slices_S2x64_S1x64_0_0 : S2x64.Slices ![0, 0] S1x64
  slices_S2x64_S1x64_1_0 : S2x64.Slices ![1, 0] S1x64
  bcast_S_S1x64 : S_.BroadcastsInDim S1x64 (![] : Fin 0 → Fin S1x64.rank)
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S1600000x64.size a
  hwx0_4 : ∀ i : grid0.Coords, EltTy.bits .f32 = 32 ∨ (Rect.block (s := S1600000x64) S8000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x64.size a ≤ S2x64.size a
  hwx1_4 : ∀ i : grid1.Coords, EltTy.bits .f32 = 32 ∨ (Rect.block (s := S2x64) S2x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S10000x64.size a ≤ S100000x64.size a
  hwx2_10 : ∀ i : grid2.Coords, EltTy.bits .f32 = 32 ∨ (Rect.block (s := S100000x64) S10000x64.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S1600000x64.size a
  hwx3_0 : ∀ i : grid3.Coords, EltTy.bits .f32 = 32 ∨ (Rect.block (s := S1600000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S1600000x64.size a
  hwx3_1 : ∀ i : grid3.Coords, EltTy.bits .f32 = 32 ∨ (Rect.block (s := S1600000x64) S8000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x64.size a ≤ S1600000x64.size a
  hwx3_4 : ∀ i : grid3.Coords, EltTy.bits .f32 = 32 ∨ (Rect.block (s := S1600000x64) S8000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S2x64.size a ≤ S2x64.size a
  hwx4_4 : ∀ i : grid4.Coords, EltTy.bits .f32 = 32 ∨ (Rect.block (s := S2x64) S2x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S64x64.size a ≤ S64x64.size a
  hwx5_8 : ∀ i : grid5.Coords, EltTy.bits .f32 = 32 ∨ (Rect.block (s := S64x64) S64x64.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x64.size a ≤ S1x64.size a
  hwx5_9 : ∀ i : grid5.Coords, EltTy.bits .f32 = 32 ∨ (Rect.block (s := S1x64) S1x64.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S10000x64.size a ≤ S100000x64.size a
  hwx5_10 : ∀ i : grid5.Coords, EltTy.bits .f32 = 32 ∨ (Rect.block (s := S100000x64) S10000x64.size (cc5_transform_10 i) (hinb5_10 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v20) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S2x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v6) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v7) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg9) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v8) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v36) S10000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v43) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S8000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v36) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v10) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v48) S2x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v36) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v47) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg13) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v10) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v52) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v58) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v11) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v12) S1x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg17) S64x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v13) S1x64.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v59) S10000x64.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x64 : Shape := ⟨2, ![1600000, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S1x64 : Shape := ⟨2, ![1, 64]⟩
abbrev S_ : Shape := ⟨0, ![]⟩
abbrev S1600000x1 : Shape := ⟨2, ![1600000, 1]⟩

abbrev nBuf : Space → Nat
  | .hbm => 180
  | .vmem => 0
  | .smem => 0
  | _ => 0

abbrev hbmTy0_0 (i : Nat) : BufTy := match i % 128 with
  | 0 => ⟨S100000x64, .f32⟩
  | 1 => ⟨S2x1600000, .i32⟩
  | 2 => ⟨S1600000x64, .f32⟩
  | 3 => ⟨S64x64, .f32⟩
  | 4 => ⟨S64, .f32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64, .f32⟩
  | 16 => ⟨S64, .f32⟩
  | 17 => ⟨S64x64, .f32⟩
  | 18 => ⟨S64, .f32⟩
  | 19 => ⟨S1x1600000, .i32⟩
  | 20 => ⟨S1600000, .i32⟩
  | 21 => ⟨S1x1600000, .i32⟩
  | 22 => ⟨S1600000, .i32⟩
  | 23 => ⟨S1600000x64, .f32⟩
  | 24 => ⟨S1x64, .f32⟩
  | 25 => ⟨S1600000x64, .f32⟩
  | 26 => ⟨S1600000x64, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x64, .f32⟩
  | 36 => ⟨S1600000x64, .f32⟩
  | 37 => ⟨S_, .f32⟩
  | 38 => ⟨S1600000x64, .f32⟩
  | 39 => ⟨S1600000x64, .f32⟩
  | 40 => ⟨S_, .f32⟩
  | 41 => ⟨S100000x64, .f32⟩
  | 42 => ⟨S1600000x1, .i32⟩
  | 43 => ⟨S100000x64, .f32⟩
  | 44 => ⟨S100000x64, .f32⟩
  | 45 => ⟨S100000x64, .f32⟩
  | 46 => ⟨S1x64, .f32⟩
  | 47 => ⟨S100000x64, .f32⟩
  | 48 => ⟨S100000x64, .f32⟩
  | 49 => ⟨S_, .f32⟩
  | 50 => ⟨S64, .f32⟩
  | 51 => ⟨S_, .f32⟩
  | 52 => ⟨S64, .f32⟩
  | 53 => ⟨S64, .f32⟩
  | 54 => ⟨S_, .i32⟩
  | 55 => ⟨S_, .f32⟩
  | 56 => ⟨S64, .f32⟩
  | 57 => ⟨S1x64, .f32⟩
  | 58 => ⟨S_, .f32⟩
  | 59 => ⟨S1x64, .f32⟩
  | 60 => ⟨S1x64, .f32⟩
  | 61 => ⟨S100000x64, .f32⟩
  | 62 => ⟨S100000x64, .f32⟩
  | 63 => ⟨S100000x64, .f32⟩
  | 64 => ⟨S_, .f32⟩
  | 65 => ⟨S_, .f32⟩
  | 66 => ⟨S_, .f32⟩
  | 67 => ⟨S_, .f32⟩
  | 68 => ⟨S64, .f32⟩
  | 69 => ⟨S64, .f32⟩
  | 70 => ⟨S64, .f32⟩
  | 71 => ⟨S_, .f32⟩
  | 72 => ⟨S_, .i1⟩
  | 73 => ⟨S_, .f32⟩
  | 74 => ⟨S_, .f32⟩
  | 75 => ⟨S64, .f32⟩
  | 76 => ⟨S64, .f32⟩
  | 77 => ⟨S1x64, .f32⟩
  | 78 => ⟨S100000x64, .f32⟩
  | 79 => ⟨S100000x64, .f32⟩
  | 80 => ⟨S_, .f32⟩
  | 81 => ⟨S64, .f32⟩
  | 82 => ⟨S64, .f32⟩
  | 83 => ⟨S64, .f32⟩
  | 84 => ⟨S1x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S1600000x64, .f32⟩
  | 104 => ⟨S1x64, .f32⟩
  | 105 => ⟨S1600000x64, .f32⟩
  | 106 => ⟨S1600000x64, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x64, .f32⟩
  | 116 => ⟨S1600000x64, .f32⟩
  | 117 => ⟨S_, .f32⟩
  | 118 => ⟨S1600000x64, .f32⟩
  | 119 => ⟨S1600000x64, .f32⟩
  | 120 => ⟨S_, .f32⟩
  | 121 => ⟨S100000x64, .f32⟩
  | 122 => ⟨S1600000x1, .i32⟩
  | 123 => ⟨S100000x64, .f32⟩
  | 124 => ⟨S100000x64, .f32⟩
  | 125 => ⟨S100000x64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | 1 => ⟨S_, .f32⟩
  | 2 => ⟨S64, .f32⟩
  | 3 => ⟨S_, .f32⟩
  | 4 => ⟨S64, .f32⟩
  | 5 => ⟨S64, .f32⟩
  | 6 => ⟨S_, .i32⟩
  | 7 => ⟨S_, .f32⟩
  | 8 => ⟨S64, .f32⟩
  | 9 => ⟨S1x64, .f32⟩
  | 10 => ⟨S_, .f32⟩
  | 11 => ⟨S1x64, .f32⟩
  | 12 => ⟨S1x64, .f32⟩
  | 13 => ⟨S100000x64, .f32⟩
  | 14 => ⟨S100000x64, .f32⟩
  | 15 => ⟨S100000x64, .f32⟩
  | 16 => ⟨S_, .f32⟩
  | 17 => ⟨S_, .f32⟩
  | 18 => ⟨S_, .f32⟩
  | 19 => ⟨S_, .f32⟩
  | 20 => ⟨S64, .f32⟩
  | 21 => ⟨S64, .f32⟩
  | 22 => ⟨S64, .f32⟩
  | 23 => ⟨S_, .f32⟩
  | 24 => ⟨S_, .i1⟩
  | 25 => ⟨S_, .f32⟩
  | 26 => ⟨S_, .f32⟩
  | 27 => ⟨S64, .f32⟩
  | 28 => ⟨S64, .f32⟩
  | 29 => ⟨S1x64, .f32⟩
  | 30 => ⟨S100000x64, .f32⟩
  | 31 => ⟨S100000x64, .f32⟩
  | 32 => ⟨S_, .f32⟩
  | 33 => ⟨S64, .f32⟩
  | 34 => ⟨S64, .f32⟩
  | 35 => ⟨S64, .f32⟩
  | 36 => ⟨S1x64, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call0_cst : Ref sig .tc := ⟨.hbm, 37, rfl⟩
abbrev main_call0_v0 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_1 : Ref sig .tc := ⟨.hbm, 49, rfl⟩
abbrev main_v25 : Ref sig .tc := ⟨.hbm, 50, rfl⟩
abbrev main_cst_2 : Ref sig .tc := ⟨.hbm, 51, rfl⟩
abbrev main_v26 : Ref sig .tc := ⟨.hbm, 52, rfl⟩
abbrev main_v27 : Ref sig .tc := ⟨.hbm, 53, rfl⟩
abbrev main_c_3 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_cst_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_cst_1 : Ref sig .tc := ⟨.hbm, 65, rfl⟩
abbrev main_call1_v8 : Ref sig .tc := ⟨.hbm, 66, rfl⟩
abbrev main_call1_cst_2 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_cst_3 : Ref sig .tc := ⟨.hbm, 71, rfl⟩
abbrev main_call1_v12 : Ref sig .tc := ⟨.hbm, 72, rfl⟩
abbrev main_call1_cst_4 : Ref sig .tc := ⟨.hbm, 73, rfl⟩
abbrev main_call1_call0_v0 : Ref sig .tc := ⟨.hbm, 74, rfl⟩
abbrev main_call1_call0_v1 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_4 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_call2_cst : Ref sig .tc := ⟨.hbm, 93, rfl⟩
abbrev main_call2_v0 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_call3_cst : Ref sig .tc := ⟨.hbm, 100, rfl⟩
abbrev main_call3_v0 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_c_5 : Ref sig .tc := ⟨.hbm, 107, rfl⟩
abbrev main_v54 : Ref sig .tc := ⟨.hbm, 108, rfl⟩
abbrev main_v55 : Ref sig .tc := ⟨.hbm, 109, rfl⟩
abbrev main_c_6 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_call4_cst : Ref sig .tc := ⟨.hbm, 117, rfl⟩
abbrev main_call4_v0 : Ref sig .tc := ⟨.hbm, 118, rfl⟩
abbrev main_v62 : Ref sig .tc := ⟨.hbm, 119, rfl⟩
abbrev main_cst_7 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_cst_8 : Ref sig .tc := ⟨.hbm, 129, rfl⟩
abbrev main_v71 : Ref sig .tc := ⟨.hbm, 130, rfl⟩
abbrev main_cst_9 : Ref sig .tc := ⟨.hbm, 131, rfl⟩
abbrev main_v72 : Ref sig .tc := ⟨.hbm, 132, rfl⟩
abbrev main_v73 : Ref sig .tc := ⟨.hbm, 133, rfl⟩
abbrev main_c_10 : Ref sig .tc := ⟨.hbm, 134, rfl⟩
abbrev main_call5_cst : Ref sig .tc := ⟨.hbm, 135, rfl⟩
abbrev main_call5_v0 : Ref sig .tc := ⟨.hbm, 136, rfl⟩
abbrev main_call5_v1 : Ref sig .tc := ⟨.hbm, 137, rfl⟩
abbrev main_call5_cst_0 : Ref sig .tc := ⟨.hbm, 138, rfl⟩
abbrev main_call5_v2 : Ref sig .tc := ⟨.hbm, 139, rfl⟩
abbrev main_call5_v3 : Ref sig .tc := ⟨.hbm, 140, rfl⟩
abbrev main_call5_v4 : Ref sig .tc := ⟨.hbm, 141, rfl⟩
abbrev main_call5_v5 : Ref sig .tc := ⟨.hbm, 142, rfl⟩
abbrev main_call5_v6 : Ref sig .tc := ⟨.hbm, 143, rfl⟩
abbrev main_call5_v7 : Ref sig .tc := ⟨.hbm, 144, rfl⟩
abbrev main_call5_cst_1 : Ref sig .tc := ⟨.hbm, 145, rfl⟩
abbrev main_call5_v8 : Ref sig .tc := ⟨.hbm, 146, rfl⟩
abbrev main_call5_cst_2 : Ref sig .tc := ⟨.hbm, 147, rfl⟩
abbrev main_call5_v9 : Ref sig .tc := ⟨.hbm, 148, rfl⟩
abbrev main_call5_v10 : Ref sig .tc := ⟨.hbm, 149, rfl⟩
abbrev main_call5_v11 : Ref sig .tc := ⟨.hbm, 150, rfl⟩
abbrev main_call5_cst_3 : Ref sig .tc := ⟨.hbm, 151, rfl⟩
abbrev main_call5_v12 : Ref sig .tc := ⟨.hbm, 152, rfl⟩
abbrev main_call5_cst_4 : Ref sig .tc := ⟨.hbm, 153, rfl⟩
abbrev main_call5_call0_v0 : Ref sig .tc := ⟨.hbm, 154, rfl⟩
abbrev main_call5_call0_v1 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_cst_11 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_call6_cst : Ref sig .tc := ⟨.hbm, 173, rfl⟩
abbrev main_call6_v0 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  dot_S1600000x64_S64x64_S1600000x64_1_0_0_1_n_n_wf : DotDims.WF S1600000x64 S64x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The program's run with its result named: every weakly fair execution terminates, nothing faults, the argument arrays end
  as launched, and the result array ends holding what the last segment boundary's contents give it.  The run is the launch
  of the program's twelve segments (six stretches of host operations, six kernel regions); only the reading of the final
  state differs from the frame: the result buffer is read as well as the arguments.
-/
import proofs.«157355_j13657996001716_2_alg».proof.Proof.Gen.KernelIdeal.Frame

set_option maxRecDepth 16384

noncomputable section

namespace Cert.KernelIdeal.KValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last boundary's
    contents and the argument arrays end as launched. -/
theorem run_boundary : θ_run defs (onTc (τ := τ) (main (F := F))) ⟨m, fun _ => 0, ρ⟩ (fun r => ∀ c : Dev nD,
      r.2.mem ((c.tc : Thread nD τ).loc main_v59) = W12 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v59 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c)⟩)

end Cert.KernelIdeal.KValue

end
-- ==== Proof.Spec.lean ====
/-
  Two layers of an edge-conditioned graph convolution (GINE) with batch normalisation, as functions on arrays of
  extended reals.  One layer, for node features x [N, 64], edge features ea [E, 64], a gather G of source rows and an
  accumulating scatter Sc onto destination rows (both kept abstract here):

    msg(e, d) = max (G x (e, d) + (Σ_k ea(e, k) · We(k, d) + be(d))) 0
    agg       = Sc msg
    h(n, d)   = Σ_k (x(n, k) + agg(n, k)) · W1(k, d) + b1(d)
    y(n, d)   = normalise h over the N rows, scale by g, shift by bt
    out(n, d) = Σ_k max (y(n, k)) 0 · W2(k, d) + b2(d)

  The normalisation is written twice.  One form takes the column mean μ = (Σ_n h)/N, the variance as the second moment
  minus the squared mean, clamped at zero, and multiplies by the reciprocal square root; the other takes the variance as the
  mean squared deviation and divides by the square root.  For real entries the two agree (Bridge.lean).
-/
import Idealize.ShloMosaic.Lib.ValueIdx
import Idealize.ShloMosaic.PureOps.Ideal

noncomputable section

namespace Cert.Gine

open Idealize.ShloMosaic Idealize.ShloMosaic.ValueIdx

/-- Node arrays [N, 64], edge arrays [E, 64], weight matrices [64, 64], bias vectors [64], bias rows [1, 64], the
    pair of column sums [2, 64]. -/
abbrev SN : Shape := ⟨2, ![100000, 64]⟩
abbrev SE : Shape := ⟨2, ![1600000, 64]⟩
abbrev SW : Shape := ⟨2, ![64, 64]⟩
abbrev SB : Shape := ⟨1, ![64]⟩
abbrev SR : Shape := ⟨2, ![1, 64]⟩
abbrev S2 : Shape := ⟨2, ![2, 64]⟩

/-- The three float words the programs spell: 0, the row count N = 100000, and the variance's ε. -/
abbrev zeroW : EReal := Ideal.ofBits .f32 0x00000000#32
abbrev nW : EReal := Ideal.ofBits .f32 0x47C35000#32
abbrev epsW : EReal := Ideal.ofBits .f32 0x3727C5AC#32

/-- A matrix of entries as a node array, as an edge array; a row [1, 64] as a vector [64]. -/
def arrN (f : Fin 100000 → Fin 64 → EReal) : SN.Idx → EReal := fun j => f (j 0) (j 1)
def arrE (f : Fin 1600000 → Fin 64 → EReal) : SE.Idx → EReal := fun j => f (j 0) (j 1)
def rowVec (r : SR.Idx → EReal) : SB.Idx → EReal := fun i => r (ix2 0 (i 0))

@[simp] theorem arrN_ix2 (f : Fin 100000 → Fin 64 → EReal) (n : Fin 100000) (d : Fin 64) : arrN f (ix2 n d) = f n d := rfl
@[simp] theorem arrE_ix2 (f : Fin 1600000 → Fin 64 → EReal) (e : Fin 1600000) (d : Fin 64) : arrE f (ix2 e d) = f e d := rfl
@[simp] theorem rowVec_ix1 (r : SR.Idx → EReal) (d : Fin 64) : rowVec r (ix1 d) = r (ix2 0 d) := rfl

/-- The message of edge e in channel d: the gathered source row plus the transformed edge feature, clamped at 0. -/
def edgeMsg (xj ea : SE.Idx → EReal) (We : SW.Idx → EReal) (be : SB.Idx → EReal) (e : Fin 1600000) (d : Fin 64) : EReal :=
  max (xj (ix2 e d) + ((∑ k : Fin 64, ea (ix2 e k) * We (ix2 k d)) + be (ix1 d))) zeroW

/-- The first dense layer on a node's own row plus its aggregate. -/
def hOf (x agg : SN.Idx → EReal) (W : SW.Idx → EReal) (b : SB.Idx → EReal) (n : Fin 100000) (d : Fin 64) : EReal :=
  (∑ k : Fin 64, (x (ix2 n k) + agg (ix2 n k)) * W (ix2 k d)) + b (ix1 d)

/-- The column sums of h and of h², stacked as rows 0 and 1 of a [2, 64] array. -/
def statsArr (h : Fin 100000 → Fin 64 → EReal) : S2.Idx → EReal :=
  fun j => if (j 0).val = 0 then ∑ n : Fin 100000, h n (j 1) else ∑ n : Fin 100000, h n (j 1) * h n (j 1)

/-- Given a mean and a variance per channel: centre, scale by the reciprocal square root, affine map, clamp,
    second dense layer. -/
def applyK (h : Fin 100000 → Fin 64 → EReal) (mean var g bt : SB.Idx → EReal) (W2 : SW.Idx → EReal) (b2 : SB.Idx → EReal)
    (n : Fin 100000) (d : Fin 64) : EReal :=
  (∑ k : Fin 64, max (((h n k - mean (ix1 k)) * Ideal.rsqrt (var (ix1 k) + epsW)) * g (ix1 k) + bt (ix1 k)) zeroW * W2 (ix2 k d))
    + b2 (ix1 d)

/-- The same with a division by the square root. -/
def applyR (h : Fin 100000 → Fin 64 → EReal) (mean var g bt : SB.Idx → EReal) (W2 : SW.Idx → EReal) (b2 : SB.Idx → EReal)
    (n : Fin 100000) (d : Fin 64) : EReal :=
  (∑ k : Fin 64, max (Ideal.div (h n k - mean (ix1 k)) (Ideal.sqrt (var (ix1 k) + epsW)) * g (ix1 k) + bt (ix1 k)) zeroW * W2 (ix2 k d))
    + b2 (ix1 d)

/-- Mean and variance from the two column sums: Σh / N, and max (Σh² / N − mean²) 0. -/
def meanK (st : S2.Idx → EReal) : SB.Idx → EReal := fun i => Ideal.div (st (ix2 0 (i 0))) nW
def varK (st : S2.Idx → EReal) : SB.Idx → EReal :=
  fun i => max (Ideal.div (st (ix2 1 (i 0))) nW - meanK st i * meanK st i) zeroW

/-- Mean and variance from h itself: (0 + Σh) / N, and (0 + Σ (h − mean)²) / N. -/
def meanR (h : Fin 100000 → Fin 64 → EReal) : SB.Idx → EReal := fun i => Ideal.div (zeroW + ∑ n : Fin 100000, h n (i 0)) nW
def varR (h : Fin 100000 → Fin 64 → EReal) : SB.Idx → EReal :=
  fun i => Ideal.div (zeroW + ∑ n : Fin 100000, (h n (i 0) - meanR h i) * (h n (i 0) - meanR h i)) nW

end Cert.Gine

end
-- ==== Proof.Net.lean ====
/-
  The two layers composed, in the two spellings of the normalisation (Spec.lean), over an abstract gather `G` of source
  rows and an abstract accumulating scatter `Sc` onto destination rows.  `layerK` normalises through the pair of column
  sums (second moment minus squared mean, clamped; reciprocal square root); `layerR` through the mean squared deviation
  and a division by the square root.  The first layer's output is clamped at 0 before it feeds the second.
-/
import proofs.«157355_j13657996001716_2_alg».proof.Proof.Spec

noncomputable section

namespace Cert.Gine

open Idealize.ShloMosaic Idealize.ShloMosaic.ValueIdx

/-- One layer, normalised through the two column sums. -/
def layerK (G : (SN.Idx → EReal) → (SE.Idx → EReal)) (Sc : (SE.Idx → EReal) → (SN.Idx → EReal))
    (x : SN.Idx → EReal) (ea : SE.Idx → EReal) (We : SW.Idx → EReal) (be : SB.Idx → EReal) (W1 : SW.Idx → EReal)
    (b1 g bt : SB.Idx → EReal) (W2 : SW.Idx → EReal) (b2 : SB.Idx → EReal) : Fin 100000 → Fin 64 → EReal :=
  applyK (hOf x (Sc (arrE (edgeMsg (G x) ea We be))) W1 b1)
    (meanK (statsArr (hOf x (Sc (arrE (edgeMsg (G x) ea We be))) W1 b1)))
    (varK (statsArr (hOf x (Sc (arrE (edgeMsg (G x) ea We be))) W1 b1))) g bt W2 b2

/-- One layer, normalised through the mean squared deviation. -/
def layerR (G : (SN.Idx → EReal) → (SE.Idx → EReal)) (Sc : (SE.Idx → EReal) → (SN.Idx → EReal))
    (x : SN.Idx → EReal) (ea : SE.Idx → EReal) (We : SW.Idx → EReal) (be : SB.Idx → EReal) (W1 : SW.Idx → EReal)
    (b1 g bt : SB.Idx → EReal) (W2 : SW.Idx → EReal) (b2 : SB.Idx → EReal) : Fin 100000 → Fin 64 → EReal :=
  applyR (hOf x (Sc (arrE (edgeMsg (G x) ea We be))) W1 b1)
    (meanR (hOf x (Sc (arrE (edgeMsg (G x) ea We be))) W1 b1))
    (varR (hOf x (Sc (arrE (edgeMsg (G x) ea We be))) W1 b1)) g bt W2 b2

/-- The first layer's output clamped at 0, as a node array. -/
def hidden (L : Fin 100000 → Fin 64 → EReal) : SN.Idx → EReal := arrN (fun n d => max (L n d) zeroW)

/-- Both layers, the first through `layerK`. -/
def netK (G : (SN.Idx → EReal) → (SE.Idx → EReal)) (Sc : (SE.Idx → EReal) → (SN.Idx → EReal))
    (x : SN.Idx → EReal) (ea : SE.Idx → EReal)
    (We0 : SW.Idx → EReal) (be0 : SB.Idx → EReal) (W10 : SW.Idx → EReal) (b10 g0 bt0 : SB.Idx → EReal) (W20 : SW.Idx → EReal) (b20 : SB.Idx → EReal)
    (We1 : SW.Idx → EReal) (be1 : SB.Idx → EReal) (W11 : SW.Idx → EReal) (b11 g1 bt1 : SB.Idx → EReal) (W21 : SW.Idx → EReal) (b21 : SB.Idx → EReal) :
    SN.Idx → EReal :=
  arrN (layerK G Sc (hidden (layerK G Sc x ea We0 be0 W10 b10 g0 bt0 W20 b20)) ea We1 be1 W11 b11 g1 bt1 W21 b21)

/-- Both layers, through `layerR`. -/
def netR (G : (SN.Idx → EReal) → (SE.Idx → EReal)) (Sc : (SE.Idx → EReal) → (SN.Idx → EReal))
    (x : SN.Idx → EReal) (ea : SE.Idx → EReal)
    (We0 : SW.Idx → EReal) (be0 : SB.Idx → EReal) (W10 : SW.Idx → EReal) (b10 g0 bt0 : SB.Idx → EReal) (W20 : SW.Idx → EReal) (b20 : SB.Idx → EReal)
    (We1 : SW.Idx → EReal) (be1 : SB.Idx → EReal) (W11 : SW.Idx → EReal) (b11 g1 bt1 : SB.Idx → EReal) (W21 : SW.Idx → EReal) (b21 : SB.Idx → EReal) :
    SN.Idx → EReal :=
  arrN (layerR G Sc (hidden (layerR G Sc x ea We0 be0 W10 b10 g0 bt0 W20 b20)) ea We1 be1 W11 b11 g1 bt1 W21 b21)

end Cert.Gine

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibRowLayout.lean ====
/-
  A row vector's layout operations read at coordinates. Independent of any program.

  A vector [b] re-laid as the row [1, b] keeps its entries in order, so the row at (0, q) is the vector at q; a row
  [1, b] broadcast down a rows repeats it, so the result at (p, q) is the row at (0, q); and the one entry of a [1, 1]
  array extracted at position (0, 0) is the array at (0, 0).
-/
import Idealize.ShloMosaic.Lib.ValueIdx
import Idealize.ShloMosaic.Lib.Pipeline.Value

noncomputable section

namespace Cert.Lib

open Idealize.ShloMosaic Idealize.ShloMosaic.ValueIdx

/-- A vector [b] shape-cast to the row [1, b], read at (0, q), is the vector at q (any b; with b = 1 this is a [1]
    array re-laid as [1, 1]). -/
theorem vecToRow_apply {α : Type} {b : Nat} (x : (⟨1, ![b]⟩ : Shape).Idx → α)
    (h : (⟨1, ![b]⟩ : Shape).ShapeCasts ⟨2, ![1, b]⟩) (q : Fin b) :
    shapeCast ⟨2, ![1, b]⟩ x h (ix2 0 q) = x (ix1 q) :=
  shapeCast_apply x h (ix2 0 q) (ix1 q) (by
    rw [Shape.rowMajor_val_two, Shape.rowMajor_val_one]; show q.val = 0 * b + q.val; omega)

/-- A row [1, b] broadcast to [a, b], read at (p, q), is the row at (0, q). -/
theorem rowBroadcast_apply {α : Type} {a b : Nat} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun d => by
    match d with
    | ⟨0, _⟩ => show (0 : Nat) = if (1 : Nat) = 1 then 0 else p.val; rw [if_pos rfl]
    | ⟨1, _⟩ => show q.val = if b = 1 then 0 else q.val; have := q.isLt; split <;> omega)

/-- The entry of a [1, 1] array extracted at position (0, 0) is the array at (0, 0). -/
theorem extract_one_one {α : Type} (x : (⟨2, ![1, 1]⟩ : Shape).Idx → α)
    (h : ∀ d, (![0, 0] : Fin 2 → Nat) d < (⟨2, ![1, 1]⟩ : Shape).size d) :
    extractAt ![0, 0] x h = x (ix2 0 0) :=
  congrArg x (funext fun d => Fin.ext (by match d with | ⟨0, _⟩ => rfl | ⟨1, _⟩ => rfl))

end Cert.Lib

end
-- ==== Proof.EdgeRegion0.lean ====
/-
  The first edge region of the idealized kernel program, read as a value: over extended reals its output array holds,
  for every edge e and channel d, the message

    max (x_j(e, d) + (Σ_k ea(e, k) · We(k, d) + be(d))) 0 .

  The region walks 200 grid points; point t loads rows 8000 t … 8000 t + 7999 of the gathered source rows and of the
  edge features, the whole weight matrix and the bias row, and stores the same rows of the output. Over the extended
  reals the narrowing of the matrix product's operands is the identity and the product into a zero accumulator is the
  plain sum over k, so the stored block's entry (p, q) is the message of edge 8000 t + p. Edge e is written by point
  e / 8000, so the 200 blocks cover the array and it ends holding the message everywhere.
-/
import proofs.«157355_j13657996001716_2_alg».proof.Proof.Gen.KernelIdeal.Frame
import proofs.«157355_j13657996001716_2_alg».proof.Proof.Spec
import proofs.«157355_j13657996001716_2_alg».proof.Proof.LibPlainDot
import proofs.«157355_j13657996001716_2_alg».proof.Proof.LibRowLayout
import Idealize.ShloMosaic.Lib.Pipeline.Value
import Idealize.ShloMosaic.Lib.ValueIdx

noncomputable section

namespace Cert.KernelIdeal.KValue

open Cert.KernelIdeal Cert.KernelIdeal.Gen Cert.Gine
open Idealize.ShloMosaic Idealize.ShloMosaic.TcCoe Idealize.ShloMosaic.ValueIdx Idealize.SL.Sem
open Idealize.ShloMosaic.Pipeline (Dat)

theorem hz_e0 : (![0, 0] : Fin 2 → Nat) = fun _ => 0 := funext fun a => by fin_cases a <;> rfl

/-- The edge kernel's stored block at (p, q). -/
theorem edgePay0_apply (ea : Vec Ideal S8000x64 .f32) (We : Vec Ideal S64x64 .f32) (be : Vec Ideal S1x64 .f32)
    (xj : Vec Ideal S8000x64 .f32) (p : Fin 8000) (q : Fin 64) :
    k0_pay1 (F := Ideal) ea We be xj (ix2 p q)
      = max (xj (ix2 p q) + ((∑ k : Fin 64, ea (ix2 p k) * We (ix2 k q)) + be (ix2 0 q))) zeroW := by
  unfold k0_pay1
  rw [maximumf_apply, addf_apply, addf_apply, shapeCast_self, shapeCast_self]
  have hm : matmul dot_S8000x64_S64x64_S8000x64_1_0_0_1_n_n none (truncf FTy.bf16 ea bitsLt_bf16_f32)
      (truncf FTy.bf16 We bitsLt_bf16_f32) (constant (F := Ideal) S8000x64 FTy.f32 0x00000000#32) (ix2 p q)
        = ∑ k : Fin 64, ea (ix2 p k) * We (ix2 k q) :=
    Cert.Lib.matmul_zero_apply dot_S8000x64_S64x64_S8000x64_1_0_0_1_n_n_wf none
      (truncf FTy.bf16 ea bitsLt_bf16_f32) (truncf FTy.bf16 We bitsLt_bf16_f32) p q
  rw [hm, Cert.Lib.rowBroadcast_apply, broadcast_apply]
  rfl

/-- The printed index maps over the 200 grid points: the row windows sit at block t, the weight windows at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- The messages of all edges, from the four arrays the region reads. -/
abbrev msgs0 (c : Dev nD) : SE.Idx → EReal :=
  arrE (edgeMsg (V c main_v20) (V c main_arg2) (V c main_arg3) (rowVec (V c main_v4)))

/-- Row p of block t of the gathered rows is row 8000 t + p of the array. -/
theorem blk0_0_apply (c : Dev nD) (t : Fin cfg0.N) (p : Fin 8000) (k : Fin 64) (e : Fin 1600000)
    (he : e.val = t.val * 8000 + p.val) :
    iblk0 V c 0 t (ix2 p k) = (V c main_v20 : SE.Idx → EReal) (ix2 e k) := by
  obtain ⟨e0, e1, -⟩ := idx_facts0 t
  show V c main_v20 (((cfg0.win 0).blk t).view.emb (ix2 p k)) = V c main_v20 (ix2 e k)
  refine congrArg _ (funext fun a => Fin.ext ?_)
  match a with
  | ⟨0, _⟩ => show win0_0.index t (0 : Fin 2) * 8000 + 1 * p.val = e.val; rw [e0, he]; omega
  | ⟨1, _⟩ => show win0_0.index t (1 : Fin 2) * 64 + 1 * k.val = k.val; rw [e1]; omega

/-- Row p of block t of the edge features is row 8000 t + p of the array. -/
theorem blk0_1_apply (c : Dev nD) (t : Fin cfg0.N) (p : Fin 8000) (k : Fin 64) (e : Fin 1600000)
    (he : e.val = t.val * 8000 + p.val) :
    iblk0 V c 1 t (ix2 p k) = (V c main_arg2 : SE.Idx → EReal) (ix2 e k) := by
  obtain ⟨-, -, e0, e1, -⟩ := idx_facts0 t
  show V c main_arg2 (((cfg0.win 1).blk t).view.emb (ix2 p k)) = V c main_arg2 (ix2 e k)
  refine congrArg _ (funext fun a => Fin.ext ?_)
  match a with
  | ⟨0, _⟩ => show win0_1.index t (0 : Fin 2) * 8000 + 1 * p.val = e.val; rw [e0, he]; omega
  | ⟨1, _⟩ => show win0_1.index t (1 : Fin 2) * 64 + 1 * k.val = k.val; rw [e1]; omega

/-- The weight window's block is the whole matrix at every point. -/
theorem blk0_2_apply (c : Dev nD) (t : Fin cfg0.N) (k d : Fin 64) :
    iblk0 V c 2 t (ix2 k d) = (V c main_arg3 : SW.Idx → EReal) (ix2 k d) := by
  obtain ⟨-, -, -, -, e0, e1, -⟩ := idx_facts0 t
  show V c main_arg3 (((cfg0.win 2).blk t).view.emb (ix2 k d)) = V c main_arg3 (ix2 k d)
  refine congrArg _ (funext fun a => Fin.ext ?_)
  match a with
  | ⟨0, _⟩ => show win0_2.index t (0 : Fin 2) * 64 + 1 * k.val = k.val; rw [e0]; omega
  | ⟨1, _⟩ => show win0_2.index t (1 : Fin 2) * 64 + 1 * d.val = d.val; rw [e1]; omega

/-- The bias window's block is the whole row at every point. -/
theorem blk0_3_apply (c : Dev nD) (t : Fin cfg0.N) (d : Fin 64) :
    iblk0 V c 3 t (ix2 0 d) = (V c main_v4 : SR.Idx → EReal) (ix2 0 d) := by
  obtain ⟨-, -, -, -, -, -, e0, e1, -⟩ := idx_facts0 t
  show V c main_v4 (((cfg0.win 3).blk t).view.emb (ix2 0 d)) = V c main_v4 (ix2 0 d)
  refine congrArg _ (funext fun a => Fin.ext ?_)
  match a with
  | ⟨0, _⟩ => show win0_3.index t (0 : Fin 2) * 1 + 1 * 0 = 0; rw [e0]
  | ⟨1, _⟩ => show win0_3.index t (1 : Fin 2) * 64 + 1 * d.val = d.val; rw [e1]; omega

/-- One grid point: when the four loaded blocks hold row e of the two edge arrays (in their row p), the weight matrix
    and the bias row, the stored block's entry (p, q) is the message of edge e in channel q. -/
theorem edgePoint0 (x0 x1 : Vec Ideal S8000x64 .f32) (x2 : Vec Ideal S64x64 .f32) (x3 : Vec Ideal S1x64 .f32)
    (A0 A1 : SE.Idx → EReal) (A2 : SW.Idx → EReal) (A3 : SR.Idx → EReal) (e : Fin 1600000) (p : Fin 8000) (q : Fin 64)
    (h0 : ∀ k : Fin 64, x0 (ix2 p k) = A0 (ix2 e k)) (h1 : ∀ k : Fin 64, x1 (ix2 p k) = A1 (ix2 e k))
    (h2 : ∀ k d : Fin 64, x2 (ix2 k d) = A2 (ix2 k d)) (h3 : ∀ d : Fin 64, x3 (ix2 0 d) = A3 (ix2 0 d)) :
    k0_pay1 (F := Ideal) x1 x2 x3 x0 (ix2 p q) = edgeMsg A0 A1 A2 (rowVec A3) e q := by
  rw [edgePay0_apply, h0 q, h3 q, Finset.sum_congr rfl fun k _ => by rw [h1 k, h2 k q]]
  rfl

theorem flushed0_eq (c : Dev nD) (t : Fin cfg0.N) :
    (dat0 (F := Ideal) V c).flushed 4 t = ((cfg0.win 4).blk t).view.read (Elt Ideal) (msgs0 V c) := by
  show (cfg0.win 4).cut (grid0.coords t) ((dat0 V c).after 4 t) = _
  rw [after0_4]
  unfold out0_4
  rw [View.canon_unit_zero hz_e0]
  simp only [View.ld_unit_zero (S := S8000x64) hz_e0, View.ld_unit_zero (S := S64x64) hz_e0, View.ld_unit_zero (S := S1x64) hz_e0]
  funext j
  have hN : cfg0.N = 200 := N_0
  have hp : (j 0).val < 8000 := idx2_lt0 (n0 := 8000) (n1 := 64) j
  have he : t.val * 8000 + (j 0).val < 1600000 := by have := t.isLt; omega
  obtain ⟨-, -, -, -, -, -, -, -, e0, e1⟩ := idx_facts0 t
  have h4 : ((cfg0.win 4).blk t).view.emb j = ix2 (n0 := 1600000) (n1 := 64) ⟨t.val * 8000 + (j 0).val, he⟩ (j 1) :=
    funext fun a => Fin.ext (by
      match a with
      | ⟨0, _⟩ => show win0_4.index t (0 : Fin 2) * 8000 + 1 * (j 0).val = t.val * 8000 + (j 0).val; rw [e0]; omega
      | ⟨1, _⟩ => show win0_4.index t (1 : Fin 2) * 64 + 1 * (j 1).val = (j 1).val; rw [e1]; omega)
  refine (congrArg (k0_pay1 (F := Ideal) (iblk0 V c 1 t) (iblk0 V c 2 t) (iblk0 V c 3 t) (iblk0 V c 0 t))
    (eq_ix2 (n0 := 8000) (n1 := 64) j)).trans ?_
  refine (edgePoint0 (iblk0 V c 0 t) (iblk0 V c 1 t) (iblk0 V c 2 t) (iblk0 V c 3 t)
    (V c main_v20) (V c main_arg2) (V c main_arg3) (V c main_v4) ⟨t.val * 8000 + (j 0).val, he⟩ (j 0) (j 1)
    (fun k => blk0_0_apply V c t (j 0) k _ rfl) (fun k => blk0_1_apply V c t (j 0) k _ rfl)
    (fun k d => blk0_2_apply V c t k d) (fun d => blk0_3_apply V c t d)).trans ?_
  exact (congrArg (msgs0 V c) h4).symm

/-- An index of the message array lies in point t's block iff each coordinate is in the block's range on its axis. -/
theorem mem_blk0 (t : Fin cfg0.N) (i : S1600000x64.Idx) :
    i ∈ ((cfg0.win 4).blk t).view.set ↔ ∀ a : Fin 2, win0_4.index t a * S8000x64.size a ≤ (i a).val
      ∧ (i a).val < win0_4.index t a * S8000x64.size a + S8000x64.size a := by
  show i ∈ ((View.whole main_v21).slice (win0_4.rect t)).set ↔ _
  rw [View.set_slice_whole, Rect.mem_set_unit]
  exact Iff.rfl

/-- Edge e is written by grid point e / 8000. -/
theorem cover0 (i : S1600000x64.Idx) :
    ∃ t : Fin cfg0.N, (cfg0.win 4).flush t = true ∧ i ∈ ((cfg0.win 4).blk t).view.set := by
  have hN : cfg0.N = 200 := N_0
  have h0 : (i 0).val < 1600000 := idx2_lt0 (n0 := 1600000) (n1 := 64) i
  have h1 : (i 1).val < 64 := idx2_lt1 (n0 := 1600000) (n1 := 64) i
  have ht : (i 0).val / 8000 < cfg0.N := by rw [hN]; omega
  refine ⟨⟨(i 0).val / 8000, ht⟩, flush0_4 _, ?_⟩
  rw [mem_blk0]
  obtain ⟨-, -, -, -, -, -, -, -, e0, e1⟩ := idx_facts0 ⟨(i 0).val / 8000, ht⟩
  intro a
  match a with
  | ⟨0, _⟩ =>
    show win0_4.index ⟨(i 0).val / 8000, ht⟩ (0 : Fin 2) * 8000 ≤ (i 0).val
      ∧ (i 0).val < win0_4.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win0_4.index ⟨(i 0).val / 8000, ht⟩ (1 : Fin 2) * 64 ≤ (i 1).val
      ∧ (i 1).val < win0_4.index ⟨(i 0).val / 8000, ht⟩ (1 : Fin 2) * 64 + 64
    rw [e1]; omega

/-- REGION 0: the output array ends holding every edge's message. -/
theorem final0 (c : Dev nD) : (dat0 (F := Ideal) V c).arrAt 4 cfg0.N
    = arrE (edgeMsg (V c main_v20) (V c main_arg2) (V c main_arg3) (rowVec (V c main_v4))) :=
  (dat0 (F := Ideal) V c).arrAt_eq_of_cover 4 (msgs0 V c) (fun t _ => flushed0_eq V c t) cover0

end Cert.KernelIdeal.KValue

end
-- ==== Proof.EdgeRegion3.lean ====
/-
  The second edge region of the idealized kernel program, read as a value: over extended reals its output array holds,
  for every edge e and channel d, the message

    max (x_j(e, d) + (Σ_k ea(e, k) · We(k, d) + be(d))) 0

  of the second layer's gathered rows, weight matrix and bias row. The region is the first edge region again on other
  arrays: 200 grid points, point t loading rows 8000 t … 8000 t + 7999 of the gathered rows and of the edge features,
  the whole weight matrix and the bias row, and storing the same rows of the output. Over the extended reals the
  narrowing of the matrix product's operands is the identity and the product into a zero accumulator is the plain sum
  over k, so the stored block's entry (p, q) is the message of edge 8000 t + p; edge e is written by point e / 8000, so
  the blocks cover the array.
-/
import proofs.«157355_j13657996001716_2_alg».proof.Proof.Gen.KernelIdeal.Frame
import proofs.«157355_j13657996001716_2_alg».proof.Proof.Spec
import proofs.«157355_j13657996001716_2_alg».proof.Proof.LibPlainDot
import proofs.«157355_j13657996001716_2_alg».proof.Proof.LibRowLayout
import Idealize.ShloMosaic.Lib.Pipeline.Value
import Idealize.ShloMosaic.Lib.ValueIdx

noncomputable section

namespace Cert.KernelIdeal.KValue

open Cert.KernelIdeal Cert.KernelIdeal.Gen Cert.Gine
open Idealize.ShloMosaic Idealize.ShloMosaic.TcCoe Idealize.ShloMosaic.ValueIdx Idealize.SL.Sem
open Idealize.ShloMosaic.Pipeline (Dat)

theorem hz_e3 : (![0, 0] : Fin 2 → Nat) = fun _ => 0 := funext fun a => by fin_cases a <;> rfl

/-- The edge kernel's stored block at (p, q). -/
theorem edgePay3_apply (ea : Vec Ideal S8000x64 .f32) (We : Vec Ideal S64x64 .f32) (be : Vec Ideal S1x64 .f32)
    (xj : Vec Ideal S8000x64 .f32) (p : Fin 8000) (q : Fin 64) :
    k3_pay1 (F := Ideal) ea We be xj (ix2 p q)
      = max (xj (ix2 p q) + ((∑ k : Fin 64, ea (ix2 p k) * We (ix2 k q)) + be (ix2 0 q))) zeroW := by
  unfold k3_pay1
  rw [maximumf_apply, addf_apply, addf_apply, shapeCast_self, shapeCast_self]
  have hm : matmul dot_S8000x64_S64x64_S8000x64_1_0_0_1_n_n none (truncf FTy.bf16 ea bitsLt_bf16_f32)
      (truncf FTy.bf16 We bitsLt_bf16_f32) (constant (F := Ideal) S8000x64 FTy.f32 0x00000000#32) (ix2 p q)
        = ∑ k : Fin 64, ea (ix2 p k) * We (ix2 k q) :=
    Cert.Lib.matmul_zero_apply dot_S8000x64_S64x64_S8000x64_1_0_0_1_n_n_wf none
      (truncf FTy.bf16 ea bitsLt_bf16_f32) (truncf FTy.bf16 We bitsLt_bf16_f32) p q
  rw [hm, Cert.Lib.rowBroadcast_apply, broadcast_apply]
  rfl

/-- The printed index maps over the 200 grid points: the row windows sit at block t, the weight windows at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

/-- The messages of all edges, from the four arrays the region reads. -/
abbrev msgs3 (c : Dev nD) : SE.Idx → EReal :=
  arrE (edgeMsg (V c main_v43) (V c main_arg2) (V c main_arg11) (rowVec (V c main_v9)))

/-- Row p of block t of the gathered rows is row 8000 t + p of the array. -/
theorem blk3_0_apply (c : Dev nD) (t : Fin cfg3.N) (p : Fin 8000) (k : Fin 64) (e : Fin 1600000)
    (he : e.val = t.val * 8000 + p.val) :
    iblk3 V c 0 t (ix2 p k) = (V c main_v43 : SE.Idx → EReal) (ix2 e k) := by
  obtain ⟨e0, e1, -⟩ := idx_facts3 t
  show V c main_v43 (((cfg3.win 0).blk t).view.emb (ix2 p k)) = V c main_v43 (ix2 e k)
  refine congrArg _ (funext fun a => Fin.ext ?_)
  match a with
  | ⟨0, _⟩ => show win3_0.index t (0 : Fin 2) * 8000 + 1 * p.val = e.val; rw [e0, he]; omega
  | ⟨1, _⟩ => show win3_0.index t (1 : Fin 2) * 64 + 1 * k.val = k.val; rw [e1]; omega

/-- Row p of block t of the edge features is row 8000 t + p of the array. -/
theorem blk3_1_apply (c : Dev nD) (t : Fin cfg3.N) (p : Fin 8000) (k : Fin 64) (e : Fin 1600000)
    (he : e.val = t.val * 8000 + p.val) :
    iblk3 V c 1 t (ix2 p k) = (V c main_arg2 : SE.Idx → EReal) (ix2 e k) := by
  obtain ⟨-, -, e0, e1, -⟩ := idx_facts3 t
  show V c main_arg2 (((cfg3.win 1).blk t).view.emb (ix2 p k)) = V c main_arg2 (ix2 e k)
  refine congrArg _ (funext fun a => Fin.ext ?_)
  match a with
  | ⟨0, _⟩ => show win3_1.index t (0 : Fin 2) * 8000 + 1 * p.val = e.val; rw [e0, he]; omega
  | ⟨1, _⟩ => show win3_1.index t (1 : Fin 2) * 64 + 1 * k.val = k.val; rw [e1]; omega

/-- The weight window's block is the whole matrix at every point. -/
theorem blk3_2_apply (c : Dev nD) (t : Fin cfg3.N) (k d : Fin 64) :
    iblk3 V c 2 t (ix2 k d) = (V c main_arg11 : SW.Idx → EReal) (ix2 k d) := by
  obtain ⟨-, -, -, -, e0, e1, -⟩ := idx_facts3 t
  show V c main_arg11 (((cfg3.win 2).blk t).view.emb (ix2 k d)) = V c main_arg11 (ix2 k d)
  refine congrArg _ (funext fun a => Fin.ext ?_)
  match a with
  | ⟨0, _⟩ => show win3_2.index t (0 : Fin 2) * 64 + 1 * k.val = k.val; rw [e0]; omega
  | ⟨1, _⟩ => show win3_2.index t (1 : Fin 2) * 64 + 1 * d.val = d.val; rw [e1]; omega

/-- The bias window's block is the whole row at every point. -/
theorem blk3_3_apply (c : Dev nD) (t : Fin cfg3.N) (d : Fin 64) :
    iblk3 V c 3 t (ix2 0 d) = (V c main_v9 : SR.Idx → EReal) (ix2 0 d) := by
  obtain ⟨-, -, -, -, -, -, e0, e1, -⟩ := idx_facts3 t
  show V c main_v9 (((cfg3.win 3).blk t).view.emb (ix2 0 d)) = V c main_v9 (ix2 0 d)
  refine congrArg _ (funext fun a => Fin.ext ?_)
  match a with
  | ⟨0, _⟩ => show win3_3.index t (0 : Fin 2) * 1 + 1 * 0 = 0; rw [e0]
  | ⟨1, _⟩ => show win3_3.index t (1 : Fin 2) * 64 + 1 * d.val = d.val; rw [e1]; omega

/-- One grid point: when the four loaded blocks hold row e of the two edge arrays (in their row p), the weight matrix
    and the bias row, the stored block's entry (p, q) is the message of edge e in channel q. -/
theorem edgePoint3 (x0 x1 : Vec Ideal S8000x64 .f32) (x2 : Vec Ideal S64x64 .f32) (x3 : Vec Ideal S1x64 .f32)
    (A0 A1 : SE.Idx → EReal) (A2 : SW.Idx → EReal) (A3 : SR.Idx → EReal) (e : Fin 1600000) (p : Fin 8000) (q : Fin 64)
    (h0 : ∀ k : Fin 64, x0 (ix2 p k) = A0 (ix2 e k)) (h1 : ∀ k : Fin 64, x1 (ix2 p k) = A1 (ix2 e k))
    (h2 : ∀ k d : Fin 64, x2 (ix2 k d) = A2 (ix2 k d)) (h3 : ∀ d : Fin 64, x3 (ix2 0 d) = A3 (ix2 0 d)) :
    k3_pay1 (F := Ideal) x1 x2 x3 x0 (ix2 p q) = edgeMsg A0 A1 A2 (rowVec A3) e q := by
  rw [edgePay3_apply, h0 q, h3 q, Finset.sum_congr rfl fun k _ => by rw [h1 k, h2 k q]]
  rfl

theorem flushed3_eq (c : Dev nD) (t : Fin cfg3.N) :
    (dat3 (F := Ideal) V c).flushed 4 t = ((cfg3.win 4).blk t).view.read (Elt Ideal) (msgs3 V c) := by
  show (cfg3.win 4).cut (grid3.coords t) ((dat3 V c).after 4 t) = _
  rw [after3_4]
  unfold out3_4
  rw [View.canon_unit_zero hz_e3]
  simp only [View.ld_unit_zero (S := S8000x64) hz_e3, View.ld_unit_zero (S := S64x64) hz_e3, View.ld_unit_zero (S := S1x64) hz_e3]
  funext j
  have hN : cfg3.N = 200 := N_3
  have hp : (j 0).val < 8000 := idx2_lt0 (n0 := 8000) (n1 := 64) j
  have he : t.val * 8000 + (j 0).val < 1600000 := by have := t.isLt; omega
  obtain ⟨-, -, -, -, -, -, -, -, e0, e1⟩ := idx_facts3 t
  have h4 : ((cfg3.win 4).blk t).view.emb j = ix2 (n0 := 1600000) (n1 := 64) ⟨t.val * 8000 + (j 0).val, he⟩ (j 1) :=
    funext fun a => Fin.ext (by
      match a with
      | ⟨0, _⟩ => show win3_4.index t (0 : Fin 2) * 8000 + 1 * (j 0).val = t.val * 8000 + (j 0).val; rw [e0]; omega
      | ⟨1, _⟩ => show win3_4.index t (1 : Fin 2) * 64 + 1 * (j 1).val = (j 1).val; rw [e1]; omega)
  refine (congrArg (k3_pay1 (F := Ideal) (iblk3 V c 1 t) (iblk3 V c 2 t) (iblk3 V c 3 t) (iblk3 V c 0 t))
    (eq_ix2 (n0 := 8000) (n1 := 64) j)).trans ?_
  refine (edgePoint3 (iblk3 V c 0 t) (iblk3 V c 1 t) (iblk3 V c 2 t) (iblk3 V c 3 t)
    (V c main_v43) (V c main_arg2) (V c main_arg11) (V c main_v9) ⟨t.val * 8000 + (j 0).val, he⟩ (j 0) (j 1)
    (fun k => blk3_0_apply V c t (j 0) k _ rfl) (fun k => blk3_1_apply V c t (j 0) k _ rfl)
    (fun k d => blk3_2_apply V c t k d) (fun d => blk3_3_apply V c t d)).trans ?_
  exact (congrArg (msgs3 V c) h4).symm

/-- An index of the message array lies in point t's block iff each coordinate is in the block's range on its axis. -/
theorem mem_blk3 (t : Fin cfg3.N) (i : S1600000x64.Idx) :
    i ∈ ((cfg3.win 4).blk t).view.set ↔ ∀ a : Fin 2, win3_4.index t a * S8000x64.size a ≤ (i a).val
      ∧ (i a).val < win3_4.index t a * S8000x64.size a + S8000x64.size a := by
  show i ∈ ((View.whole main_v44).slice (win3_4.rect t)).set ↔ _
  rw [View.set_slice_whole, Rect.mem_set_unit]
  exact Iff.rfl

/-- Edge e is written by grid point e / 8000. -/
theorem cover3 (i : S1600000x64.Idx) :
    ∃ t : Fin cfg3.N, (cfg3.win 4).flush t = true ∧ i ∈ ((cfg3.win 4).blk t).view.set := by
  have hN : cfg3.N = 200 := N_3
  have h0 : (i 0).val < 1600000 := idx2_lt0 (n0 := 1600000) (n1 := 64) i
  have h1 : (i 1).val < 64 := idx2_lt1 (n0 := 1600000) (n1 := 64) i
  have ht : (i 0).val / 8000 < cfg3.N := by rw [hN]; omega
  refine ⟨⟨(i 0).val / 8000, ht⟩, flush3_4 _, ?_⟩
  rw [mem_blk3]
  obtain ⟨-, -, -, -, -, -, -, -, e0, e1⟩ := idx_facts3 ⟨(i 0).val / 8000, ht⟩
  intro a
  match a with
  | ⟨0, _⟩ =>
    show win3_4.index ⟨(i 0).val / 8000, ht⟩ (0 : Fin 2) * 8000 ≤ (i 0).val
      ∧ (i 0).val < win3_4.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win3_4.index ⟨(i 0).val / 8000, ht⟩ (1 : Fin 2) * 64 ≤ (i 1).val
      ∧ (i 1).val < win3_4.index ⟨(i 0).val / 8000, ht⟩ (1 : Fin 2) * 64 + 64
    rw [e1]; omega

/-- REGION 3: the output array ends holding every edge's message. -/
theorem final3 (c : Dev nD) : (dat3 (F := Ideal) V c).arrAt 4 cfg3.N
    = arrE (edgeMsg (V c main_v43) (V c main_arg2) (V c main_arg11) (rowVec (V c main_v9))) :=
  (dat3 (F := Ideal) V c).arrAt_eq_of_cover 4 (msgs3 V c) (fun t _ => flushed3_eq V c t) cover3

end Cert.KernelIdeal.KValue

end
-- ==== Proof.ApplyRegion2.lean ====
/-
  The first apply region of the idealized kernel program, read as a value: over extended reals its output array holds,
  for every node n and channel d, the first layer's output clamped at 0,

    max ((Σ_k max (((h(n, k) − mean(k)) · rsqrt (var(k) + ε)) · g(k) + bt(k)) 0 · W2(k, d)) + b2(d)) 0 ,
    h(n, k) = (Σ_j (x(n, j) + agg(n, j)) · W1(j, k)) + b1(k) ,

  of the ten arrays it reads (the node rows, the aggregated messages, two weight matrices, and the rows b1, mean, var,
  g, bt, b2).

  The region walks 10 grid points; point t loads rows 10000 t … 10000 t + 9999 of the two node arrays and all of the
  other eight, and stores the same rows of the output. Over the extended reals the narrowing of a matrix product's
  operands is the identity and a product into a zero accumulator is the plain sum over the 64 shared positions, so the
  stored block's entry (p, q) is the formula above for node 10000 t + p. Node n is written by point n / 10000, so the
  10 blocks cover the array and it ends holding the formula everywhere.
-/
import proofs.«157355_j13657996001716_2_alg».proof.Proof.Gen.KernelIdeal.Frame
import proofs.«157355_j13657996001716_2_alg».proof.Proof.Spec
import proofs.«157355_j13657996001716_2_alg».proof.Proof.Net
import proofs.«157355_j13657996001716_2_alg».proof.Proof.LibPlainDot
import proofs.«157355_j13657996001716_2_alg».proof.Proof.LibRowLayout
import Idealize.ShloMosaic.Lib.Pipeline.Value
import Idealize.ShloMosaic.Lib.ValueIdx

noncomputable section

namespace Cert.KernelIdeal.KValue

open Cert.KernelIdeal Cert.KernelIdeal.Gen Cert.Gine
open Idealize.ShloMosaic Idealize.ShloMosaic.TcCoe Idealize.ShloMosaic.ValueIdx Idealize.SL.Sem
open Idealize.ShloMosaic.Pipeline (Dat)

theorem hz_a2 : (![0, 0] : Fin 2 → Nat) = fun _ => 0 := funext fun a => by fin_cases a <;> rfl

/-- A block's matrix product with a weight matrix into a zero accumulator, at (p, q): the sum over the 64 shared
    positions (the narrowing of both operands is the identity over the extended reals). -/
theorem dense2_apply (l : FVec Ideal S10000x64 .f32) (r : FVec Ideal S64x64 .f32) (p : Fin 10000) (q : Fin 64) :
    matmul dot_S10000x64_S64x64_S10000x64_1_0_0_1_n_n none (truncf FTy.bf16 l bitsLt_bf16_f32)
      (truncf FTy.bf16 r bitsLt_bf16_f32) (constant (F := Ideal) S10000x64 FTy.f32 0x00000000#32) (ix2 p q)
      = ∑ k : Fin 64, l (ix2 p k) * r (ix2 k q) :=
  Cert.Lib.matmul_zero_apply dot_S10000x64_S64x64_S10000x64_1_0_0_1_n_n_wf none
    (truncf FTy.bf16 l bitsLt_bf16_f32) (truncf FTy.bf16 r bitsLt_bf16_f32) p q

/-- The last step of the stored block at (p, q): add the bias row and clamp at 0. -/
theorem applyPay2_1_apply (y : FVec Ideal S10000x64 .f32) (b2 : Vec Ideal S1x64 .f32) (p : Fin 10000) (q : Fin 64) :
    k2_pay1 (F := Ideal) y b2 (ix2 p q) = max (y (ix2 p q) + b2 (ix2 0 q)) zeroW := by
  unfold k2_pay1
  rw [maximumf_apply, addf_apply, shapeCast_self, Cert.Lib.rowBroadcast_apply, broadcast_apply]
  rfl

/-- The block before that step, at (p, q): the second matrix product of the clamped normalised first layer. -/
theorem applyPay2_2_apply (x agg : Vec Ideal S10000x64 .f32) (W1 : Vec Ideal S64x64 .f32)
    (b1 var mean g bt : Vec Ideal S1x64 .f32) (W2 : Vec Ideal S64x64 .f32) (p : Fin 10000) (q : Fin 64) :
    k2_pay2 (F := Ideal) x agg W1 b1 var mean g bt W2 (ix2 p q)
      = ∑ k : Fin 64, max ((((∑ k' : Fin 64, (x (ix2 p k') + agg (ix2 p k')) * W1 (ix2 k' k)) + b1 (ix2 0 k))
            - mean (ix2 0 k)) * Ideal.rsqrt (var (ix2 0 k) + epsW) * g (ix2 0 k) + bt (ix2 0 k)) zeroW * W2 (ix2 k q) := by
  unfold k2_pay2
  refine (dense2_apply _ _ p q).trans ?_
  refine Finset.sum_congr rfl fun k _ => ?_
  simp only [maximumf_apply, addf_apply, mulf_apply, subf_apply, shapeCast_self, Cert.Lib.rowBroadcast_apply,
    broadcast_apply, dense2_apply]
  rfl

/-- One grid point: when the ten loaded blocks hold row n of the two node arrays (in their row p), the two weight
    matrices and the six rows, the stored block's entry (p, q) is the layer's output for node n in channel q, clamped
    at 0. -/
theorem applyPoint2 (x0 x1 : Vec Ideal S10000x64 .f32) (x2 : Vec Ideal S64x64 .f32) (x3 x4 x5 x6 x7 : Vec Ideal S1x64 .f32)
    (x8 : Vec Ideal S64x64 .f32) (x9 : Vec Ideal S1x64 .f32)
    (A0 A1 : SN.Idx → EReal) (A2 : SW.Idx → EReal) (A3 A4 A5 A6 A7 : SR.Idx → EReal) (A8 : SW.Idx → EReal)
    (A9 : SR.Idx → EReal) (n : Fin 100000) (p : Fin 10000) (q : Fin 64)
    (h0 : ∀ k : Fin 64, x0 (ix2 p k) = A0 (ix2 n k)) (h1 : ∀ k : Fin 64, x1 (ix2 p k) = A1 (ix2 n k))
    (h2 : ∀ k d : Fin 64, x2 (ix2 k d) = A2 (ix2 k d)) (h3 : ∀ d : Fin 64, x3 (ix2 0 d) = A3 (ix2 0 d))
    (h4 : ∀ d : Fin 64, x4 (ix2 0 d) = A4 (ix2 0 d)) (h5 : ∀ d : Fin 64, x5 (ix2 0 d) = A5 (ix2 0 d))
    (h6 : ∀ d : Fin 64, x6 (ix2 0 d) = A6 (ix2 0 d)) (h7 : ∀ d : Fin 64, x7 (ix2 0 d) = A7 (ix2 0 d))
    (h8 : ∀ k d : Fin 64, x8 (ix2 k d) = A8 (ix2 k d)) (h9 : ∀ d : Fin 64, x9 (ix2 0 d) = A9 (ix2 0 d)) :
    k2_pay1 (F := Ideal) (k2_pay2 x0 x1 x2 x3 x5 x4 x6 x7 x8) x9 (ix2 p q)
      = max (applyK (hOf A0 A1 A2 (rowVec A3)) (rowVec A4) (rowVec A5) (rowVec A6) (rowVec A7) A8 (rowVec A9) n q) zeroW := by
  rw [applyPay2_1_apply, applyPay2_2_apply]
  simp only [h0, h1, h2, h3, h4, h5, h6, h7, h8, h9]
  rfl

variable (V : (c : Dev nD) → (b : Ref sig .tc) → Buf (Elt Ideal) ((c : Thread nD τ).loc b))

/-- The first layer's output clamped at 0, from the ten arrays the region reads. -/
abbrev outs2 (c : Dev nD) : SN.Idx → EReal :=
  hidden (applyK (hOf (V c main_arg0) (V c main_v24) (V c main_arg5) (rowVec (V c main_v5))) (rowVec (V c main_v29))
    (rowVec (V c main_v35)) (rowVec (V c main_v6)) (rowVec (V c main_v7)) (V c main_arg9) (rowVec (V c main_v8)))

/-- Window 0's printed index map over the 10 grid points. -/
theorem idx2_0 : ∀ t : Fin cfg2.N, win2_0.index t (0 : Fin 2) = t.val ∧ win2_0.index t (1 : Fin 2) = 0 :=
  (by decide +kernel : ∀ t : Fin grid2.N, _)

/-- Row p of block t of the node rows is row 10000 t + p of the array. -/
theorem blk2_0_apply (c : Dev nD) (t : Fin cfg2.N) (p : Fin 10000) (k : Fin 64) (n : Fin 100000)
    (hn : n.val = t.val * 10000 + p.val) :
    iblk2 V c 0 t (ix2 p k) = (V c main_arg0 : SN.Idx → EReal) (ix2 n k) := by
  obtain ⟨e0, e1⟩ := idx2_0 t
  show V c main_arg0 (((cfg2.win 0).blk t).view.emb (ix2 p k)) = V c main_arg0 (ix2 n k)
  refine congrArg _ (funext fun a => Fin.ext ?_)
  match a with
  | ⟨0, _⟩ => show win2_0.index t (0 : Fin 2) * 10000 + 1 * p.val = n.val; rw [e0, hn]; omega
  | ⟨1, _⟩ => show win2_0.index t (1 : Fin 2) * 64 + 1 * k.val = k.val; rw [e1]; omega

/-- Window 1's printed index map over the 10 grid points. -/
theorem idx2_1 : ∀ t : Fin cfg2.N, win2_1.index t (0 : Fin 2) = t.val ∧ win2_1.index t (1 : Fin 2) = 0 :=
  (by decide +kernel : ∀ t : Fin grid2.N, _)

/-- Row p of block t of the aggregated messages is row 10000 t + p of the array. -/
theorem blk2_1_apply (c : Dev nD) (t : Fin cfg2.N) (p : Fin 10000) (k : Fin 64) (n : Fin 100000)
    (hn : n.val = t.val * 10000 + p.val) :
    iblk2 V c 1 t (ix2 p k) = (V c main_v24 : SN.Idx → EReal) (ix2 n k) := by
  obtain ⟨e0, e1⟩ := idx2_1 t
  show V c main_v24 (((cfg2.win 1).blk t).view.emb (ix2 p k)) = V c main_v24 (ix2 n k)
  refine congrArg _ (funext fun a => Fin.ext ?_)
  match a with
  | ⟨0, _⟩ => show win2_1.index t (0 : Fin 2) * 10000 + 1 * p.val = n.val; rw [e0, hn]; omega
  | ⟨1, _⟩ => show win2_1.index t (1 : Fin 2) * 64 + 1 * k.val = k.val; rw [e1]; omega

/-- Window 2's printed index map over the 10 grid points. -/
theorem idx2_2 : ∀ t : Fin cfg2.N, win2_2.index t (0 : Fin 2) = 0 ∧ win2_2.index t (1 : Fin 2) = 0 :=
  (by decide +kernel : ∀ t : Fin grid2.N, _)

/-- The block of the first weight matrix is the whole matrix at every point. -/
theorem blk2_2_apply (c : Dev nD) (t : Fin cfg2.N) (k d : Fin 64) :
    iblk2 V c 2 t (ix2 k d) = (V c main_arg5 : SW.Idx → EReal) (ix2 k d) := by
  obtain ⟨e0, e1⟩ := idx2_2 t
  show V c main_arg5 (((cfg2.win 2).blk t).view.emb (ix2 k d)) = V c main_arg5 (ix2 k d)
  refine congrArg _ (funext fun a => Fin.ext ?_)
  match a with
  | ⟨0, _⟩ => show win2_2.index t (0 : Fin 2) * 64 + 1 * k.val = k.val; rw [e0]; omega
  | ⟨1, _⟩ => show win2_2.index t (1 : Fin 2) * 64 + 1 * d.val = d.val; rw [e1]; omega

/-- Window 3's printed index map over the 10 grid points. -/
theorem idx2_3 : ∀ t : Fin cfg2.N, win2_3.index t (0 : Fin 2) = 0 ∧ win2_3.index t (1 : Fin 2) = 0 :=
  (by decide +kernel : ∀ t : Fin grid2.N, _)

/-- The block of the first bias row is the whole row at every point. -/
theorem blk2_3_apply (c : Dev nD) (t : Fin cfg2.N) (d : Fin 64) :
    iblk2 V c 3 t (ix2 0 d) = (V c main_v5 : SR.Idx → EReal) (ix2 0 d) := by
  obtain ⟨e0, e1⟩ := idx2_3 t
  show V c main_v5 (((cfg2.win 3).blk t).view.emb (ix2 0 d)) = V c main_v5 (ix2 0 d)
  refine congrArg _ (funext fun a => Fin.ext ?_)
  match a with
  | ⟨0, _⟩ => show win2_3.index t (0 : Fin 2) * 1 + 1 * 0 = 0; rw [e0]
  | ⟨1, _⟩ => show win2_3.index t (1 : Fin 2) * 64 + 1 * d.val = d.val; rw [e1]; omega

/-- Window 4's printed index map over the 10 grid points. -/
theorem idx2_4 : ∀ t : Fin cfg2.N, win2_4.index t (0 : Fin 2) = 0 ∧ win2_4.index t (1 : Fin 2) = 0 :=
  (by decide +kernel : ∀ t : Fin grid2.N, _)

/-- The block of the mean row is the whole row at every point. -/
theorem blk2_4_apply (c : Dev nD) (t : Fin cfg2.N) (d : Fin 64) :
    iblk2 V c 4 t (ix2 0 d) = (V c main_v29 : SR.Idx → EReal) (ix2 0 d) := by
  obtain ⟨e0, e1⟩ := idx2_4 t
  show V c main_v29 (((cfg2.win 4).blk t).view.emb (ix2 0 d)) = V c main_v29 (ix2 0 d)
  refine congrArg _ (funext fun a => Fin.ext ?_)
  match a with
  | ⟨0, _⟩ => show win2_4.index t (0 : Fin 2) * 1 + 1 * 0 = 0; rw [e0]
  | ⟨1, _⟩ => show win2_4.index t (1 : Fin 2) * 64 + 1 * d.val = d.val; rw [e1]; omega

/-- Window 5's printed index map over the 10 grid points. -/
theorem idx2_5 : ∀ t : Fin cfg2.N, win2_5.index t (0 : Fin 2) = 0 ∧ win2_5.index t (1 : Fin 2) = 0 :=
  (by decide +kernel : ∀ t : Fin grid2.N, _)

/-- The block of the variance row is the whole row at every point. -/
theorem blk2_5_apply (c : Dev nD) (t : Fin cfg2.N) (d : Fin 64) :
    iblk2 V c 5 t (ix2 0 d) = (V c main_v35 : SR.Idx → EReal) (ix2 0 d) := by
  obtain ⟨e0, e1⟩ := idx2_5 t
  show V c main_v35 (((cfg2.win 5).blk t).view.emb (ix2 0 d)) = V c main_v35 (ix2 0 d)
  refine congrArg _ (funext fun a => Fin.ext ?_)
  match a with
  | ⟨0, _⟩ => show win2_5.index t (0 : Fin 2) * 1 + 1 * 0 = 0; rw [e0]
  | ⟨1, _⟩ => show win2_5.index t (1 : Fin 2) * 64 + 1 * d.val = d.val; rw [e1]; omega

/-- Window 6's printed index map over the 10 grid points. -/
theorem idx2_6 : ∀ t : Fin cfg2.N, win2_6.index t (0 : Fin 2) = 0 ∧ win2_6.index t (1 : Fin 2) = 0 :=
  (by decide +kernel : ∀ t : Fin grid2.N, _)

/-- The block of the scale row is the whole row at every point. -/
theorem blk2_6_apply (c : Dev nD) (t : Fin cfg2.N) (d : Fin 64) :
    iblk2 V c 6 t (ix2 0 d) = (V c main_v6 : SR.Idx → EReal) (ix2 0 d) := by
  obtain ⟨e0, e1⟩ := idx2_6 t
  show V c main_v6 (((cfg2.win 6).blk t).view.emb (ix2 0 d)) = V c main_v6 (ix2 0 d)
  refine congrArg _ (funext fun a => Fin.ext ?_)
  match a with
  | ⟨0, _⟩ => show win2_6.index t (0 : Fin 2) * 1 + 1 * 0 = 0; rw [e0]
  | ⟨1, _⟩ => show win2_6.index t (1 : Fin 2) * 64 + 1 * d.val = d.val; rw [e1]; omega

/-- Window 7's printed index map over the 10 grid points. -/
theorem idx2_7 : ∀ t : Fin cfg2.N, win2_7.index t (0 : Fin 2) = 0 ∧ win2_7.index t (1 : Fin 2) = 0 :=
  (by decide +kernel : ∀ t : Fin grid2.N, _)

/-- The block of the shift row is the whole row at every point. -/
theorem blk2_7_apply (c : Dev nD) (t : Fin cfg2.N) (d : Fin 64) :
    iblk2 V c 7 t (ix2 0 d) = (V c main_v7 : SR.Idx → EReal) (ix2 0 d) := by
  obtain ⟨e0, e1⟩ := idx2_7 t
  show V c main_v7 (((cfg2.win 7).blk t).view.emb (ix2 0 d)) = V c main_v7 (ix2 0 d)
  refine congrArg _ (funext fun a => Fin.ext ?_)
  match a with
  | ⟨0, _⟩ => show win2_7.index t (0 : Fin 2) * 1 + 1 * 0 = 0; rw [e0]
  | ⟨1, _⟩ => show win2_7.index t (1 : Fin 2) * 64 + 1 * d.val = d.val; rw [e1]; omega

/-- Window 8's printed index map over the 10 grid points. -/
theorem idx2_8 : ∀ t : Fin cfg2.N, win2_8.index t (0 : Fin 2) = 0 ∧ win2_8.index t (1 : Fin 2) = 0 :=
  (by decide +kernel : ∀ t : Fin grid2.N, _)

/-- The block of the second weight matrix is the whole matrix at every point. -/
theorem blk2_8_apply (c : Dev nD) (t : Fin cfg2.N) (k d : Fin 64) :
    iblk2 V c 8 t (ix2 k d) = (V c main_arg9 : SW.Idx → EReal) (ix2 k d) := by
  obtain ⟨e0, e1⟩ := idx2_8 t
  show V c main_arg9 (((cfg2.win 8).blk t).view.emb (ix2 k d)) = V c main_arg9 (ix2 k d)
  refine congrArg _ (funext fun a => Fin.ext ?_)
  match a with
  | ⟨0, _⟩ => show win2_8.index t (0 : Fin 2) * 64 + 1 * k.val = k.val; rw [e0]; omega
  | ⟨1, _⟩ => show win2_8.index t (1 : Fin 2) * 64 + 1 * d.val = d.val; rw [e1]; omega

/-- Window 9's printed index map over the 10 grid points. -/
theorem idx2_9 : ∀ t : Fin cfg2.N, win2_9.index t (0 : Fin 2) = 0 ∧ win2_9.index t (1 : Fin 2) = 0 :=
  (by decide +kernel : ∀ t : Fin grid2.N, _)

/-- The block of the second bias row is the whole row at every point. -/
theorem blk2_9_apply (c : Dev nD) (t : Fin cfg2.N) (d : Fin 64) :
    iblk2 V c 9 t (ix2 0 d) = (V c main_v8 : SR.Idx → EReal) (ix2 0 d) := by
  obtain ⟨e0, e1⟩ := idx2_9 t
  show V c main_v8 (((cfg2.win 9).blk t).view.emb (ix2 0 d)) = V c main_v8 (ix2 0 d)
  refine congrArg _ (funext fun a => Fin.ext ?_)
  match a with
  | ⟨0, _⟩ => show win2_9.index t (0 : Fin 2) * 1 + 1 * 0 = 0; rw [e0]
  | ⟨1, _⟩ => show win2_9.index t (1 : Fin 2) * 64 + 1 * d.val = d.val; rw [e1]; omega

/-- The output window's printed index map over the 10 grid points. -/
theorem idx2_10 : ∀ t : Fin cfg2.N, win2_10.index t (0 : Fin 2) = t.val ∧ win2_10.index t (1 : Fin 2) = 0 :=
  (by decide +kernel : ∀ t : Fin grid2.N, _)

theorem flushed2_eq (c : Dev nD) (t : Fin cfg2.N) :
    (dat2 (F := Ideal) V c).flushed 10 t = ((cfg2.win 10).blk t).view.read (Elt Ideal) (outs2 V c) := by
  show (cfg2.win 10).cut (grid2.coords t) ((dat2 V c).after 10 t) = _
  rw [after2_10]
  unfold out2_10
  rw [View.canon_unit_zero hz_a2]
  simp only [View.ld_unit_zero (S := S10000x64) hz_a2, View.ld_unit_zero (S := S64x64) hz_a2,
    View.ld_unit_zero (S := S1x64) hz_a2]
  funext j
  have hN : cfg2.N = 10 := N_2
  have hp : (j 0).val < 10000 := idx2_lt0 (n0 := 10000) (n1 := 64) j
  have hn : t.val * 10000 + (j 0).val < 100000 := by have := t.isLt; omega
  obtain ⟨e0, e1⟩ := idx2_10 t
  have h10 : ((cfg2.win 10).blk t).view.emb j
      = ix2 (n0 := 100000) (n1 := 64) ⟨t.val * 10000 + (j 0).val, hn⟩ (j 1) :=
    funext fun a => Fin.ext (by
      match a with
      | ⟨0, _⟩ => show win2_10.index t (0 : Fin 2) * 10000 + 1 * (j 0).val = t.val * 10000 + (j 0).val; rw [e0]; omega
      | ⟨1, _⟩ => show win2_10.index t (1 : Fin 2) * 64 + 1 * (j 1).val = (j 1).val; rw [e1]; omega)
  refine (congrArg (k2_pay1 (F := Ideal) (k2_pay2 (iblk2 V c 0 t) (iblk2 V c 1 t) (iblk2 V c 2 t) (iblk2 V c 3 t)
    (iblk2 V c 5 t) (iblk2 V c 4 t) (iblk2 V c 6 t) (iblk2 V c 7 t) (iblk2 V c 8 t)) (iblk2 V c 9 t))
    (eq_ix2 (n0 := 10000) (n1 := 64) j)).trans ?_
  refine (applyPoint2 (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t)
    (V c main_arg0) (V c main_v24) (V c main_arg5) (V c main_v5) (V c main_v29) (V c main_v35) (V c main_v6) (V c main_v7)
    (V c main_arg9) (V c main_v8) ⟨t.val * 10000 + (j 0).val, hn⟩ (j 0) (j 1)
    (fun k => blk2_0_apply V c t (j 0) k _ rfl) (fun k => blk2_1_apply V c t (j 0) k _ rfl)
    (fun k d => blk2_2_apply V c t k d) (fun d => blk2_3_apply V c t d) (fun d => blk2_4_apply V c t d)
    (fun d => blk2_5_apply V c t d) (fun d => blk2_6_apply V c t d) (fun d => blk2_7_apply V c t d)
    (fun k d => blk2_8_apply V c t k d) (fun d => blk2_9_apply V c t d)).trans ?_
  exact (congrArg (outs2 V c) h10).symm

/-- An index of the output array lies in point t's block iff each coordinate is in the block's range on its axis. -/
theorem mem_blk2 (t : Fin cfg2.N) (i : S100000x64.Idx) :
    i ∈ ((cfg2.win 10).blk t).view.set ↔ ∀ a : Fin 2, win2_10.index t a * S10000x64.size a ≤ (i a).val
      ∧ (i a).val < win2_10.index t a * S10000x64.size a + S10000x64.size a := by
  show i ∈ ((View.whole main_v36).slice (win2_10.rect t)).set ↔ _
  rw [View.set_slice_whole, Rect.mem_set_unit]
  exact Iff.rfl

/-- Node n is written by grid point n / 10000. -/
theorem cover2 (i : S100000x64.Idx) :
    ∃ t : Fin cfg2.N, (cfg2.win 10).flush t = true ∧ i ∈ ((cfg2.win 10).blk t).view.set := by
  have hN : cfg2.N = 10 := N_2
  have h0 : (i 0).val < 100000 := idx2_lt0 (n0 := 100000) (n1 := 64) i
  have h1 : (i 1).val < 64 := idx2_lt1 (n0 := 100000) (n1 := 64) i
  have ht : (i 0).val / 10000 < cfg2.N := by rw [hN]; omega
  refine ⟨⟨(i 0).val / 10000, ht⟩, flush2_10 _, ?_⟩
  rw [mem_blk2]
  obtain ⟨e0, e1⟩ := idx2_10 ⟨(i 0).val / 10000, ht⟩
  intro a
  match a with
  | ⟨0, _⟩ =>
    show win2_10.index ⟨(i 0).val / 10000, ht⟩ (0 : Fin 2) * 10000 ≤ (i 0).val
      ∧ (i 0).val < win2_10.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win2_10.index ⟨(i 0).val / 10000, ht⟩ (1 : Fin 2) * 64 ≤ (i 1).val
      ∧ (i 1).val < win2_10.index ⟨(i 0).val / 10000, ht⟩ (1 : Fin 2) * 64 + 64
    rw [e1]; omega

/-- REGION 2: the output array ends holding the first layer's output clamped at 0. -/
theorem final2 (c : Dev nD) : (dat2 (F := Ideal) V c).arrAt 10 cfg2.N
    = hidden (applyK (hOf (V c main_arg0) (V c main_v24) (V c main_arg5) (rowVec (V c main_v5))) (rowVec (V c main_v29))
    (rowVec (V c main_v35)) (rowVec (V c main_v6)) (rowVec (V c main_v7)) (V c main_arg9) (rowVec (V c main_v8))) :=
  (dat2 (F := Ideal) V c).arrAt_eq_of_cover 10 (outs2 V c) (fun t _ => flushed2_eq V c t) cover2

end Cert.KernelIdeal.KValue

end
-- ==== Proof.ApplyRegion5.lean ====
/-
  The second apply region of the idealized kernel program, read as a value: over extended reals its output array holds,
  for every node n and channel d, the second layer's output,

    (Σ_k max (((h(n, k) − mean(k)) · rsqrt (var(k) + ε)) · g(k) + bt(k)) 0 · W2(k, d)) + b2(d) ,
    h(n, k) = (Σ_j (x(n, j) + agg(n, j)) · W1(j, k)) + b1(k) ,

  of the ten arrays it reads (the node rows, the aggregated messages, two weight matrices, and the rows b1, mean, var,
  g, bt, b2). It is the first apply region on other arrays, without the final clamp.

  The region walks 10 grid points; point t loads rows 10000 t … 10000 t + 9999 of the two node arrays and all of the
  other eight, and stores the same rows of the output. Over the extended reals the narrowing of a matrix product's
  operands is the identity and a product into a zero accumulator is the plain sum over the 64 shared positions, so the
  stored block's entry (p, q) is the formula above for node 10000 t + p. Node n is written by point n / 10000, so the
  10 blocks cover the array and it ends holding the formula everywhere.
-/
import proofs.«157355_j13657996001716_2_alg».proof.Proof.Gen.KernelIdeal.Frame
import proofs.«157355_j13657996001716_2_alg».proof.Proof.Spec
import proofs.«157355_j13657996001716_2_alg».proof.Proof.LibPlainDot
import proofs.«157355_j13657996001716_2_alg».proof.Proof.LibRowLayout
import Idealize.ShloMosaic.Lib.Pipeline.Value
import Idealize.ShloMosaic.Lib.ValueIdx

noncomputable section

namespace Cert.KernelIdeal.KValue

open Cert.KernelIdeal Cert.KernelIdeal.Gen Cert.Gine
open Idealize.ShloMosaic Idealize.ShloMosaic.TcCoe Idealize.ShloMosaic.ValueIdx Idealize.SL.Sem
open Idealize.ShloMosaic.Pipeline (Dat)

theorem hz_a5 : (![0, 0] : Fin 2 → Nat) = fun _ => 0 := funext fun a => by fin_cases a <;> rfl

/-- A block's matrix product with a weight matrix into a zero accumulator, at (p, q): the sum over the 64 shared
    positions (the narrowing of both operands is the identity over the extended reals). -/
theorem dense5_apply (l : FVec Ideal S10000x64 .f32) (r : FVec Ideal S64x64 .f32) (p : Fin 10000) (q : Fin 64) :
    matmul dot_S10000x64_S64x64_S10000x64_1_0_0_1_n_n none (truncf FTy.bf16 l bitsLt_bf16_f32)
      (truncf FTy.bf16 r bitsLt_bf16_f32) (constant (F := Ideal) S10000x64 FTy.f32 0x00000000#32) (ix2 p q)
      = ∑ k : Fin 64, l (ix2 p k) * r (ix2 k q) :=
  Cert.Lib.matmul_zero_apply dot_S10000x64_S64x64_S10000x64_1_0_0_1_n_n_wf none
    (truncf FTy.bf16 l bitsLt_bf16_f32) (truncf FTy.bf16 r bitsLt_bf16_f32) p q

/-- The stored block at (p, q): the second matrix product, into a zero accumulator, plus the bias row. -/
theorem applyPay5_1_apply (y : FVec Ideal S10000x64 .bf16) (W2 : Vec Ideal S64x64 .f32) (b2 : Vec Ideal S1x64 .f32)
    (p : Fin 10000) (q : Fin 64) :
    k5_pay1 (F := Ideal) y (k5_pay3 W2) (constant (F := Ideal) S10000x64 FTy.f32 0x00000000#32) b2 (ix2 p q)
      = (∑ k : Fin 64, y (ix2 p k) * W2 (ix2 k q)) + b2 (ix2 0 q) := by
  unfold k5_pay1 k5_pay3
  rw [addf_apply, shapeCast_self, Cert.Lib.rowBroadcast_apply]
  exact congrArg (· + b2 (ix2 0 q)) (Cert.Lib.matmul_zero_apply dot_S10000x64_S64x64_S10000x64_1_0_0_1_n_n_wf none
    y (truncf FTy.bf16 W2 bitsLt_bf16_f32) p q)

/-- The second product's left operand at (p, k): the clamped normalised first layer. -/
theorem applyPay5_2_apply (x agg : Vec Ideal S10000x64 .f32) (W1 : Vec Ideal S64x64 .f32)
    (b1 var mean g bt : Vec Ideal S1x64 .f32) (p : Fin 10000) (k : Fin 64) :
    k5_pay2 (F := Ideal) x agg W1 b1 var mean g bt (ix2 p k)
      = max ((((∑ k' : Fin 64, (x (ix2 p k') + agg (ix2 p k')) * W1 (ix2 k' k)) + b1 (ix2 0 k))
            - mean (ix2 0 k)) * Ideal.rsqrt (var (ix2 0 k) + epsW) * g (ix2 0 k) + bt (ix2 0 k)) zeroW := by
  unfold k5_pay2
  simp only [truncf_apply, maximumf_apply, addf_apply, mulf_apply, subf_apply, shapeCast_self, Cert.Lib.rowBroadcast_apply,
    broadcast_apply, dense5_apply]
  rfl

/-- One grid point: when the ten loaded blocks hold row n of the two node arrays (in their row p), the two weight
    matrices and the six rows, the stored block's entry (p, q) is the layer's output for node n in channel q. -/
theorem applyPoint5 (x0 x1 : Vec Ideal S10000x64 .f32) (x2 : Vec Ideal S64x64 .f32) (x3 x4 x5 x6 x7 : Vec Ideal S1x64 .f32)
    (x8 : Vec Ideal S64x64 .f32) (x9 : Vec Ideal S1x64 .f32)
    (A0 A1 : SN.Idx → EReal) (A2 : SW.Idx → EReal) (A3 A4 A5 A6 A7 : SR.Idx → EReal) (A8 : SW.Idx → EReal)
    (A9 : SR.Idx → EReal) (n : Fin 100000) (p : Fin 10000) (q : Fin 64)
    (h0 : ∀ k : Fin 64, x0 (ix2 p k) = A0 (ix2 n k)) (h1 : ∀ k : Fin 64, x1 (ix2 p k) = A1 (ix2 n k))
    (h2 : ∀ k d : Fin 64, x2 (ix2 k d) = A2 (ix2 k d)) (h3 : ∀ d : Fin 64, x3 (ix2 0 d) = A3 (ix2 0 d))
    (h4 : ∀ d : Fin 64, x4 (ix2 0 d) = A4 (ix2 0 d)) (h5 : ∀ d : Fin 64, x5 (ix2 0 d) = A5 (ix2 0 d))
    (h6 : ∀ d : Fin 64, x6 (ix2 0 d) = A6 (ix2 0 d)) (h7 : ∀ d : Fin 64, x7 (ix2 0 d) = A7 (ix2 0 d))
    (h8 : ∀ k d : Fin 64, x8 (ix2 k d) = A8 (ix2 k d)) (h9 : ∀ d : Fin 64, x9 (ix2 0 d) = A9 (ix2 0 d)) :
    k5_pay1 (F := Ideal) (k5_pay2 x0 x1 x2 x3 x5 x4 x6 x7) (k5_pay3 x8)
        (constant (F := Ideal) S10000x64 FTy.f32 0x00000000#32) x9 (ix2 p q)
      = applyK (hOf A0 A1 A2 (rowVec A3)) (rowVec A4) (rowVec A5) (rowVec A6) (rowVec A7) A8 (rowVec A9) n q := by
  rw [applyPay5_1_apply]
  simp only [applyPay5_2_apply, h0, h1, h2, h3, h4, h5, h6, h7, h8, h9]
  rfl

variable (V : (c : Dev nD) → (b : Ref sig .tc) → Buf (Elt Ideal) ((c : Thread nD τ).loc b))

/-- The second layer's output, from the ten arrays the region reads. -/
abbrev outs5 (c : Dev nD) : SN.Idx → EReal :=
  arrN (applyK (hOf (V c main_v36) (V c main_v47) (V c main_arg13) (rowVec (V c main_v10))) (rowVec (V c main_v52))
    (rowVec (V c main_v58)) (rowVec (V c main_v11)) (rowVec (V c main_v12)) (V c main_arg17) (rowVec (V c main_v13)))

/-- Window 0's printed index map over the 10 grid points. -/
theorem idx5_0 : ∀ t : Fin cfg5.N, win5_0.index t (0 : Fin 2) = t.val ∧ win5_0.index t (1 : Fin 2) = 0 :=
  (by decide +kernel : ∀ t : Fin grid5.N, _)

/-- Row p of block t of the node rows is row 10000 t + p of the array. -/
theorem blk5_0_apply (c : Dev nD) (t : Fin cfg5.N) (p : Fin 10000) (k : Fin 64) (n : Fin 100000)
    (hn : n.val = t.val * 10000 + p.val) :
    iblk5 V c 0 t (ix2 p k) = (V c main_v36 : SN.Idx → EReal) (ix2 n k) := by
  obtain ⟨e0, e1⟩ := idx5_0 t
  show V c main_v36 (((cfg5.win 0).blk t).view.emb (ix2 p k)) = V c main_v36 (ix2 n k)
  refine congrArg _ (funext fun a => Fin.ext ?_)
  match a with
  | ⟨0, _⟩ => show win5_0.index t (0 : Fin 2) * 10000 + 1 * p.val = n.val; rw [e0, hn]; omega
  | ⟨1, _⟩ => show win5_0.index t (1 : Fin 2) * 64 + 1 * k.val = k.val; rw [e1]; omega

/-- Window 1's printed index map over the 10 grid points. -/
theorem idx5_1 : ∀ t : Fin cfg5.N, win5_1.index t (0 : Fin 2) = t.val ∧ win5_1.index t (1 : Fin 2) = 0 :=
  (by decide +kernel : ∀ t : Fin grid5.N, _)

/-- Row p of block t of the aggregated messages is row 10000 t + p of the array. -/
theorem blk5_1_apply (c : Dev nD) (t : Fin cfg5.N) (p : Fin 10000) (k : Fin 64) (n : Fin 100000)
    (hn : n.val = t.val * 10000 + p.val) :
    iblk5 V c 1 t (ix2 p k) = (V c main_v47 : SN.Idx → EReal) (ix2 n k) := by
  obtain ⟨e0, e1⟩ := idx5_1 t
  show V c main_v47 (((cfg5.win 1).blk t).view.emb (ix2 p k)) = V c main_v47 (ix2 n k)
  refine congrArg _ (funext fun a => Fin.ext ?_)
  match a with
  | ⟨0, _⟩ => show win5_1.index t (0 : Fin 2) * 10000 + 1 * p.val = n.val; rw [e0, hn]; omega
  | ⟨1, _⟩ => show win5_1.index t (1 : Fin 2) * 64 + 1 * k.val = k.val; rw [e1]; omega

/-- Window 2's printed index map over the 10 grid points. -/
theorem idx5_2 : ∀ t : Fin cfg5.N, win5_2.index t (0 : Fin 2) = 0 ∧ win5_2.index t (1 : Fin 2) = 0 :=
  (by decide +kernel : ∀ t : Fin grid5.N, _)

/-- The block of the first weight matrix is the whole matrix at every point. -/
theorem blk5_2_apply (c : Dev nD) (t : Fin cfg5.N) (k d : Fin 64) :
    iblk5 V c 2 t (ix2 k d) = (V c main_arg13 : SW.Idx → EReal) (ix2 k d) := by
  obtain ⟨e0, e1⟩ := idx5_2 t
  show V c main_arg13 (((cfg5.win 2).blk t).view.emb (ix2 k d)) = V c main_arg13 (ix2 k d)
  refine congrArg _ (funext fun a => Fin.ext ?_)
  match a with
  | ⟨0, _⟩ => show win5_2.index t (0 : Fin 2) * 64 + 1 * k.val = k.val; rw [e0]; omega
  | ⟨1, _⟩ => show win5_2.index t (1 : Fin 2) * 64 + 1 * d.val = d.val; rw [e1]; omega

/-- Window 3's printed index map over the 10 grid points. -/
theorem idx5_3 : ∀ t : Fin cfg5.N, win5_3.index t (0 : Fin 2) = 0 ∧ win5_3.index t (1 : Fin 2) = 0 :=
  (by decide +kernel : ∀ t : Fin grid5.N, _)

/-- The block of the first bias row is the whole row at every point. -/
theorem blk5_3_apply (c : Dev nD) (t : Fin cfg5.N) (d : Fin 64) :
    iblk5 V c 3 t (ix2 0 d) = (V c main_v10 : SR.Idx → EReal) (ix2 0 d) := by
  obtain ⟨e0, e1⟩ := idx5_3 t
  show V c main_v10 (((cfg5.win 3).blk t).view.emb (ix2 0 d)) = V c main_v10 (ix2 0 d)
  refine congrArg _ (funext fun a => Fin.ext ?_)
  match a with
  | ⟨0, _⟩ => show win5_3.index t (0 : Fin 2) * 1 + 1 * 0 = 0; rw [e0]
  | ⟨1, _⟩ => show win5_3.index t (1 : Fin 2) * 64 + 1 * d.val = d.val; rw [e1]; omega

/-- Window 4's printed index map over the 10 grid points. -/
theorem idx5_4 : ∀ t : Fin cfg5.N, win5_4.index t (0 : Fin 2) = 0 ∧ win5_4.index t (1 : Fin 2) = 0 :=
  (by decide +kernel : ∀ t : Fin grid5.N, _)

/-- The block of the mean row is the whole row at every point. -/
theorem blk5_4_apply (c : Dev nD) (t : Fin cfg5.N) (d : Fin 64) :
    iblk5 V c 4 t (ix2 0 d) = (V c main_v52 : SR.Idx → EReal) (ix2 0 d) := by
  obtain ⟨e0, e1⟩ := idx5_4 t
  show V c main_v52 (((cfg5.win 4).blk t).view.emb (ix2 0 d)) = V c main_v52 (ix2 0 d)
  refine congrArg _ (funext fun a => Fin.ext ?_)
  match a with
  | ⟨0, _⟩ => show win5_4.index t (0 : Fin 2) * 1 + 1 * 0 = 0; rw [e0]
  | ⟨1, _⟩ => show win5_4.index t (1 : Fin 2) * 64 + 1 * d.val = d.val; rw [e1]; omega

/-- Window 5's printed index map over the 10 grid points. -/
theorem idx5_5 : ∀ t : Fin cfg5.N, win5_5.index t (0 : Fin 2) = 0 ∧ win5_5.index t (1 : Fin 2) = 0 :=
  (by decide +kernel : ∀ t : Fin grid5.N, _)

/-- The block of the variance row is the whole row at every point. -/
theorem blk5_5_apply (c : Dev nD) (t : Fin cfg5.N) (d : Fin 64) :
    iblk5 V c 5 t (ix2 0 d) = (V c main_v58 : SR.Idx → EReal) (ix2 0 d) := by
  obtain ⟨e0, e1⟩ := idx5_5 t
  show V c main_v58 (((cfg5.win 5).blk t).view.emb (ix2 0 d)) = V c main_v58 (ix2 0 d)
  refine congrArg _ (funext fun a => Fin.ext ?_)
  match a with
  | ⟨0, _⟩ => show win5_5.index t (0 : Fin 2) * 1 + 1 * 0 = 0; rw [e0]
  | ⟨1, _⟩ => show win5_5.index t (1 : Fin 2) * 64 + 1 * d.val = d.val; rw [e1]; omega

/-- Window 6's printed index map over the 10 grid points. -/
theorem idx5_6 : ∀ t : Fin cfg5.N, win5_6.index t (0 : Fin 2) = 0 ∧ win5_6.index t (1 : Fin 2) = 0 :=
  (by decide +kernel : ∀ t : Fin grid5.N, _)

/-- The block of the scale row is the whole row at every point. -/
theorem blk5_6_apply (c : Dev nD) (t : Fin cfg5.N) (d : Fin 64) :
    iblk5 V c 6 t (ix2 0 d) = (V c main_v11 : SR.Idx → EReal) (ix2 0 d) := by
  obtain ⟨e0, e1⟩ := idx5_6 t
  show V c main_v11 (((cfg5.win 6).blk t).view.emb (ix2 0 d)) = V c main_v11 (ix2 0 d)
  refine congrArg _ (funext fun a => Fin.ext ?_)
  match a with
  | ⟨0, _⟩ => show win5_6.index t (0 : Fin 2) * 1 + 1 * 0 = 0; rw [e0]
  | ⟨1, _⟩ => show win5_6.index t (1 : Fin 2) * 64 + 1 * d.val = d.val; rw [e1]; omega

/-- Window 7's printed index map over the 10 grid points. -/
theorem idx5_7 : ∀ t : Fin cfg5.N, win5_7.index t (0 : Fin 2) = 0 ∧ win5_7.index t (1 : Fin 2) = 0 :=
  (by decide +kernel : ∀ t : Fin grid5.N, _)

/-- The block of the shift row is the whole row at every point. -/
theorem blk5_7_apply (c : Dev nD) (t : Fin cfg5.N) (d : Fin 64) :
    iblk5 V c 7 t (ix2 0 d) = (V c main_v12 : SR.Idx → EReal) (ix2 0 d) := by
  obtain ⟨e0, e1⟩ := idx5_7 t
  show V c main_v12 (((cfg5.win 7).blk t).view.emb (ix2 0 d)) = V c main_v12 (ix2 0 d)
  refine congrArg _ (funext fun a => Fin.ext ?_)
  match a with
  | ⟨0, _⟩ => show win5_7.index t (0 : Fin 2) * 1 + 1 * 0 = 0; rw [e0]
  | ⟨1, _⟩ => show win5_7.index t (1 : Fin 2) * 64 + 1 * d.val = d.val; rw [e1]; omega

/-- Window 8's printed index map over the 10 grid points. -/
theorem idx5_8 : ∀ t : Fin cfg5.N, win5_8.index t (0 : Fin 2) = 0 ∧ win5_8.index t (1 : Fin 2) = 0 :=
  (by decide +kernel : ∀ t : Fin grid5.N, _)

/-- The block of the second weight matrix is the whole matrix at every point. -/
theorem blk5_8_apply (c : Dev nD) (t : Fin cfg5.N) (k d : Fin 64) :
    iblk5 V c 8 t (ix2 k d) = (V c main_arg17 : SW.Idx → EReal) (ix2 k d) := by
  obtain ⟨e0, e1⟩ := idx5_8 t
  show V c main_arg17 (((cfg5.win 8).blk t).view.emb (ix2 k d)) = V c main_arg17 (ix2 k d)
  refine congrArg _ (funext fun a => Fin.ext ?_)
  match a with
  | ⟨0, _⟩ => show win5_8.index t (0 : Fin 2) * 64 + 1 * k.val = k.val; rw [e0]; omega
  | ⟨1, _⟩ => show win5_8.index t (1 : Fin 2) * 64 + 1 * d.val = d.val; rw [e1]; omega

/-- Window 9's printed index map over the 10 grid points. -/
theorem idx5_9 : ∀ t : Fin cfg5.N, win5_9.index t (0 : Fin 2) = 0 ∧ win5_9.index t (1 : Fin 2) = 0 :=
  (by decide +kernel : ∀ t : Fin grid5.N, _)

/-- The block of the second bias row is the whole row at every point. -/
theorem blk5_9_apply (c : Dev nD) (t : Fin cfg5.N) (d : Fin 64) :
    iblk5 V c 9 t (ix2 0 d) = (V c main_v13 : SR.Idx → EReal) (ix2 0 d) := by
  obtain ⟨e0, e1⟩ := idx5_9 t
  show V c main_v13 (((cfg5.win 9).blk t).view.emb (ix2 0 d)) = V c main_v13 (ix2 0 d)
  refine congrArg _ (funext fun a => Fin.ext ?_)
  match a with
  | ⟨0, _⟩ => show win5_9.index t (0 : Fin 2) * 1 + 1 * 0 = 0; rw [e0]
  | ⟨1, _⟩ => show win5_9.index t (1 : Fin 2) * 64 + 1 * d.val = d.val; rw [e1]; omega

/-- The output window's printed index map over the 10 grid points. -/
theorem idx5_10 : ∀ t : Fin cfg5.N, win5_10.index t (0 : Fin 2) = t.val ∧ win5_10.index t (1 : Fin 2) = 0 :=
  (by decide +kernel : ∀ t : Fin grid5.N, _)

theorem flushed5_eq (c : Dev nD) (t : Fin cfg5.N) :
    (dat5 (F := Ideal) V c).flushed 10 t = ((cfg5.win 10).blk t).view.read (Elt Ideal) (outs5 V c) := by
  show (cfg5.win 10).cut (grid5.coords t) ((dat5 V c).after 10 t) = _
  rw [after5_10]
  unfold out5_10
  rw [View.canon_unit_zero hz_a5]
  simp only [View.ld_unit_zero (S := S10000x64) hz_a5, View.ld_unit_zero (S := S64x64) hz_a5,
    View.ld_unit_zero (S := S1x64) hz_a5]
  funext j
  have hN : cfg5.N = 10 := N_5
  have hp : (j 0).val < 10000 := idx2_lt0 (n0 := 10000) (n1 := 64) j
  have hn : t.val * 10000 + (j 0).val < 100000 := by have := t.isLt; omega
  obtain ⟨e0, e1⟩ := idx5_10 t
  have h10 : ((cfg5.win 10).blk t).view.emb j
      = ix2 (n0 := 100000) (n1 := 64) ⟨t.val * 10000 + (j 0).val, hn⟩ (j 1) :=
    funext fun a => Fin.ext (by
      match a with
      | ⟨0, _⟩ => show win5_10.index t (0 : Fin 2) * 10000 + 1 * (j 0).val = t.val * 10000 + (j 0).val; rw [e0]; omega
      | ⟨1, _⟩ => show win5_10.index t (1 : Fin 2) * 64 + 1 * (j 1).val = (j 1).val; rw [e1]; omega)
  refine (congrArg (k5_pay1 (F := Ideal) (k5_pay2 (iblk5 V c 0 t) (iblk5 V c 1 t) (iblk5 V c 2 t) (iblk5 V c 3 t)
    (iblk5 V c 5 t) (iblk5 V c 4 t) (iblk5 V c 6 t) (iblk5 V c 7 t)) (k5_pay3 (iblk5 V c 8 t))
    (constant (F := Ideal) S10000x64 FTy.f32 0x00000000#32) (iblk5 V c 9 t))
    (eq_ix2 (n0 := 10000) (n1 := 64) j)).trans ?_
  refine (applyPoint5 (iblk5 V c 0 t) (iblk5 V c 1 t) (iblk5 V c 2 t) (iblk5 V c 3 t) (iblk5 V c 4 t) (iblk5 V c 5 t)
    (iblk5 V c 6 t) (iblk5 V c 7 t) (iblk5 V c 8 t) (iblk5 V c 9 t)
    (V c main_v36) (V c main_v47) (V c main_arg13) (V c main_v10) (V c main_v52) (V c main_v58) (V c main_v11) (V c main_v12)
    (V c main_arg17) (V c main_v13) ⟨t.val * 10000 + (j 0).val, hn⟩ (j 0) (j 1)
    (fun k => blk5_0_apply V c t (j 0) k _ rfl) (fun k => blk5_1_apply V c t (j 0) k _ rfl)
    (fun k d => blk5_2_apply V c t k d) (fun d => blk5_3_apply V c t d) (fun d => blk5_4_apply V c t d)
    (fun d => blk5_5_apply V c t d) (fun d => blk5_6_apply V c t d) (fun d => blk5_7_apply V c t d)
    (fun k d => blk5_8_apply V c t k d) (fun d => blk5_9_apply V c t d)).trans ?_
  exact (congrArg (outs5 V c) h10).symm

/-- An index of the output array lies in point t's block iff each coordinate is in the block's range on its axis. -/
theorem mem_blk5 (t : Fin cfg5.N) (i : S100000x64.Idx) :
    i ∈ ((cfg5.win 10).blk t).view.set ↔ ∀ a : Fin 2, win5_10.index t a * S10000x64.size a ≤ (i a).val
      ∧ (i a).val < win5_10.index t a * S10000x64.size a + S10000x64.size a := by
  show i ∈ ((View.whole main_v59).slice (win5_10.rect t)).set ↔ _
  rw [View.set_slice_whole, Rect.mem_set_unit]
  exact Iff.rfl

/-- Node n is written by grid point n / 10000. -/
theorem cover5 (i : S100000x64.Idx) :
    ∃ t : Fin cfg5.N, (cfg5.win 10).flush t = true ∧ i ∈ ((cfg5.win 10).blk t).view.set := by
  have hN : cfg5.N = 10 := N_5
  have h0 : (i 0).val < 100000 := idx2_lt0 (n0 := 100000) (n1 := 64) i
  have h1 : (i 1).val < 64 := idx2_lt1 (n0 := 100000) (n1 := 64) i
  have ht : (i 0).val / 10000 < cfg5.N := by rw [hN]; omega
  refine ⟨⟨(i 0).val / 10000, ht⟩, flush5_10 _, ?_⟩
  rw [mem_blk5]
  obtain ⟨e0, e1⟩ := idx5_10 ⟨(i 0).val / 10000, ht⟩
  intro a
  match a with
  | ⟨0, _⟩ =>
    show win5_10.index ⟨(i 0).val / 10000, ht⟩ (0 : Fin 2) * 10000 ≤ (i 0).val
      ∧ (i 0).val < win5_10.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win5_10.index ⟨(i 0).val / 10000, ht⟩ (1 : Fin 2) * 64 ≤ (i 1).val
      ∧ (i 1).val < win5_10.index ⟨(i 0).val / 10000, ht⟩ (1 : Fin 2) * 64 + 64
    rw [e1]; omega

/-- REGION 5: the output array ends holding the second layer's output. -/
theorem final5 (c : Dev nD) : (dat5 (F := Ideal) V c).arrAt 10 cfg5.N
    = arrN (applyK (hOf (V c main_v36) (V c main_v47) (V c main_arg13) (rowVec (V c main_v10))) (rowVec (V c main_v52))
    (rowVec (V c main_v58)) (rowVec (V c main_v11)) (rowVec (V c main_v12)) (V c main_arg17) (rowVec (V c main_v13))) :=
  (dat5 (F := Ideal) V c).arrAt_eq_of_cover 10 (outs5 V c) (fun t _ => flushed5_eq V c t) cover5

end Cert.KernelIdeal.KValue

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibBlockSum.lean ====
/-
  A sum over the first B·(j+1) natural numbers, taken block by block: the terms before block j, plus the B terms of
  block j. This is how a contraction over a long axis is accumulated in pieces of width B; over a commutative monoid
  (the extended reals under addition are one) the pieces add up to the whole sum, whatever the values.
-/
import Mathlib.Algebra.BigOperators.Fin
import Mathlib.Algebra.BigOperators.Intervals

namespace Cert.Lib.BlockSum

open Finset

variable {M : Type*} [AddCommMonoid M]

/-- The terms before block `j`, plus the `B` terms of block `j`, are the terms before block `j + 1`. -/
theorem sum_range_block (f : ℕ → M) (B j : ℕ) :
    ∑ k ∈ range (B * j), f k + ∑ k : Fin B, f (B * j + k.val) = ∑ k ∈ range (B * (j + 1)), f k := by
  rw [Nat.mul_succ, Finset.sum_range_add, Finset.sum_range (fun k => f (B * j + k))]

/-- Block 0 alone: its `B` terms are the terms before block 1. -/
theorem sum_first_block (f : ℕ → M) (B : ℕ) :
    ∑ k : Fin B, f (B * 0 + k.val) = ∑ k ∈ range (B * (0 + 1)), f k := by
  rw [← sum_range_block f B 0, Nat.mul_zero, Finset.range_zero, Finset.sum_empty, zero_add]

end Cert.Lib.BlockSum
-- ==== Proof.LibRsqrtDiv.lean ====
/-
  Multiplying by a reciprocal square root against dividing by a square root, over the extended reals.

  `d * rsqrt v = d / sqrt v` (`Ideal.div d (Ideal.sqrt v)`) for every `d` whenever `0 < v` — also at `v = +∞`, where both
  sides are `d · 0`; it fails at `v = 0`, at negative `v` and at `-∞`. The usual `v` is a variance plus a positive
  `ε`: a product `d · d` is never negative on the extended reals (`(±∞)·(±∞) = +∞`), so `(Σ_k d_k · d_k) / n + ε > 0` for
  any real `n > 0` and any `ε > 0`, whatever the `d_k` are (no finiteness needed). Also here: the f32 words of 64.0, +0.0 and
  of the float nearest 1e-5 (a layer normalisation's usual ε) as extended reals.
-/
import Idealize.ShloMosaic.PureOps.Ideal

noncomputable section

namespace Cert.RowLaw

open Idealize.ShloMosaic

/-- The f32 word of `64.0` denotes the real 64. -/
theorem ofBits_64 : Ideal.ofBits .f32 0x42800000#32 = ((64 : ℝ) : EReal) := by
  simp [Ideal.ofBits, Ideal.ieee, -EReal.coe_mul]; norm_num

/-- The f32 word of `+0.0` denotes 0. -/
theorem ofBits_zero : Ideal.ofBits .f32 0x00000000#32 = 0 := by
  simp [Ideal.ofBits, Ideal.ieee]

/-- The f32 word nearest to `1e-5` denotes a positive number. -/
theorem eps_pos : (0 : EReal) < Ideal.ofBits .f32 0x3727C5AC#32 := by
  simp [Ideal.ofBits, Ideal.ieee, -EReal.coe_mul]

/-- A square is never negative on the extended reals. -/
theorem mul_self_nonneg (d : EReal) : 0 ≤ d * d := by
  induction d using EReal.rec with
  | bot => simp
  | top => simp
  | coe r => rw [← EReal.coe_mul]; exact_mod_cast _root_.mul_self_nonneg r

/-- The n-th part of a sum of squares, plus a positive `ε`, is positive. -/
theorem var_eps_pos {ι : Type} [Fintype ι] (d : ι → EReal) (e : EReal) (he : 0 < e) (n : ℝ) (hn : 0 < n) :
    0 < Ideal.div (∑ k, d k * d k) (n : EReal) + e := by
  rw [Ideal.div_coe hn.ne']
  have h1 : (0 : EReal) ≤ ((1 / n : ℝ) : EReal) := by exact_mod_cast (one_div_pos.mpr hn).le
  exact he.trans_le (le_add_of_nonneg_left (EReal.mul_nonneg (Finset.sum_nonneg fun k _ => mul_self_nonneg (d k)) h1))

/-- At every positive `v`, multiplying by `rsqrt v` is dividing by `sqrt v`. -/
theorem mul_rsqrt_eq_div_sqrt (d v : EReal) (hv : 0 < v) : d * Ideal.rsqrt v = Ideal.div d (Ideal.sqrt v) := by
  induction v using EReal.rec with
  | bot => exact absurd hv (by simp)
  | top => simp [Ideal.div]
  | coe r =>
    have hr : 0 < r := by exact_mod_cast hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

end Cert.RowLaw

end
-- ==== Proof.StatsRegion1.lean ====
/-
  The value of the first statistics region of the idealized kernel program, over the extended reals.

  The region walks 10 grid points over blocks of 10000 rows of two node arrays x and agg [100000, 64]; its weight matrix
  W [64, 64], its bias row b [1, 64] and its output [2, 64] each have ONE block, the whole array, and the output block is
  carried from point to point.  At a point the body computes, on the point's rows,

      h(n, d) = Σ_k (x(n, k) + agg(n, k)) · W(k, d) + b(d)

  (the rounding of the operands of the product to a narrower format is the identity on the extended reals, and the product
  accumulates into zeros), and adds to row 0 of the output block the column sums Σ_n h(n, d) over the point's rows and to
  row 1 the column sums of h(n, d)².  The first point stores the zero block first, so it adds to zeros; every other point
  adds to what the point before left.

  So after point t row 0 holds the zero word plus the sum of h over the first 10000·(t+1) rows, the additions nested to the
  left — and addition on the extended reals is commutative and associative with no finiteness hypothesis, so that is the
  zero word plus one sum over those rows (induction on the point; a sum over the first B·(j+1) numbers is the sum over the
  first B·j plus block j).  Row 1 likewise for h².  After the last point the rows are all 100000; the zero word is 0; the one
  write-back, at the last point, covers the whole output array.  Hence the array ends holding the pair of column sums of h
  and of h² over all rows: `Cert.Gine.statsArr` of `Cert.Gine.hOf` of the arrays the region was entered with.
-/
import proofs.«157355_j13657996001716_2_alg».proof.Proof.Gen.KernelIdeal.Frame
import proofs.«157355_j13657996001716_2_alg».proof.Proof.Spec
import proofs.«157355_j13657996001716_2_alg».proof.Proof.LibPlainDot
import proofs.«157355_j13657996001716_2_alg».proof.Proof.LibAxisSums
import proofs.«157355_j13657996001716_2_alg».proof.Proof.LibRowLayout
import proofs.«157355_j13657996001716_2_alg».proof.Proof.LibBlockSum
import proofs.«157355_j13657996001716_2_alg».proof.Proof.LibRsqrtDiv
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.Gine Idealize.ShloMosaic.ValueIdx

namespace Stats1

theorem hz : (![0, 0] : Fin 2 → Nat) = fun _ => 0 := funext fun a => by fin_cases a <;> rfl

/-- Row 0 and row 1 of the [2, 64] block, as the rectangles the body's row stores go through. -/
abbrev rowRect0 : Rect S2x64 := Rect.unit (s := S2x64) ![0, 0] S1x64.size inb_S2x64_S1x64_0_0
abbrev rowRect1 : Rect S2x64 := Rect.unit (s := S2x64) ![1, 0] S1x64.size inb_S2x64_S1x64_1_0

theorem emb_row0 (q : Fin 64) : rowRect0.emb (ix2 (0 : Fin 1) q) = (ix2 (0 : Fin 2) q : S2x64.Idx) :=
  funext fun a => Fin.ext (by
    match a with
    | ⟨0, _⟩ => rfl
    | ⟨1, _⟩ => show 0 + 1 * q.val = q.val; omega)

theorem emb_row1 (q : Fin 64) : rowRect1.emb (ix2 (0 : Fin 1) q) = (ix2 (1 : Fin 2) q : S2x64.Idx) :=
  funext fun a => Fin.ext (by
    match a with
    | ⟨0, _⟩ => rfl
    | ⟨1, _⟩ => show 0 + 1 * q.val = q.val; omega)

theorem row0_not_mem_row1 (q : Fin 64) : (ix2 (0 : Fin 2) q : S2x64.Idx) ∉ rowRect1.set := by
  rw [Rect.mem_set_unit]
  intro h
  exact Nat.not_succ_le_zero 0 (h 0).1

variable {F : FTy → Type} [FloatOps F]

/-- Two row stores, row 1 after row 0, over anything earlier: row 0 reads the row-0 payload, -/
theorem canon_row0 (w1 w0 : S1x64.Idx → Elt F .f32) (L : List (View.Piece (Elt F) S2x64 .f32)) (q : Fin 64) :
    View.canon ((⟨rowRect1, w1⟩ : View.Piece (Elt F) S2x64 .f32) :: ⟨rowRect0, w0⟩ :: L) (ix2 (0 : Fin 2) q) = w0 (ix2 (0 : Fin 1) q) := by
  refine (View.canon_cons_of_not_mem (⟨rowRect1, w1⟩ : View.Piece (Elt F) S2x64 .f32) (⟨rowRect0, w0⟩ :: L) (row0_not_mem_row1 q)).trans ?_
  rw [← emb_row0 q]
  exact View.canon_cons_emb rowRect0 w0 L (ix2 (0 : Fin 1) q)

/-- and row 1 the row-1 payload. -/
theorem canon_row1 (w1 w0 : S1x64.Idx → Elt F .f32) (L : List (View.Piece (Elt F) S2x64 .f32)) (q : Fin 64) :
    View.canon ((⟨rowRect1, w1⟩ : View.Piece (Elt F) S2x64 .f32) :: ⟨rowRect0, w0⟩ :: L) (ix2 (1 : Fin 2) q) = w1 (ix2 (0 : Fin 1) q) := by
  rw [← emb_row1 q]
  exact View.canon_cons_emb rowRect1 w1 _ (ix2 (0 : Fin 1) q)

/-- The whole [2, 64] block as a store's rectangle. -/
abbrev wholeRect : Rect S2x64 := Rect.unit (s := S2x64) ![0, 0] S2x64.size inb_S2x64_S2x64_0_0

theorem row1_not_mem_row0 (x : rowRect1.shape.Idx) : rowRect1.idx x ∉ rowRect0.set := by
  rw [Rect.mem_set_unit]
  intro h
  have h2 : 1 + 1 * (x 0).val < 0 + 1 := (h 0).2
  omega

theorem mem_wholeRect (y : S2x64.Idx) : y ∈ wholeRect.set := View.mem_set_unit_zero hz _ y

/-- A load of row 0 after a store of the whole block reads that store's row 0; -/
theorem readCov_whole_row0 {κ : Kind} {sp : Space} (v : View sig κ sp S2x64 .f32) (w : S2x64.Idx → Elt F .f32) :
    v.readCov [(⟨wholeRect, w⟩ : View.Piece (Elt F) S2x64 .f32)] rowRect0.toLoadRect = View.ld w rowRect0 := by
  have hcov : ∀ y : S2x64.Idx, ∃ p ∈ [(⟨wholeRect, w⟩ : View.Piece (Elt F) S2x64 .f32)], y ∈ p.1.set :=
    fun y => ⟨(⟨wholeRect, w⟩ : View.Piece (Elt F) S2x64 .f32), List.mem_singleton_self _, mem_wholeRect y⟩
  rw [View.readCov_eq_canon_ld v _ rowRect0 hcov, View.canon_unit_zero hz]

/-- a load of row 1 after a store of the whole block and then one of row 0 reads the whole-block store's row 1. -/
theorem readCov_row0_whole_row1 {κ : Kind} {sp : Space} (v : View sig κ sp S2x64 .f32) (w0 : S1x64.Idx → Elt F .f32)
    (w : S2x64.Idx → Elt F .f32) :
    v.readCov [(⟨rowRect0, w0⟩ : View.Piece (Elt F) S2x64 .f32), ⟨wholeRect, w⟩] rowRect1.toLoadRect = View.ld w rowRect1 := by
  have hcov : ∀ y : S2x64.Idx, ∃ p ∈ [(⟨rowRect0, w0⟩ : View.Piece (Elt F) S2x64 .f32), ⟨wholeRect, w⟩], y ∈ p.1.set :=
    fun y => ⟨(⟨wholeRect, w⟩ : View.Piece (Elt F) S2x64 .f32), List.mem_cons_of_mem _ (List.mem_singleton_self _), mem_wholeRect y⟩
  rw [View.readCov_eq_canon_ld v _ rowRect1 hcov]
  funext x
  show View.canon [(⟨rowRect0, w0⟩ : View.Piece (Elt F) S2x64 .f32), ⟨wholeRect, w⟩] (rowRect1.idx x) = w (rowRect1.idx x)
  rw [View.canon_cons_of_not_mem (⟨rowRect0, w0⟩ : View.Piece (Elt F) S2x64 .f32) [⟨wholeRect, w⟩] (row1_not_mem_row0 x),
    View.canon_unit_zero hz]

/-- What one grid point leaves in the output block that held `xo`: row 0 plus the column sums of the point's h, row 1 plus
    those of its squares (the row-1 store is the later one). -/
def step (x0 x1 : Vec F S10000x64 .f32) (x2 : Vec F S64x64 .f32) (x3 : Vec F S1x64 .f32) (xo : Vec F S2x64 .f32) :
    Vec F S2x64 .f32 :=
  View.canon [(⟨rowRect1, k1_pay4 x0 x1 x2 x3 (View.ld xo rowRect1)⟩ : View.Piece (Elt F) S2x64 .f32),
    ⟨rowRect0, k1_pay3 x0 x1 x2 x3 (View.ld xo rowRect0)⟩]

/-- A point other than the first: the block carried from the point before, stepped. -/
theorem out_B (c : Dev nD) (i : grid1.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S2x64 .f32) (h5 : a5.IsWhole) (hc : ¬cond1_0 i)
    (x0 x1 : Vec F S10000x64 .f32) (x2 : Vec F S64x64 .f32) (x3 : Vec F S1x64 .f32) (xo : Vec F S2x64 .f32) :
    out1_B_4 c i a1 h1 a2 h2 a3 h3 a4 h4 a5 h5 hc x0 x1 x2 x3 xo = step x0 x1 x2 x3 xo := by
  unfold out1_B_4
  rw [View.read_writes_eq_canon _ _ _ (cover1_B_4 c i a1 h1 a2 h2 a3 h3 a4 h4 a5 h5 hc x0 x1 x2 x3 xo)]
  unfold kernelRun1_B
  dsimp only
  sl_unfold_words
  simp only [View.readAt_eq_ld, h1.read_unread, h2.read_unread, h3.read_unread, h4.read_unread, h5.read_unread,
    View.ld_unit_zero (S := S10000x64) hz, View.ld_unit_zero (S := S64x64) hz, View.ld_unit_zero (S := S1x64) hz]
  rfl

/-- The first point: the zero block, stepped. The two row loads read the zero block back through the stores before them. -/
theorem out_A (c : Dev nD) (i : grid1.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S2x64 .f32) (h5 : a5.IsWhole) (hc : cond1_0 i)
    (x0 x1 : Vec F S10000x64 .f32) (x2 : Vec F S64x64 .f32) (x3 : Vec F S1x64 .f32) :
    out1_A_4 c i a1 h1 a2 h2 a3 h3 a4 h4 a5 h5 hc x0 x1 x2 x3 = step x0 x1 x2 x3 (k1_pay1 (F := F)) := by
  unfold out1_A_4
  rw [View.read_writes_eq_canon _ _ _ (cover1_A_4 c i a1 h1 a2 h2 a3 h3 a4 h4 a5 h5 hc x0 x1 x2 x3)]
  unfold kernelRun1_A
  dsimp only
  sl_unfold_words
  simp only [View.readAt_eq_ld, h1.read_unread, h2.read_unread, h3.read_unread, h4.read_unread,
    View.ld_unit_zero (S := S10000x64) hz, View.ld_unit_zero (S := S64x64) hz, View.ld_unit_zero (S := S1x64) hz]
  rw [readCov_row0_whole_row1, readCov_whole_row0]
  funext y
  obtain ⟨r, q, rfl⟩ : ∃ (r : Fin 2) (q : Fin 64), y = ix2 r q := ⟨y 0, y 1, eq_ix2 y⟩
  unfold step
  match r with
  | ⟨0, _⟩ => exact (canon_row0 _ _ _ q).trans (canon_row0 _ _ _ q).symm
  | ⟨1, _⟩ => exact (canon_row1 _ _ _ q).trans (canon_row1 _ _ _ q).symm

/-- The first dense layer on a block of 10000 rows: row p of (x0 + x1) against column q of x2, plus the bias row. -/
def hBlk (x0 x1 : FVec Ideal S10000x64 .f32) (x2 : FVec Ideal S64x64 .f32) (x3 : FVec Ideal S1x64 .f32)
    (p : Fin 10000) (q : Fin 64) : EReal :=
  (∑ k : Fin 64, (x0 (ix2 p k) + x1 (ix2 p k)) * x2 (ix2 k q)) + x3 (ix2 (0 : Fin 1) q)

/-- The body's h at (p, q): the rounding to the narrower format is the identity on the extended reals, the product
    accumulates into zeros, and the bias row is repeated down the rows. -/
theorem pay2_apply (x0 x1 : FVec Ideal S10000x64 .f32) (x2 : FVec Ideal S64x64 .f32) (x3 : FVec Ideal S1x64 .f32)
    (p : Fin 10000) (q : Fin 64) :
    k1_pay2 (F := Ideal) x0 x1 x2 x3 (ix2 p q) = hBlk x0 x1 x2 x3 p q := by
  unfold k1_pay2 hBlk
  refine congrArg₂ (· + ·) ?_ ?_
  · refine (Cert.Lib.matmul_zero_apply dot_S10000x64_S64x64_S10000x64_1_0_0_1_n_n_wf none _ _ p q).trans ?_
    refine Finset.sum_congr rfl fun k _ => ?_
    have e : shapeCast S10000x64 x1 shapeCasts_S10000x64_S10000x64 = x1 := shapeCast_self _ _
    show (x0 (ix2 p k) + (shapeCast S10000x64 x1 shapeCasts_S10000x64_S10000x64) (ix2 p k)) * x2 (ix2 k q) = _
    rw [e]
  · exact (Cert.Lib.rowBroadcast_apply _ _ p q).trans (congrFun (shapeCast_self x3 _) (ix2 (0 : Fin 1) q))

/-- The row-0 payload at column q: the carried row plus the column sum of h over the block. -/
theorem pay3_apply (x0 x1 : FVec Ideal S10000x64 .f32) (x2 : FVec Ideal S64x64 .f32) (x3 v : FVec Ideal S1x64 .f32)
    (q : Fin 64) :
    k1_pay3 (F := Ideal) x0 x1 x2 x3 v (ix2 (0 : Fin 1) q) = v (ix2 (0 : Fin 1) q) + ∑ p : Fin 10000, hBlk x0 x1 x2 x3 p q := by
  unfold k1_pay3
  refine congrArg₂ (· + ·) (congrFun (shapeCast_self v _) (ix2 (0 : Fin 1) q)) ?_
  refine (Cert.Lib.vecToRow_apply _ _ q).trans ?_
  refine (Cert.Lib.colSum_apply _ _ _ _ _ q).trans ?_
  exact Finset.sum_congr rfl fun p _ => pay2_apply x0 x1 x2 x3 p q

/-- The row-1 payload at column q: the carried row plus the column sum of h² over the block. -/
theorem pay4_apply (x0 x1 : FVec Ideal S10000x64 .f32) (x2 : FVec Ideal S64x64 .f32) (x3 v : FVec Ideal S1x64 .f32)
    (q : Fin 64) :
    k1_pay4 (F := Ideal) x0 x1 x2 x3 v (ix2 (0 : Fin 1) q)
      = v (ix2 (0 : Fin 1) q) + ∑ p : Fin 10000, hBlk x0 x1 x2 x3 p q * hBlk x0 x1 x2 x3 p q := by
  unfold k1_pay4
  refine congrArg₂ (· + ·) (congrFun (shapeCast_self v _) (ix2 (0 : Fin 1) q)) ?_
  refine (Cert.Lib.vecToRow_apply _ _ q).trans ?_
  refine (Cert.Lib.colSum_apply _ _ _ _ _ q).trans ?_
  exact Finset.sum_congr rfl fun p _ => congrArg₂ (· * ·) (pay2_apply x0 x1 x2 x3 p q) (pay2_apply x0 x1 x2 x3 p q)

/-! ## One point, over the extended reals -/

/-- Row 0 after a point: the carried row 0 plus the column sums of the point's h. -/
theorem step_row0 (x0 x1 : Vec Ideal S10000x64 .f32) (x2 : Vec Ideal S64x64 .f32) (x3 : Vec Ideal S1x64 .f32)
    (xo : Vec Ideal S2x64 .f32) (q : Fin 64) :
    step (F := Ideal) x0 x1 x2 x3 xo (ix2 (0 : Fin 2) q)
      = xo (ix2 (0 : Fin 2) q) + ∑ p : Fin 10000, hBlk x0 x1 x2 x3 p q := by
  unfold step
  refine (canon_row0 _ _ [] q).trans ?_
  refine (pay3_apply x0 x1 x2 x3 (View.ld xo rowRect0) q).trans ?_
  exact congrArg (· + ∑ p : Fin 10000, hBlk x0 x1 x2 x3 p q) (congrArg xo (emb_row0 q))

/-- Row 1 after a point: the carried row 1 plus the column sums of the point's h². -/
theorem step_row1 (x0 x1 : Vec Ideal S10000x64 .f32) (x2 : Vec Ideal S64x64 .f32) (x3 : Vec Ideal S1x64 .f32)
    (xo : Vec Ideal S2x64 .f32) (q : Fin 64) :
    step (F := Ideal) x0 x1 x2 x3 xo (ix2 (1 : Fin 2) q)
      = xo (ix2 (1 : Fin 2) q) + ∑ p : Fin 10000, hBlk x0 x1 x2 x3 p q * hBlk x0 x1 x2 x3 p q := by
  unfold step
  refine (canon_row1 _ _ [] q).trans ?_
  refine (pay4_apply x0 x1 x2 x3 (View.ld xo rowRect1) q).trans ?_
  exact congrArg (· + ∑ p : Fin 10000, hBlk x0 x1 x2 x3 p q * hBlk x0 x1 x2 x3 p q) (congrArg xo (emb_row1 q))

/-! ## The blocks of the region's arrays -/

section Region

variable (V : (c : Dev nD) → (b : Ref sig .tc) → Buf (Elt Ideal) ((c : Thread nD τ).loc b))

/-- The block index of each window at point t: the two node arrays move down one block of rows per point; the weight
    matrix, the bias row and the output stay at block (0, 0). -/
theorem idx_facts : ∀ t : Fin cfg1.N,
    (win1_0.index t 0 = t.val ∧ win1_0.index t 1 = 0) ∧ (win1_1.index t 0 = t.val ∧ win1_1.index t 1 = 0)
    ∧ (win1_2.index t 0 = 0 ∧ win1_2.index t 1 = 0) ∧ (win1_3.index t 0 = 0 ∧ win1_3.index t 1 = 0)
    ∧ (win1_4.index t 0 = 0 ∧ win1_4.index t 1 = 0) :=
  (by decide +kernel : ∀ t : Fin grid1.N,
    (win1_0.index t 0 = t.val ∧ win1_0.index t 1 = 0) ∧ (win1_1.index t 0 = t.val ∧ win1_1.index t 1 = 0)
    ∧ (win1_2.index t 0 = 0 ∧ win1_2.index t 1 = 0) ∧ (win1_3.index t 0 = 0 ∧ win1_3.index t 1 = 0)
    ∧ (win1_4.index t 0 = 0 ∧ win1_4.index t 1 = 0))

/-- Row p of the first array's block at point t is its row 10000·t + p; -/
theorem blk_x (c : Dev nD) (t : Fin cfg1.N) (p : Fin 10000) (k : Fin 64) (hp : 10000 * t.val + p.val < 100000) :
    (iblk1 V c 0 t : Vec Ideal S10000x64 .f32) (ix2 p k) = V c main_arg0 (ix2 ⟨10000 * t.val + p.val, hp⟩ k) := by
  have hi := (idx_facts t).1
  unfold iblk1
  rw [View.read_apply]
  show V c main_arg0 _ = V c main_arg0 _
  refine congrArg (V c main_arg0) (funext fun a => Fin.ext ?_)
  match a with
  | ⟨0, _⟩ => show win1_0.index t 0 * 10000 + 1 * p.val = 10000 * t.val + p.val; rw [hi.1]; omega
  | ⟨1, _⟩ => show win1_0.index t 1 * 64 + 1 * k.val = k.val; rw [hi.2]; omega

/-- the same for the second array; -/
theorem blk_a (c : Dev nD) (t : Fin cfg1.N) (p : Fin 10000) (k : Fin 64) (hp : 10000 * t.val + p.val < 100000) :
    (iblk1 V c 1 t : Vec Ideal S10000x64 .f32) (ix2 p k) = V c main_v24 (ix2 ⟨10000 * t.val + p.val, hp⟩ k) := by
  have hi := (idx_facts t).2.1
  unfold iblk1
  rw [View.read_apply]
  show V c main_v24 _ = V c main_v24 _
  refine congrArg (V c main_v24) (funext fun a => Fin.ext ?_)
  match a with
  | ⟨0, _⟩ => show win1_1.index t 0 * 10000 + 1 * p.val = 10000 * t.val + p.val; rw [hi.1]; omega
  | ⟨1, _⟩ => show win1_1.index t 1 * 64 + 1 * k.val = k.val; rw [hi.2]; omega

/-- the weight matrix's one block is the matrix; -/
theorem blk_w (c : Dev nD) (t : Fin cfg1.N) (k q : Fin 64) :
    (iblk1 V c 2 t : Vec Ideal S64x64 .f32) (ix2 k q) = V c main_arg5 (ix2 k q) := by
  have hi := (idx_facts t).2.2.1
  unfold iblk1
  rw [View.read_apply]
  show V c main_arg5 _ = V c main_arg5 _
  refine congrArg (V c main_arg5) (funext fun a => Fin.ext ?_)
  match a with
  | ⟨0, _⟩ => show win1_2.index t 0 * 64 + 1 * k.val = k.val; rw [hi.1]; omega
  | ⟨1, _⟩ => show win1_2.index t 1 * 64 + 1 * q.val = q.val; rw [hi.2]; omega

/-- the bias row's one block is the row. -/
theorem blk_b (c : Dev nD) (t : Fin cfg1.N) (q : Fin 64) :
    (iblk1 V c 3 t : Vec Ideal S1x64 .f32) (ix2 (0 : Fin 1) q) = V c main_v5 (ix2 (0 : Fin 1) q) := by
  have hi := (idx_facts t).2.2.2.1
  unfold iblk1
  rw [View.read_apply]
  show V c main_v5 _ = V c main_v5 _
  refine congrArg (V c main_v5) (funext fun a => Fin.ext ?_)
  match a with
  | ⟨0, _⟩ => show win1_3.index t 0 * 1 + 1 * 0 = 0; rw [hi.1]
  | ⟨1, _⟩ => show win1_3.index t 1 * 64 + 1 * q.val = q.val; rw [hi.2]; omega

/-- h of the region's arrays, by node and channel. -/
abbrev H (c : Dev nD) : Fin 100000 → Fin 64 → EReal :=
  hOf (V c main_arg0) (V c main_v24) (V c main_arg5) (rowVec (V c main_v5))

/-- The same by the natural number of the row (0 past the last row: never read). -/
def Hn (c : Dev nD) (k : ℕ) (q : Fin 64) : EReal := if hk : k < 100000 then H V c ⟨k, hk⟩ q else 0

/-- h on the blocks of point t is h of the arrays at rows 10000·t + p. -/
theorem hBlk_point (c : Dev nD) (t : Fin cfg1.N) (p : Fin 10000) (q : Fin 64) :
    hBlk (iblk1 V c 0 t) (iblk1 V c 1 t) (iblk1 V c 2 t) (iblk1 V c 3 t) p q = Hn V c (10000 * t.val + p.val) q := by
  have hN : t.val < 10 := lt_of_lt_of_eq t.isLt (show cfg1.N = 10 from N_1)
  have hp : 10000 * t.val + p.val < 100000 := by have := p.isLt; omega
  unfold Hn
  rw [dif_pos hp]
  unfold hBlk H hOf
  exact congrArg₂ (· + ·)
    (Finset.sum_congr rfl fun k _ => congrArg₂ (· * ·) (congrArg₂ (· + ·) (blk_x V c t p k hp) (blk_a V c t p k hp)) (blk_w V c t k q))
    (blk_b V c t q)

theorem point_row0 (c : Dev nD) (t : Fin cfg1.N) (xo : Vec Ideal S2x64 .f32) (q : Fin 64) :
    step (F := Ideal) (iblk1 V c 0 t) (iblk1 V c 1 t) (iblk1 V c 2 t) (iblk1 V c 3 t) xo (ix2 (0 : Fin 2) q)
      = xo (ix2 (0 : Fin 2) q) + ∑ p : Fin 10000, Hn V c (10000 * t.val + p.val) q :=
  (step_row0 (iblk1 V c 0 t) (iblk1 V c 1 t) (iblk1 V c 2 t) (iblk1 V c 3 t) xo q).trans
    (congrArg (xo (ix2 (0 : Fin 2) q) + ·) (Finset.sum_congr rfl fun p _ => hBlk_point V c t p q))

theorem point_row1 (c : Dev nD) (t : Fin cfg1.N) (xo : Vec Ideal S2x64 .f32) (q : Fin 64) :
    step (F := Ideal) (iblk1 V c 0 t) (iblk1 V c 1 t) (iblk1 V c 2 t) (iblk1 V c 3 t) xo (ix2 (1 : Fin 2) q)
      = xo (ix2 (1 : Fin 2) q) + ∑ p : Fin 10000, Hn V c (10000 * t.val + p.val) q * Hn V c (10000 * t.val + p.val) q :=
  (step_row1 (iblk1 V c 0 t) (iblk1 V c 1 t) (iblk1 V c 2 t) (iblk1 V c 3 t) xo q).trans
    (congrArg (xo (ix2 (1 : Fin 2) q) + ·)
      (Finset.sum_congr rfl fun p _ => congrArg₂ (· * ·) (hBlk_point V c t p q) (hBlk_point V c t p q)))

/-! ## The accumulation -/

/-- After point n the block holds, in row 0, the zero word plus the sum of h over the first 10000·(n+1) rows, and in row 1
    the same for h²: the point adds its block of rows to what the points before left, and addition on the extended reals
    is associative. -/
theorem outsAt_rows (c : Dev nD) : ∀ (n : ℕ) (hn : n < cfg1.N) (q : Fin 64),
    outsAt1 V c n hn (ix2 (0 : Fin 2) q)
        = Ideal.ofBits .f32 0x00000000#32 + ∑ k ∈ Finset.range (10000 * (n + 1)), Hn V c k q
    ∧ outsAt1 V c n hn (ix2 (1 : Fin 2) q)
        = Ideal.ofBits .f32 0x00000000#32 + ∑ k ∈ Finset.range (10000 * (n + 1)), Hn V c k q * Hn V c k q
  | 0, hn, q => by
    have e : outsAt1 V c 0 hn = step (F := Ideal) (iblk1 V c 0 ⟨0, hn⟩) (iblk1 V c 1 ⟨0, hn⟩) (iblk1 V c 2 ⟨0, hn⟩) (iblk1 V c 3 ⟨0, hn⟩) (k1_pay1 (F := Ideal)) :=
      (outsAt1_A V c ⟨0, hn⟩ rfl).trans
        (out_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩))
    rw [e]
    refine ⟨(point_row0 V c ⟨0, hn⟩ (k1_pay1 (F := Ideal)) q).trans ?_, (point_row1 V c ⟨0, hn⟩ (k1_pay1 (F := Ideal)) q).trans ?_⟩
    · exact congrArg (Ideal.ofBits .f32 0x00000000#32 + ·) (Cert.Lib.BlockSum.sum_first_block (fun k => Hn V c k q) 10000)
    · exact congrArg (Ideal.ofBits .f32 0x00000000#32 + ·) (Cert.Lib.BlockSum.sum_first_block (fun k => Hn V c k q * Hn V c k q) 10000)
  | n + 1, hn, q => by
    have hN : cfg1.N = 10 := N_1
    have hB : ¬(⟨n + 1, hn⟩ : Fin cfg1.N).val % 10 = 0 := by dsimp only; omega
    have e : outsAt1 V c (n + 1) hn = step (F := Ideal) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)) :=
      (outsAt1_B V c ⟨n + 1, hn⟩ hB).trans
        (out_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => hB ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
          (outsAt1 V c n (Nat.lt_of_succ_lt hn)))
    obtain ⟨ih0, ih1⟩ := outsAt_rows c n (Nat.lt_of_succ_lt hn) q
    rw [e]
    refine ⟨(point_row0 V c ⟨n + 1, hn⟩ _ q).trans ?_, (point_row1 V c ⟨n + 1, hn⟩ _ q).trans ?_⟩
    · rw [ih0, add_assoc]
      exact congrArg (Ideal.ofBits .f32 0x00000000#32 + ·) (Cert.Lib.BlockSum.sum_range_block (fun k => Hn V c k q) 10000 (n + 1))
    · rw [ih1, add_assoc]
      exact congrArg (Ideal.ofBits .f32 0x00000000#32 + ·) (Cert.Lib.BlockSum.sum_range_block (fun k => Hn V c k q * Hn V c k q) 10000 (n + 1))

/-- After the last point the block is the pair of column sums over all 100000 rows: the zero word is 0. -/
theorem outsAt_last (c : Dev nD) (n : ℕ) (hn : n < cfg1.N) (h9 : n = 9) : outsAt1 V c n hn = statsArr (H V c) := by
  subst h9
  funext j
  obtain ⟨r, q, rfl⟩ : ∃ (r : Fin 2) (q : Fin 64), j = ix2 r q := ⟨j 0, j 1, eq_ix2 j⟩
  obtain ⟨e0, e1⟩ := outsAt_rows V c 9 hn q
  match r with
  | ⟨0, _⟩ =>
    refine e0.trans ?_
    show _ = ∑ n : Fin 100000, H V c n q
    rw [Cert.RowLaw.ofBits_zero, zero_add, show 10000 * (9 + 1) = 100000 from rfl, Finset.sum_range]
    exact Finset.sum_congr rfl fun n _ => dif_pos n.isLt
  | ⟨1, _⟩ =>
    refine e1.trans ?_
    show _ = ∑ n : Fin 100000, H V c n q * H V c n q
    rw [Cert.RowLaw.ofBits_zero, zero_add, show 10000 * (9 + 1) = 100000 from rfl, Finset.sum_range]
    exact Finset.sum_congr rfl fun n _ => congrArg₂ (· * ·) (dif_pos n.isLt) (dif_pos n.isLt)

/-! ## The output array -/

/-- The one write-back, at the last point, writes the pair of column sums: the output's one block is the whole array. -/
theorem flushed_eq (c : Dev nD) (t : Fin cfg1.N) (hf : (cfg1.win 4).flush t = true) :
    (dat1 (F := Ideal) V c).flushed 4 t = ((cfg1.win 4).blk t).view.read (Elt Ideal) (statsArr (H V c)) := by
  have hN : cfg1.N = 10 := N_1
  have h9 : t.val = 9 := by have := (flush1_4 t).mp hf; have := t.isLt; omega
  obtain rfl : t = t1_9 := Fin.ext h9
  show (cfg1.win 4).cut (grid1.coords t1_9) ((dat1 V c).after 4 t1_9) = _
  rw [after1_4, outsAt_last V c t1_9.val t1_9.isLt h9]
  have hz' : (fun a => win1_4.index t1_9 a * main_v25.ty.shape.size a) = fun _ => 0 := funext fun a => by fin_cases a <;> decide
  exact (Memref.read_access_unit_zero (Elt Ideal) main_v25 hz' (fun a => by rw [congrFun hz' a]; simp) (statsArr (H V c))).symm

end Region

end Stats1

open Stats1

variable (V : (c : Dev nD) → (b : Ref sig .tc) → Buf (Elt Ideal) ((c : Thread nD τ).loc b))

/-- Region 1 leaves, in its output array, the column sums of h and of h² over all the rows of the arrays it was entered
    with. -/
theorem final1 (c : Dev nD) : (dat1 (F := Ideal) V c).arrAt 4 cfg1.N
    = statsArr (hOf (V c main_arg0) (V c main_v24) (V c main_arg5) (rowVec (V c main_v5))) :=
  (dat1 (F := Ideal) V c).arrAt_eq_of_cover 4 (statsArr (H V c)) (flushed_eq V c) fun i =>
    ⟨t1_9, (flush1_4 t1_9).mpr rfl, by
      show i ∈ ((View.whole main_v25).slice (win1_4.rect t1_9)).set
      rw [View.set_slice_whole, Rect.mem_set_unit]
      intro a
      have h0 : (i 0 : Nat) < 2 := (i 0).isLt
      have h1 : (i 1 : Nat) < 64 := (i 1).isLt
      match a with
      | ⟨0, _⟩ => show win1_4.index t1_9 0 * win1_4.size 0 ≤ (i 0 : Nat) ∧ (i 0 : Nat) < win1_4.index t1_9 0 * win1_4.size 0 + win1_4.xsize (grid1.coords t1_9) 0
                  rw [show win1_4.index t1_9 0 * win1_4.size 0 = 0 from by decide +kernel, show win1_4.xsize (grid1.coords t1_9) 0 = 2 from by decide +kernel]; omega
      | ⟨1, _⟩ => show win1_4.index t1_9 1 * win1_4.size 1 ≤ (i 1 : Nat) ∧ (i 1 : Nat) < win1_4.index t1_9 1 * win1_4.size 1 + win1_4.xsize (grid1.coords t1_9) 1
                  rw [show win1_4.index t1_9 1 * win1_4.size 1 = 0 from by decide +kernel, show win1_4.xsize (grid1.coords t1_9) 1 = 64 from by decide +kernel]; omega⟩

end Cert.KernelIdeal.KValue
end
-- ==== Proof.StatsRegion4.lean ====
/-
  The value of the second statistics region of the idealized kernel program, over the extended reals.

  The region walks 10 grid points over blocks of 10000 rows of two node arrays x and agg [100000, 64]; its weight matrix
  W [64, 64], its bias row b [1, 64] and its output [2, 64] each have ONE block, the whole array, and the output block is
  carried from point to point.  At a point the body computes, on the point's rows,

      h(n, d) = Σ_k (x(n, k) + agg(n, k)) · W(k, d) + b(d)

  (the rounding of the operands of the product to a narrower format is the identity on the extended reals, and the product
  accumulates into zeros), and adds to row 0 of the output block the column sums Σ_n h(n, d) over the point's rows and to
  row 1 the column sums of h(n, d)².  The first point stores the zero block first, so it adds to zeros; every other point
  adds to what the point before left.

  So after point t row 0 holds the zero word plus the sum of h over the first 10000·(t+1) rows, the additions nested to the
  left — and addition on the extended reals is commutative and associative with no finiteness hypothesis, so that is the
  zero word plus one sum over those rows (induction on the point; a sum over the first B·(j+1) numbers is the sum over the
  first B·j plus block j).  Row 1 likewise for h².  After the last point the rows are all 100000; the zero word is 0; the one
  write-back, at the last point, covers the whole output array.  Hence the array ends holding the pair of column sums of h
  and of h² over all rows: `Cert.Gine.statsArr` of `Cert.Gine.hOf` of the arrays the region was entered with.
-/
import proofs.«157355_j13657996001716_2_alg».proof.Proof.Gen.KernelIdeal.Frame
import proofs.«157355_j13657996001716_2_alg».proof.Proof.Spec
import proofs.«157355_j13657996001716_2_alg».proof.Proof.LibPlainDot
import proofs.«157355_j13657996001716_2_alg».proof.Proof.LibAxisSums
import proofs.«157355_j13657996001716_2_alg».proof.Proof.LibRowLayout
import proofs.«157355_j13657996001716_2_alg».proof.Proof.LibBlockSum
import proofs.«157355_j13657996001716_2_alg».proof.Proof.LibRsqrtDiv
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.Gine Idealize.ShloMosaic.ValueIdx

namespace Stats4

theorem hz : (![0, 0] : Fin 2 → Nat) = fun _ => 0 := funext fun a => by fin_cases a <;> rfl

/-- Row 0 and row 1 of the [2, 64] block, as the rectangles the body's row stores go through. -/
abbrev rowRect0 : Rect S2x64 := Rect.unit (s := S2x64) ![0, 0] S1x64.size inb_S2x64_S1x64_0_0
abbrev rowRect1 : Rect S2x64 := Rect.unit (s := S2x64) ![1, 0] S1x64.size inb_S2x64_S1x64_1_0

theorem emb_row0 (q : Fin 64) : rowRect0.emb (ix2 (0 : Fin 1) q) = (ix2 (0 : Fin 2) q : S2x64.Idx) :=
  funext fun a => Fin.ext (by
    match a with
    | ⟨0, _⟩ => rfl
    | ⟨1, _⟩ => show 0 + 1 * q.val = q.val; omega)

theorem emb_row1 (q : Fin 64) : rowRect1.emb (ix2 (0 : Fin 1) q) = (ix2 (1 : Fin 2) q : S2x64.Idx) :=
  funext fun a => Fin.ext (by
    match a with
    | ⟨0, _⟩ => rfl
    | ⟨1, _⟩ => show 0 + 1 * q.val = q.val; omega)

theorem row0_not_mem_row1 (q : Fin 64) : (ix2 (0 : Fin 2) q : S2x64.Idx) ∉ rowRect1.set := by
  rw [Rect.mem_set_unit]
  intro h
  exact Nat.not_succ_le_zero 0 (h 0).1

variable {F : FTy → Type} [FloatOps F]

/-- Two row stores, row 1 after row 0, over anything earlier: row 0 reads the row-0 payload, -/
theorem canon_row0 (w1 w0 : S1x64.Idx → Elt F .f32) (L : List (View.Piece (Elt F) S2x64 .f32)) (q : Fin 64) :
    View.canon ((⟨rowRect1, w1⟩ : View.Piece (Elt F) S2x64 .f32) :: ⟨rowRect0, w0⟩ :: L) (ix2 (0 : Fin 2) q) = w0 (ix2 (0 : Fin 1) q) := by
  refine (View.canon_cons_of_not_mem (⟨rowRect1, w1⟩ : View.Piece (Elt F) S2x64 .f32) (⟨rowRect0, w0⟩ :: L) (row0_not_mem_row1 q)).trans ?_
  rw [← emb_row0 q]
  exact View.canon_cons_emb rowRect0 w0 L (ix2 (0 : Fin 1) q)

/-- and row 1 the row-1 payload. -/
theorem canon_row1 (w1 w0 : S1x64.Idx → Elt F .f32) (L : List (View.Piece (Elt F) S2x64 .f32)) (q : Fin 64) :
    View.canon ((⟨rowRect1, w1⟩ : View.Piece (Elt F) S2x64 .f32) :: ⟨rowRect0, w0⟩ :: L) (ix2 (1 : Fin 2) q) = w1 (ix2 (0 : Fin 1) q) := by
  rw [← emb_row1 q]
  exact View.canon_cons_emb rowRect1 w1 _ (ix2 (0 : Fin 1) q)

/-- The whole [2, 64] block as a store's rectangle. -/
abbrev wholeRect : Rect S2x64 := Rect.unit (s := S2x64) ![0, 0] S2x64.size inb_S2x64_S2x64_0_0

theorem row1_not_mem_row0 (x : rowRect1.shape.Idx) : rowRect1.idx x ∉ rowRect0.set := by
  rw [Rect.mem_set_unit]
  intro h
  have h2 : 1 + 1 * (x 0).val < 0 + 1 := (h 0).2
  omega

theorem mem_wholeRect (y : S2x64.Idx) : y ∈ wholeRect.set := View.mem_set_unit_zero hz _ y

/-- A load of row 0 after a store of the whole block reads that store's row 0; -/
theorem readCov_whole_row0 {κ : Kind} {sp : Space} (v : View sig κ sp S2x64 .f32) (w : S2x64.Idx → Elt F .f32) :
    v.readCov [(⟨wholeRect, w⟩ : View.Piece (Elt F) S2x64 .f32)] rowRect0.toLoadRect = View.ld w rowRect0 := by
  have hcov : ∀ y : S2x64.Idx, ∃ p ∈ [(⟨wholeRect, w⟩ : View.Piece (Elt F) S2x64 .f32)], y ∈ p.1.set :=
    fun y => ⟨(⟨wholeRect, w⟩ : View.Piece (Elt F) S2x64 .f32), List.mem_singleton_self _, mem_wholeRect y⟩
  rw [View.readCov_eq_canon_ld v _ rowRect0 hcov, View.canon_unit_zero hz]

/-- a load of row 1 after a store of the whole block and then one of row 0 reads the whole-block store's row 1. -/
theorem readCov_row0_whole_row1 {κ : Kind} {sp : Space} (v : View sig κ sp S2x64 .f32) (w0 : S1x64.Idx → Elt F .f32)
    (w : S2x64.Idx → Elt F .f32) :
    v.readCov [(⟨rowRect0, w0⟩ : View.Piece (Elt F) S2x64 .f32), ⟨wholeRect, w⟩] rowRect1.toLoadRect = View.ld w rowRect1 := by
  have hcov : ∀ y : S2x64.Idx, ∃ p ∈ [(⟨rowRect0, w0⟩ : View.Piece (Elt F) S2x64 .f32), ⟨wholeRect, w⟩], y ∈ p.1.set :=
    fun y => ⟨(⟨wholeRect, w⟩ : View.Piece (Elt F) S2x64 .f32), List.mem_cons_of_mem _ (List.mem_singleton_self _), mem_wholeRect y⟩
  rw [View.readCov_eq_canon_ld v _ rowRect1 hcov]
  funext x
  show View.canon [(⟨rowRect0, w0⟩ : View.Piece (Elt F) S2x64 .f32), ⟨wholeRect, w⟩] (rowRect1.idx x) = w (rowRect1.idx x)
  rw [View.canon_cons_of_not_mem (⟨rowRect0, w0⟩ : View.Piece (Elt F) S2x64 .f32) [⟨wholeRect, w⟩] (row1_not_mem_row0 x),
    View.canon_unit_zero hz]

/-- What one grid point leaves in the output block that held `xo`: row 0 plus the column sums of the point's h, row 1 plus
    those of its squares (the row-1 store is the later one). -/
def step (x0 x1 : Vec F S10000x64 .f32) (x2 : Vec F S64x64 .f32) (x3 : Vec F S1x64 .f32) (xo : Vec F S2x64 .f32) :
    Vec F S2x64 .f32 :=
  View.canon [(⟨rowRect1, k4_pay4 x0 x1 x2 x3 (View.ld xo rowRect1)⟩ : View.Piece (Elt F) S2x64 .f32),
    ⟨rowRect0, k4_pay3 x0 x1 x2 x3 (View.ld xo rowRect0)⟩]

/-- A point other than the first: the block carried from the point before, stepped. -/
theorem out_B (c : Dev nD) (i : grid4.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S2x64 .f32) (h5 : a5.IsWhole) (hc : ¬cond4_0 i)
    (x0 x1 : Vec F S10000x64 .f32) (x2 : Vec F S64x64 .f32) (x3 : Vec F S1x64 .f32) (xo : Vec F S2x64 .f32) :
    out4_B_4 c i a1 h1 a2 h2 a3 h3 a4 h4 a5 h5 hc x0 x1 x2 x3 xo = step x0 x1 x2 x3 xo := by
  unfold out4_B_4
  rw [View.read_writes_eq_canon _ _ _ (cover4_B_4 c i a1 h1 a2 h2 a3 h3 a4 h4 a5 h5 hc x0 x1 x2 x3 xo)]
  unfold kernelRun4_B
  dsimp only
  sl_unfold_words
  simp only [View.readAt_eq_ld, h1.read_unread, h2.read_unread, h3.read_unread, h4.read_unread, h5.read_unread,
    View.ld_unit_zero (S := S10000x64) hz, View.ld_unit_zero (S := S64x64) hz, View.ld_unit_zero (S := S1x64) hz]
  rfl

/-- The first point: the zero block, stepped. The two row loads read the zero block back through the stores before them. -/
theorem out_A (c : Dev nD) (i : grid4.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S2x64 .f32) (h5 : a5.IsWhole) (hc : cond4_0 i)
    (x0 x1 : Vec F S10000x64 .f32) (x2 : Vec F S64x64 .f32) (x3 : Vec F S1x64 .f32) :
    out4_A_4 c i a1 h1 a2 h2 a3 h3 a4 h4 a5 h5 hc x0 x1 x2 x3 = step x0 x1 x2 x3 (k4_pay1 (F := F)) := by
  unfold out4_A_4
  rw [View.read_writes_eq_canon _ _ _ (cover4_A_4 c i a1 h1 a2 h2 a3 h3 a4 h4 a5 h5 hc x0 x1 x2 x3)]
  unfold kernelRun4_A
  dsimp only
  sl_unfold_words
  simp only [View.readAt_eq_ld, h1.read_unread, h2.read_unread, h3.read_unread, h4.read_unread,
    View.ld_unit_zero (S := S10000x64) hz, View.ld_unit_zero (S := S64x64) hz, View.ld_unit_zero (S := S1x64) hz]
  rw [readCov_row0_whole_row1, readCov_whole_row0]
  funext y
  obtain ⟨r, q, rfl⟩ : ∃ (r : Fin 2) (q : Fin 64), y = ix2 r q := ⟨y 0, y 1, eq_ix2 y⟩
  unfold step
  match r with
  | ⟨0, _⟩ => exact (canon_row0 _ _ _ q).trans (canon_row0 _ _ _ q).symm
  | ⟨1, _⟩ => exact (canon_row1 _ _ _ q).trans (canon_row1 _ _ _ q).symm

/-- The first dense layer on a block of 10000 rows: row p of (x0 + x1) against column q of x2, plus the bias row. -/
def hBlk (x0 x1 : FVec Ideal S10000x64 .f32) (x2 : FVec Ideal S64x64 .f32) (x3 : FVec Ideal S1x64 .f32)
    (p : Fin 10000) (q : Fin 64) : EReal :=
  (∑ k : Fin 64, (x0 (ix2 p k) + x1 (ix2 p k)) * x2 (ix2 k q)) + x3 (ix2 (0 : Fin 1) q)

/-- The body's h at (p, q): the rounding to the narrower format is the identity on the extended reals, the product
    accumulates into zeros, and the bias row is repeated down the rows. -/
theorem pay2_apply (x0 x1 : FVec Ideal S10000x64 .f32) (x2 : FVec Ideal S64x64 .f32) (x3 : FVec Ideal S1x64 .f32)
    (p : Fin 10000) (q : Fin 64) :
    k4_pay2 (F := Ideal) x0 x1 x2 x3 (ix2 p q) = hBlk x0 x1 x2 x3 p q := by
  unfold k4_pay2 hBlk
  refine congrArg₂ (· + ·) ?_ ?_
  · refine (Cert.Lib.matmul_zero_apply dot_S10000x64_S64x64_S10000x64_1_0_0_1_n_n_wf none _ _ p q).trans ?_
    refine Finset.sum_congr rfl fun k _ => ?_
    have e0 : shapeCast S10000x64 x0 shapeCasts_S10000x64_S10000x64 = x0 := shapeCast_self _ _
    have e : shapeCast S10000x64 x1 shapeCasts_S10000x64_S10000x64 = x1 := shapeCast_self _ _
    show ((shapeCast S10000x64 x0 shapeCasts_S10000x64_S10000x64) (ix2 p k)
      + (shapeCast S10000x64 x1 shapeCasts_S10000x64_S10000x64) (ix2 p k)) * x2 (ix2 k q) = _
    rw [e0, e]
  · exact (Cert.Lib.rowBroadcast_apply _ _ p q).trans (congrFun (shapeCast_self x3 _) (ix2 (0 : Fin 1) q))

/-- The row-0 payload at column q: the carried row plus the column sum of h over the block. -/
theorem pay3_apply (x0 x1 : FVec Ideal S10000x64 .f32) (x2 : FVec Ideal S64x64 .f32) (x3 v : FVec Ideal S1x64 .f32)
    (q : Fin 64) :
    k4_pay3 (F := Ideal) x0 x1 x2 x3 v (ix2 (0 : Fin 1) q) = v (ix2 (0 : Fin 1) q) + ∑ p : Fin 10000, hBlk x0 x1 x2 x3 p q := by
  unfold k4_pay3
  refine congrArg₂ (· + ·) (congrFun (shapeCast_self v _) (ix2 (0 : Fin 1) q)) ?_
  refine (Cert.Lib.vecToRow_apply _ _ q).trans ?_
  refine (Cert.Lib.colSum_apply _ _ _ _ _ q).trans ?_
  exact Finset.sum_congr rfl fun p _ => pay2_apply x0 x1 x2 x3 p q

/-- The row-1 payload at column q: the carried row plus the column sum of h² over the block. -/
theorem pay4_apply (x0 x1 : FVec Ideal S10000x64 .f32) (x2 : FVec Ideal S64x64 .f32) (x3 v : FVec Ideal S1x64 .f32)
    (q : Fin 64) :
    k4_pay4 (F := Ideal) x0 x1 x2 x3 v (ix2 (0 : Fin 1) q)
      = v (ix2 (0 : Fin 1) q) + ∑ p : Fin 10000, hBlk x0 x1 x2 x3 p q * hBlk x0 x1 x2 x3 p q := by
  unfold k4_pay4
  refine congrArg₂ (· + ·) (congrFun (shapeCast_self v _) (ix2 (0 : Fin 1) q)) ?_
  refine (Cert.Lib.vecToRow_apply _ _ q).trans ?_
  refine (Cert.Lib.colSum_apply _ _ _ _ _ q).trans ?_
  exact Finset.sum_congr rfl fun p _ => congrArg₂ (· * ·) (pay2_apply x0 x1 x2 x3 p q) (pay2_apply x0 x1 x2 x3 p q)

/-! ## One point, over the extended reals -/

/-- Row 0 after a point: the carried row 0 plus the column sums of the point's h. -/
theorem step_row0 (x0 x1 : Vec Ideal S10000x64 .f32) (x2 : Vec Ideal S64x64 .f32) (x3 : Vec Ideal S1x64 .f32)
    (xo : Vec Ideal S2x64 .f32) (q : Fin 64) :
    step (F := Ideal) x0 x1 x2 x3 xo (ix2 (0 : Fin 2) q)
      = xo (ix2 (0 : Fin 2) q) + ∑ p : Fin 10000, hBlk x0 x1 x2 x3 p q := by
  unfold step
  refine (canon_row0 _ _ [] q).trans ?_
  refine (pay3_apply x0 x1 x2 x3 (View.ld xo rowRect0) q).trans ?_
  exact congrArg (· + ∑ p : Fin 10000, hBlk x0 x1 x2 x3 p q) (congrArg xo (emb_row0 q))

/-- Row 1 after a point: the carried row 1 plus the column sums of the point's h². -/
theorem step_row1 (x0 x1 : Vec Ideal S10000x64 .f32) (x2 : Vec Ideal S64x64 .f32) (x3 : Vec Ideal S1x64 .f32)
    (xo : Vec Ideal S2x64 .f32) (q : Fin 64) :
    step (F := Ideal) x0 x1 x2 x3 xo (ix2 (1 : Fin 2) q)
      = xo (ix2 (1 : Fin 2) q) + ∑ p : Fin 10000, hBlk x0 x1 x2 x3 p q * hBlk x0 x1 x2 x3 p q := by
  unfold step
  refine (canon_row1 _ _ [] q).trans ?_
  refine (pay4_apply x0 x1 x2 x3 (View.ld xo rowRect1) q).trans ?_
  exact congrArg (· + ∑ p : Fin 10000, hBlk x0 x1 x2 x3 p q * hBlk x0 x1 x2 x3 p q) (congrArg xo (emb_row1 q))

/-! ## The blocks of the region's arrays -/

section Region

variable (V : (c : Dev nD) → (b : Ref sig .tc) → Buf (Elt Ideal) ((c : Thread nD τ).loc b))

/-- The block index of each window at point t: the two node arrays move down one block of rows per point; the weight
    matrix, the bias row and the output stay at block (0, 0). -/
theorem idx_facts : ∀ t : Fin cfg4.N,
    (win4_0.index t 0 = t.val ∧ win4_0.index t 1 = 0) ∧ (win4_1.index t 0 = t.val ∧ win4_1.index t 1 = 0)
    ∧ (win4_2.index t 0 = 0 ∧ win4_2.index t 1 = 0) ∧ (win4_3.index t 0 = 0 ∧ win4_3.index t 1 = 0)
    ∧ (win4_4.index t 0 = 0 ∧ win4_4.index t 1 = 0) :=
  (by decide +kernel : ∀ t : Fin grid4.N,
    (win4_0.index t 0 = t.val ∧ win4_0.index t 1 = 0) ∧ (win4_1.index t 0 = t.val ∧ win4_1.index t 1 = 0)
    ∧ (win4_2.index t 0 = 0 ∧ win4_2.index t 1 = 0) ∧ (win4_3.index t 0 = 0 ∧ win4_3.index t 1 = 0)
    ∧ (win4_4.index t 0 = 0 ∧ win4_4.index t 1 = 0))

/-- Row p of the first array's block at point t is its row 10000·t + p; -/
theorem blk_x (c : Dev nD) (t : Fin cfg4.N) (p : Fin 10000) (k : Fin 64) (hp : 10000 * t.val + p.val < 100000) :
    (iblk4 V c 0 t : Vec Ideal S10000x64 .f32) (ix2 p k) = V c main_v36 (ix2 ⟨10000 * t.val + p.val, hp⟩ k) := by
  have hi := (idx_facts t).1
  unfold iblk4
  rw [View.read_apply]
  show V c main_v36 _ = V c main_v36 _
  refine congrArg (V c main_v36) (funext fun a => Fin.ext ?_)
  match a with
  | ⟨0, _⟩ => show win4_0.index t 0 * 10000 + 1 * p.val = 10000 * t.val + p.val; rw [hi.1]; omega
  | ⟨1, _⟩ => show win4_0.index t 1 * 64 + 1 * k.val = k.val; rw [hi.2]; omega

/-- the same for the second array; -/
theorem blk_a (c : Dev nD) (t : Fin cfg4.N) (p : Fin 10000) (k : Fin 64) (hp : 10000 * t.val + p.val < 100000) :
    (iblk4 V c 1 t : Vec Ideal S10000x64 .f32) (ix2 p k) = V c main_v47 (ix2 ⟨10000 * t.val + p.val, hp⟩ k) := by
  have hi := (idx_facts t).2.1
  unfold iblk4
  rw [View.read_apply]
  show V c main_v47 _ = V c main_v47 _
  refine congrArg (V c main_v47) (funext fun a => Fin.ext ?_)
  match a with
  | ⟨0, _⟩ => show win4_1.index t 0 * 10000 + 1 * p.val = 10000 * t.val + p.val; rw [hi.1]; omega
  | ⟨1, _⟩ => show win4_1.index t 1 * 64 + 1 * k.val = k.val; rw [hi.2]; omega

/-- the weight matrix's one block is the matrix; -/
theorem blk_w (c : Dev nD) (t : Fin cfg4.N) (k q : Fin 64) :
    (iblk4 V c 2 t : Vec Ideal S64x64 .f32) (ix2 k q) = V c main_arg13 (ix2 k q) := by
  have hi := (idx_facts t).2.2.1
  unfold iblk4
  rw [View.read_apply]
  show V c main_arg13 _ = V c main_arg13 _
  refine congrArg (V c main_arg13) (funext fun a => Fin.ext ?_)
  match a with
  | ⟨0, _⟩ => show win4_2.index t 0 * 64 + 1 * k.val = k.val; rw [hi.1]; omega
  | ⟨1, _⟩ => show win4_2.index t 1 * 64 + 1 * q.val = q.val; rw [hi.2]; omega

/-- the bias row's one block is the row. -/
theorem blk_b (c : Dev nD) (t : Fin cfg4.N) (q : Fin 64) :
    (iblk4 V c 3 t : Vec Ideal S1x64 .f32) (ix2 (0 : Fin 1) q) = V c main_v10 (ix2 (0 : Fin 1) q) := by
  have hi := (idx_facts t).2.2.2.1
  unfold iblk4
  rw [View.read_apply]
  show V c main_v10 _ = V c main_v10 _
  refine congrArg (V c main_v10) (funext fun a => Fin.ext ?_)
  match a with
  | ⟨0, _⟩ => show win4_3.index t 0 * 1 + 1 * 0 = 0; rw [hi.1]
  | ⟨1, _⟩ => show win4_3.index t 1 * 64 + 1 * q.val = q.val; rw [hi.2]; omega

/-- h of the region's arrays, by node and channel. -/
abbrev H (c : Dev nD) : Fin 100000 → Fin 64 → EReal :=
  hOf (V c main_v36) (V c main_v47) (V c main_arg13) (rowVec (V c main_v10))

/-- The same by the natural number of the row (0 past the last row: never read). -/
def Hn (c : Dev nD) (k : ℕ) (q : Fin 64) : EReal := if hk : k < 100000 then H V c ⟨k, hk⟩ q else 0

/-- h on the blocks of point t is h of the arrays at rows 10000·t + p. -/
theorem hBlk_point (c : Dev nD) (t : Fin cfg4.N) (p : Fin 10000) (q : Fin 64) :
    hBlk (iblk4 V c 0 t) (iblk4 V c 1 t) (iblk4 V c 2 t) (iblk4 V c 3 t) p q = Hn V c (10000 * t.val + p.val) q := by
  have hN : t.val < 10 := lt_of_lt_of_eq t.isLt (show cfg4.N = 10 from N_4)
  have hp : 10000 * t.val + p.val < 100000 := by have := p.isLt; omega
  unfold Hn
  rw [dif_pos hp]
  unfold hBlk H hOf
  exact congrArg₂ (· + ·)
    (Finset.sum_congr rfl fun k _ => congrArg₂ (· * ·) (congrArg₂ (· + ·) (blk_x V c t p k hp) (blk_a V c t p k hp)) (blk_w V c t k q))
    (blk_b V c t q)

theorem point_row0 (c : Dev nD) (t : Fin cfg4.N) (xo : Vec Ideal S2x64 .f32) (q : Fin 64) :
    step (F := Ideal) (iblk4 V c 0 t) (iblk4 V c 1 t) (iblk4 V c 2 t) (iblk4 V c 3 t) xo (ix2 (0 : Fin 2) q)
      = xo (ix2 (0 : Fin 2) q) + ∑ p : Fin 10000, Hn V c (10000 * t.val + p.val) q :=
  (step_row0 (iblk4 V c 0 t) (iblk4 V c 1 t) (iblk4 V c 2 t) (iblk4 V c 3 t) xo q).trans
    (congrArg (xo (ix2 (0 : Fin 2) q) + ·) (Finset.sum_congr rfl fun p _ => hBlk_point V c t p q))

theorem point_row1 (c : Dev nD) (t : Fin cfg4.N) (xo : Vec Ideal S2x64 .f32) (q : Fin 64) :
    step (F := Ideal) (iblk4 V c 0 t) (iblk4 V c 1 t) (iblk4 V c 2 t) (iblk4 V c 3 t) xo (ix2 (1 : Fin 2) q)
      = xo (ix2 (1 : Fin 2) q) + ∑ p : Fin 10000, Hn V c (10000 * t.val + p.val) q * Hn V c (10000 * t.val + p.val) q :=
  (step_row1 (iblk4 V c 0 t) (iblk4 V c 1 t) (iblk4 V c 2 t) (iblk4 V c 3 t) xo q).trans
    (congrArg (xo (ix2 (1 : Fin 2) q) + ·)
      (Finset.sum_congr rfl fun p _ => congrArg₂ (· * ·) (hBlk_point V c t p q) (hBlk_point V c t p q)))

/-! ## The accumulation -/

/-- After point n the block holds, in row 0, the zero word plus the sum of h over the first 10000·(n+1) rows, and in row 1
    the same for h²: the point adds its block of rows to what the points before left, and addition on the extended reals
    is associative. -/
theorem outsAt_rows (c : Dev nD) : ∀ (n : ℕ) (hn : n < cfg4.N) (q : Fin 64),
    outsAt4 V c n hn (ix2 (0 : Fin 2) q)
        = Ideal.ofBits .f32 0x00000000#32 + ∑ k ∈ Finset.range (10000 * (n + 1)), Hn V c k q
    ∧ outsAt4 V c n hn (ix2 (1 : Fin 2) q)
        = Ideal.ofBits .f32 0x00000000#32 + ∑ k ∈ Finset.range (10000 * (n + 1)), Hn V c k q * Hn V c k q
  | 0, hn, q => by
    have e : outsAt4 V c 0 hn = step (F := Ideal) (iblk4 V c 0 ⟨0, hn⟩) (iblk4 V c 1 ⟨0, hn⟩) (iblk4 V c 2 ⟨0, hn⟩) (iblk4 V c 3 ⟨0, hn⟩) (k4_pay1 (F := Ideal)) :=
      (outsAt4_A V c ⟨0, hn⟩ rfl).trans
        (out_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) ((hcond4_0 ⟨0, hn⟩).mpr rfl) (iblk4 V c 0 ⟨0, hn⟩) (iblk4 V c 1 ⟨0, hn⟩) (iblk4 V c 2 ⟨0, hn⟩) (iblk4 V c 3 ⟨0, hn⟩))
    rw [e]
    refine ⟨(point_row0 V c ⟨0, hn⟩ (k4_pay1 (F := Ideal)) q).trans ?_, (point_row1 V c ⟨0, hn⟩ (k4_pay1 (F := Ideal)) q).trans ?_⟩
    · exact congrArg (Ideal.ofBits .f32 0x00000000#32 + ·) (Cert.Lib.BlockSum.sum_first_block (fun k => Hn V c k q) 10000)
    · exact congrArg (Ideal.ofBits .f32 0x00000000#32 + ·) (Cert.Lib.BlockSum.sum_first_block (fun k => Hn V c k q * Hn V c k q) 10000)
  | n + 1, hn, q => by
    have hN : cfg4.N = 10 := N_4
    have hB : ¬(⟨n + 1, hn⟩ : Fin cfg4.N).val % 10 = 0 := by dsimp only; omega
    have e : outsAt4 V c (n + 1) hn = step (F := Ideal) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)) :=
      (outsAt4_B V c ⟨n + 1, hn⟩ hB).trans
        (out_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => hB ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩)
          (outsAt4 V c n (Nat.lt_of_succ_lt hn)))
    obtain ⟨ih0, ih1⟩ := outsAt_rows c n (Nat.lt_of_succ_lt hn) q
    rw [e]
    refine ⟨(point_row0 V c ⟨n + 1, hn⟩ _ q).trans ?_, (point_row1 V c ⟨n + 1, hn⟩ _ q).trans ?_⟩
    · rw [ih0, add_assoc]
      exact congrArg (Ideal.ofBits .f32 0x00000000#32 + ·) (Cert.Lib.BlockSum.sum_range_block (fun k => Hn V c k q) 10000 (n + 1))
    · rw [ih1, add_assoc]
      exact congrArg (Ideal.ofBits .f32 0x00000000#32 + ·) (Cert.Lib.BlockSum.sum_range_block (fun k => Hn V c k q * Hn V c k q) 10000 (n + 1))

/-- After the last point the block is the pair of column sums over all 100000 rows: the zero word is 0. -/
theorem outsAt_last (c : Dev nD) (n : ℕ) (hn : n < cfg4.N) (h9 : n = 9) : outsAt4 V c n hn = statsArr (H V c) := by
  subst h9
  funext j
  obtain ⟨r, q, rfl⟩ : ∃ (r : Fin 2) (q : Fin 64), j = ix2 r q := ⟨j 0, j 1, eq_ix2 j⟩
  obtain ⟨e0, e1⟩ := outsAt_rows V c 9 hn q
  match r with
  | ⟨0, _⟩ =>
    refine e0.trans ?_
    show _ = ∑ n : Fin 100000, H V c n q
    rw [Cert.RowLaw.ofBits_zero, zero_add, show 10000 * (9 + 1) = 100000 from rfl, Finset.sum_range]
    exact Finset.sum_congr rfl fun n _ => dif_pos n.isLt
  | ⟨1, _⟩ =>
    refine e1.trans ?_
    show _ = ∑ n : Fin 100000, H V c n q * H V c n q
    rw [Cert.RowLaw.ofBits_zero, zero_add, show 10000 * (9 + 1) = 100000 from rfl, Finset.sum_range]
    exact Finset.sum_congr rfl fun n _ => congrArg₂ (· * ·) (dif_pos n.isLt) (dif_pos n.isLt)

/-! ## The output array -/

/-- The one write-back, at the last point, writes the pair of column sums: the output's one block is the whole array. -/
theorem flushed_eq (c : Dev nD) (t : Fin cfg4.N) (hf : (cfg4.win 4).flush t = true) :
    (dat4 (F := Ideal) V c).flushed 4 t = ((cfg4.win 4).blk t).view.read (Elt Ideal) (statsArr (H V c)) := by
  have hN : cfg4.N = 10 := N_4
  have h9 : t.val = 9 := by have := (flush4_4 t).mp hf; have := t.isLt; omega
  obtain rfl : t = t4_9 := Fin.ext h9
  show (cfg4.win 4).cut (grid4.coords t4_9) ((dat4 V c).after 4 t4_9) = _
  rw [after4_4, outsAt_last V c t4_9.val t4_9.isLt h9]
  have hz' : (fun a => win4_4.index t4_9 a * main_v48.ty.shape.size a) = fun _ => 0 := funext fun a => by fin_cases a <;> decide
  exact (Memref.read_access_unit_zero (Elt Ideal) main_v48 hz' (fun a => by rw [congrFun hz' a]; simp) (statsArr (H V c))).symm

end Region

end Stats4

open Stats4

variable (V : (c : Dev nD) → (b : Ref sig .tc) → Buf (Elt Ideal) ((c : Thread nD τ).loc b))

/-- Region 4 leaves, in its output array, the column sums of h and of h² over all the rows of the arrays it was entered
    with. -/
theorem final4 (c : Dev nD) : (dat4 (F := Ideal) V c).arrAt 4 cfg4.N
    = statsArr (hOf (V c main_v36) (V c main_v47) (V c main_arg13) (rowVec (V c main_v10))) :=
  (dat4 (F := Ideal) V c).arrAt_eq_of_cover 4 (statsArr (H V c)) (flushed_eq V c) fun i =>
    ⟨t4_9, (flush4_4 t4_9).mpr rfl, by
      show i ∈ ((View.whole main_v48).slice (win4_4.rect t4_9)).set
      rw [View.set_slice_whole, Rect.mem_set_unit]
      intro a
      have h0 : (i 0 : Nat) < 2 := (i 0).isLt
      have h1 : (i 1 : Nat) < 64 := (i 1).isLt
      match a with
      | ⟨0, _⟩ => show win4_4.index t4_9 0 * win4_4.size 0 ≤ (i 0 : Nat) ∧ (i 0 : Nat) < win4_4.index t4_9 0 * win4_4.size 0 + win4_4.xsize (grid4.coords t4_9) 0
                  rw [show win4_4.index t4_9 0 * win4_4.size 0 = 0 from by decide +kernel, show win4_4.xsize (grid4.coords t4_9) 0 = 2 from by decide +kernel]; omega
      | ⟨1, _⟩ => show win4_4.index t4_9 1 * win4_4.size 1 ≤ (i 1 : Nat) ∧ (i 1 : Nat) < win4_4.index t4_9 1 * win4_4.size 1 + win4_4.xsize (grid4.coords t4_9) 1
                  rw [show win4_4.index t4_9 1 * win4_4.size 1 = 0 from by decide +kernel, show win4_4.xsize (grid4.coords t4_9) 1 = 64 from by decide +kernel]; omega⟩

end Cert.KernelIdeal.KValue
end
-- ==== Proof.KernelChain.lean ====
/-
  The program's result array as a function of its arguments.  The twelve segment boundaries are walked in order: a stretch
  of host operations leaves every array it does not write and gives each array it writes the operation's value of its
  operands; a kernel region leaves every array that is not one of its windows, leaves its input windows, and gives its
  output window the region's value (the six regions' `final` facts).  Reading the arrays each segment
  needs back to where they were written gives, layer by layer: the gathered source rows, the messages, their scatter-added
  aggregate, the two column sums, the mean and clamped variance as rows, the normalised and projected node rows.
-/
import proofs.«157355_j13657996001716_2_alg».proof.Proof.Gen.KernelIdeal.Frame
import proofs.«157355_j13657996001716_2_alg».proof.Proof.Net
import proofs.«157355_j13657996001716_2_alg».proof.Proof.EdgeRegion0
import proofs.«157355_j13657996001716_2_alg».proof.Proof.EdgeRegion3
import proofs.«157355_j13657996001716_2_alg».proof.Proof.ApplyRegion2
import proofs.«157355_j13657996001716_2_alg».proof.Proof.ApplyRegion5
import proofs.«157355_j13657996001716_2_alg».proof.Proof.StatsRegion1
import proofs.«157355_j13657996001716_2_alg».proof.Proof.StatsRegion4
import proofs.«157355_j13657996001716_2_alg».proof.Proof.LibRowLayout
import Idealize.ShloMosaic.Lib.StableHlo.Run
import Idealize.ShloMosaic.Lib.Pipeline.Value
import Idealize.ShloMosaic.PureOps.Ideal

set_option maxRecDepth 16384

noncomputable section

namespace Cert.KernelIdeal.KValue

open Cert.KernelIdeal Cert.KernelIdeal.Gen Cert.Gine
open Idealize.ShloMosaic Idealize.ShloMosaic.TcCoe Idealize.ShloMosaic.Tactic Idealize.ShloMosaic.ValueIdx
open Idealize.SL.Sem
open Idealize.ShloMosaic.Pipeline (Dat Cfg Window)

/-! ## The gather of source rows and the scatter onto destination rows, as the program spells them -/

/-- Row 0 of the edge index (sources) and row 1 (destinations), as vectors. -/
def srcVec (ei : IVec S2x1600000 32) : IVec S1600000 32 :=
  shapeCast S1600000 (extractStridedSlice S1x1600000 ![0, 0] ei slices_S2x1600000_S1x1600000_0_0) shapeCasts_S1x1600000_S1600000
def dstVec (ei : IVec S2x1600000 32) : IVec S1600000 32 :=
  shapeCast S1600000 (extractStridedSlice S1x1600000 ![1, 0] ei slices_S2x1600000_S1x1600000_1_0) shapeCasts_S1x1600000_S1600000

/-- The rows of a node array at the sources (a negative index counted from the end, as jnp indexing does). -/
def gatherSrc (ei : IVec S2x1600000 32) (x : SN.Idx → EReal) : SE.Idx → EReal :=
  Host.gather gather_S100000x64_S1600000x1_S1600000x64_1_0_n_n_0_1_164 x
    (broadcastInDim S1600000x1 ![0] bcast_S1600000_S1600000x1_0
      (select (cmpi CmpIPredicate.slt (srcVec ei) (broadcastInDim S1600000 ![] bcast_S_S1600000 (constantI S_ 32 0#32)))
        (addi (srcVec ei) (broadcastInDim S1600000 ![] bcast_S_S1600000 (constantI S_ 32 100000#32)))
        (srcVec ei)))

/-- The sum, per destination row, of the edge rows sent there, accumulated into zeros. -/
def scatterDst (ei : IVec S2x1600000 32) (u : SE.Idx → EReal) : SN.Idx → EReal :=
  Host.scatterAdd (F := Ideal) scatter_S100000x64_S1600000x1_S1600000x64_1_0_0_1
    (broadcastInDim S100000x64 ![] bcast_S_S100000x64 (constant (F := Ideal) S_ .f32 0#32))
    (broadcastInDim S1600000x1 ![0] bcast_S1600000_S1600000x1_0 (dstVec ei)) u

/-- A stretch of host operations leaves an array none of them writes. -/
macro "host_keeps" : tactic => `(tactic|
  exact StableHlo.after_of_forall_not_mem _ _ (List.forall_iff_forall_mem.mp (by
    simp only [hostOps0, hostOps1, hostOps2, hostOps3, hostOps4, hostOps5, List.Forall, StableHlo.nullary_writes,
      StableHlo.unary_writes, StableHlo.binary_writes, StableHlo.ternary_writes, StableHlo.reshape_writes, Finset.mem_singleton]
    repeat' apply And.intro
    all_goals exact StableHlo.devRef_ne_of_ne (by decide))))

/-- A vector [64] cast to a row [1, 64] and read back as a vector is itself. -/
theorem rowVec_cast (a : SB.Idx → EReal) (h : (⟨1, ![64]⟩ : Shape).ShapeCasts ⟨2, ![1, 64]⟩) :
    rowVec (fun i => shapeCast (⟨2, ![1, 64]⟩ : Shape) a h i) = a := by
  funext i
  obtain ⟨d, rfl⟩ : ∃ d : Fin 64, i = ix1 d := ⟨i 0, eq_ix1 i⟩
  exact Cert.Lib.vecToRow_apply a h d

variable (m : (ℓ : Loc nD τ sig) → Buf (Elt Ideal) ℓ) (ρ : Dev nD → PrngReg) (c : Dev nD)

/-! ## After the first stretch -/

set_option maxHeartbeats 4000000 in
theorem W1_v20 : W1 m ρ c (Proc.devRef .tc main_v20)
    = gatherSrc (m ((c : Thread nD τ).loc main_arg1)) (m ((c : Thread nD τ).loc main_arg0)) := by
  show StableHlo.after (hostOps0 (F := Ideal)) (W0 m ρ c) (Proc.devRef .tc main_v20) = _
  after_results_simp <;> rfl

set_option maxHeartbeats 4000000 in
theorem W1_v1 : W1 m ρ c (Proc.devRef .tc main_v1) = srcVec (m ((c : Thread nD τ).loc main_arg1)) := by
  show StableHlo.after (hostOps0 (F := Ideal)) (W0 m ρ c) (Proc.devRef .tc main_v1) = _
  after_results_simp <;> rfl

set_option maxHeartbeats 4000000 in
theorem W1_v3 : W1 m ρ c (Proc.devRef .tc main_v3) = dstVec (m ((c : Thread nD τ).loc main_arg1)) := by
  show StableHlo.after (hostOps0 (F := Ideal)) (W0 m ρ c) (Proc.devRef .tc main_v3) = _
  after_results_simp <;> rfl

set_option maxHeartbeats 4000000 in
theorem W1_main_v4 : rowVec (W1 m ρ c (Proc.devRef .tc main_v4)) = m ((c : Thread nD τ).loc main_arg4) := by
  have e : W1 m ρ c (Proc.devRef .tc main_v4) = (fun i => shapeCast S1x64 (m ((c : Thread nD τ).loc main_arg4)) shapeCasts_S64_S1x64 i) := by
    show StableHlo.after (hostOps0 (F := Ideal)) (W0 m ρ c) (Proc.devRef .tc main_v4) = _
    after_results_simp
    rfl
  rw [e]
  exact rowVec_cast _ _

set_option maxHeartbeats 4000000 in
theorem W1_main_v5 : rowVec (W1 m ρ c (Proc.devRef .tc main_v5)) = m ((c : Thread nD τ).loc main_arg6) := by
  have e : W1 m ρ c (Proc.devRef .tc main_v5) = (fun i => shapeCast S1x64 (m ((c : Thread nD τ).loc main_arg6)) shapeCasts_S64_S1x64 i) := by
    show StableHlo.after (hostOps0 (F := Ideal)) (W0 m ρ c) (Proc.devRef .tc main_v5) = _
    after_results_simp
    rfl
  rw [e]
  exact rowVec_cast _ _

set_option maxHeartbeats 4000000 in
theorem W1_main_v6 : rowVec (W1 m ρ c (Proc.devRef .tc main_v6)) = m ((c : Thread nD τ).loc main_arg7) := by
  have e : W1 m ρ c (Proc.devRef .tc main_v6) = (fun i => shapeCast S1x64 (m ((c : Thread nD τ).loc main_arg7)) shapeCasts_S64_S1x64 i) := by
    show StableHlo.after (hostOps0 (F := Ideal)) (W0 m ρ c) (Proc.devRef .tc main_v6) = _
    after_results_simp
    rfl
  rw [e]
  exact rowVec_cast _ _

set_option maxHeartbeats 4000000 in
theorem W1_main_v7 : rowVec (W1 m ρ c (Proc.devRef .tc main_v7)) = m ((c : Thread nD τ).loc main_arg8) := by
  have e : W1 m ρ c (Proc.devRef .tc main_v7) = (fun i => shapeCast S1x64 (m ((c : Thread nD τ).loc main_arg8)) shapeCasts_S64_S1x64 i) := by
    show StableHlo.after (hostOps0 (F := Ideal)) (W0 m ρ c) (Proc.devRef .tc main_v7) = _
    after_results_simp
    rfl
  rw [e]
  exact rowVec_cast _ _

set_option maxHeartbeats 4000000 in
theorem W1_main_v8 : rowVec (W1 m ρ c (Proc.devRef .tc main_v8)) = m ((c : Thread nD τ).loc main_arg10) := by
  have e : W1 m ρ c (Proc.devRef .tc main_v8) = (fun i => shapeCast S1x64 (m ((c : Thread nD τ).loc main_arg10)) shapeCasts_S64_S1x64 i) := by
    show StableHlo.after (hostOps0 (F := Ideal)) (W0 m ρ c) (Proc.devRef .tc main_v8) = _
    after_results_simp
    rfl
  rw [e]
  exact rowVec_cast _ _

set_option maxHeartbeats 4000000 in
theorem W1_main_v9 : rowVec (W1 m ρ c (Proc.devRef .tc main_v9)) = m ((c : Thread nD τ).loc main_arg12) := by
  have e : W1 m ρ c (Proc.devRef .tc main_v9) = (fun i => shapeCast S1x64 (m ((c : Thread nD τ).loc main_arg12)) shapeCasts_S64_S1x64 i) := by
    show StableHlo.after (hostOps0 (F := Ideal)) (W0 m ρ c) (Proc.devRef .tc main_v9) = _
    after_results_simp
    rfl
  rw [e]
  exact rowVec_cast _ _

set_option maxHeartbeats 4000000 in
theorem W1_main_v10 : rowVec (W1 m ρ c (Proc.devRef .tc main_v10)) = m ((c : Thread nD τ).loc main_arg14) := by
  have e : W1 m ρ c (Proc.devRef .tc main_v10) = (fun i => shapeCast S1x64 (m ((c : Thread nD τ).loc main_arg14)) shapeCasts_S64_S1x64 i) := by
    show StableHlo.after (hostOps0 (F := Ideal)) (W0 m ρ c) (Proc.devRef .tc main_v10) = _
    after_results_simp
    rfl
  rw [e]
  exact rowVec_cast _ _

set_option maxHeartbeats 4000000 in
theorem W1_main_v11 : rowVec (W1 m ρ c (Proc.devRef .tc main_v11)) = m ((c : Thread nD τ).loc main_arg15) := by
  have e : W1 m ρ c (Proc.devRef .tc main_v11) = (fun i => shapeCast S1x64 (m ((c : Thread nD τ).loc main_arg15)) shapeCasts_S64_S1x64 i) := by
    show StableHlo.after (hostOps0 (F := Ideal)) (W0 m ρ c) (Proc.devRef .tc main_v11) = _
    after_results_simp
    rfl
  rw [e]
  exact rowVec_cast _ _

set_option maxHeartbeats 4000000 in
theorem W1_main_v12 : rowVec (W1 m ρ c (Proc.devRef .tc main_v12)) = m ((c : Thread nD τ).loc main_arg16) := by
  have e : W1 m ρ c (Proc.devRef .tc main_v12) = (fun i => shapeCast S1x64 (m ((c : Thread nD τ).loc main_arg16)) shapeCasts_S64_S1x64 i) := by
    show StableHlo.after (hostOps0 (F := Ideal)) (W0 m ρ c) (Proc.devRef .tc main_v12) = _
    after_results_simp
    rfl
  rw [e]
  exact rowVec_cast _ _

set_option maxHeartbeats 4000000 in
theorem W1_main_v13 : rowVec (W1 m ρ c (Proc.devRef .tc main_v13)) = m ((c : Thread nD τ).loc main_arg18) := by
  have e : W1 m ρ c (Proc.devRef .tc main_v13) = (fun i => shapeCast S1x64 (m ((c : Thread nD τ).loc main_arg18)) shapeCasts_S64_S1x64 i) := by
    show StableHlo.after (hostOps0 (F := Ideal)) (W0 m ρ c) (Proc.devRef .tc main_v13) = _
    after_results_simp
    rfl
  rw [e]
  exact rowVec_cast _ _

/-! ## What each segment leaves alone -/

/-- Region 0 leaves every array but its output. -/
theorem W2_keeps (b : Ref sig .tc) (hb : b ≠ main_v21) : W2 m ρ c (Proc.devRef .tc b) = W1 m ρ c (Proc.devRef .tc b) := by
  by_cases h : ∀ w, Pipeline.arrRef spec0 w ≠ b
  · exact W2_of_ne m ρ c b h
  · push Not at h
    obtain ⟨w, rfl⟩ := h
    have key : ∀ w : Fin cfg0.W, Pipeline.arrRef spec0 w ≠ main_v21 → (cfg0.win w).isOut = false := by decide
    exact (W2_arr m ρ c w).trans (((dat0 (V1 m ρ) c).arrAt_in w (key w hb) _).trans (A_eq0 (V1 m ρ) c w))

/-- Region 1 leaves every array but its output. -/
theorem W4_keeps (b : Ref sig .tc) (hb : b ≠ main_v25) : W4 m ρ c (Proc.devRef .tc b) = W3 m ρ c (Proc.devRef .tc b) := by
  by_cases h : ∀ w, Pipeline.arrRef spec1 w ≠ b
  · exact W4_of_ne m ρ c b h
  · push Not at h
    obtain ⟨w, rfl⟩ := h
    have key : ∀ w : Fin cfg1.W, Pipeline.arrRef spec1 w ≠ main_v25 → (cfg1.win w).isOut = false := by decide
    exact (W4_arr m ρ c w).trans (((dat1 (V3 m ρ) c).arrAt_in w (key w hb) _).trans (A_eq1 (V3 m ρ) c w))

/-- Region 2 leaves every array but its output. -/
theorem W6_keeps (b : Ref sig .tc) (hb : b ≠ main_v36) : W6 m ρ c (Proc.devRef .tc b) = W5 m ρ c (Proc.devRef .tc b) := by
  by_cases h : ∀ w, Pipeline.arrRef spec2 w ≠ b
  · exact W6_of_ne m ρ c b h
  · push Not at h
    obtain ⟨w, rfl⟩ := h
    have key : ∀ w : Fin cfg2.W, Pipeline.arrRef spec2 w ≠ main_v36 → (cfg2.win w).isOut = false := by decide
    exact (W6_arr m ρ c w).trans (((dat2 (V5 m ρ) c).arrAt_in w (key w hb) _).trans (A_eq2 (V5 m ρ) c w))

/-- Region 3 leaves every array but its output. -/
theorem W8_keeps (b : Ref sig .tc) (hb : b ≠ main_v44) : W8 m ρ c (Proc.devRef .tc b) = W7 m ρ c (Proc.devRef .tc b) := by
  by_cases h : ∀ w, Pipeline.arrRef spec3 w ≠ b
  · exact W8_of_ne m ρ c b h
  · push Not at h
    obtain ⟨w, rfl⟩ := h
    have key : ∀ w : Fin cfg3.W, Pipeline.arrRef spec3 w ≠ main_v44 → (cfg3.win w).isOut = false := by decide
    exact (W8_arr m ρ c w).trans (((dat3 (V7 m ρ) c).arrAt_in w (key w hb) _).trans (A_eq3 (V7 m ρ) c w))

/-- Region 4 leaves every array but its output. -/
theorem W10_keeps (b : Ref sig .tc) (hb : b ≠ main_v48) : W10 m ρ c (Proc.devRef .tc b) = W9 m ρ c (Proc.devRef .tc b) := by
  by_cases h : ∀ w, Pipeline.arrRef spec4 w ≠ b
  · exact W10_of_ne m ρ c b h
  · push Not at h
    obtain ⟨w, rfl⟩ := h
    have key : ∀ w : Fin cfg4.W, Pipeline.arrRef spec4 w ≠ main_v48 → (cfg4.win w).isOut = false := by decide
    exact (W10_arr m ρ c w).trans (((dat4 (V9 m ρ) c).arrAt_in w (key w hb) _).trans (A_eq4 (V9 m ρ) c w))

/-- Region 5 leaves every array but its output. -/
theorem W12_keeps (b : Ref sig .tc) (hb : b ≠ main_v59) : W12 m ρ c (Proc.devRef .tc b) = W11 m ρ c (Proc.devRef .tc b) := by
  by_cases h : ∀ w, Pipeline.arrRef spec5 w ≠ b
  · exact W12_of_ne m ρ c b h
  · push Not at h
    obtain ⟨w, rfl⟩ := h
    have key : ∀ w : Fin cfg5.W, Pipeline.arrRef spec5 w ≠ main_v59 → (cfg5.win w).isOut = false := by decide
    exact (W12_arr m ρ c w).trans (((dat5 (V11 m ρ) c).arrAt_in w (key w hb) _).trans (A_eq5 (V11 m ρ) c w))
theorem W1_main_arg2 : W1 m ρ c (Proc.devRef .tc main_arg2) = m ((c : Thread nD τ).loc main_arg2) := (by host_keeps : W1 m ρ c (Proc.devRef .tc main_arg2) = W0 m ρ c (Proc.devRef .tc main_arg2))
theorem W1_main_arg3 : W1 m ρ c (Proc.devRef .tc main_arg3) = m ((c : Thread nD τ).loc main_arg3) := (by host_keeps : W1 m ρ c (Proc.devRef .tc main_arg3) = W0 m ρ c (Proc.devRef .tc main_arg3))
theorem W3_main_arg0 : W3 m ρ c (Proc.devRef .tc main_arg0) = m ((c : Thread nD τ).loc main_arg0) := ((by host_keeps : W3 m ρ c (Proc.devRef .tc main_arg0) = W2 m ρ c (Proc.devRef .tc main_arg0)).trans ((W2_keeps m ρ c main_arg0 (by decide)).trans (by host_keeps : W1 m ρ c (Proc.devRef .tc main_arg0) = W0 m ρ c (Proc.devRef .tc main_arg0))))
theorem W3_main_arg5 : W3 m ρ c (Proc.devRef .tc main_arg5) = m ((c : Thread nD τ).loc main_arg5) := ((by host_keeps : W3 m ρ c (Proc.devRef .tc main_arg5) = W2 m ρ c (Proc.devRef .tc main_arg5)).trans ((W2_keeps m ρ c main_arg5 (by decide)).trans (by host_keeps : W1 m ρ c (Proc.devRef .tc main_arg5) = W0 m ρ c (Proc.devRef .tc main_arg5))))
theorem W5_main_arg0 : W5 m ρ c (Proc.devRef .tc main_arg0) = m ((c : Thread nD τ).loc main_arg0) := ((by host_keeps : W5 m ρ c (Proc.devRef .tc main_arg0) = W4 m ρ c (Proc.devRef .tc main_arg0)).trans ((W4_keeps m ρ c main_arg0 (by decide)).trans ((by host_keeps : W3 m ρ c (Proc.devRef .tc main_arg0) = W2 m ρ c (Proc.devRef .tc main_arg0)).trans ((W2_keeps m ρ c main_arg0 (by decide)).trans (by host_keeps : W1 m ρ c (Proc.devRef .tc main_arg0) = W0 m ρ c (Proc.devRef .tc main_arg0))))))
theorem W5_main_arg5 : W5 m ρ c (Proc.devRef .tc main_arg5) = m ((c : Thread nD τ).loc main_arg5) := ((by host_keeps : W5 m ρ c (Proc.devRef .tc main_arg5) = W4 m ρ c (Proc.devRef .tc main_arg5)).trans ((W4_keeps m ρ c main_arg5 (by decide)).trans ((by host_keeps : W3 m ρ c (Proc.devRef .tc main_arg5) = W2 m ρ c (Proc.devRef .tc main_arg5)).trans ((W2_keeps m ρ c main_arg5 (by decide)).trans (by host_keeps : W1 m ρ c (Proc.devRef .tc main_arg5) = W0 m ρ c (Proc.devRef .tc main_arg5))))))
theorem W5_main_arg9 : W5 m ρ c (Proc.devRef .tc main_arg9) = m ((c : Thread nD τ).loc main_arg9) := ((by host_keeps : W5 m ρ c (Proc.devRef .tc main_arg9) = W4 m ρ c (Proc.devRef .tc main_arg9)).trans ((W4_keeps m ρ c main_arg9 (by decide)).trans ((by host_keeps : W3 m ρ c (Proc.devRef .tc main_arg9) = W2 m ρ c (Proc.devRef .tc main_arg9)).trans ((W2_keeps m ρ c main_arg9 (by decide)).trans (by host_keeps : W1 m ρ c (Proc.devRef .tc main_arg9) = W0 m ρ c (Proc.devRef .tc main_arg9))))))
theorem W7_main_arg2 : W7 m ρ c (Proc.devRef .tc main_arg2) = m ((c : Thread nD τ).loc main_arg2) := ((by host_keeps : W7 m ρ c (Proc.devRef .tc main_arg2) = W6 m ρ c (Proc.devRef .tc main_arg2)).trans ((W6_keeps m ρ c main_arg2 (by decide)).trans ((by host_keeps : W5 m ρ c (Proc.devRef .tc main_arg2) = W4 m ρ c (Proc.devRef .tc main_arg2)).trans ((W4_keeps m ρ c main_arg2 (by decide)).trans ((by host_keeps : W3 m ρ c (Proc.devRef .tc main_arg2) = W2 m ρ c (Proc.devRef .tc main_arg2)).trans ((W2_keeps m ρ c main_arg2 (by decide)).trans (by host_keeps : W1 m ρ c (Proc.devRef .tc main_arg2) = W0 m ρ c (Proc.devRef .tc main_arg2))))))))
theorem W7_main_arg11 : W7 m ρ c (Proc.devRef .tc main_arg11) = m ((c : Thread nD τ).loc main_arg11) := ((by host_keeps : W7 m ρ c (Proc.devRef .tc main_arg11) = W6 m ρ c (Proc.devRef .tc main_arg11)).trans ((W6_keeps m ρ c main_arg11 (by decide)).trans ((by host_keeps : W5 m ρ c (Proc.devRef .tc main_arg11) = W4 m ρ c (Proc.devRef .tc main_arg11)).trans ((W4_keeps m ρ c main_arg11 (by decide)).trans ((by host_keeps : W3 m ρ c (Proc.devRef .tc main_arg11) = W2 m ρ c (Proc.devRef .tc main_arg11)).trans ((W2_keeps m ρ c main_arg11 (by decide)).trans (by host_keeps : W1 m ρ c (Proc.devRef .tc main_arg11) = W0 m ρ c (Proc.devRef .tc main_arg11))))))))
theorem W9_main_arg13 : W9 m ρ c (Proc.devRef .tc main_arg13) = m ((c : Thread nD τ).loc main_arg13) := ((by host_keeps : W9 m ρ c (Proc.devRef .tc main_arg13) = W8 m ρ c (Proc.devRef .tc main_arg13)).trans ((W8_keeps m ρ c main_arg13 (by decide)).trans ((by host_keeps : W7 m ρ c (Proc.devRef .tc main_arg13) = W6 m ρ c (Proc.devRef .tc main_arg13)).trans ((W6_keeps m ρ c main_arg13 (by decide)).trans ((by host_keeps : W5 m ρ c (Proc.devRef .tc main_arg13) = W4 m ρ c (Proc.devRef .tc main_arg13)).trans ((W4_keeps m ρ c main_arg13 (by decide)).trans ((by host_keeps : W3 m ρ c (Proc.devRef .tc main_arg13) = W2 m ρ c (Proc.devRef .tc main_arg13)).trans ((W2_keeps m ρ c main_arg13 (by decide)).trans (by host_keeps : W1 m ρ c (Proc.devRef .tc main_arg13) = W0 m ρ c (Proc.devRef .tc main_arg13))))))))))
theorem W11_main_arg13 : W11 m ρ c (Proc.devRef .tc main_arg13) = m ((c : Thread nD τ).loc main_arg13) := ((by host_keeps : W11 m ρ c (Proc.devRef .tc main_arg13) = W10 m ρ c (Proc.devRef .tc main_arg13)).trans ((W10_keeps m ρ c main_arg13 (by decide)).trans ((by host_keeps : W9 m ρ c (Proc.devRef .tc main_arg13) = W8 m ρ c (Proc.devRef .tc main_arg13)).trans ((W8_keeps m ρ c main_arg13 (by decide)).trans ((by host_keeps : W7 m ρ c (Proc.devRef .tc main_arg13) = W6 m ρ c (Proc.devRef .tc main_arg13)).trans ((W6_keeps m ρ c main_arg13 (by decide)).trans ((by host_keeps : W5 m ρ c (Proc.devRef .tc main_arg13) = W4 m ρ c (Proc.devRef .tc main_arg13)).trans ((W4_keeps m ρ c main_arg13 (by decide)).trans ((by host_keeps : W3 m ρ c (Proc.devRef .tc main_arg13) = W2 m ρ c (Proc.devRef .tc main_arg13)).trans ((W2_keeps m ρ c main_arg13 (by decide)).trans (by host_keeps : W1 m ρ c (Proc.devRef .tc main_arg13) = W0 m ρ c (Proc.devRef .tc main_arg13))))))))))))
theorem W11_main_arg17 : W11 m ρ c (Proc.devRef .tc main_arg17) = m ((c : Thread nD τ).loc main_arg17) := ((by host_keeps : W11 m ρ c (Proc.devRef .tc main_arg17) = W10 m ρ c (Proc.devRef .tc main_arg17)).trans ((W10_keeps m ρ c main_arg17 (by decide)).trans ((by host_keeps : W9 m ρ c (Proc.devRef .tc main_arg17) = W8 m ρ c (Proc.devRef .tc main_arg17)).trans ((W8_keeps m ρ c main_arg17 (by decide)).trans ((by host_keeps : W7 m ρ c (Proc.devRef .tc main_arg17) = W6 m ρ c (Proc.devRef .tc main_arg17)).trans ((W6_keeps m ρ c main_arg17 (by decide)).trans ((by host_keeps : W5 m ρ c (Proc.devRef .tc main_arg17) = W4 m ρ c (Proc.devRef .tc main_arg17)).trans ((W4_keeps m ρ c main_arg17 (by decide)).trans ((by host_keeps : W3 m ρ c (Proc.devRef .tc main_arg17) = W2 m ρ c (Proc.devRef .tc main_arg17)).trans ((W2_keeps m ρ c main_arg17 (by decide)).trans (by host_keeps : W1 m ρ c (Proc.devRef .tc main_arg17) = W0 m ρ c (Proc.devRef .tc main_arg17))))))))))))

/-! ## The rows of parameters at each region's entry -/
theorem W3_main_v5 : rowVec (W3 m ρ c (Proc.devRef .tc main_v5)) = m ((c : Thread nD τ).loc main_arg6) :=
  (congrArg rowVec ((by host_keeps : W3 m ρ c (Proc.devRef .tc main_v5) = W2 m ρ c (Proc.devRef .tc main_v5)).trans (W2_keeps m ρ c main_v5 (by decide)))).trans (W1_main_v5 m ρ c)
theorem W5_main_v5 : rowVec (W5 m ρ c (Proc.devRef .tc main_v5)) = m ((c : Thread nD τ).loc main_arg6) :=
  (congrArg rowVec ((by host_keeps : W5 m ρ c (Proc.devRef .tc main_v5) = W4 m ρ c (Proc.devRef .tc main_v5)).trans ((W4_keeps m ρ c main_v5 (by decide)).trans ((by host_keeps : W3 m ρ c (Proc.devRef .tc main_v5) = W2 m ρ c (Proc.devRef .tc main_v5)).trans (W2_keeps m ρ c main_v5 (by decide)))))).trans (W1_main_v5 m ρ c)
theorem W5_main_v6 : rowVec (W5 m ρ c (Proc.devRef .tc main_v6)) = m ((c : Thread nD τ).loc main_arg7) :=
  (congrArg rowVec ((by host_keeps : W5 m ρ c (Proc.devRef .tc main_v6) = W4 m ρ c (Proc.devRef .tc main_v6)).trans ((W4_keeps m ρ c main_v6 (by decide)).trans ((by host_keeps : W3 m ρ c (Proc.devRef .tc main_v6) = W2 m ρ c (Proc.devRef .tc main_v6)).trans (W2_keeps m ρ c main_v6 (by decide)))))).trans (W1_main_v6 m ρ c)
theorem W5_main_v7 : rowVec (W5 m ρ c (Proc.devRef .tc main_v7)) = m ((c : Thread nD τ).loc main_arg8) :=
  (congrArg rowVec ((by host_keeps : W5 m ρ c (Proc.devRef .tc main_v7) = W4 m ρ c (Proc.devRef .tc main_v7)).trans ((W4_keeps m ρ c main_v7 (by decide)).trans ((by host_keeps : W3 m ρ c (Proc.devRef .tc main_v7) = W2 m ρ c (Proc.devRef .tc main_v7)).trans (W2_keeps m ρ c main_v7 (by decide)))))).trans (W1_main_v7 m ρ c)
theorem W5_main_v8 : rowVec (W5 m ρ c (Proc.devRef .tc main_v8)) = m ((c : Thread nD τ).loc main_arg10) :=
  (congrArg rowVec ((by host_keeps : W5 m ρ c (Proc.devRef .tc main_v8) = W4 m ρ c (Proc.devRef .tc main_v8)).trans ((W4_keeps m ρ c main_v8 (by decide)).trans ((by host_keeps : W3 m ρ c (Proc.devRef .tc main_v8) = W2 m ρ c (Proc.devRef .tc main_v8)).trans (W2_keeps m ρ c main_v8 (by decide)))))).trans (W1_main_v8 m ρ c)
theorem W7_main_v9 : rowVec (W7 m ρ c (Proc.devRef .tc main_v9)) = m ((c : Thread nD τ).loc main_arg12) :=
  (congrArg rowVec ((by host_keeps : W7 m ρ c (Proc.devRef .tc main_v9) = W6 m ρ c (Proc.devRef .tc main_v9)).trans ((W6_keeps m ρ c main_v9 (by decide)).trans ((by host_keeps : W5 m ρ c (Proc.devRef .tc main_v9) = W4 m ρ c (Proc.devRef .tc main_v9)).trans ((W4_keeps m ρ c main_v9 (by decide)).trans ((by host_keeps : W3 m ρ c (Proc.devRef .tc main_v9) = W2 m ρ c (Proc.devRef .tc main_v9)).trans (W2_keeps m ρ c main_v9 (by decide)))))))).trans (W1_main_v9 m ρ c)
theorem W9_main_v10 : rowVec (W9 m ρ c (Proc.devRef .tc main_v10)) = m ((c : Thread nD τ).loc main_arg14) :=
  (congrArg rowVec ((by host_keeps : W9 m ρ c (Proc.devRef .tc main_v10) = W8 m ρ c (Proc.devRef .tc main_v10)).trans ((W8_keeps m ρ c main_v10 (by decide)).trans ((by host_keeps : W7 m ρ c (Proc.devRef .tc main_v10) = W6 m ρ c (Proc.devRef .tc main_v10)).trans ((W6_keeps m ρ c main_v10 (by decide)).trans ((by host_keeps : W5 m ρ c (Proc.devRef .tc main_v10) = W4 m ρ c (Proc.devRef .tc main_v10)).trans ((W4_keeps m ρ c main_v10 (by decide)).trans ((by host_keeps : W3 m ρ c (Proc.devRef .tc main_v10) = W2 m ρ c (Proc.devRef .tc main_v10)).trans (W2_keeps m ρ c main_v10 (by decide)))))))))).trans (W1_main_v10 m ρ c)
theorem W11_main_v10 : rowVec (W11 m ρ c (Proc.devRef .tc main_v10)) = m ((c : Thread nD τ).loc main_arg14) :=
  (congrArg rowVec ((by host_keeps : W11 m ρ c (Proc.devRef .tc main_v10) = W10 m ρ c (Proc.devRef .tc main_v10)).trans ((W10_keeps m ρ c main_v10 (by decide)).trans ((by host_keeps : W9 m ρ c (Proc.devRef .tc main_v10) = W8 m ρ c (Proc.devRef .tc main_v10)).trans ((W8_keeps m ρ c main_v10 (by decide)).trans ((by host_keeps : W7 m ρ c (Proc.devRef .tc main_v10) = W6 m ρ c (Proc.devRef .tc main_v10)).trans ((W6_keeps m ρ c main_v10 (by decide)).trans ((by host_keeps : W5 m ρ c (Proc.devRef .tc main_v10) = W4 m ρ c (Proc.devRef .tc main_v10)).trans ((W4_keeps m ρ c main_v10 (by decide)).trans ((by host_keeps : W3 m ρ c (Proc.devRef .tc main_v10) = W2 m ρ c (Proc.devRef .tc main_v10)).trans (W2_keeps m ρ c main_v10 (by decide)))))))))))).trans (W1_main_v10 m ρ c)
theorem W11_main_v11 : rowVec (W11 m ρ c (Proc.devRef .tc main_v11)) = m ((c : Thread nD τ).loc main_arg15) :=
  (congrArg rowVec ((by host_keeps : W11 m ρ c (Proc.devRef .tc main_v11) = W10 m ρ c (Proc.devRef .tc main_v11)).trans ((W10_keeps m ρ c main_v11 (by decide)).trans ((by host_keeps : W9 m ρ c (Proc.devRef .tc main_v11) = W8 m ρ c (Proc.devRef .tc main_v11)).trans ((W8_keeps m ρ c main_v11 (by decide)).trans ((by host_keeps : W7 m ρ c (Proc.devRef .tc main_v11) = W6 m ρ c (Proc.devRef .tc main_v11)).trans ((W6_keeps m ρ c main_v11 (by decide)).trans ((by host_keeps : W5 m ρ c (Proc.devRef .tc main_v11) = W4 m ρ c (Proc.devRef .tc main_v11)).trans ((W4_keeps m ρ c main_v11 (by decide)).trans ((by host_keeps : W3 m ρ c (Proc.devRef .tc main_v11) = W2 m ρ c (Proc.devRef .tc main_v11)).trans (W2_keeps m ρ c main_v11 (by decide)))))))))))).trans (W1_main_v11 m ρ c)
theorem W11_main_v12 : rowVec (W11 m ρ c (Proc.devRef .tc main_v12)) = m ((c : Thread nD τ).loc main_arg16) :=
  (congrArg rowVec ((by host_keeps : W11 m ρ c (Proc.devRef .tc main_v12) = W10 m ρ c (Proc.devRef .tc main_v12)).trans ((W10_keeps m ρ c main_v12 (by decide)).trans ((by host_keeps : W9 m ρ c (Proc.devRef .tc main_v12) = W8 m ρ c (Proc.devRef .tc main_v12)).trans ((W8_keeps m ρ c main_v12 (by decide)).trans ((by host_keeps : W7 m ρ c (Proc.devRef .tc main_v12) = W6 m ρ c (Proc.devRef .tc main_v12)).trans ((W6_keeps m ρ c main_v12 (by decide)).trans ((by host_keeps : W5 m ρ c (Proc.devRef .tc main_v12) = W4 m ρ c (Proc.devRef .tc main_v12)).trans ((W4_keeps m ρ c main_v12 (by decide)).trans ((by host_keeps : W3 m ρ c (Proc.devRef .tc main_v12) = W2 m ρ c (Proc.devRef .tc main_v12)).trans (W2_keeps m ρ c main_v12 (by decide)))))))))))).trans (W1_main_v12 m ρ c)
theorem W11_main_v13 : rowVec (W11 m ρ c (Proc.devRef .tc main_v13)) = m ((c : Thread nD τ).loc main_arg18) :=
  (congrArg rowVec ((by host_keeps : W11 m ρ c (Proc.devRef .tc main_v13) = W10 m ρ c (Proc.devRef .tc main_v13)).trans ((W10_keeps m ρ c main_v13 (by decide)).trans ((by host_keeps : W9 m ρ c (Proc.devRef .tc main_v13) = W8 m ρ c (Proc.devRef .tc main_v13)).trans ((W8_keeps m ρ c main_v13 (by decide)).trans ((by host_keeps : W7 m ρ c (Proc.devRef .tc main_v13) = W6 m ρ c (Proc.devRef .tc main_v13)).trans ((W6_keeps m ρ c main_v13 (by decide)).trans ((by host_keeps : W5 m ρ c (Proc.devRef .tc main_v13) = W4 m ρ c (Proc.devRef .tc main_v13)).trans ((W4_keeps m ρ c main_v13 (by decide)).trans ((by host_keeps : W3 m ρ c (Proc.devRef .tc main_v13) = W2 m ρ c (Proc.devRef .tc main_v13)).trans (W2_keeps m ρ c main_v13 (by decide)))))))))))).trans (W1_main_v13 m ρ c)

/-! ## The values, layer by layer -/

/-- The first layer's messages, aggregate, dense rows and clamped output; the second layer's likewise. -/
def msg0 : SE.Idx → EReal := arrE (edgeMsg (gatherSrc (m ((c : Thread nD τ).loc main_arg1)) (m ((c : Thread nD τ).loc main_arg0))) (m ((c : Thread nD τ).loc main_arg2)) (m ((c : Thread nD τ).loc main_arg3)) (m ((c : Thread nD τ).loc main_arg4)))
def agg0 : SN.Idx → EReal := scatterDst (m ((c : Thread nD τ).loc main_arg1)) (msg0 m c)
def h0 : Fin 100000 → Fin 64 → EReal := hOf (m ((c : Thread nD τ).loc main_arg0)) (agg0 m c) (m ((c : Thread nD τ).loc main_arg5)) (m ((c : Thread nD τ).loc main_arg6))
def hid : SN.Idx → EReal :=
  hidden (applyK (h0 m c) (meanK (statsArr (h0 m c))) (varK (statsArr (h0 m c))) (m ((c : Thread nD τ).loc main_arg7)) (m ((c : Thread nD τ).loc main_arg8)) (m ((c : Thread nD τ).loc main_arg9)) (m ((c : Thread nD τ).loc main_arg10)))
def msg1 : SE.Idx → EReal := arrE (edgeMsg (gatherSrc (m ((c : Thread nD τ).loc main_arg1)) (hid m c)) (m ((c : Thread nD τ).loc main_arg2)) (m ((c : Thread nD τ).loc main_arg11)) (m ((c : Thread nD τ).loc main_arg12)))
def agg1 : SN.Idx → EReal := scatterDst (m ((c : Thread nD τ).loc main_arg1)) (msg1 m c)
def h1 : Fin 100000 → Fin 64 → EReal := hOf (hid m c) (agg1 m c) (m ((c : Thread nD τ).loc main_arg13)) (m ((c : Thread nD τ).loc main_arg14))
def outK : SN.Idx → EReal :=
  arrN (applyK (h1 m c) (meanK (statsArr (h1 m c))) (varK (statsArr (h1 m c))) (m ((c : Thread nD τ).loc main_arg15)) (m ((c : Thread nD τ).loc main_arg16)) (m ((c : Thread nD τ).loc main_arg17)) (m ((c : Thread nD τ).loc main_arg18)))

/-- The result is the two layers composed. -/
theorem outK_eq : outK m c = netK (gatherSrc (m ((c : Thread nD τ).loc main_arg1))) (scatterDst (m ((c : Thread nD τ).loc main_arg1))) (m ((c : Thread nD τ).loc main_arg0)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := rfl

/-! ## The host stretches' values -/

theorem host1_v24 (ν : Valuation τ sig (Elt Ideal)) : StableHlo.after (hostOps1 (F := Ideal)) ν (Proc.devRef .tc main_v24)
    = Host.scatterAdd (F := Ideal) scatter_S100000x64_S1600000x1_S1600000x64_1_0_0_1
        (broadcastInDim S100000x64 ![] bcast_S_S100000x64 (constant (F := Ideal) S_ .f32 0#32))
        (broadcastInDim S1600000x1 ![0] bcast_S1600000_S1600000x1_0 (ν (Proc.devRef .tc main_v3))) (ν (Proc.devRef .tc main_v21)) := by
  after_results_simp <;> rfl

theorem host4_v47 (ν : Valuation τ sig (Elt Ideal)) : StableHlo.after (hostOps4 (F := Ideal)) ν (Proc.devRef .tc main_v47)
    = Host.scatterAdd (F := Ideal) scatter_S100000x64_S1600000x1_S1600000x64_1_0_0_1
        (broadcastInDim S100000x64 ![] bcast_S_S100000x64 (constant (F := Ideal) S_ .f32 0#32))
        (broadcastInDim S1600000x1 ![0] bcast_S1600000_S1600000x1_0 (ν (Proc.devRef .tc main_v3))) (ν (Proc.devRef .tc main_v44)) := by
  after_results_simp <;> rfl

theorem host3_v43 (ν : Valuation τ sig (Elt Ideal)) : StableHlo.after (hostOps3 (F := Ideal)) ν (Proc.devRef .tc main_v43)
    = Host.gather gather_S100000x64_S1600000x1_S1600000x64_1_0_n_n_0_1_164 (ν (Proc.devRef .tc main_v36))
        (broadcastInDim S1600000x1 ![0] bcast_S1600000_S1600000x1_0
          (select (cmpi CmpIPredicate.slt (ν (Proc.devRef .tc main_v1)) (broadcastInDim S1600000 ![] bcast_S_S1600000 (constantI S_ 32 0#32)))
            (addi (ν (Proc.devRef .tc main_v1)) (broadcastInDim S1600000 ![] bcast_S_S1600000 (constantI S_ 32 100000#32)))
            (ν (Proc.devRef .tc main_v1)))) := by
  after_results_simp <;> rfl

/-- The mean row and the clamped-variance row a stretch computes from the pair of column sums. -/
def meanRow (st : S2.Idx → EReal) : SR.Idx → EReal :=
  Host.divf (F := Ideal) (extractStridedSlice S1x64 ![0, 0] st slices_S2x64_S1x64_0_0)
    (broadcastInDim S1x64 ![] bcast_S_S1x64 (constant (F := Ideal) S_ .f32 0x47C35000#32))
def varRow (st : S2.Idx → EReal) : SR.Idx → EReal :=
  maximumf (F := Ideal)
    (subf (F := Ideal) (Host.divf (F := Ideal) (extractStridedSlice S1x64 ![1, 0] st slices_S2x64_S1x64_1_0)
        (broadcastInDim S1x64 ![] bcast_S_S1x64 (constant (F := Ideal) S_ .f32 0x47C35000#32)))
      (mulf (F := Ideal) (meanRow st) (meanRow st)))
    (broadcastInDim S1x64 ![] bcast_S_S1x64 (constant (F := Ideal) S_ .f32 0#32))

theorem host2_v29 (ν : Valuation τ sig (Elt Ideal)) : StableHlo.after (hostOps2 (F := Ideal)) ν (Proc.devRef .tc main_v29) = meanRow (ν (Proc.devRef .tc main_v25)) := by
  after_results_simp <;> rfl
theorem host2_v35 (ν : Valuation τ sig (Elt Ideal)) : StableHlo.after (hostOps2 (F := Ideal)) ν (Proc.devRef .tc main_v35) = varRow (ν (Proc.devRef .tc main_v25)) := by
  after_results_simp <;> rfl
theorem host5_v52 (ν : Valuation τ sig (Elt Ideal)) : StableHlo.after (hostOps5 (F := Ideal)) ν (Proc.devRef .tc main_v52) = meanRow (ν (Proc.devRef .tc main_v48)) := by
  after_results_simp <;> rfl
theorem host5_v58 (ν : Valuation τ sig (Elt Ideal)) : StableHlo.after (hostOps5 (F := Ideal)) ν (Proc.devRef .tc main_v58) = varRow (ν (Proc.devRef .tc main_v48)) := by
  after_results_simp <;> rfl

theorem meanRow_apply (st : S2.Idx → EReal) (d : Fin 64) : meanRow st (ix2 0 d) = Ideal.div (st (ix2 0 d)) nW := by
  unfold meanRow
  show Ideal.div (extractStridedSlice S1x64 ![0, 0] st slices_S2x64_S1x64_0_0 (ix2 0 d)) _ = _
  rw [extractStridedSlice_apply ![0, 0] st slices_S2x64_S1x64_0_0 (ix2 0 d) (ix2 0 d)
    (fun a => by match a with | ⟨0, _⟩ => rfl | ⟨1, _⟩ => simp [ix2])]
  rfl

theorem rowVec_meanRow (st : S2.Idx → EReal) : rowVec (meanRow st) = meanK st := by
  funext i
  obtain ⟨d, rfl⟩ : ∃ d : Fin 64, i = ix1 d := ⟨i 0, eq_ix1 i⟩
  exact meanRow_apply st d

theorem rowVec_varRow (st : S2.Idx → EReal) : rowVec (varRow st) = varK st := by
  funext i
  obtain ⟨d, rfl⟩ : ∃ d : Fin 64, i = ix1 d := ⟨i 0, eq_ix1 i⟩
  show max (Ideal.div (extractStridedSlice S1x64 ![1, 0] st slices_S2x64_S1x64_1_0 (ix2 0 d)) nW - meanRow st (ix2 0 d) * meanRow st (ix2 0 d)) zeroW = _
  rw [extractStridedSlice_apply ![1, 0] st slices_S2x64_S1x64_1_0 (ix2 0 d) (ix2 1 d)
    (fun a => by match a with | ⟨0, _⟩ => rfl | ⟨1, _⟩ => simp [ix2]), meanRow_apply]
  rfl

/-! ## The regions' values, with their operands named -/

set_option maxHeartbeats 4000000 in
theorem W2_v21 : W2 m ρ c (Proc.devRef .tc main_v21) = msg0 m c := by
  refine (W2_arr m ρ c 4).trans ((final0 (V1 m ρ) c).trans ?_)
  rw [show (V1 m ρ c main_v20 : SE.Idx → EReal) = _ from W1_v20 m ρ c, show (V1 m ρ c main_arg2 : SE.Idx → EReal) = _ from W1_main_arg2 m ρ c,
    show (V1 m ρ c main_arg3 : SW.Idx → EReal) = _ from W1_main_arg3 m ρ c, show rowVec (V1 m ρ c main_v4) = _ from W1_main_v4 m ρ c]
  rfl

set_option maxHeartbeats 4000000 in
theorem W2_v3 : W2 m ρ c (Proc.devRef .tc main_v3) = dstVec (m ((c : Thread nD τ).loc main_arg1)) := (W2_keeps m ρ c main_v3 (by decide)).trans (W1_v3 m ρ c)

set_option maxHeartbeats 4000000 in
theorem W3_v24 : W3 m ρ c (Proc.devRef .tc main_v24) = agg0 m c := by
  refine (host1_v24 (W2 m ρ c)).trans ?_
  rw [W2_v3, W2_v21 m ρ c]
  rfl

set_option maxHeartbeats 4000000 in
theorem W4_v25 : W4 m ρ c (Proc.devRef .tc main_v25) = statsArr (h0 m c) := by
  refine (W4_arr m ρ c 4).trans ((final1 (V3 m ρ) c).trans ?_)
  rw [show (V3 m ρ c main_arg0 : SN.Idx → EReal) = _ from W3_main_arg0 m ρ c, show (V3 m ρ c main_v24 : SN.Idx → EReal) = _ from W3_v24 m ρ c,
    show (V3 m ρ c main_arg5 : SW.Idx → EReal) = _ from W3_main_arg5 m ρ c, show rowVec (V3 m ρ c main_v5) = _ from W3_main_v5 m ρ c]
  rfl

set_option maxHeartbeats 4000000 in
theorem W5_v24 : W5 m ρ c (Proc.devRef .tc main_v24) = agg0 m c := ((by host_keeps : W5 m ρ c (Proc.devRef .tc main_v24) = W4 m ρ c (Proc.devRef .tc main_v24)).trans (W4_keeps m ρ c main_v24 (by decide))).trans (W3_v24 m ρ c)

set_option maxHeartbeats 4000000 in
theorem W5_v29 : rowVec (W5 m ρ c (Proc.devRef .tc main_v29)) = meanK (statsArr (h0 m c)) := by
  show rowVec (StableHlo.after (hostOps2 (F := Ideal)) (W4 m ρ c) (Proc.devRef .tc main_v29)) = _
  rw [host2_v29, W4_v25 m ρ c]
  exact rowVec_meanRow _

set_option maxHeartbeats 4000000 in
theorem W5_v35 : rowVec (W5 m ρ c (Proc.devRef .tc main_v35)) = varK (statsArr (h0 m c)) := by
  show rowVec (StableHlo.after (hostOps2 (F := Ideal)) (W4 m ρ c) (Proc.devRef .tc main_v35)) = _
  rw [host2_v35, W4_v25 m ρ c]
  exact rowVec_varRow _

set_option maxHeartbeats 4000000 in
theorem W6_v36 : W6 m ρ c (Proc.devRef .tc main_v36) = hid m c := by
  refine (W6_arr m ρ c 10).trans ((final2 (V5 m ρ) c).trans ?_)
  rw [show (V5 m ρ c main_arg0 : SN.Idx → EReal) = _ from W5_main_arg0 m ρ c, show (V5 m ρ c main_v24 : SN.Idx → EReal) = _ from W5_v24 m ρ c,
    show (V5 m ρ c main_arg5 : SW.Idx → EReal) = _ from W5_main_arg5 m ρ c, show rowVec (V5 m ρ c main_v5) = _ from W5_main_v5 m ρ c,
    show rowVec (V5 m ρ c main_v29) = _ from W5_v29 m ρ c, show rowVec (V5 m ρ c main_v35) = _ from W5_v35 m ρ c,
    show rowVec (V5 m ρ c main_v6) = _ from W5_main_v6 m ρ c, show rowVec (V5 m ρ c main_v7) = _ from W5_main_v7 m ρ c,
    show (V5 m ρ c main_arg9 : SW.Idx → EReal) = _ from W5_main_arg9 m ρ c, show rowVec (V5 m ρ c main_v8) = _ from W5_main_v8 m ρ c]
  rfl

set_option maxHeartbeats 4000000 in
theorem W6_v1 : W6 m ρ c (Proc.devRef .tc main_v1) = srcVec (m ((c : Thread nD τ).loc main_arg1)) := ((W6_keeps m ρ c main_v1 (by decide)).trans ((by host_keeps : W5 m ρ c (Proc.devRef .tc main_v1) = W4 m ρ c (Proc.devRef .tc main_v1)).trans ((W4_keeps m ρ c main_v1 (by decide)).trans ((by host_keeps : W3 m ρ c (Proc.devRef .tc main_v1) = W2 m ρ c (Proc.devRef .tc main_v1)).trans (W2_keeps m ρ c main_v1 (by decide)))))).trans (W1_v1 m ρ c)

set_option maxHeartbeats 4000000 in
theorem W7_v43 : W7 m ρ c (Proc.devRef .tc main_v43) = gatherSrc (m ((c : Thread nD τ).loc main_arg1)) (hid m c) := by
  refine (host3_v43 (W6 m ρ c)).trans ?_
  rw [W6_v1, W6_v36 m ρ c]
  rfl

set_option maxHeartbeats 4000000 in
theorem W8_v44 : W8 m ρ c (Proc.devRef .tc main_v44) = msg1 m c := by
  refine (W8_arr m ρ c 4).trans ((final3 (V7 m ρ) c).trans ?_)
  rw [show (V7 m ρ c main_v43 : SE.Idx → EReal) = _ from W7_v43 m ρ c, show (V7 m ρ c main_arg2 : SE.Idx → EReal) = _ from W7_main_arg2 m ρ c,
    show (V7 m ρ c main_arg11 : SW.Idx → EReal) = _ from W7_main_arg11 m ρ c, show rowVec (V7 m ρ c main_v9) = _ from W7_main_v9 m ρ c]
  rfl

set_option maxHeartbeats 4000000 in
theorem W8_v3 : W8 m ρ c (Proc.devRef .tc main_v3) = dstVec (m ((c : Thread nD τ).loc main_arg1)) := ((W8_keeps m ρ c main_v3 (by decide)).trans ((by host_keeps : W7 m ρ c (Proc.devRef .tc main_v3) = W6 m ρ c (Proc.devRef .tc main_v3)).trans ((W6_keeps m ρ c main_v3 (by decide)).trans ((by host_keeps : W5 m ρ c (Proc.devRef .tc main_v3) = W4 m ρ c (Proc.devRef .tc main_v3)).trans ((W4_keeps m ρ c main_v3 (by decide)).trans ((by host_keeps : W3 m ρ c (Proc.devRef .tc main_v3) = W2 m ρ c (Proc.devRef .tc main_v3)).trans (W2_keeps m ρ c main_v3 (by decide)))))))).trans (W1_v3 m ρ c)

set_option maxHeartbeats 4000000 in
theorem W9_v47 : W9 m ρ c (Proc.devRef .tc main_v47) = agg1 m c := by
  refine (host4_v47 (W8 m ρ c)).trans ?_
  rw [W8_v3, W8_v44 m ρ c]
  rfl

set_option maxHeartbeats 4000000 in
theorem W9_v36 : W9 m ρ c (Proc.devRef .tc main_v36) = hid m c := ((by host_keeps : W9 m ρ c (Proc.devRef .tc main_v36) = W8 m ρ c (Proc.devRef .tc main_v36)).trans ((W8_keeps m ρ c main_v36 (by decide)).trans (by host_keeps : W7 m ρ c (Proc.devRef .tc main_v36) = W6 m ρ c (Proc.devRef .tc main_v36)))).trans (W6_v36 m ρ c)

set_option maxHeartbeats 4000000 in
theorem W10_v48 : W10 m ρ c (Proc.devRef .tc main_v48) = statsArr (h1 m c) := by
  refine (W10_arr m ρ c 4).trans ((final4 (V9 m ρ) c).trans ?_)
  rw [show (V9 m ρ c main_v36 : SN.Idx → EReal) = _ from W9_v36 m ρ c, show (V9 m ρ c main_v47 : SN.Idx → EReal) = _ from W9_v47 m ρ c,
    show (V9 m ρ c main_arg13 : SW.Idx → EReal) = _ from W9_main_arg13 m ρ c, show rowVec (V9 m ρ c main_v10) = _ from W9_main_v10 m ρ c]
  rfl

set_option maxHeartbeats 4000000 in
theorem W11_v36 : W11 m ρ c (Proc.devRef .tc main_v36) = hid m c := ((by host_keeps : W11 m ρ c (Proc.devRef .tc main_v36) = W10 m ρ c (Proc.devRef .tc main_v36)).trans (W10_keeps m ρ c main_v36 (by decide))).trans (W9_v36 m ρ c)

set_option maxHeartbeats 4000000 in
theorem W11_v47 : W11 m ρ c (Proc.devRef .tc main_v47) = agg1 m c := ((by host_keeps : W11 m ρ c (Proc.devRef .tc main_v47) = W10 m ρ c (Proc.devRef .tc main_v47)).trans (W10_keeps m ρ c main_v47 (by decide))).trans (W9_v47 m ρ c)

set_option maxHeartbeats 4000000 in
theorem W11_v52 : rowVec (W11 m ρ c (Proc.devRef .tc main_v52)) = meanK (statsArr (h1 m c)) := by
  show rowVec (StableHlo.after (hostOps5 (F := Ideal)) (W10 m ρ c) (Proc.devRef .tc main_v52)) = _
  rw [host5_v52, W10_v48 m ρ c]
  exact rowVec_meanRow _

set_option maxHeartbeats 4000000 in
theorem W11_v58 : rowVec (W11 m ρ c (Proc.devRef .tc main_v58)) = varK (statsArr (h1 m c)) := by
  show rowVec (StableHlo.after (hostOps5 (F := Ideal)) (W10 m ρ c) (Proc.devRef .tc main_v58)) = _
  rw [host5_v58, W10_v48 m ρ c]
  exact rowVec_varRow _

set_option maxHeartbeats 4000000 in
/-- The result array at the last boundary is the two layers composed. -/
theorem W12_v59 : W12 m ρ c (Proc.devRef .tc main_v59) = outK m c := by
  refine (W12_arr m ρ c 10).trans ((final5 (V11 m ρ) c).trans ?_)
  rw [show (V11 m ρ c main_v36 : SN.Idx → EReal) = _ from W11_v36 m ρ c, show (V11 m ρ c main_v47 : SN.Idx → EReal) = _ from W11_v47 m ρ c,
    show (V11 m ρ c main_arg13 : SW.Idx → EReal) = _ from W11_main_arg13 m ρ c, show rowVec (V11 m ρ c main_v10) = _ from W11_main_v10 m ρ c,
    show rowVec (V11 m ρ c main_v52) = _ from W11_v52 m ρ c, show rowVec (V11 m ρ c main_v58) = _ from W11_v58 m ρ c,
    show rowVec (V11 m ρ c main_v11) = _ from W11_main_v11 m ρ c, show rowVec (V11 m ρ c main_v12) = _ from W11_main_v12 m ρ c,
    show (V11 m ρ c main_arg17 : SW.Idx → EReal) = _ from W11_main_arg17 m ρ c, show rowVec (V11 m ρ c main_v13) = _ from W11_main_v13 m ρ c]
  rfl

end Cert.KernelIdeal.KValue

end
-- ==== Proof.RefRun.lean ====
/-
  The run of the reference program: its 161 host operations as two straight lines (the module-local functions'
  operations listed at each call site, over that call's own arrays), and the statement that every execution ends with
  each array holding the fold of the operations over the contents at launch.
-/
import proofs.«157355_j13657996001716_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The first 60 statements of @main as 87 operations: a call's operations in place, over the call's arrays. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg2 main_arg3 main_v4 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg4 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S1600000x64 ![0, 1] bcast_S1x64_S1600000x64_0_1 : (⟨S1x64, .f32⟩ : BufTy).Contents (Elt F) → (⟨S1600000x64, .f32⟩ : BufTy).Contents (Elt F)),
    StableHlo.binary main_v4 main_v6 main_v7 (addf : (⟨S1600000x64, .f32⟩ : BufTy).Contents (Elt F) → (⟨S1600000x64, .f32⟩ : BufTy).Contents (Elt F) → (⟨S1600000x64, .f32⟩ : BufTy).Contents (Elt F)),
    StableHlo.nullary main_c (constantI S_ 32 0#32),
    StableHlo.unary main_c main_v8 (broadcastInDim S1600000 ![] bcast_S_S1600000 : (⟨S_, .i32⟩ : BufTy).Contents (Elt F) → (⟨S1600000, .i32⟩ : BufTy).Contents (Elt F)),
    StableHlo.binary main_v1 main_v8 main_v9 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v10 (broadcastInDim S1600000 ![] bcast_S_S1600000 : (⟨S_, .i32⟩ : BufTy).Contents (Elt F) → (⟨S1600000, .i32⟩ : BufTy).Contents (Elt F)),
    StableHlo.binary main_v1 main_v10 main_v11 (addi : (⟨S1600000, .i32⟩ : BufTy).Contents (Elt F) → (⟨S1600000, .i32⟩ : BufTy).Contents (Elt F) → (⟨S1600000, .i32⟩ : BufTy).Contents (Elt F)),
    StableHlo.ternary main_v9 main_v11 main_v1 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v12 main_v13 (broadcastInDim S1600000x1 ![0] bcast_S1600000_S1600000x1_0 : (⟨S1600000, .i32⟩ : BufTy).Contents (Elt F) → (⟨S1600000x1, .i32⟩ : BufTy).Contents (Elt F)),
    StableHlo.binary main_arg0 main_v13 main_v14 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.binary main_v14 main_v7 main_v15 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call0.cst (constant S_ .f32 0x00000000#32),
    StableHlo.TRef.unary main_call0.cst main_call0.v0 (broadcastInDim S1600000x64 ![] bcast_S_S1600000x64),
    StableHlo.TRef.binary (.of main_v15 : StableHlo.TRef sig ⟨S1600000x64, .f32⟩) main_call0.v0 main_call0.v1 maximumf,
    StableHlo.nullary main_cst (constant S_ .f32 0x00000000#32),
    StableHlo.unary main_cst main_v17 (broadcastInDim S100000x64 ![] bcast_S_S100000x64 : (⟨S_, .f32⟩ : BufTy).Contents (Elt F) → (⟨S100000x64, .f32⟩ : BufTy).Contents (Elt F)),
    StableHlo.unary main_v3 main_v18 (broadcastInDim S1600000x1 ![0] bcast_S1600000_S1600000x1_0 : (⟨S1600000, .i32⟩ : BufTy).Contents (Elt F) → (⟨S1600000x1, .i32⟩ : BufTy).Contents (Elt F)),
    StableHlo.ternary main_v17 main_v18 main_v16 main_v19 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_arg0 main_v19 main_v20 (addf : (⟨S100000x64, .f32⟩ : BufTy).Contents (Elt F) → (⟨S100000x64, .f32⟩ : BufTy).Contents (Elt F) → (⟨S100000x64, .f32⟩ : BufTy).Contents (Elt F)),
    StableHlo.binary main_v20 main_arg5 main_v21 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S100000x64 ![0, 1] bcast_S1x64_S100000x64_0_1 : (⟨S1x64, .f32⟩ : BufTy).Contents (Elt F) → (⟨S100000x64, .f32⟩ : BufTy).Contents (Elt F)),
    StableHlo.binary main_v21 main_v23 main_v24 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x00000000#32),
    StableHlo.binary main_v24 main_cst_1 main_v25 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v26 (broadcastInDim S64 ![] bcast_S_S64 : (⟨S_, .f32⟩ : BufTy).Contents (Elt F) → (⟨S64, .f32⟩ : BufTy).Contents (Elt F)),
    StableHlo.binary main_v25 main_v26 main_v27 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call1.cst (constant S_ .f32 0x00000000#32),
    StableHlo.TRef.binary (.of main_v24 : StableHlo.TRef sig ⟨S100000x64, .f32⟩) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v24 : StableHlo.TRef sig ⟨S100000x64, .f32⟩) main_call1.v4 main_call1.v5 subf,
    StableHlo.TRef.binary main_call1.v5 main_call1.v5 main_call1.v6 mulf,
    StableHlo.TRef.unary (.of main_c_3 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v27 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S100000x64 ![0, 1] bcast_S1x64_S100000x64_0_1 : (⟨S1x64, .f32⟩ : BufTy).Contents (Elt F) → (⟨S100000x64, .f32⟩ : BufTy).Contents (Elt F)),
    StableHlo.binary main_v24 main_v30 main_v31 (subf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v32 (broadcastInDim S64 ![] bcast_S_S64 : (⟨S_, .f32⟩ : BufTy).Contents (Elt F) → (⟨S64, .f32⟩ : BufTy).Contents (Elt F)),
    StableHlo.binary main_v28 main_v32 main_v33 (addf : (⟨S64, .f32⟩ : BufTy).Contents (Elt F) → (⟨S64, .f32⟩ : BufTy).Contents (Elt F) → (⟨S64, .f32⟩ : BufTy).Contents (Elt F)),
    StableHlo.unary main_v33 main_v34 (Host.sqrt : (⟨S64, .f32⟩ : BufTy).Contents (Elt F) → (⟨S64, .f32⟩ : BufTy).Contents (Elt F)),
    StableHlo.unary main_v34 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S100000x64 ![0, 1] bcast_S1x64_S100000x64_0_1 : (⟨S1x64, .f32⟩ : BufTy).Contents (Elt F) → (⟨S100000x64, .f32⟩ : BufTy).Contents (Elt F)),
    StableHlo.binary main_v31 main_v36 main_v37 (Host.divf : (⟨S100000x64, .f32⟩ : BufTy).Contents (Elt F) → (⟨S100000x64, .f32⟩ : BufTy).Contents (Elt F) → (⟨S100000x64, .f32⟩ : BufTy).Contents (Elt F)),
    StableHlo.unary main_arg7 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S100000x64 ![0, 1] bcast_S1x64_S100000x64_0_1 : (⟨S1x64, .f32⟩ : BufTy).Contents (Elt F) → (⟨S100000x64, .f32⟩ : BufTy).Contents (Elt F)),
    StableHlo.binary main_v37 main_v39 main_v40 (mulf : (⟨S100000x64, .f32⟩ : BufTy).Contents (Elt F) → (⟨S100000x64, .f32⟩ : BufTy).Contents (Elt F) → (⟨S100000x64, .f32⟩ : BufTy).Contents (Elt F)),
    StableHlo.unary main_arg8 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S100000x64 ![0, 1] bcast_S1x64_S100000x64_0_1 : (⟨S1x64, .f32⟩ : BufTy).Contents (Elt F) → (⟨S100000x64, .f32⟩ : BufTy).Contents (Elt F)),
    StableHlo.binary main_v40 main_v42 main_v43 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v43 : StableHlo.TRef sig ⟨S100000x64, .f32⟩) main_call2.v0 main_call2.v1 maximumf,
    StableHlo.binary main_v44 main_arg9 main_v45 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S100000x64 ![0, 1] bcast_S1x64_S100000x64_0_1 : (⟨S1x64, .f32⟩ : BufTy).Contents (Elt F) → (⟨S100000x64, .f32⟩ : BufTy).Contents (Elt F)),
    StableHlo.binary main_v45 main_v47 main_v48 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v48 : StableHlo.TRef sig ⟨S100000x64, .f32⟩) main_call3.v0 main_call3.v1 maximumf,
    StableHlo.binary main_arg2 main_arg11 main_v50 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg12 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S1600000x64 ![0, 1] bcast_S1x64_S1600000x64_0_1 : (⟨S1x64, .f32⟩ : BufTy).Contents (Elt F) → (⟨S1600000x64, .f32⟩ : BufTy).Contents (Elt F)) ]

/-- The remaining 50 statements as 74 operations. -/
abbrev ops1 : List (HloOp τ sig (Elt F)) :=
  [ StableHlo.binary main_v50 main_v52 main_v53 (addf : (⟨S1600000x64, .f32⟩ : BufTy).Contents (Elt F) → (⟨S1600000x64, .f32⟩ : BufTy).Contents (Elt F) → (⟨S1600000x64, .f32⟩ : BufTy).Contents (Elt F)),
    StableHlo.nullary main_c_5 (constantI S_ 32 0#32),
    StableHlo.unary main_c_5 main_v54 (broadcastInDim S1600000 ![] bcast_S_S1600000 : (⟨S_, .i32⟩ : BufTy).Contents (Elt F) → (⟨S1600000, .i32⟩ : BufTy).Contents (Elt F)),
    StableHlo.binary main_v1 main_v54 main_v55 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v56 (broadcastInDim S1600000 ![] bcast_S_S1600000 : (⟨S_, .i32⟩ : BufTy).Contents (Elt F) → (⟨S1600000, .i32⟩ : BufTy).Contents (Elt F)),
    StableHlo.binary main_v1 main_v56 main_v57 (addi : (⟨S1600000, .i32⟩ : BufTy).Contents (Elt F) → (⟨S1600000, .i32⟩ : BufTy).Contents (Elt F) → (⟨S1600000, .i32⟩ : BufTy).Contents (Elt F)),
    StableHlo.ternary main_v55 main_v57 main_v1 main_v58 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v58 main_v59 (broadcastInDim S1600000x1 ![0] bcast_S1600000_S1600000x1_0 : (⟨S1600000, .i32⟩ : BufTy).Contents (Elt F) → (⟨S1600000x1, .i32⟩ : BufTy).Contents (Elt F)),
    StableHlo.binary main_v49 main_v59 main_v60 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.binary main_v60 main_v53 main_v61 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call4.cst (constant S_ .f32 0x00000000#32),
    StableHlo.TRef.unary main_call4.cst main_call4.v0 (broadcastInDim S1600000x64 ![] bcast_S_S1600000x64),
    StableHlo.TRef.binary (.of main_v61 : StableHlo.TRef sig ⟨S1600000x64, .f32⟩) main_call4.v0 main_call4.v1 maximumf,
    StableHlo.nullary main_cst_7 (constant S_ .f32 0x00000000#32),
    StableHlo.unary main_cst_7 main_v63 (broadcastInDim S100000x64 ![] bcast_S_S100000x64 : (⟨S_, .f32⟩ : BufTy).Contents (Elt F) → (⟨S100000x64, .f32⟩ : BufTy).Contents (Elt F)),
    StableHlo.unary main_v3 main_v64 (broadcastInDim S1600000x1 ![0] bcast_S1600000_S1600000x1_0 : (⟨S1600000, .i32⟩ : BufTy).Contents (Elt F) → (⟨S1600000x1, .i32⟩ : BufTy).Contents (Elt F)),
    StableHlo.ternary main_v63 main_v64 main_v62 main_v65 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v49 main_v65 main_v66 (addf : (⟨S100000x64, .f32⟩ : BufTy).Contents (Elt F) → (⟨S100000x64, .f32⟩ : BufTy).Contents (Elt F) → (⟨S100000x64, .f32⟩ : BufTy).Contents (Elt F)),
    StableHlo.binary main_v66 main_arg13 main_v67 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg14 main_v68 (broadcastInDim S1x64 ![1] bcast_S64_S1x64_1 : (⟨S64, .f32⟩ : BufTy).Contents (Elt F) → (⟨S1x64, .f32⟩ : BufTy).Contents (Elt F)),
    StableHlo.unary main_v68 main_v69 (broadcastInDim S100000x64 ![0, 1] bcast_S1x64_S100000x64_0_1 : (⟨S1x64, .f32⟩ : BufTy).Contents (Elt F) → (⟨S100000x64, .f32⟩ : BufTy).Contents (Elt F)),
    StableHlo.binary main_v67 main_v69 main_v70 (addf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x00000000#32),
    StableHlo.binary main_v70 main_cst_8 main_v71 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_9 (constant S_ .f32 0x47C35000#32),
    StableHlo.unary main_cst_9 main_v72 (broadcastInDim S64 ![] bcast_S_S64 : (⟨S_, .f32⟩ : BufTy).Contents (Elt F) → (⟨S64, .f32⟩ : BufTy).Contents (Elt F)),
    StableHlo.binary main_v71 main_v72 main_v73 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32),
    StableHlo.TRef.nullary main_call5.cst (constant S_ .f32 0x00000000#32),
    StableHlo.TRef.binary (.of main_v70 : StableHlo.TRef sig ⟨S100000x64, .f32⟩) main_call5.cst main_call5.v0 (fun x v => Host.reduceAdd x v reducesTo_S100000x64_S64_d0 h_S_),
    StableHlo.TRef.unary main_call5.v0 main_call5.v1 (broadcastInDim S1x64 ![1] bcast_S64_S1x64_1),
    StableHlo.TRef.nullary main_call5.cst_0 (constant S_ .f32 0x47C35000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S100000x64 ![0, 1] bcast_S1x64_S100000x64_0_1),
    StableHlo.TRef.binary (.of main_v70 : StableHlo.TRef sig ⟨S100000x64, .f32⟩) main_call5.v4 main_call5.v5 subf,
    StableHlo.TRef.binary main_call5.v5 main_call5.v5 main_call5.v6 mulf,
    StableHlo.TRef.unary (.of main_c_10 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S64 ![] bcast_S_S64),
    StableHlo.TRef.ternary main_call5.v12 main_call5.v11 main_call5.call0.v1 main_call5.call0.v2 (fun p a b => select (broadcastInDim S64 ![] bcast_S_S64 p) a b),
    StableHlo.unary main_v73 main_v75 (broadcastInDim S1x64 ![1] bcast_S64_S1x64_1 : (⟨S64, .f32⟩ : BufTy).Contents (Elt F) → (⟨S1x64, .f32⟩ : BufTy).Contents (Elt F)),
    StableHlo.unary main_v75 main_v76 (broadcastInDim S100000x64 ![0, 1] bcast_S1x64_S100000x64_0_1 : (⟨S1x64, .f32⟩ : BufTy).Contents (Elt F) → (⟨S100000x64, .f32⟩ : BufTy).Contents (Elt F)),
    StableHlo.binary main_v70 main_v76 main_v77 (subf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3727C5AC#32),
    StableHlo.unary main_cst_11 main_v78 (broadcastInDim S64 ![] bcast_S_S64 : (⟨S_, .f32⟩ : BufTy).Contents (Elt F) → (⟨S64, .f32⟩ : BufTy).Contents (Elt F)),
    StableHlo.binary main_v74 main_v78 main_v79 (addf : (⟨S64, .f32⟩ : BufTy).Contents (Elt F) → (⟨S64, .f32⟩ : BufTy).Contents (Elt F) → (⟨S64, .f32⟩ : BufTy).Contents (Elt F)),
    StableHlo.unary main_v79 main_v80 (Host.sqrt : (⟨S64, .f32⟩ : BufTy).Contents (Elt F) → (⟨S64, .f32⟩ : BufTy).Contents (Elt F)),
    StableHlo.unary main_v80 main_v81 (broadcastInDim S1x64 ![1] bcast_S64_S1x64_1 : (⟨S64, .f32⟩ : BufTy).Contents (Elt F) → (⟨S1x64, .f32⟩ : BufTy).Contents (Elt F)),
    StableHlo.unary main_v81 main_v82 (broadcastInDim S100000x64 ![0, 1] bcast_S1x64_S100000x64_0_1 : (⟨S1x64, .f32⟩ : BufTy).Contents (Elt F) → (⟨S100000x64, .f32⟩ : BufTy).Contents (Elt F)),
    StableHlo.binary main_v77 main_v82 main_v83 (Host.divf : (⟨S100000x64, .f32⟩ : BufTy).Contents (Elt F) → (⟨S100000x64, .f32⟩ : BufTy).Contents (Elt F) → (⟨S100000x64, .f32⟩ : BufTy).Contents (Elt F)),
    StableHlo.unary main_arg15 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S100000x64 ![0, 1] bcast_S1x64_S100000x64_0_1 : (⟨S1x64, .f32⟩ : BufTy).Contents (Elt F) → (⟨S100000x64, .f32⟩ : BufTy).Contents (Elt F)),
    StableHlo.binary main_v83 main_v85 main_v86 (mulf : (⟨S100000x64, .f32⟩ : BufTy).Contents (Elt F) → (⟨S100000x64, .f32⟩ : BufTy).Contents (Elt F) → (⟨S100000x64, .f32⟩ : BufTy).Contents (Elt F)),
    StableHlo.unary main_arg16 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S100000x64 ![0, 1] bcast_S1x64_S100000x64_0_1 : (⟨S1x64, .f32⟩ : BufTy).Contents (Elt F) → (⟨S100000x64, .f32⟩ : BufTy).Contents (Elt F)),
    StableHlo.binary main_v86 main_v88 main_v89 (addf : (⟨S100000x64, .f32⟩ : BufTy).Contents (Elt F) → (⟨S100000x64, .f32⟩ : BufTy).Contents (Elt F) → (⟨S100000x64, .f32⟩ : BufTy).Contents (Elt F)),
    StableHlo.TRef.nullary main_call6.cst (constant S_ .f32 0x00000000#32),
    StableHlo.TRef.unary main_call6.cst main_call6.v0 (broadcastInDim S100000x64 ![] bcast_S_S100000x64),
    StableHlo.TRef.binary (.of main_v89 : StableHlo.TRef sig ⟨S100000x64, .f32⟩) main_call6.v0 main_call6.v1 maximumf,
    StableHlo.binary main_v90 main_arg17 main_v91 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg18 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S100000x64 ![0, 1] bcast_S1x64_S100000x64_0_1 : (⟨S1x64, .f32⟩ : BufTy).Contents (Elt F) → (⟨S100000x64, .f32⟩ : BufTy).Contents (Elt F)),
    StableHlo.binary main_v91 main_v93 main_v94 (addf : (⟨S100000x64, .f32⟩ : BufTy).Contents (Elt F) → (⟨S100000x64, .f32⟩ : BufTy).Contents (Elt F) → (⟨S100000x64, .f32⟩ : BufTy).Contents (Elt F)) ]

/-- All of @main's operations, in order. -/
abbrev ops : List (HloOp τ sig (Elt F)) := ops0 ++ ops1

set_option maxRecDepth 8192 in
set_option maxHeartbeats 4000000 in
/-- The first window followed by anything is the first line followed by it: the functions unfolded at their calls,
    sequencing reassociated. -/
theorem part0_eq (c : Dev nD) {β : Type} (k : PUnit → Prog (TpuEff nD τ sig (Elt F) (Pipeline.Sig Λ₀ (Fin 0) fun p => (pcfgs (F := F) p).Adm) .tc) β) :
    main_part0 (F := F) c >>= k = seq ops0 >>= k := by
  simp only [main_part0, fn_relu.body, fn_var.body, fn_where.body, fn_relu_0.body, seq, bind_assoc, pure_bind]

set_option maxRecDepth 8192 in
set_option maxHeartbeats 4000000 in
/-- The second window is the second line. -/
theorem part1_eq (c : Dev nD) : main_part1 (F := F) c = seq ops1 := by
  simp only [main_part1, fn_relu.body, fn_var.body, fn_where.body, fn_relu_0.body, seq, bind_assoc, pure_bind]

/-- @main is the one straight line. -/
theorem main_eq (c : Dev nD) : main (F := F) c = seq ops :=
  ((part0_eq c fun _ => main_part1 c).trans
    (congrArg (fun t => seq ops0 >>= fun _ => t) (part1_eq c))).trans (seq_append ops0 ops1).symm

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub ..⟩

theorem ops1_sub : (ops1 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., unary_bufs_sub .., ternary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub ..⟩

theorem ops_sub : (ops : List (HloOp τ sig (Elt F))).Forall fun op => op.bufs ⊆ tcRefs τ sig :=
  List.forall_append.mpr ⟨ops0_sub, ops1_sub⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

theorem ops_fresh : ∀ op ∈ (ops : List (HloOp τ sig (Elt F))), op.fresh = ∅ :=
  List.forall_iff_forall_mem.mp (List.forall_append.mpr ⟨ops0_fresh, ops1_fresh⟩)

/-- On every device, for any float values, from any memory with zero counters: every weakly fair execution of @main
    terminates, and every final state has each array at the fold of the operations over the launch contents. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.LibHostSSA.lean ====
/-
  Reading a straight line of host operations one operation at a time.

  In a line where every array is written by at most one operation, and an operation reads only arrays written before it
  (or never written by the line), what an array holds AFTER THE WHOLE LINE obeys the operation that writes it: the
  result array holds the operation's function of its operand arrays, all read after the whole line. The reason: cut the
  line at the operation; the part after it writes neither the result nor the operands, so reading them after the whole
  line is reading them right after (for the result) or right before (for the operands) the operation. The lemmas take
  the line, the list of arrays it writes in order, the position of the operation, and three list non-memberships that a
  literal line decides. Independent of any program.
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- Running one stretch after another: the line `l₁ ++ l₂` from `V` is `l₂` from what `l₁` leaves. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op ops ih => exact ih (op.result V)

/-- The line `L` writes exactly the arrays `W`, in order: each operation its one result array. -/
def WritesAre : List (HloOp τ sig Val) → List (Ref sig .tc) → Prop
  | [], [] => True
  | op :: L, r :: W => op.writes = {Proc.devRef .tc r} ∧ WritesAre L W
  | [], _ :: _ => False
  | _ :: _, [] => False

/-- A line leaves alone every array it does not write. -/
theorem WritesAre.keeps : ∀ {L : List (HloOp τ sig Val)} {W : List (Ref sig .tc)}, WritesAre L W →
    ∀ (V : Valuation τ sig Val) (r : Ref sig .tc), r ∉ W → StableHlo.after L V (Proc.devRef .tc r) = V (Proc.devRef .tc r)
  | [], [], _, _, _, _ => rfl
  | op :: L, w :: W, h, V, r, hr => by
      rw [StableHlo.after_cons, WritesAre.keeps h.2 _ r (fun hm => hr (List.mem_cons_of_mem _ hm)),
        op.result_of_not_mem V (by
          rw [h.1, Finset.mem_singleton]
          exact StableHlo.devRef_ne_of_ne (fun e => hr (e ▸ List.mem_cons_self)))]
  | [], _ :: _, h, _, _, _ => h.elim
  | _ :: _, [], h, _, _, _ => h.elim

/-- The tail of a line writes the tail of the list. -/
theorem WritesAre.drop : ∀ (k : ℕ) {L : List (HloOp τ sig Val)} {W : List (Ref sig .tc)}, WritesAre L W →
    WritesAre (L.drop k) (W.drop k)
  | 0, _, _, h => h
  | _ + 1, [], [], _ => trivial
  | k + 1, _ :: _, _ :: _, h => WritesAre.drop k h.2
  | _ + 1, [], _ :: _, h => h.elim
  | _ + 1, _ :: _, [], h => h.elim

variable {L : List (HloOp τ sig Val)} {W : List (Ref sig .tc)}

/-- An array no operation from position `k` on writes holds after the line what it held before position `k`. -/
theorem after_eq_take (h : WritesAre L W) (k : ℕ) (V : Valuation τ sig Val) (r : Ref sig .tc) (hr : r ∉ W.drop k) :
    StableHlo.after L V (Proc.devRef .tc r) = StableHlo.after (L.take k) V (Proc.devRef .tc r) := by
  conv_lhs => rw [← List.take_append_drop k L]
  rw [after_append]
  exact (h.drop k).keeps _ r hr

/-- An array no operation after position `k` writes holds after the line what operation `k` leaves in it. -/
theorem after_at (h : WritesAre L W) (k : ℕ) (V : Valuation τ sig Val) (op : HloOp τ sig Val)
    (hk : L.drop k = op :: L.drop (k + 1)) (r : Ref sig .tc) (hr : r ∉ W.drop (k + 1)) :
    StableHlo.after L V (Proc.devRef .tc r) = op.result (StableHlo.after (L.take k) V) (Proc.devRef .tc r) := by
  conv_lhs => rw [← List.take_append_drop k L, hk]
  rw [after_append, StableHlo.after_cons]
  exact (h.drop (k + 1)).keeps _ r hr

variable {x a b c y : Ref sig .tc}

theorem ssa_nullary (h : WritesAre L W) (k : ℕ) (V : Valuation τ sig Val) (v : y.ty.Contents Val) (hy)
    (hk : L.drop k = nullary (τ := τ) y v hy :: L.drop (k + 1)) (hy' : y ∉ W.drop (k + 1)) :
    StableHlo.after L V (Proc.devRef .tc y) = v := by
  rw [after_at h k V _ hk y hy', nullary_result]

theorem ssa_unary (h : WritesAre L W) (k : ℕ) (V : Valuation τ sig Val) (f : x.ty.Contents Val → y.ty.Contents Val) (hx hy)
    (hk : L.drop k = unary (τ := τ) x y f hx hy :: L.drop (k + 1)) (hy' : y ∉ W.drop (k + 1)) (hx' : x ∉ W.drop k) :
    StableHlo.after L V (Proc.devRef .tc y) = f (StableHlo.after L V (Proc.devRef .tc x)) := by
  rw [after_at h k V _ hk y hy', unary_result, after_eq_take h k V x hx']

theorem ssa_binary (h : WritesAre L W) (k : ℕ) (V : Valuation τ sig Val)
    (f : a.ty.Contents Val → b.ty.Contents Val → y.ty.Contents Val) (ha hb hy)
    (hk : L.drop k = binary (τ := τ) a b y f ha hb hy :: L.drop (k + 1)) (hy' : y ∉ W.drop (k + 1))
    (ha' : a ∉ W.drop k) (hb' : b ∉ W.drop k) :
    StableHlo.after L V (Proc.devRef .tc y) = f (StableHlo.after L V (Proc.devRef .tc a)) (StableHlo.after L V (Proc.devRef .tc b)) := by
  rw [after_at h k V _ hk y hy', binary_result, after_eq_take h k V a ha', after_eq_take h k V b hb']

theorem ssa_ternary (h : WritesAre L W) (k : ℕ) (V : Valuation τ sig Val)
    (f : c.ty.Contents Val → a.ty.Contents Val → b.ty.Contents Val → y.ty.Contents Val) (hc ha hb hy)
    (hk : L.drop k = ternary (τ := τ) c a b y f hc ha hb hy :: L.drop (k + 1)) (hy' : y ∉ W.drop (k + 1))
    (hc' : c ∉ W.drop k) (ha' : a ∉ W.drop k) (hb' : b ∉ W.drop k) :
    StableHlo.after L V (Proc.devRef .tc y)
      = f (StableHlo.after L V (Proc.devRef .tc c)) (StableHlo.after L V (Proc.devRef .tc a)) (StableHlo.after L V (Proc.devRef .tc b)) := by
  rw [after_at h k V _ hk y hy', ternary_result, after_eq_take h k V c hc', after_eq_take h k V a ha', after_eq_take h k V b hb']

theorem ssa_reshape (h : WritesAre L W) (k : ℕ) (V : Valuation τ sig Val) (he hn hx hy)
    (hk : L.drop k = reshape (τ := τ) (Val := Val) x y he hn hx hy :: L.drop (k + 1)) (hy' : y ∉ W.drop (k + 1)) (hx' : x ∉ W.drop k) :
    StableHlo.after L V (Proc.devRef .tc y)
      = fun i => he ▸ shapeCast y.ty.shape (StableHlo.after L V (Proc.devRef .tc x)) hn i := by
  rw [after_at h k V _ hk y hy', reshape_result, after_eq_take h k V x hx']

/-- A join of three operands, written as one operation over a literal family of three arrays. -/
theorem ssa_nary3 (h : WritesAre L W) (k : ℕ) (V : Valuation τ sig Val)
    (f : ((i : Fin 3) → ((![a, b, c] : Fin 3 → Ref sig .tc) i).ty.Contents Val) → y.ty.Contents Val) (hxs hy)
    (hk : L.drop k = nary (τ := τ) ![a, b, c] y f hxs hy :: L.drop (k + 1)) (hy' : y ∉ W.drop (k + 1))
    (ha' : a ∉ W.drop k) (hb' : b ∉ W.drop k) (hc' : c ∉ W.drop k) :
    StableHlo.after L V (Proc.devRef .tc y)
      = f (Fin.cons (StableHlo.after L V (Proc.devRef .tc a)) (Fin.cons (StableHlo.after L V (Proc.devRef .tc b))
          (Fin.cons (StableHlo.after L V (Proc.devRef .tc c)) (fun i => i.elim0)))) := by
  rw [after_at h k V _ hk y hy', nary_result, after_eq_take h k V a ha', after_eq_take h k V b hb', after_eq_take h k V c hc']
  congr 1; funext i; fin_cases i <;> rfl

end Cert.Lib

end
-- ==== Proof.RefRead.lean ====
/-
  Reading the reference's line of operations one operation at a time.  Every array of the line is written by exactly one
  operation, and an operation reads only arrays written before it or never written; so after the whole line each array
  holds its operation's function of the operand arrays, themselves read after the whole line, and an argument array holds
  what it held at launch.
-/
import proofs.«157355_j13657996001716_2_alg».proof.Proof.RefRun
import proofs.«157355_j13657996001716_2_alg».proof.Proof.LibHostSSA

noncomputable section

namespace Cert.ReferenceIdeal.RefRead

open Cert.ReferenceIdeal Cert.ReferenceIdeal.RefRun Idealize.ShloMosaic Idealize.ShloMosaic.TcCoe Idealize.SL.Sem Idealize.ShloMosaic.StableHlo
open Cert.ReferenceIdeal.Facts₀ Cert.ReferenceIdeal.Facts

variable {F : FTy → Type} [FloatOps F]

/-- The arrays the line writes, in order: one per operation. -/
abbrev W : List (Ref sig .tc) :=
  [ main_v0, main_v1, main_v2, main_v3, main_v4, main_v5, main_v6, main_v7,
    main_c, main_v8, main_v9, main_c_0, main_v10, main_v11, main_v12, main_v13,
    main_v14, main_v15, main_call0_cst, main_call0_v0, main_v16, main_cst, main_v17, main_v18,
    main_v19, main_v20, main_v21, main_v22, main_v23, main_v24, main_cst_1, main_v25,
    main_cst_2, main_v26, main_v27, main_c_3, main_call1_cst, main_call1_v0, main_call1_v1, main_call1_cst_0,
    main_call1_v2, main_call1_v3, main_call1_v4, main_call1_v5, main_call1_v6, main_call1_v7, main_call1_cst_1, main_call1_v8,
    main_call1_cst_2, main_call1_v9, main_call1_v10, main_call1_v11, main_call1_cst_3, main_call1_v12, main_call1_cst_4, main_call1_call0_v0,
    main_call1_call0_v1, main_v28, main_v29, main_v30, main_v31, main_cst_4, main_v32, main_v33,
    main_v34, main_v35, main_v36, main_v37, main_v38, main_v39, main_v40, main_v41,
    main_v42, main_v43, main_call2_cst, main_call2_v0, main_v44, main_v45, main_v46, main_v47,
    main_v48, main_call3_cst, main_call3_v0, main_v49, main_v50, main_v51, main_v52, main_v53,
    main_c_5, main_v54, main_v55, main_c_6, main_v56, main_v57, main_v58, main_v59,
    main_v60, main_v61, main_call4_cst, main_call4_v0, main_v62, main_cst_7, main_v63, main_v64,
    main_v65, main_v66, main_v67, main_v68, main_v69, main_v70, main_cst_8, main_v71,
    main_cst_9, main_v72, main_v73, main_c_10, main_call5_cst, main_call5_v0, main_call5_v1, main_call5_cst_0,
    main_call5_v2, main_call5_v3, main_call5_v4, main_call5_v5, main_call5_v6, main_call5_v7, main_call5_cst_1, main_call5_v8,
    main_call5_cst_2, main_call5_v9, main_call5_v10, main_call5_v11, main_call5_cst_3, main_call5_v12, main_call5_cst_4, main_call5_call0_v0,
    main_call5_call0_v1, main_v74, main_v75, main_v76, main_v77, main_cst_11, main_v78, main_v79,
    main_v80, main_v81, main_v82, main_v83, main_v84, main_v85, main_v86, main_v87,
    main_v88, main_v89, main_call6_cst, main_call6_v0, main_v90, main_v91, main_v92, main_v93,
    main_v94 ]

set_option maxRecDepth 8192 in
/-- Operation by operation, the line writes exactly those arrays. -/
theorem wr : Cert.Lib.WritesAre (ops : List (HloOp τ sig (Elt F))) W :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, trivial⟩

/-- An array the line never writes holds after it what it held before. -/
theorem rd_keep (V : Valuation τ sig (Elt F)) (r : Ref sig .tc) (hr : r ∉ W) :
    after ops V (Proc.devRef .tc r) = V (Proc.devRef .tc r) :=
  (wr (F := F)).keeps V r hr

theorem rd_main_v0 (V : Valuation τ sig (Elt F)) :
    after ops V (Proc.devRef .tc main_v0) = ((extractStridedSlice S1x1600000 ![0, 0] · slices_S2x1600000_S1x1600000_0_0) : (⟨S2x1600000, .i32⟩ : BufTy).Contents (Elt F) → (⟨S1x1600000, .i32⟩ : BufTy).Contents (Elt F)) (after ops V (Proc.devRef .tc main_arg1)) :=
  Cert.Lib.ssa_unary (x := main_arg1) (y := main_v0) wr 0 V ((extractStridedSlice S1x1600000 ![0, 0] · slices_S2x1600000_S1x1600000_0_0) : (⟨S2x1600000, .i32⟩ : BufTy).Contents (Elt F) → (⟨S1x1600000, .i32⟩ : BufTy).Contents (Elt F)) _ _ rfl (by decide) (by decide)

theorem rd_main_v1 (V : Valuation τ sig (Elt F)) :
    after ops V (Proc.devRef .tc main_v1) = shapeCast main_v1.ty.shape (after ops V (Proc.devRef .tc main_v0)) shapeCasts_S1x1600000_S1600000 :=
  (Cert.Lib.ssa_reshape (x := main_v0) (y := main_v1) wr 1 V rfl shapeCasts_S1x1600000_S1600000 _ _ rfl (by decide) (by decide)).trans rfl

theorem rd_main_v2 (V : Valuation τ sig (Elt F)) :
    after ops V (Proc.devRef .tc main_v2) = ((extractStridedSlice S1x1600000 ![1, 0] · slices_S2x1600000_S1x1600000_1_0) : (⟨S2x1600000, .i32⟩ : BufTy).Contents (Elt F) → (⟨S1x1600000, .i32⟩ : BufTy).Contents (Elt F)) (after ops V (Proc.devRef .tc main_arg1)) :=
  Cert.Lib.ssa_unary (x := main_arg1) (y := main_v2) wr 2 V ((extractStridedSlice S1x1600000 ![1, 0] · slices_S2x1600000_S1x1600000_1_0) : (⟨S2x1600000, .i32⟩ : BufTy).Contents (Elt F) → (⟨S1x1600000, .i32⟩ : BufTy).Contents (Elt F)) _ _ rfl (by decide) (by decide)

theorem rd_main_v3 (V : Valuation τ sig (Elt F)) :
    after ops V (Proc.devRef .tc main_v3) = shapeCast main_v3.ty.shape (after ops V (Proc.devRef .tc main_v2)) shapeCasts_S1x1600000_S1600000 :=
  (Cert.Lib.ssa_reshape (x := main_v2) (y := main_v3) wr 3 V rfl shapeCasts_S1x1600000_S1600000 _ _ rfl (by decide) (by decide)).trans rfl

theorem rd_main_v4 (V : Valuation τ sig (Elt F)) :
    after ops V (Proc.devRef .tc main_v4) = ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)) (after ops V (Proc.devRef .tc main_arg2)) (after ops V (Proc.devRef .tc main_arg3)) :=
  Cert.Lib.ssa_binary (a := main_arg2) (b := main_arg3) (y := main_v4) wr 4 V ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)) _ _ _ rfl (by decide) (by decide) (by decide)

theorem rd_main_v5 (V : Valuation τ sig (Elt F)) :
    after ops V (Proc.devRef .tc main_v5) = (broadcastInDim S1x64 ![1] bcast_S64_S1x64_1 : (⟨S64, .f32⟩ : BufTy).Contents (Elt F) → (⟨S1x64, .f32⟩ : BufTy).Contents (Elt F)) (after ops V (Proc.devRef .tc main_arg4)) :=
  Cert.Lib.ssa_unary (x := main_arg4) (y := main_v5) wr 5 V (broadcastInDim S1x64 ![1] bcast_S64_S1x64_1 : (⟨S64, .f32⟩ : BufTy).Contents (Elt F) → (⟨S1x64, .f32⟩ : BufTy).Contents (Elt F)) _ _ rfl (by decide) (by decide)

theorem rd_main_v6 (V : Valuation τ sig (Elt F)) :
    after ops V (Proc.devRef .tc main_v6) = (broadcastInDim S1600000x64 ![0, 1] bcast_S1x64_S1600000x64_0_1 : (⟨S1x64, .f32⟩ : BufTy).Contents (Elt F) → (⟨S1600000x64, .f32⟩ : BufTy).Contents (Elt F)) (after ops V (Proc.devRef .tc main_v5)) :=
  Cert.Lib.ssa_unary (x := main_v5) (y := main_v6) wr 6 V (broadcastInDim S1600000x64 ![0, 1] bcast_S1x64_S1600000x64_0_1 : (⟨S1x64, .f32⟩ : BufTy).Contents (Elt F) → (⟨S1600000x64, .f32⟩ : BufTy).Contents (Elt F)) _ _ rfl (by decide) (by decide)

theorem rd_main_v7 (V : Valuation τ sig (Elt F)) :
    after ops V (Proc.devRef .tc main_v7) = (addf : (⟨S1600000x64, .f32⟩ : BufTy).Contents (Elt F) → (⟨S1600000x64, .f32⟩ : BufTy).Contents (Elt F) → (⟨S1600000x64, .f32⟩ : BufTy).Contents (Elt F)) (after ops V (Proc.devRef .tc main_v4)) (after ops V (Proc.devRef .tc main_v6)) :=
  Cert.Lib.ssa_binary (a := main_v4) (b := main_v6) (y := main_v7) wr 7 V (addf : (⟨S1600000x64, .f32⟩ : BufTy).Contents (Elt F) → (⟨S1600000x64, .f32⟩ : BufTy).Contents (Elt F) → (⟨S1600000x64, .f32⟩ : BufTy).Contents (Elt F)) _ _ _ rfl (by decide) (by decide) (by decide)

theorem rd_main_c (V : Valuation τ sig (Elt F)) :
    after ops V (Proc.devRef .tc main_c) = (constantI S_ 32 0#32) :=
  Cert.Lib.ssa_nullary (y := main_c) wr 8 V (constantI S_ 32 0#32) _ rfl (by decide)

theorem rd_main_v8 (V : Valuation τ sig (Elt F)) :
    after ops V (Proc.devRef .tc main_v8) = (broadcastInDim S1600000 ![] bcast_S_S1600000 : (⟨S_, .i32⟩ : BufTy).Contents (Elt F) → (⟨S1600000, .i32⟩ : BufTy).Contents (Elt F)) (after ops V (Proc.devRef .tc main_c)) :=
  Cert.Lib.ssa_unary (x := main_c) (y := main_v8) wr 9 V (broadcastInDim S1600000 ![] bcast_S_S1600000 : (⟨S_, .i32⟩ : BufTy).Contents (Elt F) → (⟨S1600000, .i32⟩ : BufTy).Contents (Elt F)) _ _ rfl (by decide) (by decide)

theorem rd_main_v9 (V : Valuation τ sig (Elt F)) :
    after ops V (Proc.devRef .tc main_v9) = (cmpi .slt : (⟨S1600000, .i32⟩ : BufTy).Contents (Elt F) → (⟨S1600000, .i32⟩ : BufTy).Contents (Elt F) → (⟨S1600000, .i1⟩ : BufTy).Contents (Elt F)) (after ops V (Proc.devRef .tc main_v1)) (after ops V (Proc.devRef .tc main_v8)) :=
  Cert.Lib.ssa_binary (a := main_v1) (b := main_v8) (y := main_v9) wr 10 V (cmpi .slt : (⟨S1600000, .i32⟩ : BufTy).Contents (Elt F) → (⟨S1600000, .i32⟩ : BufTy).Contents (Elt F) → (⟨S1600000, .i1⟩ : BufTy).Contents (Elt F)) _ _ _ rfl (by decide) (by decide) (by decide)

theorem rd_main_c_0 (V : Valuation τ sig (Elt F)) :
    after ops V (Proc.devRef .tc main_c_0) = (constantI S_ 32 100000#32) :=
  Cert.Lib.ssa_nullary (y := main_c_0) wr 11 V (constantI S_ 32 100000#32) _ rfl (by decide)

theorem rd_main_v10 (V : Valuation τ sig (Elt F)) :
    after ops V (Proc.devRef .tc main_v10) = (broadcastInDim S1600000 ![] bcast_S_S1600000 : (⟨S_, .i32⟩ : BufTy).Contents (Elt F) → (⟨S1600000, .i32⟩ : BufTy).Contents (Elt F)) (after ops V (Proc.devRef .tc main_c_0)) :=
  Cert.Lib.ssa_unary (x := main_c_0) (y := main_v10) wr 12 V (broadcastInDim S1600000 ![] bcast_S_S1600000 : (⟨S_, .i32⟩ : BufTy).Contents (Elt F) → (⟨S1600000, .i32⟩ : BufTy).Contents (Elt F)) _ _ rfl (by decide) (by decide)

theorem rd_main_v11 (V : Valuation τ sig (Elt F)) :
    after ops V (Proc.devRef .tc main_v11) = (addi : (⟨S1600000, .i32⟩ : BufTy).Contents (Elt F) → (⟨S1600000, .i32⟩ : BufTy).Contents (Elt F) → (⟨S1600000, .i32⟩ : BufTy).Contents (Elt F)) (after ops V (Proc.devRef .tc main_v1)) (after ops V (Proc.devRef .tc main_v10)) :=
  Cert.Lib.ssa_binary (a := main_v1) (b := main_v10) (y := main_v11) wr 13 V (addi : (⟨S1600000, .i32⟩ : BufTy).Contents (Elt F) → (⟨S1600000, .i32⟩ : BufTy).Contents (Elt F) → (⟨S1600000, .i32⟩ : BufTy).Contents (Elt F)) _ _ _ rfl (by decide) (by decide) (by decide)

theorem rd_main_v12 (V : Valuation τ sig (Elt F)) :
    after ops V (Proc.devRef .tc main_v12) = (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (after ops V (Proc.devRef .tc main_v9)) (after ops V (Proc.devRef .tc main_v11)) (after ops V (Proc.devRef .tc main_v1)) :=
  Cert.Lib.ssa_ternary (c := main_v9) (a := main_v11) (b := main_v1) (y := main_v12) wr 14 V (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) _ _ _ _ rfl (by decide) (by decide) (by decide) (by decide)

theorem rd_main_v13 (V : Valuation τ sig (Elt F)) :
    after ops V (Proc.devRef .tc main_v13) = (broadcastInDim S1600000x1 ![0] bcast_S1600000_S1600000x1_0 : (⟨S1600000, .i32⟩ : BufTy).Contents (Elt F) → (⟨S1600000x1, .i32⟩ : BufTy).Contents (Elt F)) (after ops V (Proc.devRef .tc main_v12)) :=
  Cert.Lib.ssa_unary (x := main_v12) (y := main_v13) wr 15 V (broadcastInDim S1600000x1 ![0] bcast_S1600000_S1600000x1_0 : (⟨S1600000, .i32⟩ : BufTy).Contents (Elt F) → (⟨S1600000x1, .i32⟩ : BufTy).Contents (Elt F)) _ _ rfl (by decide) (by decide)

theorem rd_main_v14 (V : Valuation τ sig (Elt F)) :
    after ops V (Proc.devRef .tc main_v14) = ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) (after ops V (Proc.devRef .tc main_arg0)) (after ops V (Proc.devRef .tc main_v13)) :=
  Cert.Lib.ssa_binary (a := main_arg0) (b := main_v13) (y := main_v14) wr 16 V ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) _ _ _ rfl (by decide) (by decide) (by decide)

theorem rd_main_v15 (V : Valuation τ sig (Elt F)) :
    after ops V (Proc.devRef .tc main_v15) = (addf : (⟨S1600000x64, .f32⟩ : BufTy).Contents (Elt F) → (⟨S1600000x64, .f32⟩ : BufTy).Contents (Elt F) → (⟨S1600000x64, .f32⟩ : BufTy).Contents (Elt F)) (after ops V (Proc.devRef .tc main_v14)) (after ops V (Proc.devRef .tc main_v7)) :=
  Cert.Lib.ssa_binary (a := main_v14) (b := main_v7) (y := main_v15) wr 17 V (addf : (⟨S1600000x64, .f32⟩ : BufTy).Contents (Elt F) → (⟨S1600000x64, .f32⟩ : BufTy).Contents (Elt F) → (⟨S1600000x64, .f32⟩ : BufTy).Contents (Elt F)) _ _ _ rfl (by decide) (by decide) (by decide)

theorem rd_main_call0_cst (V : Valuation τ sig (Elt F)) :
    after ops V (Proc.devRef .tc main_call0_cst) = ((constant S_ .f32 0x00000000#32) : (⟨S_, .f32⟩ : BufTy).Contents (Elt F)) :=
  Cert.Lib.ssa_nullary (y := main_call0_cst) wr 18 V ((constant S_ .f32 0x00000000#32) : (⟨S_, .f32⟩ : BufTy).Contents (Elt F)) _ rfl (by decide)

theorem rd_main_call0_v0 (V : Valuation τ sig (Elt F)) :
    after ops V (Proc.devRef .tc main_call0_v0) = ((broadcastInDim S1600000x64 ![] bcast_S_S1600000x64) : (⟨S_, .f32⟩ : BufTy).Contents (Elt F) → (⟨S1600000x64, .f32⟩ : BufTy).Contents (Elt F)) (after ops V (Proc.devRef .tc main_call0_cst)) :=
  Cert.Lib.ssa_unary (x := main_call0_cst) (y := main_call0_v0) wr 19 V ((broadcastInDim S1600000x64 ![] bcast_S_S1600000x64) : (⟨S_, .f32⟩ : BufTy).Contents (Elt F) → (⟨S1600000x64, .f32⟩ : BufTy).Contents (Elt F)) _ _ rfl (by decide) (by decide)

theorem rd_main_v16 (V : Valuation τ sig (Elt F)) :
    after ops V (Proc.devRef .tc main_v16) = (maximumf : (⟨S1600000x64, .f32⟩ : BufTy).Contents (Elt F) → (⟨S1600000x64, .f32⟩ : BufTy).Contents (Elt F) → (⟨S1600000x64, .f32⟩ : BufTy).Contents (Elt F)) (after ops V (Proc.devRef .tc main_v15)) (after ops V (Proc.devRef .tc main_call0_v0)) :=
  Cert.Lib.ssa_binary (a := main_v15) (b := main_call0_v0) (y := main_v16) wr 20 V (maximumf : (⟨S1600000x64, .f32⟩ : BufTy).Contents (Elt F) → (⟨S1600000x64, .f32⟩ : BufTy).Contents (Elt F) → (⟨S1600000x64, .f32⟩ : BufTy).Contents (Elt F)) _ _ _ rfl (by decide) (by decide) (by decide)

theorem rd_main_cst (V : Valuation τ sig (Elt F)) :
    after ops V (Proc.devRef .tc main_cst) = (constant S_ .f32 0x00000000#32) :=
  Cert.Lib.ssa_nullary (y := main_cst) wr 21 V (constant S_ .f32 0x00000000#32) _ rfl (by decide)

theorem rd_main_v17 (V : Valuation τ sig (Elt F)) :
    after ops V (Proc.devRef .tc main_v17) = (broadcastInDim S100000x64 ![] bcast_S_S100000x64 : (⟨S_, .f32⟩ : BufTy).Contents (Elt F) → (⟨S100000x64, .f32⟩ : BufTy).Contents (Elt F)) (after ops V (Proc.devRef .tc main_cst)) :=
  Cert.Lib.ssa_unary (x := main_cst) (y := main_v17) wr 22 V (broadcastInDim S100000x64 ![] bcast_S_S100000x64 : (⟨S_, .f32⟩ : BufTy).Contents (Elt F) → (⟨S100000x64, .f32⟩ : BufTy).Contents (Elt F)) _ _ rfl (by decide) (by decide)

theorem rd_main_v18 (V : Valuation τ sig (Elt F)) :
    after ops V (Proc.devRef .tc main_v18) = (broadcastInDim S1600000x1 ![0] bcast_S1600000_S1600000x1_0 : (⟨S1600000, .i32⟩ : BufTy).Contents (Elt F) → (⟨S1600000x1, .i32⟩ : BufTy).Contents (Elt F)) (after ops V (Proc.devRef .tc main_v3)) :=
  Cert.Lib.ssa_unary (x := main_v3) (y := main_v18) wr 23 V (broadcastInDim S1600000x1 ![0] bcast_S1600000_S1600000x1_0 : (⟨S1600000, .i32⟩ : BufTy).Contents (Elt F) → (⟨S1600000x1, .i32⟩ : BufTy).Contents (Elt F)) _ _ rfl (by decide) (by decide)

theorem rd_main_v19 (V : Valuation τ sig (Elt F)) :
    after ops V (Proc.devRef .tc main_v19) = ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) (after ops V (Proc.devRef .tc main_v17)) (after ops V (Proc.devRef .tc main_v18)) (after ops V (Proc.devRef .tc main_v16)) :=
  Cert.Lib.ssa_ternary (c := main_v17) (a := main_v18) (b := main_v16) (y := main_v19) wr 24 V ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) _ _ _ _ rfl (by decide) (by decide) (by decide) (by decide)

theorem rd_main_v20 (V : Valuation τ sig (Elt F)) :
    after ops V (Proc.devRef .tc main_v20) = (addf : (⟨S100000x64, .f32⟩ : BufTy).Contents (Elt F) → (⟨S100000x64, .f32⟩ : BufTy).Contents (Elt F) → (⟨S100000x64, .f32⟩ : BufTy).Contents (Elt F)) (after ops V (Proc.devRef .tc main_arg0)) (after ops V (Proc.devRef .tc main_v19)) :=
  Cert.Lib.ssa_binary (a := main_arg0) (b := main_v19) (y := main_v20) wr 25 V (addf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_v21 (V : Valuation τ sig (Elt F)) :
    after ops V (Proc.devRef .tc main_v21) = ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) (after ops V (Proc.devRef .tc main_v20)) (after ops V (Proc.devRef .tc main_arg5)) :=
  Cert.Lib.ssa_binary (a := main_v20) (b := main_arg5) (y := main_v21) wr 26 V ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) _ _ _ rfl (by decide) (by decide) (by decide)

theorem rd_main_v22 (V : Valuation τ sig (Elt F)) :
    after ops V (Proc.devRef .tc main_v22) = (broadcastInDim S1x64 ![1] bcast_S64_S1x64_1 : (⟨S64, .f32⟩ : BufTy).Contents (Elt F) → (⟨S1x64, .f32⟩ : BufTy).Contents (Elt F)) (after ops V (Proc.devRef .tc main_arg6)) :=
  Cert.Lib.ssa_unary (x := main_arg6) (y := main_v22) wr 27 V (broadcastInDim S1x64 ![1] bcast_S64_S1x64_1 : (⟨S64, .f32⟩ : BufTy).Contents (Elt F) → (⟨S1x64, .f32⟩ : BufTy).Contents (Elt F)) _ _ rfl (by decide) (by decide)

theorem rd_main_v23 (V : Valuation τ sig (Elt F)) :
    after ops V (Proc.devRef .tc main_v23) = (broadcastInDim S100000x64 ![0, 1] bcast_S1x64_S100000x64_0_1 : (⟨S1x64, .f32⟩ : BufTy).Contents (Elt F) → (⟨S100000x64, .f32⟩ : BufTy).Contents (Elt F)) (after ops V (Proc.devRef .tc main_v22)) :=
  Cert.Lib.ssa_unary (x := main_v22) (y := main_v23) wr 28 V (broadcastInDim S100000x64 ![0, 1] bcast_S1x64_S100000x64_0_1 : (⟨S1x64, .f32⟩ : BufTy).Contents (Elt F) → (⟨S100000x64, .f32⟩ : BufTy).Contents (Elt F)) _ _ rfl (by decide) (by decide)

theorem rd_main_v24 (V : Valuation τ sig (Elt F)) :
    after ops V (Proc.devRef .tc main_v24) = (addf : (⟨S100000x64, .f32⟩ : BufTy).Contents (Elt F) → (⟨S100000x64, .f32⟩ : BufTy).Contents (Elt F) → (⟨S100000x64, .f32⟩ : BufTy).Contents (Elt F)) (after ops V (Proc.devRef .tc main_v21)) (after ops V (Proc.devRef .tc main_v23)) :=
  Cert.Lib.ssa_binary (a := main_v21) (b := main_v23) (y := main_v24) wr 29 V (addf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_cst_1 (V : Valuation τ sig (Elt F)) :
    after ops V (Proc.devRef .tc main_cst_1) = (constant S_ .f32 0x00000000#32) :=
  Cert.Lib.ssa_nullary (y := main_cst_1) wr 30 V (constant S_ .f32 0x00000000#32) _ rfl (by decide)

theorem rd_main_v25 (V : Valuation τ sig (Elt F)) :
    after ops V (Proc.devRef .tc main_v25) = ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) (after ops V (Proc.devRef .tc main_v24)) (after ops V (Proc.devRef .tc main_cst_1)) :=
  Cert.Lib.ssa_binary (a := main_v24) (b := main_cst_1) (y := main_v25) wr 31 V ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) _ _ _ rfl (by decide) (by decide) (by decide)

theorem rd_main_cst_2 (V : Valuation τ sig (Elt F)) :
    after ops V (Proc.devRef .tc main_cst_2) = (constant S_ .f32 0x47C35000#32) :=
  Cert.Lib.ssa_nullary (y := main_cst_2) wr 32 V (constant S_ .f32 0x47C35000#32) _ rfl (by decide)

theorem rd_main_v26 (V : Valuation τ sig (Elt F)) :
    after ops V (Proc.devRef .tc main_v26) = (broadcastInDim S64 ![] bcast_S_S64 : (⟨S_, .f32⟩ : BufTy).Contents (Elt F) → (⟨S64, .f32⟩ : BufTy).Contents (Elt F)) (after ops V (Proc.devRef .tc main_cst_2)) :=
  Cert.Lib.ssa_unary (x := main_cst_2) (y := main_v26) wr 33 V (broadcastInDim S64 ![] bcast_S_S64 : (⟨S_, .f32⟩ : BufTy).Contents (Elt F) → (⟨S64, .f32⟩ : BufTy).Contents (Elt F)) _ _ rfl (by decide) (by decide)

theorem rd_main_v27 (V : Valuation τ sig (Elt F)) :
    after ops V (Proc.devRef .tc main_v27) = (Host.divf : (⟨S64, .f32⟩ : BufTy).Contents (Elt F) → (⟨S64, .f32⟩ : BufTy).Contents (Elt F) → (⟨S64, .f32⟩ : BufTy).Contents (Elt F)) (after ops V (Proc.devRef .tc main_v25)) (after ops V (Proc.devRef .tc main_v26)) :=
  Cert.Lib.ssa_binary (a := main_v25) (b := main_v26) (y := main_v27) wr 34 V (Host.divf : (⟨S64, .f32⟩ : BufTy).Contents (Elt F) → (⟨S64, .f32⟩ : BufTy).Contents (Elt F) → (⟨S64, .f32⟩ : BufTy).Contents (Elt F)) _ _ _ rfl (by decide) (by decide) (by decide)

theorem rd_main_c_3 (V : Valuation τ sig (Elt F)) :
    after ops V (Proc.devRef .tc main_c_3) = (constantI S_ 32 0#32) :=
  Cert.Lib.ssa_nullary (y := main_c_3) wr 35 V (constantI S_ 32 0#32) _ rfl (by decide)

theorem rd_main_call1_cst (V : Valuation τ sig (Elt F)) :
    after ops V (Proc.devRef .tc main_call1_cst) = ((constant S_ .f32 0x00000000#32) : (⟨S_, .f32⟩ : BufTy).Contents (Elt F)) :=
  Cert.Lib.ssa_nullary (y := main_call1_cst) wr 36 V ((constant S_ .f32 0x00000000#32) : (⟨S_, .f32⟩ : BufTy).Contents (Elt F)) _ rfl (by decide)

theorem rd_main_call1_v0 (V : Valuation τ sig (Elt F)) :
    after ops V (Proc.devRef .tc main_call1_v0) = ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) (after ops V (Proc.devRef .tc main_v24)) (after ops V (Proc.devRef .tc main_call1_cst)) :=
  Cert.Lib.ssa_binary (a := main_v24) (b := main_call1_cst) (y := main_call1_v0) wr 37 V ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) _ _ _ rfl (by decide) (by decide) (by decide)

theorem rd_main_call1_v1 (V : Valuation τ sig (Elt F)) :
    after ops V (Proc.devRef .tc main_call1_v1) = ((broadcastInDim S1x64 ![1] bcast_S64_S1x64_1) : (⟨S64, .f32⟩ : BufTy).Contents (Elt F) → (⟨S1x64, .f32⟩ : BufTy).Contents (Elt F)) (after ops V (Proc.devRef .tc main_call1_v0)) :=
  Cert.Lib.ssa_unary (x := main_call1_v0) (y := main_call1_v1) wr 38 V ((broadcastInDim S1x64 ![1] bcast_S64_S1x64_1) : (⟨S64, .f32⟩ : BufTy).Contents (Elt F) → (⟨S1x64, .f32⟩ : BufTy).Contents (Elt F)) _ _ rfl (by decide) (by decide)

theorem rd_main_call1_cst_0 (V : Valuation τ sig (Elt F)) :
    after ops V (Proc.devRef .tc main_call1_cst_0) = ((constant S_ .f32 0x47C35000#32) : (⟨S_, .f32⟩ : BufTy).Contents (Elt F)) :=
  Cert.Lib.ssa_nullary (y := main_call1_cst_0) wr 39 V ((constant S_ .f32 0x47C35000#32) : (⟨S_, .f32⟩ : BufTy).Contents (Elt F)) _ rfl (by decide)

theorem rd_main_call1_v2 (V : Valuation τ sig (Elt F)) :
    after ops V (Proc.devRef .tc main_call1_v2) = ((broadcastInDim S1x64 ![] bcast_S_S1x64) : (⟨S_, .f32⟩ : BufTy).Contents (Elt F) → (⟨S1x64, .f32⟩ : BufTy).Contents (Elt F)) (after ops V (Proc.devRef .tc main_call1_cst_0)) :=
  Cert.Lib.ssa_unary (x := main_call1_cst_0) (y := main_call1_v2) wr 40 V ((broadcastInDim S1x64 ![] bcast_S_S1x64) : (⟨S_, .f32⟩ : BufTy).Contents (Elt F) → (⟨S1x64, .f32⟩ : BufTy).Contents (Elt F)) _ _ rfl (by decide) (by decide)

theorem rd_main_call1_v3 (V : Valuation τ sig (Elt F)) :
    after ops V (Proc.devRef .tc main_call1_v3) = (Host.divf : (⟨S1x64, .f32⟩ : BufTy).Contents (Elt F) → (⟨S1x64, .f32⟩ : BufTy).Contents (Elt F) → (⟨S1x64, .f32⟩ : BufTy).Contents (Elt F)) (after ops V (Proc.devRef .tc main_call1_v1)) (after ops V (Proc.devRef .tc main_call1_v2)) :=
  Cert.Lib.ssa_binary (a := main_call1_v1) (b := main_call1_v2) (y := main_call1_v3) wr 41 V (Host.divf : (⟨S1x64, .f32⟩ : BufTy).Contents (Elt F) → (⟨S1x64, .f32⟩ : BufTy).Contents (Elt F) → (⟨S1x64, .f32⟩ : BufTy).Contents (Elt F)) _ _ _ rfl (by decide) (by decide) (by decide)

theorem rd_main_call1_v4 (V : Valuation τ sig (Elt F)) :
    after ops V (Proc.devRef .tc main_call1_v4) = ((broadcastInDim S100000x64 ![0, 1] bcast_S1x64_S100000x64_0_1) : (⟨S1x64, .f32⟩ : BufTy).Contents (Elt F) → (⟨S100000x64, .f32⟩ : BufTy).Contents (Elt F)) (after ops V (Proc.devRef .tc main_call1_v3)) :=
  Cert.Lib.ssa_unary (x := main_call1_v3) (y := main_call1_v4) wr 42 V ((broadcastInDim S100000x64 ![0, 1] bcast_S1x64_S100000x64_0_1) : (⟨S1x64, .f32⟩ : BufTy).Contents (Elt F) → (⟨S100000x64, .f32⟩ : BufTy).Contents (Elt F)) _ _ rfl (by decide) (by decide)

theorem rd_main_call1_v5 (V : Valuation τ sig (Elt F)) :
    after ops V (Proc.devRef .tc main_call1_v5) = (subf : (⟨S100000x64, .f32⟩ : BufTy).Contents (Elt F) → (⟨S100000x64, .f32⟩ : BufTy).Contents (Elt F) → (⟨S100000x64, .f32⟩ : BufTy).Contents (Elt F)) (after ops V (Proc.devRef .tc main_v24)) (after ops V (Proc.devRef .tc main_call1_v4)) :=
  Cert.Lib.ssa_binary (a := main_v24) (b := main_call1_v4) (y := main_call1_v5) wr 43 V (subf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_call1_v6 (V : Valuation τ sig (Elt F)) :
    after ops V (Proc.devRef .tc main_call1_v6) = (mulf : (⟨S100000x64, .f32⟩ : BufTy).Contents (Elt F) → (⟨S100000x64, .f32⟩ : BufTy).Contents (Elt F) → (⟨S100000x64, .f32⟩ : BufTy).Contents (Elt F)) (after ops V (Proc.devRef .tc main_call1_v5)) (after ops V (Proc.devRef .tc main_call1_v5)) :=
  Cert.Lib.ssa_binary (a := main_call1_v5) (b := main_call1_v5) (y := main_call1_v6) wr 44 V (mulf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_call1_v7 (V : Valuation τ sig (Elt F)) :
    after ops V (Proc.devRef .tc main_call1_v7) = ((sitofp .f32) : (⟨S_, .i32⟩ : BufTy).Contents (Elt F) → (⟨S_, .f32⟩ : BufTy).Contents (Elt F)) (after ops V (Proc.devRef .tc main_c_3)) :=
  Cert.Lib.ssa_unary (x := main_c_3) (y := main_call1_v7) wr 45 V ((sitofp .f32) : (⟨S_, .i32⟩ : BufTy).Contents (Elt F) → (⟨S_, .f32⟩ : BufTy).Contents (Elt F)) _ _ rfl (by decide) (by decide)

theorem rd_main_call1_cst_1 (V : Valuation τ sig (Elt F)) :
    after ops V (Proc.devRef .tc main_call1_cst_1) = ((constant S_ .f32 0x47C35000#32) : (⟨S_, .f32⟩ : BufTy).Contents (Elt F)) :=
  Cert.Lib.ssa_nullary (y := main_call1_cst_1) wr 46 V ((constant S_ .f32 0x47C35000#32) : (⟨S_, .f32⟩ : BufTy).Contents (Elt F)) _ rfl (by decide)

theorem rd_main_call1_v8 (V : Valuation τ sig (Elt F)) :
    after ops V (Proc.devRef .tc main_call1_v8) = (subf : (⟨S_, .f32⟩ : BufTy).Contents (Elt F) → (⟨S_, .f32⟩ : BufTy).Contents (Elt F) → (⟨S_, .f32⟩ : BufTy).Contents (Elt F)) (after ops V (Proc.devRef .tc main_call1_cst_1)) (after ops V (Proc.devRef .tc main_call1_v7)) :=
  Cert.Lib.ssa_binary (a := main_call1_cst_1) (b := main_call1_v7) (y := main_call1_v8) wr 47 V (subf : (⟨S_, .f32⟩ : BufTy).Contents (Elt F) → (⟨S_, .f32⟩ : BufTy).Contents (Elt F) → (⟨S_, .f32⟩ : BufTy).Contents (Elt F)) _ _ _ rfl (by decide) (by decide) (by decide)

theorem rd_main_call1_cst_2 (V : Valuation τ sig (Elt F)) :
    after ops V (Proc.devRef .tc main_call1_cst_2) = ((constant S_ .f32 0x00000000#32) : (⟨S_, .f32⟩ : BufTy).Contents (Elt F)) :=
  Cert.Lib.ssa_nullary (y := main_call1_cst_2) wr 48 V ((constant S_ .f32 0x00000000#32) : (⟨S_, .f32⟩ : BufTy).Contents (Elt F)) _ rfl (by decide)

theorem rd_main_call1_v9 (V : Valuation τ sig (Elt F)) :
    after ops V (Proc.devRef .tc main_call1_v9) = ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) (after ops V (Proc.devRef .tc main_call1_v6)) (after ops V (Proc.devRef .tc main_call1_cst_2)) :=
  Cert.Lib.ssa_binary (a := main_call1_v6) (b := main_call1_cst_2) (y := main_call1_v9) wr 49 V ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) _ _ _ rfl (by decide) (by decide) (by decide)

theorem rd_main_call1_v10 (V : Valuation τ sig (Elt F)) :
    after ops V (Proc.devRef .tc main_call1_v10) = ((broadcastInDim S64 ![] bcast_S_S64) : (⟨S_, .f32⟩ : BufTy).Contents (Elt F) → (⟨S64, .f32⟩ : BufTy).Contents (Elt F)) (after ops V (Proc.devRef .tc main_call1_v8)) :=
  Cert.Lib.ssa_unary (x := main_call1_v8) (y := main_call1_v10) wr 50 V ((broadcastInDim S64 ![] bcast_S_S64) : (⟨S_, .f32⟩ : BufTy).Contents (Elt F) → (⟨S64, .f32⟩ : BufTy).Contents (Elt F)) _ _ rfl (by decide) (by decide)

theorem rd_main_call1_v11 (V : Valuation τ sig (Elt F)) :
    after ops V (Proc.devRef .tc main_call1_v11) = (Host.divf : (⟨S64, .f32⟩ : BufTy).Contents (Elt F) → (⟨S64, .f32⟩ : BufTy).Contents (Elt F) → (⟨S64, .f32⟩ : BufTy).Contents (Elt F)) (after ops V (Proc.devRef .tc main_call1_v9)) (after ops V (Proc.devRef .tc main_call1_v10)) :=
  Cert.Lib.ssa_binary (a := main_call1_v9) (b := main_call1_v10) (y := main_call1_v11) wr 51 V (Host.divf : (⟨S64, .f32⟩ : BufTy).Contents (Elt F) → (⟨S64, .f32⟩ : BufTy).Contents (Elt F) → (⟨S64, .f32⟩ : BufTy).Contents (Elt F)) _ _ _ rfl (by decide) (by decide) (by decide)

theorem rd_main_call1_cst_3 (V : Valuation τ sig (Elt F)) :
    after ops V (Proc.devRef .tc main_call1_cst_3) = ((constant S_ .f32 0x00000000#32) : (⟨S_, .f32⟩ : BufTy).Contents (Elt F)) :=
  Cert.Lib.ssa_nullary (y := main_call1_cst_3) wr 52 V ((constant S_ .f32 0x00000000#32) : (⟨S_, .f32⟩ : BufTy).Contents (Elt F)) _ rfl (by decide)

theorem rd_main_call1_v12 (V : Valuation τ sig (Elt F)) :
    after ops V (Proc.devRef .tc main_call1_v12) = ((cmpf .ogt) : (⟨S_, .f32⟩ : BufTy).Contents (Elt F) → (⟨S_, .f32⟩ : BufTy).Contents (Elt F) → (⟨S_, .i1⟩ : BufTy).Contents (Elt F)) (after ops V (Proc.devRef .tc main_call1_v8)) (after ops V (Proc.devRef .tc main_call1_cst_3)) :=
  Cert.Lib.ssa_binary (a := main_call1_v8) (b := main_call1_cst_3) (y := main_call1_v12) wr 53 V ((cmpf .ogt) : (⟨S_, .f32⟩ : BufTy).Contents (Elt F) → (⟨S_, .f32⟩ : BufTy).Contents (Elt F) → (⟨S_, .i1⟩ : BufTy).Contents (Elt F)) _ _ _ rfl (by decide) (by decide) (by decide)

theorem rd_main_call1_cst_4 (V : Valuation τ sig (Elt F)) :
    after ops V (Proc.devRef .tc main_call1_cst_4) = ((constant S_ .f32 0x7FC00000#32) : (⟨S_, .f32⟩ : BufTy).Contents (Elt F)) :=
  Cert.Lib.ssa_nullary (y := main_call1_cst_4) wr 54 V ((constant S_ .f32 0x7FC00000#32) : (⟨S_, .f32⟩ : BufTy).Contents (Elt F)) _ rfl (by decide)

theorem rd_main_call1_call0_v0 (V : Valuation τ sig (Elt F)) :
    after ops V (Proc.devRef .tc main_call1_call0_v0) = (id : (⟨S_, .f32⟩ : BufTy).Contents (Elt F) → (⟨S_, .f32⟩ : BufTy).Contents (Elt F)) (after ops V (Proc.devRef .tc main_call1_cst_4)) :=
  Cert.Lib.ssa_unary (x := main_call1_cst_4) (y := main_call1_call0_v0) wr 55 V (id : (⟨S_, .f32⟩ : BufTy).Contents (Elt F) → (⟨S_, .f32⟩ : BufTy).Contents (Elt F)) _ _ rfl (by decide) (by decide)

theorem rd_main_call1_call0_v1 (V : Valuation τ sig (Elt F)) :
    after ops V (Proc.devRef .tc main_call1_call0_v1) = ((broadcastInDim S64 ![] bcast_S_S64) : (⟨S_, .f32⟩ : BufTy).Contents (Elt F) → (⟨S64, .f32⟩ : BufTy).Contents (Elt F)) (after ops V (Proc.devRef .tc main_call1_call0_v0)) :=
  Cert.Lib.ssa_unary (x := main_call1_call0_v0) (y := main_call1_call0_v1) wr 56 V ((broadcastInDim S64 ![] bcast_S_S64) : (⟨S_, .f32⟩ : BufTy).Contents (Elt F) → (⟨S64, .f32⟩ : BufTy).Contents (Elt F)) _ _ rfl (by decide) (by decide)

theorem rd_main_v28 (V : Valuation τ sig (Elt F)) :
    after ops V (Proc.devRef .tc main_v28) = ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) (after ops V (Proc.devRef .tc main_call1_v12)) (after ops V (Proc.devRef .tc main_call1_v11)) (after ops V (Proc.devRef .tc main_call1_call0_v1)) :=
  Cert.Lib.ssa_ternary (c := main_call1_v12) (a := main_call1_v11) (b := main_call1_call0_v1) (y := main_v28) wr 57 V ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) _ _ _ _ rfl (by decide) (by decide) (by decide) (by decide)

theorem rd_main_v29 (V : Valuation τ sig (Elt F)) :
    after ops V (Proc.devRef .tc main_v29) = (broadcastInDim S1x64 ![1] bcast_S64_S1x64_1 : (⟨S64, .f32⟩ : BufTy).Contents (Elt F) → (⟨S1x64, .f32⟩ : BufTy).Contents (Elt F)) (after ops V (Proc.devRef .tc main_v27)) :=
  Cert.Lib.ssa_unary (x := main_v27) (y := main_v29) wr 58 V (broadcastInDim S1x64 ![1] bcast_S64_S1x64_1 : (⟨S64, .f32⟩ : BufTy).Contents (Elt F) → (⟨S1x64, .f32⟩ : BufTy).Contents (Elt F)) _ _ rfl (by decide) (by decide)

theorem rd_main_v30 (V : Valuation τ sig (Elt F)) :
    after ops V (Proc.devRef .tc main_v30) = (broadcastInDim S100000x64 ![0, 1] bcast_S1x64_S100000x64_0_1 : (⟨S1x64, .f32⟩ : BufTy).Contents (Elt F) → (⟨S100000x64, .f32⟩ : BufTy).Contents (Elt F)) (after ops V (Proc.devRef .tc main_v29)) :=
  Cert.Lib.ssa_unary (x := main_v29) (y := main_v30) wr 59 V (broadcastInDim S100000x64 ![0, 1] bcast_S1x64_S100000x64_0_1 : (⟨S1x64, .f32⟩ : BufTy).Contents (Elt F) → (⟨S100000x64, .f32⟩ : BufTy).Contents (Elt F)) _ _ rfl (by decide) (by decide)

theorem rd_main_v31 (V : Valuation τ sig (Elt F)) :
    after ops V (Proc.devRef .tc main_v31) = (subf : (⟨S100000x64, .f32⟩ : BufTy).Contents (Elt F) → (⟨S100000x64, .f32⟩ : BufTy).Contents (Elt F) → (⟨S100000x64, .f32⟩ : BufTy).Contents (Elt F)) (after ops V (Proc.devRef .tc main_v24)) (after ops V (Proc.devRef .tc main_v30)) :=
  Cert.Lib.ssa_binary (a := main_v24) (b := main_v30) (y := main_v31) wr 60 V (subf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_cst_4 (V : Valuation τ sig (Elt F)) :
    after ops V (Proc.devRef .tc main_cst_4) = (constant S_ .f32 0x3727C5AC#32) :=
  Cert.Lib.ssa_nullary (y := main_cst_4) wr 61 V (constant S_ .f32 0x3727C5AC#32) _ rfl (by decide)

theorem rd_main_v32 (V : Valuation τ sig (Elt F)) :
    after ops V (Proc.devRef .tc main_v32) = (broadcastInDim S64 ![] bcast_S_S64 : (⟨S_, .f32⟩ : BufTy).Contents (Elt F) → (⟨S64, .f32⟩ : BufTy).Contents (Elt F)) (after ops V (Proc.devRef .tc main_cst_4)) :=
  Cert.Lib.ssa_unary (x := main_cst_4) (y := main_v32) wr 62 V (broadcastInDim S64 ![] bcast_S_S64 : (⟨S_, .f32⟩ : BufTy).Contents (Elt F) → (⟨S64, .f32⟩ : BufTy).Contents (Elt F)) _ _ rfl (by decide) (by decide)

theorem rd_main_v33 (V : Valuation τ sig (Elt F)) :
    after ops V (Proc.devRef .tc main_v33) = (addf : (⟨S64, .f32⟩ : BufTy).Contents (Elt F) → (⟨S64, .f32⟩ : BufTy).Contents (Elt F) → (⟨S64, .f32⟩ : BufTy).Contents (Elt F)) (after ops V (Proc.devRef .tc main_v28)) (after ops V (Proc.devRef .tc main_v32)) :=
  Cert.Lib.ssa_binary (a := main_v28) (b := main_v32) (y := main_v33) wr 63 V (addf : (⟨S64, .f32⟩ : BufTy).Contents (Elt F) → (⟨S64, .f32⟩ : BufTy).Contents (Elt F) → (⟨S64, .f32⟩ : BufTy).Contents (Elt F)) _ _ _ rfl (by decide) (by decide) (by decide)

theorem rd_main_v34 (V : Valuation τ sig (Elt F)) :
    after ops V (Proc.devRef .tc main_v34) = (Host.sqrt : (⟨S64, .f32⟩ : BufTy).Contents (Elt F) → (⟨S64, .f32⟩ : BufTy).Contents (Elt F)) (after ops V (Proc.devRef .tc main_v33)) :=
  Cert.Lib.ssa_unary (x := main_v33) (y := main_v34) wr 64 V (Host.sqrt : (⟨S64, .f32⟩ : BufTy).Contents (Elt F) → (⟨S64, .f32⟩ : BufTy).Contents (Elt F)) _ _ rfl (by decide) (by decide)

theorem rd_main_v35 (V : Valuation τ sig (Elt F)) :
    after ops V (Proc.devRef .tc main_v35) = (broadcastInDim S1x64 ![1] bcast_S64_S1x64_1 : (⟨S64, .f32⟩ : BufTy).Contents (Elt F) → (⟨S1x64, .f32⟩ : BufTy).Contents (Elt F)) (after ops V (Proc.devRef .tc main_v34)) :=
  Cert.Lib.ssa_unary (x := main_v34) (y := main_v35) wr 65 V (broadcastInDim S1x64 ![1] bcast_S64_S1x64_1 : (⟨S64, .f32⟩ : BufTy).Contents (Elt F) → (⟨S1x64, .f32⟩ : BufTy).Contents (Elt F)) _ _ rfl (by decide) (by decide)

theorem rd_main_v36 (V : Valuation τ sig (Elt F)) :
    after ops V (Proc.devRef .tc main_v36) = (broadcastInDim S100000x64 ![0, 1] bcast_S1x64_S100000x64_0_1 : (⟨S1x64, .f32⟩ : BufTy).Contents (Elt F) → (⟨S100000x64, .f32⟩ : BufTy).Contents (Elt F)) (after ops V (Proc.devRef .tc main_v35)) :=
  Cert.Lib.ssa_unary (x := main_v35) (y := main_v36) wr 66 V (broadcastInDim S100000x64 ![0, 1] bcast_S1x64_S100000x64_0_1 : (⟨S1x64, .f32⟩ : BufTy).Contents (Elt F) → (⟨S100000x64, .f32⟩ : BufTy).Contents (Elt F)) _ _ rfl (by decide) (by decide)

theorem rd_main_v37 (V : Valuation τ sig (Elt F)) :
    after ops V (Proc.devRef .tc main_v37) = (Host.divf : (⟨S100000x64, .f32⟩ : BufTy).Contents (Elt F) → (⟨S100000x64, .f32⟩ : BufTy).Contents (Elt F) → (⟨S100000x64, .f32⟩ : BufTy).Contents (Elt F)) (after ops V (Proc.devRef .tc main_v31)) (after ops V (Proc.devRef .tc main_v36)) :=
  Cert.Lib.ssa_binary (a := main_v31) (b := main_v36) (y := main_v37) wr 67 V (Host.divf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_v38 (V : Valuation τ sig (Elt F)) :
    after ops V (Proc.devRef .tc main_v38) = (broadcastInDim S1x64 ![1] bcast_S64_S1x64_1 : (⟨S64, .f32⟩ : BufTy).Contents (Elt F) → (⟨S1x64, .f32⟩ : BufTy).Contents (Elt F)) (after ops V (Proc.devRef .tc main_arg7)) :=
  Cert.Lib.ssa_unary (x := main_arg7) (y := main_v38) wr 68 V (broadcastInDim S1x64 ![1] bcast_S64_S1x64_1 : (⟨S64, .f32⟩ : BufTy).Contents (Elt F) → (⟨S1x64, .f32⟩ : BufTy).Contents (Elt F)) _ _ rfl (by decide) (by decide)

theorem rd_main_v39 (V : Valuation τ sig (Elt F)) :
    after ops V (Proc.devRef .tc main_v39) = (broadcastInDim S100000x64 ![0, 1] bcast_S1x64_S100000x64_0_1 : (⟨S1x64, .f32⟩ : BufTy).Contents (Elt F) → (⟨S100000x64, .f32⟩ : BufTy).Contents (Elt F)) (after ops V (Proc.devRef .tc main_v38)) :=
  Cert.Lib.ssa_unary (x := main_v38) (y := main_v39) wr 69 V (broadcastInDim S100000x64 ![0, 1] bcast_S1x64_S100000x64_0_1 : (⟨S1x64, .f32⟩ : BufTy).Contents (Elt F) → (⟨S100000x64, .f32⟩ : BufTy).Contents (Elt F)) _ _ rfl (by decide) (by decide)

theorem rd_main_v40 (V : Valuation τ sig (Elt F)) :
    after ops V (Proc.devRef .tc main_v40) = (mulf : (⟨S100000x64, .f32⟩ : BufTy).Contents (Elt F) → (⟨S100000x64, .f32⟩ : BufTy).Contents (Elt F) → (⟨S100000x64, .f32⟩ : BufTy).Contents (Elt F)) (after ops V (Proc.devRef .tc main_v37)) (after ops V (Proc.devRef .tc main_v39)) :=
  Cert.Lib.ssa_binary (a := main_v37) (b := main_v39) (y := main_v40) wr 70 V (mulf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_v41 (V : Valuation τ sig (Elt F)) :
    after ops V (Proc.devRef .tc main_v41) = (broadcastInDim S1x64 ![1] bcast_S64_S1x64_1 : (⟨S64, .f32⟩ : BufTy).Contents (Elt F) → (⟨S1x64, .f32⟩ : BufTy).Contents (Elt F)) (after ops V (Proc.devRef .tc main_arg8)) :=
  Cert.Lib.ssa_unary (x := main_arg8) (y := main_v41) wr 71 V (broadcastInDim S1x64 ![1] bcast_S64_S1x64_1 : (⟨S64, .f32⟩ : BufTy).Contents (Elt F) → (⟨S1x64, .f32⟩ : BufTy).Contents (Elt F)) _ _ rfl (by decide) (by decide)

theorem rd_main_v42 (V : Valuation τ sig (Elt F)) :
    after ops V (Proc.devRef .tc main_v42) = (broadcastInDim S100000x64 ![0, 1] bcast_S1x64_S100000x64_0_1 : (⟨S1x64, .f32⟩ : BufTy).Contents (Elt F) → (⟨S100000x64, .f32⟩ : BufTy).Contents (Elt F)) (after ops V (Proc.devRef .tc main_v41)) :=
  Cert.Lib.ssa_unary (x := main_v41) (y := main_v42) wr 72 V (broadcastInDim S100000x64 ![0, 1] bcast_S1x64_S100000x64_0_1 : (⟨S1x64, .f32⟩ : BufTy).Contents (Elt F) → (⟨S100000x64, .f32⟩ : BufTy).Contents (Elt F)) _ _ rfl (by decide) (by decide)

theorem rd_main_v43 (V : Valuation τ sig (Elt F)) :
    after ops V (Proc.devRef .tc main_v43) = (addf : (⟨S100000x64, .f32⟩ : BufTy).Contents (Elt F) → (⟨S100000x64, .f32⟩ : BufTy).Contents (Elt F) → (⟨S100000x64, .f32⟩ : BufTy).Contents (Elt F)) (after ops V (Proc.devRef .tc main_v40)) (after ops V (Proc.devRef .tc main_v42)) :=
  Cert.Lib.ssa_binary (a := main_v40) (b := main_v42) (y := main_v43) wr 73 V (addf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_call2_cst (V : Valuation τ sig (Elt F)) :
    after ops V (Proc.devRef .tc main_call2_cst) = ((constant S_ .f32 0x00000000#32) : (⟨S_, .f32⟩ : BufTy).Contents (Elt F)) :=
  Cert.Lib.ssa_nullary (y := main_call2_cst) wr 74 V ((constant S_ .f32 0x00000000#32) : (⟨S_, .f32⟩ : BufTy).Contents (Elt F)) _ rfl (by decide)

theorem rd_main_call2_v0 (V : Valuation τ sig (Elt F)) :
    after ops V (Proc.devRef .tc main_call2_v0) = ((broadcastInDim S100000x64 ![] bcast_S_S100000x64) : (⟨S_, .f32⟩ : BufTy).Contents (Elt F) → (⟨S100000x64, .f32⟩ : BufTy).Contents (Elt F)) (after ops V (Proc.devRef .tc main_call2_cst)) :=
  Cert.Lib.ssa_unary (x := main_call2_cst) (y := main_call2_v0) wr 75 V ((broadcastInDim S100000x64 ![] bcast_S_S100000x64) : (⟨S_, .f32⟩ : BufTy).Contents (Elt F) → (⟨S100000x64, .f32⟩ : BufTy).Contents (Elt F)) _ _ rfl (by decide) (by decide)

theorem rd_main_v44 (V : Valuation τ sig (Elt F)) :
    after ops V (Proc.devRef .tc main_v44) = (maximumf : (⟨S100000x64, .f32⟩ : BufTy).Contents (Elt F) → (⟨S100000x64, .f32⟩ : BufTy).Contents (Elt F) → (⟨S100000x64, .f32⟩ : BufTy).Contents (Elt F)) (after ops V (Proc.devRef .tc main_v43)) (after ops V (Proc.devRef .tc main_call2_v0)) :=
  Cert.Lib.ssa_binary (a := main_v43) (b := main_call2_v0) (y := main_v44) wr 76 V (maximumf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_v45 (V : Valuation τ sig (Elt F)) :
    after ops V (Proc.devRef .tc main_v45) = ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) (after ops V (Proc.devRef .tc main_v44)) (after ops V (Proc.devRef .tc main_arg9)) :=
  Cert.Lib.ssa_binary (a := main_v44) (b := main_arg9) (y := main_v45) wr 77 V ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) _ _ _ rfl (by decide) (by decide) (by decide)

theorem rd_main_v46 (V : Valuation τ sig (Elt F)) :
    after ops V (Proc.devRef .tc main_v46) = (broadcastInDim S1x64 ![1] bcast_S64_S1x64_1 : (⟨S64, .f32⟩ : BufTy).Contents (Elt F) → (⟨S1x64, .f32⟩ : BufTy).Contents (Elt F)) (after ops V (Proc.devRef .tc main_arg10)) :=
  Cert.Lib.ssa_unary (x := main_arg10) (y := main_v46) wr 78 V (broadcastInDim S1x64 ![1] bcast_S64_S1x64_1 : (⟨S64, .f32⟩ : BufTy).Contents (Elt F) → (⟨S1x64, .f32⟩ : BufTy).Contents (Elt F)) _ _ rfl (by decide) (by decide)

theorem rd_main_v47 (V : Valuation τ sig (Elt F)) :
    after ops V (Proc.devRef .tc main_v47) = (broadcastInDim S100000x64 ![0, 1] bcast_S1x64_S100000x64_0_1 : (⟨S1x64, .f32⟩ : BufTy).Contents (Elt F) → (⟨S100000x64, .f32⟩ : BufTy).Contents (Elt F)) (after ops V (Proc.devRef .tc main_v46)) :=
  Cert.Lib.ssa_unary (x := main_v46) (y := main_v47) wr 79 V (broadcastInDim S100000x64 ![0, 1] bcast_S1x64_S100000x64_0_1 : (⟨S1x64, .f32⟩ : BufTy).Contents (Elt F) → (⟨S100000x64, .f32⟩ : BufTy).Contents (Elt F)) _ _ rfl (by decide) (by decide)

theorem rd_main_v48 (V : Valuation τ sig (Elt F)) :
    after ops V (Proc.devRef .tc main_v48) = (addf : (⟨S100000x64, .f32⟩ : BufTy).Contents (Elt F) → (⟨S100000x64, .f32⟩ : BufTy).Contents (Elt F) → (⟨S100000x64, .f32⟩ : BufTy).Contents (Elt F)) (after ops V (Proc.devRef .tc main_v45)) (after ops V (Proc.devRef .tc main_v47)) :=
  Cert.Lib.ssa_binary (a := main_v45) (b := main_v47) (y := main_v48) wr 80 V (addf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_call3_cst (V : Valuation τ sig (Elt F)) :
    after ops V (Proc.devRef .tc main_call3_cst) = ((constant S_ .f32 0x00000000#32) : (⟨S_, .f32⟩ : BufTy).Contents (Elt F)) :=
  Cert.Lib.ssa_nullary (y := main_call3_cst) wr 81 V ((constant S_ .f32 0x00000000#32) : (⟨S_, .f32⟩ : BufTy).Contents (Elt F)) _ rfl (by decide)

theorem rd_main_call3_v0 (V : Valuation τ sig (Elt F)) :
    after ops V (Proc.devRef .tc main_call3_v0) = ((broadcastInDim S100000x64 ![] bcast_S_S100000x64) : (⟨S_, .f32⟩ : BufTy).Contents (Elt F) → (⟨S100000x64, .f32⟩ : BufTy).Contents (Elt F)) (after ops V (Proc.devRef .tc main_call3_cst)) :=
  Cert.Lib.ssa_unary (x := main_call3_cst) (y := main_call3_v0) wr 82 V ((broadcastInDim S100000x64 ![] bcast_S_S100000x64) : (⟨S_, .f32⟩ : BufTy).Contents (Elt F) → (⟨S100000x64, .f32⟩ : BufTy).Contents (Elt F)) _ _ rfl (by decide) (by decide)

theorem rd_main_v49 (V : Valuation τ sig (Elt F)) :
    after ops V (Proc.devRef .tc main_v49) = (maximumf : (⟨S100000x64, .f32⟩ : BufTy).Contents (Elt F) → (⟨S100000x64, .f32⟩ : BufTy).Contents (Elt F) → (⟨S100000x64, .f32⟩ : BufTy).Contents (Elt F)) (after ops V (Proc.devRef .tc main_v48)) (after ops V (Proc.devRef .tc main_call3_v0)) :=
  Cert.Lib.ssa_binary (a := main_v48) (b := main_call3_v0) (y := main_v49) wr 83 V (maximumf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_v50 (V : Valuation τ sig (Elt F)) :
    after ops V (Proc.devRef .tc main_v50) = ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)) (after ops V (Proc.devRef .tc main_arg2)) (after ops V (Proc.devRef .tc main_arg11)) :=
  Cert.Lib.ssa_binary (a := main_arg2) (b := main_arg11) (y := main_v50) wr 84 V ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)) _ _ _ rfl (by decide) (by decide) (by decide)

theorem rd_main_v51 (V : Valuation τ sig (Elt F)) :
    after ops V (Proc.devRef .tc main_v51) = (broadcastInDim S1x64 ![1] bcast_S64_S1x64_1 : (⟨S64, .f32⟩ : BufTy).Contents (Elt F) → (⟨S1x64, .f32⟩ : BufTy).Contents (Elt F)) (after ops V (Proc.devRef .tc main_arg12)) :=
  Cert.Lib.ssa_unary (x := main_arg12) (y := main_v51) wr 85 V (broadcastInDim S1x64 ![1] bcast_S64_S1x64_1 : (⟨S64, .f32⟩ : BufTy).Contents (Elt F) → (⟨S1x64, .f32⟩ : BufTy).Contents (Elt F)) _ _ rfl (by decide) (by decide)

theorem rd_main_v52 (V : Valuation τ sig (Elt F)) :
    after ops V (Proc.devRef .tc main_v52) = (broadcastInDim S1600000x64 ![0, 1] bcast_S1x64_S1600000x64_0_1 : (⟨S1x64, .f32⟩ : BufTy).Contents (Elt F) → (⟨S1600000x64, .f32⟩ : BufTy).Contents (Elt F)) (after ops V (Proc.devRef .tc main_v51)) :=
  Cert.Lib.ssa_unary (x := main_v51) (y := main_v52) wr 86 V (broadcastInDim S1600000x64 ![0, 1] bcast_S1x64_S1600000x64_0_1 : (⟨S1x64, .f32⟩ : BufTy).Contents (Elt F) → (⟨S1600000x64, .f32⟩ : BufTy).Contents (Elt F)) _ _ rfl (by decide) (by decide)

theorem rd_main_v53 (V : Valuation τ sig (Elt F)) :
    after ops V (Proc.devRef .tc main_v53) = (addf : (⟨S1600000x64, .f32⟩ : BufTy).Contents (Elt F) → (⟨S1600000x64, .f32⟩ : BufTy).Contents (Elt F) → (⟨S1600000x64, .f32⟩ : BufTy).Contents (Elt F)) (after ops V (Proc.devRef .tc main_v50)) (after ops V (Proc.devRef .tc main_v52)) :=
  Cert.Lib.ssa_binary (a := main_v50) (b := main_v52) (y := main_v53) wr 87 V (addf : (⟨S1600000x64, .f32⟩ : BufTy).Contents (Elt F) → (⟨S1600000x64, .f32⟩ : BufTy).Contents (Elt F) → (⟨S1600000x64, .f32⟩ : BufTy).Contents (Elt F)) _ _ _ rfl (by decide) (by decide) (by decide)

theorem rd_main_c_5 (V : Valuation τ sig (Elt F)) :
    after ops V (Proc.devRef .tc main_c_5) = (constantI S_ 32 0#32) :=
  Cert.Lib.ssa_nullary (y := main_c_5) wr 88 V (constantI S_ 32 0#32) _ rfl (by decide)

theorem rd_main_v54 (V : Valuation τ sig (Elt F)) :
    after ops V (Proc.devRef .tc main_v54) = (broadcastInDim S1600000 ![] bcast_S_S1600000 : (⟨S_, .i32⟩ : BufTy).Contents (Elt F) → (⟨S1600000, .i32⟩ : BufTy).Contents (Elt F)) (after ops V (Proc.devRef .tc main_c_5)) :=
  Cert.Lib.ssa_unary (x := main_c_5) (y := main_v54) wr 89 V (broadcastInDim S1600000 ![] bcast_S_S1600000 : (⟨S_, .i32⟩ : BufTy).Contents (Elt F) → (⟨S1600000, .i32⟩ : BufTy).Contents (Elt F)) _ _ rfl (by decide) (by decide)

theorem rd_main_v55 (V : Valuation τ sig (Elt F)) :
    after ops V (Proc.devRef .tc main_v55) = (cmpi .slt : (⟨S1600000, .i32⟩ : BufTy).Contents (Elt F) → (⟨S1600000, .i32⟩ : BufTy).Contents (Elt F) → (⟨S1600000, .i1⟩ : BufTy).Contents (Elt F)) (after ops V (Proc.devRef .tc main_v1)) (after ops V (Proc.devRef .tc main_v54)) :=
  Cert.Lib.ssa_binary (a := main_v1) (b := main_v54) (y := main_v55) wr 90 V (cmpi .slt : (⟨S1600000, .i32⟩ : BufTy).Contents (Elt F) → (⟨S1600000, .i32⟩ : BufTy).Contents (Elt F) → (⟨S1600000, .i1⟩ : BufTy).Contents (Elt F)) _ _ _ rfl (by decide) (by decide) (by decide)

theorem rd_main_c_6 (V : Valuation τ sig (Elt F)) :
    after ops V (Proc.devRef .tc main_c_6) = (constantI S_ 32 100000#32) :=
  Cert.Lib.ssa_nullary (y := main_c_6) wr 91 V (constantI S_ 32 100000#32) _ rfl (by decide)

theorem rd_main_v56 (V : Valuation τ sig (Elt F)) :
    after ops V (Proc.devRef .tc main_v56) = (broadcastInDim S1600000 ![] bcast_S_S1600000 : (⟨S_, .i32⟩ : BufTy).Contents (Elt F) → (⟨S1600000, .i32⟩ : BufTy).Contents (Elt F)) (after ops V (Proc.devRef .tc main_c_6)) :=
  Cert.Lib.ssa_unary (x := main_c_6) (y := main_v56) wr 92 V (broadcastInDim S1600000 ![] bcast_S_S1600000 : (⟨S_, .i32⟩ : BufTy).Contents (Elt F) → (⟨S1600000, .i32⟩ : BufTy).Contents (Elt F)) _ _ rfl (by decide) (by decide)

theorem rd_main_v57 (V : Valuation τ sig (Elt F)) :
    after ops V (Proc.devRef .tc main_v57) = (addi : (⟨S1600000, .i32⟩ : BufTy).Contents (Elt F) → (⟨S1600000, .i32⟩ : BufTy).Contents (Elt F) → (⟨S1600000, .i32⟩ : BufTy).Contents (Elt F)) (after ops V (Proc.devRef .tc main_v1)) (after ops V (Proc.devRef .tc main_v56)) :=
  Cert.Lib.ssa_binary (a := main_v1) (b := main_v56) (y := main_v57) wr 93 V (addi : (⟨S1600000, .i32⟩ : BufTy).Contents (Elt F) → (⟨S1600000, .i32⟩ : BufTy).Contents (Elt F) → (⟨S1600000, .i32⟩ : BufTy).Contents (Elt F)) _ _ _ rfl (by decide) (by decide) (by decide)

theorem rd_main_v58 (V : Valuation τ sig (Elt F)) :
    after ops V (Proc.devRef .tc main_v58) = (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (after ops V (Proc.devRef .tc main_v55)) (after ops V (Proc.devRef .tc main_v57)) (after ops V (Proc.devRef .tc main_v1)) :=
  Cert.Lib.ssa_ternary (c := main_v55) (a := main_v57) (b := main_v1) (y := main_v58) wr 94 V (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) _ _ _ _ rfl (by decide) (by decide) (by decide) (by decide)

theorem rd_main_v59 (V : Valuation τ sig (Elt F)) :
    after ops V (Proc.devRef .tc main_v59) = (broadcastInDim S1600000x1 ![0] bcast_S1600000_S1600000x1_0 : (⟨S1600000, .i32⟩ : BufTy).Contents (Elt F) → (⟨S1600000x1, .i32⟩ : BufTy).Contents (Elt F)) (after ops V (Proc.devRef .tc main_v58)) :=
  Cert.Lib.ssa_unary (x := main_v58) (y := main_v59) wr 95 V (broadcastInDim S1600000x1 ![0] bcast_S1600000_S1600000x1_0 : (⟨S1600000, .i32⟩ : BufTy).Contents (Elt F) → (⟨S1600000x1, .i32⟩ : BufTy).Contents (Elt F)) _ _ rfl (by decide) (by decide)

theorem rd_main_v60 (V : Valuation τ sig (Elt F)) :
    after ops V (Proc.devRef .tc main_v60) = ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) (after ops V (Proc.devRef .tc main_v49)) (after ops V (Proc.devRef .tc main_v59)) :=
  Cert.Lib.ssa_binary (a := main_v49) (b := main_v59) (y := main_v60) wr 96 V ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) _ _ _ rfl (by decide) (by decide) (by decide)

theorem rd_main_v61 (V : Valuation τ sig (Elt F)) :
    after ops V (Proc.devRef .tc main_v61) = (addf : (⟨S1600000x64, .f32⟩ : BufTy).Contents (Elt F) → (⟨S1600000x64, .f32⟩ : BufTy).Contents (Elt F) → (⟨S1600000x64, .f32⟩ : BufTy).Contents (Elt F)) (after ops V (Proc.devRef .tc main_v60)) (after ops V (Proc.devRef .tc main_v53)) :=
  Cert.Lib.ssa_binary (a := main_v60) (b := main_v53) (y := main_v61) wr 97 V (addf : (⟨S1600000x64, .f32⟩ : BufTy).Contents (Elt F) → (⟨S1600000x64, .f32⟩ : BufTy).Contents (Elt F) → (⟨S1600000x64, .f32⟩ : BufTy).Contents (Elt F)) _ _ _ rfl (by decide) (by decide) (by decide)

theorem rd_main_call4_cst (V : Valuation τ sig (Elt F)) :
    after ops V (Proc.devRef .tc main_call4_cst) = ((constant S_ .f32 0x00000000#32) : (⟨S_, .f32⟩ : BufTy).Contents (Elt F)) :=
  Cert.Lib.ssa_nullary (y := main_call4_cst) wr 98 V ((constant S_ .f32 0x00000000#32) : (⟨S_, .f32⟩ : BufTy).Contents (Elt F)) _ rfl (by decide)

theorem rd_main_call4_v0 (V : Valuation τ sig (Elt F)) :
    after ops V (Proc.devRef .tc main_call4_v0) = ((broadcastInDim S1600000x64 ![] bcast_S_S1600000x64) : (⟨S_, .f32⟩ : BufTy).Contents (Elt F) → (⟨S1600000x64, .f32⟩ : BufTy).Contents (Elt F)) (after ops V (Proc.devRef .tc main_call4_cst)) :=
  Cert.Lib.ssa_unary (x := main_call4_cst) (y := main_call4_v0) wr 99 V ((broadcastInDim S1600000x64 ![] bcast_S_S1600000x64) : (⟨S_, .f32⟩ : BufTy).Contents (Elt F) → (⟨S1600000x64, .f32⟩ : BufTy).Contents (Elt F)) _ _ rfl (by decide) (by decide)

theorem rd_main_v62 (V : Valuation τ sig (Elt F)) :
    after ops V (Proc.devRef .tc main_v62) = (maximumf : (⟨S1600000x64, .f32⟩ : BufTy).Contents (Elt F) → (⟨S1600000x64, .f32⟩ : BufTy).Contents (Elt F) → (⟨S1600000x64, .f32⟩ : BufTy).Contents (Elt F)) (after ops V (Proc.devRef .tc main_v61)) (after ops V (Proc.devRef .tc main_call4_v0)) :=
  Cert.Lib.ssa_binary (a := main_v61) (b := main_call4_v0) (y := main_v62) wr 100 V (maximumf : (⟨S1600000x64, .f32⟩ : BufTy).Contents (Elt F) → (⟨S1600000x64, .f32⟩ : BufTy).Contents (Elt F) → (⟨S1600000x64, .f32⟩ : BufTy).Contents (Elt F)) _ _ _ rfl (by decide) (by decide) (by decide)

theorem rd_main_cst_7 (V : Valuation τ sig (Elt F)) :
    after ops V (Proc.devRef .tc main_cst_7) = (constant S_ .f32 0x00000000#32) :=
  Cert.Lib.ssa_nullary (y := main_cst_7) wr 101 V (constant S_ .f32 0x00000000#32) _ rfl (by decide)

theorem rd_main_v63 (V : Valuation τ sig (Elt F)) :
    after ops V (Proc.devRef .tc main_v63) = (broadcastInDim S100000x64 ![] bcast_S_S100000x64 : (⟨S_, .f32⟩ : BufTy).Contents (Elt F) → (⟨S100000x64, .f32⟩ : BufTy).Contents (Elt F)) (after ops V (Proc.devRef .tc main_cst_7)) :=
  Cert.Lib.ssa_unary (x := main_cst_7) (y := main_v63) wr 102 V (broadcastInDim S100000x64 ![] bcast_S_S100000x64 : (⟨S_, .f32⟩ : BufTy).Contents (Elt F) → (⟨S100000x64, .f32⟩ : BufTy).Contents (Elt F)) _ _ rfl (by decide) (by decide)

theorem rd_main_v64 (V : Valuation τ sig (Elt F)) :
    after ops V (Proc.devRef .tc main_v64) = (broadcastInDim S1600000x1 ![0] bcast_S1600000_S1600000x1_0 : (⟨S1600000, .i32⟩ : BufTy).Contents (Elt F) → (⟨S1600000x1, .i32⟩ : BufTy).Contents (Elt F)) (after ops V (Proc.devRef .tc main_v3)) :=
  Cert.Lib.ssa_unary (x := main_v3) (y := main_v64) wr 103 V (broadcastInDim S1600000x1 ![0] bcast_S1600000_S1600000x1_0 : (⟨S1600000, .i32⟩ : BufTy).Contents (Elt F) → (⟨S1600000x1, .i32⟩ : BufTy).Contents (Elt F)) _ _ rfl (by decide) (by decide)

theorem rd_main_v65 (V : Valuation τ sig (Elt F)) :
    after ops V (Proc.devRef .tc main_v65) = ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) (after ops V (Proc.devRef .tc main_v63)) (after ops V (Proc.devRef .tc main_v64)) (after ops V (Proc.devRef .tc main_v62)) :=
  Cert.Lib.ssa_ternary (c := main_v63) (a := main_v64) (b := main_v62) (y := main_v65) wr 104 V ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) _ _ _ _ rfl (by decide) (by decide) (by decide) (by decide)

theorem rd_main_v66 (V : Valuation τ sig (Elt F)) :
    after ops V (Proc.devRef .tc main_v66) = (addf : (⟨S100000x64, .f32⟩ : BufTy).Contents (Elt F) → (⟨S100000x64, .f32⟩ : BufTy).Contents (Elt F) → (⟨S100000x64, .f32⟩ : BufTy).Contents (Elt F)) (after ops V (Proc.devRef .tc main_v49)) (after ops V (Proc.devRef .tc main_v65)) :=
  Cert.Lib.ssa_binary (a := main_v49) (b := main_v65) (y := main_v66) wr 105 V (addf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_v67 (V : Valuation τ sig (Elt F)) :
    after ops V (Proc.devRef .tc main_v67) = ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) (after ops V (Proc.devRef .tc main_v66)) (after ops V (Proc.devRef .tc main_arg13)) :=
  Cert.Lib.ssa_binary (a := main_v66) (b := main_arg13) (y := main_v67) wr 106 V ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) _ _ _ rfl (by decide) (by decide) (by decide)

theorem rd_main_v68 (V : Valuation τ sig (Elt F)) :
    after ops V (Proc.devRef .tc main_v68) = (broadcastInDim S1x64 ![1] bcast_S64_S1x64_1 : (⟨S64, .f32⟩ : BufTy).Contents (Elt F) → (⟨S1x64, .f32⟩ : BufTy).Contents (Elt F)) (after ops V (Proc.devRef .tc main_arg14)) :=
  Cert.Lib.ssa_unary (x := main_arg14) (y := main_v68) wr 107 V (broadcastInDim S1x64 ![1] bcast_S64_S1x64_1 : (⟨S64, .f32⟩ : BufTy).Contents (Elt F) → (⟨S1x64, .f32⟩ : BufTy).Contents (Elt F)) _ _ rfl (by decide) (by decide)

theorem rd_main_v69 (V : Valuation τ sig (Elt F)) :
    after ops V (Proc.devRef .tc main_v69) = (broadcastInDim S100000x64 ![0, 1] bcast_S1x64_S100000x64_0_1 : (⟨S1x64, .f32⟩ : BufTy).Contents (Elt F) → (⟨S100000x64, .f32⟩ : BufTy).Contents (Elt F)) (after ops V (Proc.devRef .tc main_v68)) :=
  Cert.Lib.ssa_unary (x := main_v68) (y := main_v69) wr 108 V (broadcastInDim S100000x64 ![0, 1] bcast_S1x64_S100000x64_0_1 : (⟨S1x64, .f32⟩ : BufTy).Contents (Elt F) → (⟨S100000x64, .f32⟩ : BufTy).Contents (Elt F)) _ _ rfl (by decide) (by decide)

theorem rd_main_v70 (V : Valuation τ sig (Elt F)) :
    after ops V (Proc.devRef .tc main_v70) = (addf : (⟨S100000x64, .f32⟩ : BufTy).Contents (Elt F) → (⟨S100000x64, .f32⟩ : BufTy).Contents (Elt F) → (⟨S100000x64, .f32⟩ : BufTy).Contents (Elt F)) (after ops V (Proc.devRef .tc main_v67)) (after ops V (Proc.devRef .tc main_v69)) :=
  Cert.Lib.ssa_binary (a := main_v67) (b := main_v69) (y := main_v70) wr 109 V (addf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_cst_8 (V : Valuation τ sig (Elt F)) :
    after ops V (Proc.devRef .tc main_cst_8) = (constant S_ .f32 0x00000000#32) :=
  Cert.Lib.ssa_nullary (y := main_cst_8) wr 110 V (constant S_ .f32 0x00000000#32) _ rfl (by decide)

theorem rd_main_v71 (V : Valuation τ sig (Elt F)) :
    after ops V (Proc.devRef .tc main_v71) = ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) (after ops V (Proc.devRef .tc main_v70)) (after ops V (Proc.devRef .tc main_cst_8)) :=
  Cert.Lib.ssa_binary (a := main_v70) (b := main_cst_8) (y := main_v71) wr 111 V ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) _ _ _ rfl (by decide) (by decide) (by decide)

theorem rd_main_cst_9 (V : Valuation τ sig (Elt F)) :
    after ops V (Proc.devRef .tc main_cst_9) = (constant S_ .f32 0x47C35000#32) :=
  Cert.Lib.ssa_nullary (y := main_cst_9) wr 112 V (constant S_ .f32 0x47C35000#32) _ rfl (by decide)

theorem rd_main_v72 (V : Valuation τ sig (Elt F)) :
    after ops V (Proc.devRef .tc main_v72) = (broadcastInDim S64 ![] bcast_S_S64 : (⟨S_, .f32⟩ : BufTy).Contents (Elt F) → (⟨S64, .f32⟩ : BufTy).Contents (Elt F)) (after ops V (Proc.devRef .tc main_cst_9)) :=
  Cert.Lib.ssa_unary (x := main_cst_9) (y := main_v72) wr 113 V (broadcastInDim S64 ![] bcast_S_S64 : (⟨S_, .f32⟩ : BufTy).Contents (Elt F) → (⟨S64, .f32⟩ : BufTy).Contents (Elt F)) _ _ rfl (by decide) (by decide)

theorem rd_main_v73 (V : Valuation τ sig (Elt F)) :
    after ops V (Proc.devRef .tc main_v73) = (Host.divf : (⟨S64, .f32⟩ : BufTy).Contents (Elt F) → (⟨S64, .f32⟩ : BufTy).Contents (Elt F) → (⟨S64, .f32⟩ : BufTy).Contents (Elt F)) (after ops V (Proc.devRef .tc main_v71)) (after ops V (Proc.devRef .tc main_v72)) :=
  Cert.Lib.ssa_binary (a := main_v71) (b := main_v72) (y := main_v73) wr 114 V (Host.divf : (⟨S64, .f32⟩ : BufTy).Contents (Elt F) → (⟨S64, .f32⟩ : BufTy).Contents (Elt F) → (⟨S64, .f32⟩ : BufTy).Contents (Elt F)) _ _ _ rfl (by decide) (by decide) (by decide)

theorem rd_main_c_10 (V : Valuation τ sig (Elt F)) :
    after ops V (Proc.devRef .tc main_c_10) = (constantI S_ 32 0#32) :=
  Cert.Lib.ssa_nullary (y := main_c_10) wr 115 V (constantI S_ 32 0#32) _ rfl (by decide)

theorem rd_main_call5_cst (V : Valuation τ sig (Elt F)) :
    after ops V (Proc.devRef .tc main_call5_cst) = ((constant S_ .f32 0x00000000#32) : (⟨S_, .f32⟩ : BufTy).Contents (Elt F)) :=
  Cert.Lib.ssa_nullary (y := main_call5_cst) wr 116 V ((constant S_ .f32 0x00000000#32) : (⟨S_, .f32⟩ : BufTy).Contents (Elt F)) _ rfl (by decide)

theorem rd_main_call5_v0 (V : Valuation τ sig (Elt F)) :
    after ops V (Proc.devRef .tc main_call5_v0) = ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) (after ops V (Proc.devRef .tc main_v70)) (after ops V (Proc.devRef .tc main_call5_cst)) :=
  Cert.Lib.ssa_binary (a := main_v70) (b := main_call5_cst) (y := main_call5_v0) wr 117 V ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) _ _ _ rfl (by decide) (by decide) (by decide)

theorem rd_main_call5_v1 (V : Valuation τ sig (Elt F)) :
    after ops V (Proc.devRef .tc main_call5_v1) = ((broadcastInDim S1x64 ![1] bcast_S64_S1x64_1) : (⟨S64, .f32⟩ : BufTy).Contents (Elt F) → (⟨S1x64, .f32⟩ : BufTy).Contents (Elt F)) (after ops V (Proc.devRef .tc main_call5_v0)) :=
  Cert.Lib.ssa_unary (x := main_call5_v0) (y := main_call5_v1) wr 118 V ((broadcastInDim S1x64 ![1] bcast_S64_S1x64_1) : (⟨S64, .f32⟩ : BufTy).Contents (Elt F) → (⟨S1x64, .f32⟩ : BufTy).Contents (Elt F)) _ _ rfl (by decide) (by decide)

theorem rd_main_call5_cst_0 (V : Valuation τ sig (Elt F)) :
    after ops V (Proc.devRef .tc main_call5_cst_0) = ((constant S_ .f32 0x47C35000#32) : (⟨S_, .f32⟩ : BufTy).Contents (Elt F)) :=
  Cert.Lib.ssa_nullary (y := main_call5_cst_0) wr 119 V ((constant S_ .f32 0x47C35000#32) : (⟨S_, .f32⟩ : BufTy).Contents (Elt F)) _ rfl (by decide)

theorem rd_main_call5_v2 (V : Valuation τ sig (Elt F)) :
    after ops V (Proc.devRef .tc main_call5_v2) = ((broadcastInDim S1x64 ![] bcast_S_S1x64) : (⟨S_, .f32⟩ : BufTy).Contents (Elt F) → (⟨S1x64, .f32⟩ : BufTy).Contents (Elt F)) (after ops V (Proc.devRef .tc main_call5_cst_0)) :=
  Cert.Lib.ssa_unary (x := main_call5_cst_0) (y := main_call5_v2) wr 120 V ((broadcastInDim S1x64 ![] bcast_S_S1x64) : (⟨S_, .f32⟩ : BufTy).Contents (Elt F) → (⟨S1x64, .f32⟩ : BufTy).Contents (Elt F)) _ _ rfl (by decide) (by decide)

theorem rd_main_call5_v3 (V : Valuation τ sig (Elt F)) :
    after ops V (Proc.devRef .tc main_call5_v3) = (Host.divf : (⟨S1x64, .f32⟩ : BufTy).Contents (Elt F) → (⟨S1x64, .f32⟩ : BufTy).Contents (Elt F) → (⟨S1x64, .f32⟩ : BufTy).Contents (Elt F)) (after ops V (Proc.devRef .tc main_call5_v1)) (after ops V (Proc.devRef .tc main_call5_v2)) :=
  Cert.Lib.ssa_binary (a := main_call5_v1) (b := main_call5_v2) (y := main_call5_v3) wr 121 V (Host.divf : (⟨S1x64, .f32⟩ : BufTy).Contents (Elt F) → (⟨S1x64, .f32⟩ : BufTy).Contents (Elt F) → (⟨S1x64, .f32⟩ : BufTy).Contents (Elt F)) _ _ _ rfl (by decide) (by decide) (by decide)

theorem rd_main_call5_v4 (V : Valuation τ sig (Elt F)) :
    after ops V (Proc.devRef .tc main_call5_v4) = ((broadcastInDim S100000x64 ![0, 1] bcast_S1x64_S100000x64_0_1) : (⟨S1x64, .f32⟩ : BufTy).Contents (Elt F) → (⟨S100000x64, .f32⟩ : BufTy).Contents (Elt F)) (after ops V (Proc.devRef .tc main_call5_v3)) :=
  Cert.Lib.ssa_unary (x := main_call5_v3) (y := main_call5_v4) wr 122 V ((broadcastInDim S100000x64 ![0, 1] bcast_S1x64_S100000x64_0_1) : (⟨S1x64, .f32⟩ : BufTy).Contents (Elt F) → (⟨S100000x64, .f32⟩ : BufTy).Contents (Elt F)) _ _ rfl (by decide) (by decide)

theorem rd_main_call5_v5 (V : Valuation τ sig (Elt F)) :
    after ops V (Proc.devRef .tc main_call5_v5) = (subf : (⟨S100000x64, .f32⟩ : BufTy).Contents (Elt F) → (⟨S100000x64, .f32⟩ : BufTy).Contents (Elt F) → (⟨S100000x64, .f32⟩ : BufTy).Contents (Elt F)) (after ops V (Proc.devRef .tc main_v70)) (after ops V (Proc.devRef .tc main_call5_v4)) :=
  Cert.Lib.ssa_binary (a := main_v70) (b := main_call5_v4) (y := main_call5_v5) wr 123 V (subf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_call5_v6 (V : Valuation τ sig (Elt F)) :
    after ops V (Proc.devRef .tc main_call5_v6) = (mulf : (⟨S100000x64, .f32⟩ : BufTy).Contents (Elt F) → (⟨S100000x64, .f32⟩ : BufTy).Contents (Elt F) → (⟨S100000x64, .f32⟩ : BufTy).Contents (Elt F)) (after ops V (Proc.devRef .tc main_call5_v5)) (after ops V (Proc.devRef .tc main_call5_v5)) :=
  Cert.Lib.ssa_binary (a := main_call5_v5) (b := main_call5_v5) (y := main_call5_v6) wr 124 V (mulf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_call5_v7 (V : Valuation τ sig (Elt F)) :
    after ops V (Proc.devRef .tc main_call5_v7) = ((sitofp .f32) : (⟨S_, .i32⟩ : BufTy).Contents (Elt F) → (⟨S_, .f32⟩ : BufTy).Contents (Elt F)) (after ops V (Proc.devRef .tc main_c_10)) :=
  Cert.Lib.ssa_unary (x := main_c_10) (y := main_call5_v7) wr 125 V ((sitofp .f32) : (⟨S_, .i32⟩ : BufTy).Contents (Elt F) → (⟨S_, .f32⟩ : BufTy).Contents (Elt F)) _ _ rfl (by decide) (by decide)

theorem rd_main_call5_cst_1 (V : Valuation τ sig (Elt F)) :
    after ops V (Proc.devRef .tc main_call5_cst_1) = ((constant S_ .f32 0x47C35000#32) : (⟨S_, .f32⟩ : BufTy).Contents (Elt F)) :=
  Cert.Lib.ssa_nullary (y := main_call5_cst_1) wr 126 V ((constant S_ .f32 0x47C35000#32) : (⟨S_, .f32⟩ : BufTy).Contents (Elt F)) _ rfl (by decide)

theorem rd_main_call5_v8 (V : Valuation τ sig (Elt F)) :
    after ops V (Proc.devRef .tc main_call5_v8) = (subf : (⟨S_, .f32⟩ : BufTy).Contents (Elt F) → (⟨S_, .f32⟩ : BufTy).Contents (Elt F) → (⟨S_, .f32⟩ : BufTy).Contents (Elt F)) (after ops V (Proc.devRef .tc main_call5_cst_1)) (after ops V (Proc.devRef .tc main_call5_v7)) :=
  Cert.Lib.ssa_binary (a := main_call5_cst_1) (b := main_call5_v7) (y := main_call5_v8) wr 127 V (subf : (⟨S_, .f32⟩ : BufTy).Contents (Elt F) → (⟨S_, .f32⟩ : BufTy).Contents (Elt F) → (⟨S_, .f32⟩ : BufTy).Contents (Elt F)) _ _ _ rfl (by decide) (by decide) (by decide)

theorem rd_main_call5_cst_2 (V : Valuation τ sig (Elt F)) :
    after ops V (Proc.devRef .tc main_call5_cst_2) = ((constant S_ .f32 0x00000000#32) : (⟨S_, .f32⟩ : BufTy).Contents (Elt F)) :=
  Cert.Lib.ssa_nullary (y := main_call5_cst_2) wr 128 V ((constant S_ .f32 0x00000000#32) : (⟨S_, .f32⟩ : BufTy).Contents (Elt F)) _ rfl (by decide)

theorem rd_main_call5_v9 (V : Valuation τ sig (Elt F)) :
    after ops V (Proc.devRef .tc main_call5_v9) = ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) (after ops V (Proc.devRef .tc main_call5_v6)) (after ops V (Proc.devRef .tc main_call5_cst_2)) :=
  Cert.Lib.ssa_binary (a := main_call5_v6) (b := main_call5_cst_2) (y := main_call5_v9) wr 129 V ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) _ _ _ rfl (by decide) (by decide) (by decide)

theorem rd_main_call5_v10 (V : Valuation τ sig (Elt F)) :
    after ops V (Proc.devRef .tc main_call5_v10) = ((broadcastInDim S64 ![] bcast_S_S64) : (⟨S_, .f32⟩ : BufTy).Contents (Elt F) → (⟨S64, .f32⟩ : BufTy).Contents (Elt F)) (after ops V (Proc.devRef .tc main_call5_v8)) :=
  Cert.Lib.ssa_unary (x := main_call5_v8) (y := main_call5_v10) wr 130 V ((broadcastInDim S64 ![] bcast_S_S64) : (⟨S_, .f32⟩ : BufTy).Contents (Elt F) → (⟨S64, .f32⟩ : BufTy).Contents (Elt F)) _ _ rfl (by decide) (by decide)

theorem rd_main_call5_v11 (V : Valuation τ sig (Elt F)) :
    after ops V (Proc.devRef .tc main_call5_v11) = (Host.divf : (⟨S64, .f32⟩ : BufTy).Contents (Elt F) → (⟨S64, .f32⟩ : BufTy).Contents (Elt F) → (⟨S64, .f32⟩ : BufTy).Contents (Elt F)) (after ops V (Proc.devRef .tc main_call5_v9)) (after ops V (Proc.devRef .tc main_call5_v10)) :=
  Cert.Lib.ssa_binary (a := main_call5_v9) (b := main_call5_v10) (y := main_call5_v11) wr 131 V (Host.divf : (⟨S64, .f32⟩ : BufTy).Contents (Elt F) → (⟨S64, .f32⟩ : BufTy).Contents (Elt F) → (⟨S64, .f32⟩ : BufTy).Contents (Elt F)) _ _ _ rfl (by decide) (by decide) (by decide)

theorem rd_main_call5_cst_3 (V : Valuation τ sig (Elt F)) :
    after ops V (Proc.devRef .tc main_call5_cst_3) = ((constant S_ .f32 0x00000000#32) : (⟨S_, .f32⟩ : BufTy).Contents (Elt F)) :=
  Cert.Lib.ssa_nullary (y := main_call5_cst_3) wr 132 V ((constant S_ .f32 0x00000000#32) : (⟨S_, .f32⟩ : BufTy).Contents (Elt F)) _ rfl (by decide)

theorem rd_main_call5_v12 (V : Valuation τ sig (Elt F)) :
    after ops V (Proc.devRef .tc main_call5_v12) = ((cmpf .ogt) : (⟨S_, .f32⟩ : BufTy).Contents (Elt F) → (⟨S_, .f32⟩ : BufTy).Contents (Elt F) → (⟨S_, .i1⟩ : BufTy).Contents (Elt F)) (after ops V (Proc.devRef .tc main_call5_v8)) (after ops V (Proc.devRef .tc main_call5_cst_3)) :=
  Cert.Lib.ssa_binary (a := main_call5_v8) (b := main_call5_cst_3) (y := main_call5_v12) wr 133 V ((cmpf .ogt) : (⟨S_, .f32⟩ : BufTy).Contents (Elt F) → (⟨S_, .f32⟩ : BufTy).Contents (Elt F) → (⟨S_, .i1⟩ : BufTy).Contents (Elt F)) _ _ _ rfl (by decide) (by decide) (by decide)

theorem rd_main_call5_cst_4 (V : Valuation τ sig (Elt F)) :
    after ops V (Proc.devRef .tc main_call5_cst_4) = ((constant S_ .f32 0x7FC00000#32) : (⟨S_, .f32⟩ : BufTy).Contents (Elt F)) :=
  Cert.Lib.ssa_nullary (y := main_call5_cst_4) wr 134 V ((constant S_ .f32 0x7FC00000#32) : (⟨S_, .f32⟩ : BufTy).Contents (Elt F)) _ rfl (by decide)

theorem rd_main_call5_call0_v0 (V : Valuation τ sig (Elt F)) :
    after ops V (Proc.devRef .tc main_call5_call0_v0) = (id : (⟨S_, .f32⟩ : BufTy).Contents (Elt F) → (⟨S_, .f32⟩ : BufTy).Contents (Elt F)) (after ops V (Proc.devRef .tc main_call5_cst_4)) :=
  Cert.Lib.ssa_unary (x := main_call5_cst_4) (y := main_call5_call0_v0) wr 135 V (id : (⟨S_, .f32⟩ : BufTy).Contents (Elt F) → (⟨S_, .f32⟩ : BufTy).Contents (Elt F)) _ _ rfl (by decide) (by decide)

theorem rd_main_call5_call0_v1 (V : Valuation τ sig (Elt F)) :
    after ops V (Proc.devRef .tc main_call5_call0_v1) = ((broadcastInDim S64 ![] bcast_S_S64) : (⟨S_, .f32⟩ : BufTy).Contents (Elt F) → (⟨S64, .f32⟩ : BufTy).Contents (Elt F)) (after ops V (Proc.devRef .tc main_call5_call0_v0)) :=
  Cert.Lib.ssa_unary (x := main_call5_call0_v0) (y := main_call5_call0_v1) wr 136 V ((broadcastInDim S64 ![] bcast_S_S64) : (⟨S_, .f32⟩ : BufTy).Contents (Elt F) → (⟨S64, .f32⟩ : BufTy).Contents (Elt F)) _ _ rfl (by decide) (by decide)

theorem rd_main_v74 (V : Valuation τ sig (Elt F)) :
    after ops V (Proc.devRef .tc main_v74) = ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) (after ops V (Proc.devRef .tc main_call5_v12)) (after ops V (Proc.devRef .tc main_call5_v11)) (after ops V (Proc.devRef .tc main_call5_call0_v1)) :=
  Cert.Lib.ssa_ternary (c := main_call5_v12) (a := main_call5_v11) (b := main_call5_call0_v1) (y := main_v74) wr 137 V ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) _ _ _ _ rfl (by decide) (by decide) (by decide) (by decide)

theorem rd_main_v75 (V : Valuation τ sig (Elt F)) :
    after ops V (Proc.devRef .tc main_v75) = (broadcastInDim S1x64 ![1] bcast_S64_S1x64_1 : (⟨S64, .f32⟩ : BufTy).Contents (Elt F) → (⟨S1x64, .f32⟩ : BufTy).Contents (Elt F)) (after ops V (Proc.devRef .tc main_v73)) :=
  Cert.Lib.ssa_unary (x := main_v73) (y := main_v75) wr 138 V (broadcastInDim S1x64 ![1] bcast_S64_S1x64_1 : (⟨S64, .f32⟩ : BufTy).Contents (Elt F) → (⟨S1x64, .f32⟩ : BufTy).Contents (Elt F)) _ _ rfl (by decide) (by decide)

theorem rd_main_v76 (V : Valuation τ sig (Elt F)) :
    after ops V (Proc.devRef .tc main_v76) = (broadcastInDim S100000x64 ![0, 1] bcast_S1x64_S100000x64_0_1 : (⟨S1x64, .f32⟩ : BufTy).Contents (Elt F) → (⟨S100000x64, .f32⟩ : BufTy).Contents (Elt F)) (after ops V (Proc.devRef .tc main_v75)) :=
  Cert.Lib.ssa_unary (x := main_v75) (y := main_v76) wr 139 V (broadcastInDim S100000x64 ![0, 1] bcast_S1x64_S100000x64_0_1 : (⟨S1x64, .f32⟩ : BufTy).Contents (Elt F) → (⟨S100000x64, .f32⟩ : BufTy).Contents (Elt F)) _ _ rfl (by decide) (by decide)

theorem rd_main_v77 (V : Valuation τ sig (Elt F)) :
    after ops V (Proc.devRef .tc main_v77) = (subf : (⟨S100000x64, .f32⟩ : BufTy).Contents (Elt F) → (⟨S100000x64, .f32⟩ : BufTy).Contents (Elt F) → (⟨S100000x64, .f32⟩ : BufTy).Contents (Elt F)) (after ops V (Proc.devRef .tc main_v70)) (after ops V (Proc.devRef .tc main_v76)) :=
  Cert.Lib.ssa_binary (a := main_v70) (b := main_v76) (y := main_v77) wr 140 V (subf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_cst_11 (V : Valuation τ sig (Elt F)) :
    after ops V (Proc.devRef .tc main_cst_11) = (constant S_ .f32 0x3727C5AC#32) :=
  Cert.Lib.ssa_nullary (y := main_cst_11) wr 141 V (constant S_ .f32 0x3727C5AC#32) _ rfl (by decide)

theorem rd_main_v78 (V : Valuation τ sig (Elt F)) :
    after ops V (Proc.devRef .tc main_v78) = (broadcastInDim S64 ![] bcast_S_S64 : (⟨S_, .f32⟩ : BufTy).Contents (Elt F) → (⟨S64, .f32⟩ : BufTy).Contents (Elt F)) (after ops V (Proc.devRef .tc main_cst_11)) :=
  Cert.Lib.ssa_unary (x := main_cst_11) (y := main_v78) wr 142 V (broadcastInDim S64 ![] bcast_S_S64 : (⟨S_, .f32⟩ : BufTy).Contents (Elt F) → (⟨S64, .f32⟩ : BufTy).Contents (Elt F)) _ _ rfl (by decide) (by decide)

theorem rd_main_v79 (V : Valuation τ sig (Elt F)) :
    after ops V (Proc.devRef .tc main_v79) = (addf : (⟨S64, .f32⟩ : BufTy).Contents (Elt F) → (⟨S64, .f32⟩ : BufTy).Contents (Elt F) → (⟨S64, .f32⟩ : BufTy).Contents (Elt F)) (after ops V (Proc.devRef .tc main_v74)) (after ops V (Proc.devRef .tc main_v78)) :=
  Cert.Lib.ssa_binary (a := main_v74) (b := main_v78) (y := main_v79) wr 143 V (addf : (⟨S64, .f32⟩ : BufTy).Contents (Elt F) → (⟨S64, .f32⟩ : BufTy).Contents (Elt F) → (⟨S64, .f32⟩ : BufTy).Contents (Elt F)) _ _ _ rfl (by decide) (by decide) (by decide)

theorem rd_main_v80 (V : Valuation τ sig (Elt F)) :
    after ops V (Proc.devRef .tc main_v80) = (Host.sqrt : (⟨S64, .f32⟩ : BufTy).Contents (Elt F) → (⟨S64, .f32⟩ : BufTy).Contents (Elt F)) (after ops V (Proc.devRef .tc main_v79)) :=
  Cert.Lib.ssa_unary (x := main_v79) (y := main_v80) wr 144 V (Host.sqrt : (⟨S64, .f32⟩ : BufTy).Contents (Elt F) → (⟨S64, .f32⟩ : BufTy).Contents (Elt F)) _ _ rfl (by decide) (by decide)

theorem rd_main_v81 (V : Valuation τ sig (Elt F)) :
    after ops V (Proc.devRef .tc main_v81) = (broadcastInDim S1x64 ![1] bcast_S64_S1x64_1 : (⟨S64, .f32⟩ : BufTy).Contents (Elt F) → (⟨S1x64, .f32⟩ : BufTy).Contents (Elt F)) (after ops V (Proc.devRef .tc main_v80)) :=
  Cert.Lib.ssa_unary (x := main_v80) (y := main_v81) wr 145 V (broadcastInDim S1x64 ![1] bcast_S64_S1x64_1 : (⟨S64, .f32⟩ : BufTy).Contents (Elt F) → (⟨S1x64, .f32⟩ : BufTy).Contents (Elt F)) _ _ rfl (by decide) (by decide)

theorem rd_main_v82 (V : Valuation τ sig (Elt F)) :
    after ops V (Proc.devRef .tc main_v82) = (broadcastInDim S100000x64 ![0, 1] bcast_S1x64_S100000x64_0_1 : (⟨S1x64, .f32⟩ : BufTy).Contents (Elt F) → (⟨S100000x64, .f32⟩ : BufTy).Contents (Elt F)) (after ops V (Proc.devRef .tc main_v81)) :=
  Cert.Lib.ssa_unary (x := main_v81) (y := main_v82) wr 146 V (broadcastInDim S100000x64 ![0, 1] bcast_S1x64_S100000x64_0_1 : (⟨S1x64, .f32⟩ : BufTy).Contents (Elt F) → (⟨S100000x64, .f32⟩ : BufTy).Contents (Elt F)) _ _ rfl (by decide) (by decide)

theorem rd_main_v83 (V : Valuation τ sig (Elt F)) :
    after ops V (Proc.devRef .tc main_v83) = (Host.divf : (⟨S100000x64, .f32⟩ : BufTy).Contents (Elt F) → (⟨S100000x64, .f32⟩ : BufTy).Contents (Elt F) → (⟨S100000x64, .f32⟩ : BufTy).Contents (Elt F)) (after ops V (Proc.devRef .tc main_v77)) (after ops V (Proc.devRef .tc main_v82)) :=
  Cert.Lib.ssa_binary (a := main_v77) (b := main_v82) (y := main_v83) wr 147 V (Host.divf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_v84 (V : Valuation τ sig (Elt F)) :
    after ops V (Proc.devRef .tc main_v84) = (broadcastInDim S1x64 ![1] bcast_S64_S1x64_1 : (⟨S64, .f32⟩ : BufTy).Contents (Elt F) → (⟨S1x64, .f32⟩ : BufTy).Contents (Elt F)) (after ops V (Proc.devRef .tc main_arg15)) :=
  Cert.Lib.ssa_unary (x := main_arg15) (y := main_v84) wr 148 V (broadcastInDim S1x64 ![1] bcast_S64_S1x64_1 : (⟨S64, .f32⟩ : BufTy).Contents (Elt F) → (⟨S1x64, .f32⟩ : BufTy).Contents (Elt F)) _ _ rfl (by decide) (by decide)

theorem rd_main_v85 (V : Valuation τ sig (Elt F)) :
    after ops V (Proc.devRef .tc main_v85) = (broadcastInDim S100000x64 ![0, 1] bcast_S1x64_S100000x64_0_1 : (⟨S1x64, .f32⟩ : BufTy).Contents (Elt F) → (⟨S100000x64, .f32⟩ : BufTy).Contents (Elt F)) (after ops V (Proc.devRef .tc main_v84)) :=
  Cert.Lib.ssa_unary (x := main_v84) (y := main_v85) wr 149 V (broadcastInDim S100000x64 ![0, 1] bcast_S1x64_S100000x64_0_1 : (⟨S1x64, .f32⟩ : BufTy).Contents (Elt F) → (⟨S100000x64, .f32⟩ : BufTy).Contents (Elt F)) _ _ rfl (by decide) (by decide)

theorem rd_main_v86 (V : Valuation τ sig (Elt F)) :
    after ops V (Proc.devRef .tc main_v86) = (mulf : (⟨S100000x64, .f32⟩ : BufTy).Contents (Elt F) → (⟨S100000x64, .f32⟩ : BufTy).Contents (Elt F) → (⟨S100000x64, .f32⟩ : BufTy).Contents (Elt F)) (after ops V (Proc.devRef .tc main_v83)) (after ops V (Proc.devRef .tc main_v85)) :=
  Cert.Lib.ssa_binary (a := main_v83) (b := main_v85) (y := main_v86) wr 150 V (mulf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_v87 (V : Valuation τ sig (Elt F)) :
    after ops V (Proc.devRef .tc main_v87) = (broadcastInDim S1x64 ![1] bcast_S64_S1x64_1 : (⟨S64, .f32⟩ : BufTy).Contents (Elt F) → (⟨S1x64, .f32⟩ : BufTy).Contents (Elt F)) (after ops V (Proc.devRef .tc main_arg16)) :=
  Cert.Lib.ssa_unary (x := main_arg16) (y := main_v87) wr 151 V (broadcastInDim S1x64 ![1] bcast_S64_S1x64_1 : (⟨S64, .f32⟩ : BufTy).Contents (Elt F) → (⟨S1x64, .f32⟩ : BufTy).Contents (Elt F)) _ _ rfl (by decide) (by decide)

theorem rd_main_v88 (V : Valuation τ sig (Elt F)) :
    after ops V (Proc.devRef .tc main_v88) = (broadcastInDim S100000x64 ![0, 1] bcast_S1x64_S100000x64_0_1 : (⟨S1x64, .f32⟩ : BufTy).Contents (Elt F) → (⟨S100000x64, .f32⟩ : BufTy).Contents (Elt F)) (after ops V (Proc.devRef .tc main_v87)) :=
  Cert.Lib.ssa_unary (x := main_v87) (y := main_v88) wr 152 V (broadcastInDim S100000x64 ![0, 1] bcast_S1x64_S100000x64_0_1 : (⟨S1x64, .f32⟩ : BufTy).Contents (Elt F) → (⟨S100000x64, .f32⟩ : BufTy).Contents (Elt F)) _ _ rfl (by decide) (by decide)

theorem rd_main_v89 (V : Valuation τ sig (Elt F)) :
    after ops V (Proc.devRef .tc main_v89) = (addf : (⟨S100000x64, .f32⟩ : BufTy).Contents (Elt F) → (⟨S100000x64, .f32⟩ : BufTy).Contents (Elt F) → (⟨S100000x64, .f32⟩ : BufTy).Contents (Elt F)) (after ops V (Proc.devRef .tc main_v86)) (after ops V (Proc.devRef .tc main_v88)) :=
  Cert.Lib.ssa_binary (a := main_v86) (b := main_v88) (y := main_v89) wr 153 V (addf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_call6_cst (V : Valuation τ sig (Elt F)) :
    after ops V (Proc.devRef .tc main_call6_cst) = ((constant S_ .f32 0x00000000#32) : (⟨S_, .f32⟩ : BufTy).Contents (Elt F)) :=
  Cert.Lib.ssa_nullary (y := main_call6_cst) wr 154 V ((constant S_ .f32 0x00000000#32) : (⟨S_, .f32⟩ : BufTy).Contents (Elt F)) _ rfl (by decide)

theorem rd_main_call6_v0 (V : Valuation τ sig (Elt F)) :
    after ops V (Proc.devRef .tc main_call6_v0) = ((broadcastInDim S100000x64 ![] bcast_S_S100000x64) : (⟨S_, .f32⟩ : BufTy).Contents (Elt F) → (⟨S100000x64, .f32⟩ : BufTy).Contents (Elt F)) (after ops V (Proc.devRef .tc main_call6_cst)) :=
  Cert.Lib.ssa_unary (x := main_call6_cst) (y := main_call6_v0) wr 155 V ((broadcastInDim S100000x64 ![] bcast_S_S100000x64) : (⟨S_, .f32⟩ : BufTy).Contents (Elt F) → (⟨S100000x64, .f32⟩ : BufTy).Contents (Elt F)) _ _ rfl (by decide) (by decide)

theorem rd_main_v90 (V : Valuation τ sig (Elt F)) :
    after ops V (Proc.devRef .tc main_v90) = (maximumf : (⟨S100000x64, .f32⟩ : BufTy).Contents (Elt F) → (⟨S100000x64, .f32⟩ : BufTy).Contents (Elt F) → (⟨S100000x64, .f32⟩ : BufTy).Contents (Elt F)) (after ops V (Proc.devRef .tc main_v89)) (after ops V (Proc.devRef .tc main_call6_v0)) :=
  Cert.Lib.ssa_binary (a := main_v89) (b := main_call6_v0) (y := main_v90) wr 156 V (maximumf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

theorem rd_main_v91 (V : Valuation τ sig (Elt F)) :
    after ops V (Proc.devRef .tc main_v91) = ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) (after ops V (Proc.devRef .tc main_v90)) (after ops V (Proc.devRef .tc main_arg17)) :=
  Cert.Lib.ssa_binary (a := main_v90) (b := main_arg17) (y := main_v91) wr 157 V ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) _ _ _ rfl (by decide) (by decide) (by decide)

theorem rd_main_v92 (V : Valuation τ sig (Elt F)) :
    after ops V (Proc.devRef .tc main_v92) = (broadcastInDim S1x64 ![1] bcast_S64_S1x64_1 : (⟨S64, .f32⟩ : BufTy).Contents (Elt F) → (⟨S1x64, .f32⟩ : BufTy).Contents (Elt F)) (after ops V (Proc.devRef .tc main_arg18)) :=
  Cert.Lib.ssa_unary (x := main_arg18) (y := main_v92) wr 158 V (broadcastInDim S1x64 ![1] bcast_S64_S1x64_1 : (⟨S64, .f32⟩ : BufTy).Contents (Elt F) → (⟨S1x64, .f32⟩ : BufTy).Contents (Elt F)) _ _ rfl (by decide) (by decide)

theorem rd_main_v93 (V : Valuation τ sig (Elt F)) :
    after ops V (Proc.devRef .tc main_v93) = (broadcastInDim S100000x64 ![0, 1] bcast_S1x64_S100000x64_0_1 : (⟨S1x64, .f32⟩ : BufTy).Contents (Elt F) → (⟨S100000x64, .f32⟩ : BufTy).Contents (Elt F)) (after ops V (Proc.devRef .tc main_v92)) :=
  Cert.Lib.ssa_unary (x := main_v92) (y := main_v93) wr 159 V (broadcastInDim S100000x64 ![0, 1] bcast_S1x64_S100000x64_0_1 : (⟨S1x64, .f32⟩ : BufTy).Contents (Elt F) → (⟨S100000x64, .f32⟩ : BufTy).Contents (Elt F)) _ _ rfl (by decide) (by decide)

theorem rd_main_v94 (V : Valuation τ sig (Elt F)) :
    after ops V (Proc.devRef .tc main_v94) = (addf : (⟨S100000x64, .f32⟩ : BufTy).Contents (Elt F) → (⟨S100000x64, .f32⟩ : BufTy).Contents (Elt F) → (⟨S100000x64, .f32⟩ : BufTy).Contents (Elt F)) (after ops V (Proc.devRef .tc main_v91)) (after ops V (Proc.devRef .tc main_v93)) :=
  Cert.Lib.ssa_binary (a := main_v91) (b := main_v93) (y := main_v94) wr 160 V (addf : (⟨S100000x64, .f32⟩ : BufTy).Contents (Elt F) → (⟨S100000x64, .f32⟩ : BufTy).Contents (Elt F) → (⟨S100000x64, .f32⟩ : BufTy).Contents (Elt F)) _ _ _ rfl (by decide) (by decide) (by decide)

end Cert.ReferenceIdeal.RefRead

end
-- ==== Proof.LibRealCollapse.lean ====
/-
  The algebra of a two-layer graph convolution on the extended reals. Independent of any program.

  A layer aggregates, at node n, the rows of a feature matrix at the sources of the edges that end in n, each
  row scaled by a per-source weight; the aggregate is scaled by a per-node weight and multiplied by a dense weight
  matrix. Multiplying by the weight matrix BEFORE aggregating gives the same result, because the product is linear in
  the rows: for real entries
      ((Σ_e (Σ_k h e k · W k) · a e) · c = Σ_k ((Σ_e h e k · a e) · c) · W k.
  On the extended reals distributivity fails at the infinities, so the law is stated for entries that are real
  numbers; the predicate `IsReal` and its closure under the operations a layer uses say which entries are.
-/
import Mathlib.Data.EReal.Basic
import Mathlib.Data.EReal.Operations
import Mathlib.Algebra.BigOperators.Ring.Finset
import Mathlib.Algebra.BigOperators.Group.Finset.Sigma
import Mathlib.Tactic.Ring

noncomputable section

namespace Cert.Gcn

open Finset

/-- An extended real that is a real number. -/
def IsReal (v : EReal) : Prop := ∃ r : ℝ, v = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {u v : EReal} (hu : IsReal u) (hv : IsReal v) : IsReal (u + v) := by
  obtain ⟨a, rfl⟩ := hu; obtain ⟨b, rfl⟩ := hv
  exact ⟨a + b, (EReal.coe_add a b).symm⟩

theorem IsReal.mul {u v : EReal} (hu : IsReal u) (hv : IsReal v) : IsReal (u * v) := by
  obtain ⟨a, rfl⟩ := hu; obtain ⟨b, rfl⟩ := hv
  exact ⟨a * b, (EReal.coe_mul a b).symm⟩

theorem IsReal.max {u v : EReal} (hu : IsReal u) (hv : IsReal v) : IsReal (max u v) := by
  rcases max_choice u v with h | h <;> rw [h] <;> assumption

theorem IsReal.sum {ι : Type} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The dense weight commutes with the weighted aggregation, over the reals. -/
theorem collapse_real {ι κ : Type} [Fintype κ] (S : Finset ι) (h : ι → κ → ℝ) (a : ι → ℝ) (W : κ → ℝ) (c : ℝ) :
    (∑ e ∈ S, (∑ k, h e k * W k) * a e) * c = ∑ k, ((∑ e ∈ S, h e k * a e) * c) * W k := by
  simp only [Finset.sum_mul]
  rw [Finset.sum_comm]
  exact Finset.sum_congr rfl fun k _ => Finset.sum_congr rfl fun e _ => by ring

/-- The same on the extended reals, for entries that are real numbers: the node's result with the weight applied
    before the aggregation equals the result with the weight applied after it; the bias `b` is any extended real. -/
theorem collapse {ι κ : Type} [Fintype κ] (S : Finset ι) (h : ι → κ → EReal) (a : ι → EReal) (W : κ → EReal) (c b : EReal)
    (hh : ∀ e k, IsReal (h e k)) (ha : ∀ e, IsReal (a e)) (hW : ∀ k, IsReal (W k)) (hc : IsReal c) :
    (∑ e ∈ S, (∑ k, h e k * W k) * a e) * c + b = (∑ k, ((∑ e ∈ S, h e k * a e) * c) * W k) + b := by
  choose h' hh' using hh
  choose a' ha' using ha
  choose W' hW' using hW
  obtain ⟨c', rfl⟩ := hc
  refine congrArg (· + b) ?_
  simp only [hh', ha', hW', ← EReal.coe_mul, ← coe_sum]
  exact congrArg _ (collapse_real S h' a' W' c')

end Cert.Gcn

end
-- ==== Proof.LibBatchNormMoments.lean ====
/-
  Batch-normalisation moments on the extended reals. Independent of any program.

  A column `h` of `n` entries has the mean `μ = (Σ h) / n`. Its variance is written in two ways:
      the mean of the squared deviations,          (Σ_i (h i − μ)²) / n,
      the second moment minus the squared mean,    (Σ_i (h i)²) / n − μ².
  Over the real numbers the two agree: expand the square, use `Σ_i μ = n · μ`, and cancel. On the extended reals the
  expansion needs distributivity, which fails at the infinities, so the identity is stated for columns whose
  entries are real numbers (`IsReal`). For such a column the variance is a non-negative real number (a sum of
  squares over a positive count), hence `variance + ε` is a positive real for every real `ε > 0` and its reciprocal
  square root is again a real number.

  Also here: `IsReal` is closed under subtraction, under division by a nonzero real and under the reciprocal
  square root of a positive real; and three single-precision words as the real numbers they denote
  (`100000`, `1`, and the word nearest `1e-5`, of which only the sign is used).
-/
import proofs.«157355_j13657996001716_2_alg».proof.Proof.LibRealCollapse
import Idealize.ShloMosaic.PureOps.Ideal

noncomputable section

namespace Cert.BatchNorm

open Finset Idealize.ShloMosaic Cert.Gcn

/-! ### Closure of the real entries -/

/-- The difference of two real numbers is a real number. -/
theorem _root_.Cert.Gcn.IsReal.sub {u v : EReal} (hu : IsReal u) (hv : IsReal v) : IsReal (u - v) := by
  obtain ⟨a, rfl⟩ := hu; obtain ⟨b, rfl⟩ := hv
  exact ⟨a - b, (EReal.coe_sub a b).symm⟩

/-- A real number divided by a nonzero real number is a real number. -/
theorem isReal_div {u : EReal} (hu : IsReal u) {N : ℝ} (hN : N ≠ 0) : IsReal (Ideal.div u (N : EReal)) := by
  obtain ⟨a, rfl⟩ := hu
  rw [Ideal.div_coe hN]
  exact ⟨a * (1 / N), (EReal.coe_mul a (1 / N)).symm⟩

/-- The reciprocal square root of a positive real number is a real number. -/
theorem isReal_rsqrt {r : ℝ} (hr : 0 < r) : IsReal (Ideal.rsqrt (r : EReal)) := by
  rw [Ideal.rsqrt_coe, if_neg (not_lt.mpr hr.le), if_neg hr.ne']
  exact ⟨(Real.sqrt r)⁻¹, rfl⟩

/-- The reciprocal square root of a non-negative real plus a positive real is a real number: the shape
    `rsqrt (variance + ε)`. -/
theorem isReal_rsqrt_var_eps {v e : ℝ} (hv : 0 ≤ v) (he : 0 < e) :
    IsReal (Ideal.rsqrt ((v : EReal) + (e : EReal))) := by
  rw [← EReal.coe_add]
  exact isReal_rsqrt (add_pos_of_nonneg_of_pos hv he)

/-! ### The two forms of the variance -/

/-- Over the reals, with `n` the number of entries and division written as the product with `1 / n`: the mean of
    the squared deviations from the mean equals the second moment minus the squared mean. -/
theorem variance_moments_real {ι : Type} [Fintype ι] (x : ι → ℝ) (N : ℝ) (hN : N = (Fintype.card ι : ℝ))
    (hN0 : N ≠ 0) :
    (∑ i, (x i - (∑ i, x i) * (1 / N)) * (x i - (∑ i, x i) * (1 / N))) * (1 / N)
      = (∑ i, x i * x i) * (1 / N) - (∑ i, x i) * (1 / N) * ((∑ i, x i) * (1 / N)) := by
  generalize hS : ∑ i, x i = S
  generalize hμ : S * (1 / N) = μ
  have hexp : ∀ i, (x i - μ) * (x i - μ) = x i * x i - 2 * μ * x i + μ * μ := fun i => by ring
  have hsum : ∑ i, (x i - μ) * (x i - μ) = ∑ i, x i * x i - 2 * μ * S + N * (μ * μ) := by
    simp only [hexp, Finset.sum_add_distrib, Finset.sum_sub_distrib, ← Finset.mul_sum, hS, Finset.sum_const,
      Finset.card_univ, nsmul_eq_mul, ← hN]
    ring
  rw [hsum, ← hμ]
  field_simp
  ring

/-- For a column of real entries, the mean of the squared deviations from the mean (the sums starting from the
    initial value `0`) equals the second moment minus the squared mean. -/
theorem variance_moments {ι : Type} [Fintype ι] (h : ι → EReal) (hh : ∀ i, IsReal (h i)) (N : ℝ)
    (hN : N = (Fintype.card ι : ℝ)) (hpos : 0 < Fintype.card ι) :
    Ideal.div (0 + ∑ i, (h i - Ideal.div (0 + ∑ i, h i) (N : EReal)) * (h i - Ideal.div (0 + ∑ i, h i) (N : EReal))) (N : EReal)
      = Ideal.div (∑ i, h i * h i) (N : EReal) - Ideal.div (∑ i, h i) (N : EReal) * Ideal.div (∑ i, h i) (N : EReal) := by
  choose h' hh' using hh
  have hN0 : N ≠ 0 := by rw [hN]; exact_mod_cast hpos.ne'
  simp only [zero_add, hh', Ideal.div_coe hN0, ← coe_sum, ← EReal.coe_mul, ← EReal.coe_sub]
  exact congrArg _ (variance_moments_real h' N hN hN0)

/-- For a column of real entries the variance, in the form second moment minus squared mean, is a non-negative
    real number: it is the mean of the squared deviations, a sum of squares over a positive count. -/
theorem variance_nonneg {ι : Type} [Fintype ι] (h : ι → EReal) (hh : ∀ i, IsReal (h i)) (N : ℝ)
    (hN : N = (Fintype.card ι : ℝ)) (hpos : 0 < Fintype.card ι) :
    ∃ v : ℝ, 0 ≤ v ∧ Ideal.div (∑ i, h i * h i) (N : EReal) - Ideal.div (∑ i, h i) (N : EReal) * Ideal.div (∑ i, h i) (N : EReal) = (v : EReal) := by
  rw [← variance_moments h hh N hN hpos]
  choose h' hh' using hh
  have hNpos : 0 < N := by rw [hN]; exact_mod_cast hpos
  refine ⟨(∑ i, (h' i - (∑ i, h' i) * (1 / N)) * (h' i - (∑ i, h' i) * (1 / N))) * (1 / N), ?_, ?_⟩
  · exact mul_nonneg (Finset.sum_nonneg fun i _ => mul_self_nonneg _) (one_div_pos.mpr hNpos).le
  · simp only [zero_add, hh', Ideal.div_coe hNpos.ne', ← coe_sum, ← EReal.coe_mul, ← EReal.coe_sub]

/-! ### Three single-precision words -/

/-- The word `0x47C35000` (exponent field `143`, fraction field `0x435000`) denotes
    `(2^23 + 4411392) · 2^(143 − 127 − 23) = 100000`. -/
theorem ofBits_hundred_thousand : Ideal.ofBits .f32 0x47C35000#32 = ((100000 : ℝ) : EReal) := by
  simp [Ideal.ofBits, Ideal.ieee, -EReal.coe_mul]; norm_num

/-- The word `0x3F800000` (exponent field `127`, fraction field `0`) denotes `2^23 · 2^(−23) = 1`. -/
theorem ofBits_one : Ideal.ofBits .f32 0x3F800000#32 = ((1 : ℝ) : EReal) := by
  simp [Ideal.ofBits, Ideal.ieee, -EReal.coe_mul]; norm_num

/-- The word `0x3727C5AC`, the single-precision number nearest `1e-5` (exponent field `110`, fraction field
    `0x27C5AC`), denotes the positive real `(2^23 + 2606508) · 2^(110 − 127 − 23)`. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end Cert.BatchNorm

end
-- ==== Proof.RefValue.lean ====
/-
  The reference's result as one function of its arguments, over the extended reals.

  Each stage of a layer is first read as an equation between arrays: the edge messages
  max (x[src] + (ea · We + be)) 0; the dense layer (x + agg) · W1 + b1; the column mean (0 + Σ_n h) / N; the deviations
  h − mean; the variance (0 + Σ_n (h − mean)²) / (N − 0), selected because N − 0 > 0; and the normalised, scaled,
  shifted, clamped rows times W2 plus b2.  Then the line of operations is read array by array, each array after the
  whole line being its operation's function of its operands, and the stages are chained.  The gather of source rows
  and the accumulating scatter onto destination rows are never opened: they stay the two functions gatherSrc and
  scatterDst of the edge index array.
-/
import proofs.«157355_j13657996001716_2_alg».proof.Proof.RefRead
import proofs.«157355_j13657996001716_2_alg».proof.Proof.Net
import proofs.«157355_j13657996001716_2_alg».proof.Proof.LibPlainDot
import proofs.«157355_j13657996001716_2_alg».proof.Proof.LibBatchNormMoments
import Idealize.ShloMosaic.Lib.Pipeline.Value
import Idealize.ShloMosaic.PureOps.Ideal.Laws

noncomputable section

namespace Cert.ReferenceIdeal.RefValue

open Cert.ReferenceIdeal Cert.ReferenceIdeal.RefRun Cert.ReferenceIdeal.RefRead Cert.Gine
open Idealize.ShloMosaic Idealize.ShloMosaic.ValueIdx Idealize.ShloMosaic.TcCoe Idealize.SL.Sem Idealize.ShloMosaic.StableHlo
open Cert.ReferenceIdeal.Facts₀ Cert.ReferenceIdeal.Facts

/-! ## Layout operations read at coordinates -/

/-- A scalar broadcast to any shape reads the scalar. -/
theorem bcScalar_apply {α : Type} {t : Shape} (h : S_.BroadcastsInDim t (![] : Fin 0 → Fin t.rank)) (c : S_.Idx → α)
    (j : t.Idx) (k : S_.Idx) : broadcastInDim t ![] h c j = c k :=
  broadcastInDim_apply _ h c j k (fun a => a.elim0)

/-- A vector [64] laid as the row [1, 64]: the row at (0, q) is the vector at q. -/
theorem bcVecRow_apply {α : Type} (b : S64.Idx → α) (q : Fin 64) :
    broadcastInDim S1x64 ![1] bcast_S64_S1x64_1 b (ix2 0 q) = b (ix1 q) :=
  broadcastInDim_apply _ _ b (ix2 0 q) (ix1 q) (fun a => by match a with | ⟨0, _⟩ => rfl)

/-- A row [1, 64] repeated down N rows. -/
theorem bcRowN_apply {α : Type} (r : S1x64.Idx → α) (p : Fin 100000) (q : Fin 64) :
    broadcastInDim S100000x64 ![0, 1] bcast_S1x64_S100000x64_0_1 r (ix2 p q) = r (ix2 0 q) :=
  broadcastInDim_apply _ _ r (ix2 p q) (ix2 0 q) (fun a => by match a with | ⟨0, _⟩ => rfl | ⟨1, _⟩ => rfl)

/-- A row [1, 64] repeated down E rows. -/
theorem bcRowE_apply {α : Type} (r : S1x64.Idx → α) (p : Fin 1600000) (q : Fin 64) :
    broadcastInDim S1600000x64 ![0, 1] bcast_S1x64_S1600000x64_0_1 r (ix2 p q) = r (ix2 0 q) :=
  broadcastInDim_apply _ _ r (ix2 p q) (ix2 0 q) (fun a => by match a with | ⟨0, _⟩ => rfl | ⟨1, _⟩ => rfl)

/-- A bias vector as a row repeated down N rows, at (p, q), is the vector at q. -/
theorem biasN_apply {α : Type} (b : S64.Idx → α) (p : Fin 100000) (q : Fin 64) :
    broadcastInDim S100000x64 ![0, 1] bcast_S1x64_S100000x64_0_1 (broadcastInDim S1x64 ![1] bcast_S64_S1x64_1 b) (ix2 p q)
      = b (ix1 q) :=
  (bcRowN_apply _ p q).trans (bcVecRow_apply b q)

/-- The same down E rows. -/
theorem biasE_apply {α : Type} (b : S64.Idx → α) (p : Fin 1600000) (q : Fin 64) :
    broadcastInDim S1600000x64 ![0, 1] bcast_S1x64_S1600000x64_0_1 (broadcastInDim S1x64 ![1] bcast_S64_S1x64_1 b) (ix2 p q)
      = b (ix1 q) :=
  (bcRowE_apply _ p q).trans (bcVecRow_apply b q)

/-! ## The stages of a layer as equations between arrays -/

/-- A node array times a weight matrix plus a bias vector, at (p, q). -/
theorem linN_apply (l : FVec Ideal S100000x64 .f32) (Wt : FVec Ideal S64x64 .f32) (b : FVec Ideal S64 .f32) (p : Fin 100000) (q : Fin 64) :
    addf (F := Ideal) (Host.dotGeneral (F := Ideal) dot_S100000x64_S64x64_S100000x64_1_0_0_1_n_n none l Wt)
        (broadcastInDim S100000x64 ![0, 1] bcast_S1x64_S100000x64_0_1 (broadcastInDim S1x64 ![1] bcast_S64_S1x64_1 b)) (ix2 p q)
      = (∑ k : Fin 64, l (ix2 p k) * Wt (ix2 k q)) + b (ix1 q) := by
  show Host.dotGeneral (F := Ideal) dot_S100000x64_S64x64_S100000x64_1_0_0_1_n_n none l Wt (ix2 p q)
      + broadcastInDim S100000x64 ![0, 1] bcast_S1x64_S100000x64_0_1 (broadcastInDim S1x64 ![1] bcast_S64_S1x64_1 b) (ix2 p q) = _
  rw [biasN_apply]
  exact congrArg (· + b (ix1 q))
    (Cert.Lib.dotGeneral_plain_apply dot_S100000x64_S64x64_S100000x64_1_0_0_1_n_n_wf none .single l Wt p q)

/-- An edge array times a weight matrix plus a bias vector, at (p, q). -/
theorem linE_apply (l : FVec Ideal S1600000x64 .f32) (Wt : FVec Ideal S64x64 .f32) (b : FVec Ideal S64 .f32) (p : Fin 1600000) (q : Fin 64) :
    addf (F := Ideal) (Host.dotGeneral (F := Ideal) dot_S1600000x64_S64x64_S1600000x64_1_0_0_1_n_n none l Wt)
        (broadcastInDim S1600000x64 ![0, 1] bcast_S1x64_S1600000x64_0_1 (broadcastInDim S1x64 ![1] bcast_S64_S1x64_1 b)) (ix2 p q)
      = (∑ k : Fin 64, l (ix2 p k) * Wt (ix2 k q)) + b (ix1 q) := by
  show Host.dotGeneral (F := Ideal) dot_S1600000x64_S64x64_S1600000x64_1_0_0_1_n_n none l Wt (ix2 p q)
      + broadcastInDim S1600000x64 ![0, 1] bcast_S1x64_S1600000x64_0_1 (broadcastInDim S1x64 ![1] bcast_S64_S1x64_1 b) (ix2 p q) = _
  rw [biasE_apply]
  exact congrArg (· + b (ix1 q))
    (Cert.Lib.dotGeneral_plain_apply dot_S1600000x64_S64x64_S1600000x64_1_0_0_1_n_n_wf none .single l Wt p q)

/-- THE EDGE MESSAGES: the gathered rows plus the transformed edge features, clamped at 0. -/
theorem edge_stage (xj ea : FVec Ideal S1600000x64 .f32) (We : FVec Ideal S64x64 .f32) (be : FVec Ideal S64 .f32) :
    maximumf (F := Ideal)
        (addf (F := Ideal) xj (addf (F := Ideal) (Host.dotGeneral (F := Ideal) dot_S1600000x64_S64x64_S1600000x64_1_0_0_1_n_n none ea We)
          (broadcastInDim S1600000x64 ![0, 1] bcast_S1x64_S1600000x64_0_1 (broadcastInDim S1x64 ![1] bcast_S64_S1x64_1 be))))
        (broadcastInDim S1600000x64 ![] bcast_S_S1600000x64 (constant (F := Ideal) S_ .f32 0x00000000#32))
      = arrE (edgeMsg xj ea We be) := by
  funext j
  obtain ⟨p, q, rfl⟩ : ∃ p q, j = ix2 p q := ⟨j 0, j 1, eq_ix2 j⟩
  show max (xj (ix2 p q) + addf (F := Ideal) (Host.dotGeneral (F := Ideal) dot_S1600000x64_S64x64_S1600000x64_1_0_0_1_n_n none ea We)
          (broadcastInDim S1600000x64 ![0, 1] bcast_S1x64_S1600000x64_0_1 (broadcastInDim S1x64 ![1] bcast_S64_S1x64_1 be)) (ix2 p q))
        (broadcastInDim S1600000x64 ![] bcast_S_S1600000x64 (constant (F := Ideal) S_ .f32 0x00000000#32) (ix2 p q)) = _
  rw [linE_apply]
  rfl

/-- THE DENSE LAYER on a node's own row plus its aggregate. -/
theorem h_stage (x agg : FVec Ideal S100000x64 .f32) (W1 : FVec Ideal S64x64 .f32) (b1 : FVec Ideal S64 .f32) :
    addf (F := Ideal) (Host.dotGeneral (F := Ideal) dot_S100000x64_S64x64_S100000x64_1_0_0_1_n_n none (addf (F := Ideal) x agg) W1)
        (broadcastInDim S100000x64 ![0, 1] bcast_S1x64_S100000x64_0_1 (broadcastInDim S1x64 ![1] bcast_S64_S1x64_1 b1))
      = arrN (hOf x agg W1 b1) := by
  funext j
  obtain ⟨p, q, rfl⟩ : ∃ p q, j = ix2 p q := ⟨j 0, j 1, eq_ix2 j⟩
  rw [linN_apply]
  rfl

/-- A column sum on the host: the start value plus the sum down the N rows. -/
theorem colSumN_apply (x : FVec Ideal S100000x64 .f32) (init : FVec Ideal S_ .f32) (q : Fin 64) :
    Host.reduceAdd (F := Ideal) x init reducesTo_S100000x64_S64_d0 h_S_ (ix1 q)
      = init (Shape.Idx.first h_S_) + ∑ n : Fin 100000, x (ix2 n q) := by
  have hR : S100000x64.Reduces [0] S64 := by decide
  refine (Ideal.hostReduceAdd_single reducesTo_S100000x64_S64_d0 hR x _ (ix1 q)).trans ?_
  refine congrArg (init (Shape.Idx.first h_S_) + ·) (Finset.sum_congr rfl fun n _ => congrArg x (funext fun c => Fin.ext ?_))
  match c with
  | ⟨0, _⟩ => rfl
  | ⟨1, _⟩ => rfl

/-- THE COLUMN MEAN: (0 + Σ_n h) / N. -/
theorem mean_stage (h : Fin 100000 → Fin 64 → EReal) :
    Host.divf (F := Ideal) (Host.reduceAdd (F := Ideal) (arrN h : FVec Ideal S100000x64 .f32) (constant (F := Ideal) S_ .f32 0x00000000#32) reducesTo_S100000x64_S64_d0 h_S_)
        (broadcastInDim S64 ![] bcast_S_S64 (constant (F := Ideal) S_ .f32 0x47C35000#32))
      = meanR h := by
  funext i
  obtain ⟨q, rfl⟩ : ∃ q, i = ix1 q := ⟨i 0, eq_ix1 i⟩
  show Ideal.div (Host.reduceAdd (F := Ideal) (arrN h : FVec Ideal S100000x64 .f32) (constant (F := Ideal) S_ .f32 0x00000000#32) reducesTo_S100000x64_S64_d0 h_S_ (ix1 q))
      (broadcastInDim S64 ![] bcast_S_S64 (constant (F := Ideal) S_ .f32 0x47C35000#32) (ix1 q)) = _
  rw [colSumN_apply]
  rfl

/-- THE DEVIATIONS from the column mean, the mean computed again from the column sums as a row. -/
theorem dev_stage (h : Fin 100000 → Fin 64 → EReal) :
    subf (F := Ideal) (arrN h : FVec Ideal S100000x64 .f32)
        (broadcastInDim S100000x64 ![0, 1] bcast_S1x64_S100000x64_0_1
          (Host.divf (F := Ideal)
            (broadcastInDim S1x64 ![1] bcast_S64_S1x64_1
              (Host.reduceAdd (F := Ideal) (arrN h : FVec Ideal S100000x64 .f32) (constant (F := Ideal) S_ .f32 0x00000000#32) reducesTo_S100000x64_S64_d0 h_S_))
            (broadcastInDim S1x64 ![] bcast_S_S1x64 (constant (F := Ideal) S_ .f32 0x47C35000#32))))
      = arrN (fun n k => h n k - meanR h (ix1 k)) := by
  funext j
  obtain ⟨p, q, rfl⟩ : ∃ p q, j = ix2 p q := ⟨j 0, j 1, eq_ix2 j⟩
  show h p q - broadcastInDim S100000x64 ![0, 1] bcast_S1x64_S100000x64_0_1
          (Host.divf (F := Ideal)
            (broadcastInDim S1x64 ![1] bcast_S64_S1x64_1
              (Host.reduceAdd (F := Ideal) (arrN h : FVec Ideal S100000x64 .f32) (constant (F := Ideal) S_ .f32 0x00000000#32) reducesTo_S100000x64_S64_d0 h_S_))
            (broadcastInDim S1x64 ![] bcast_S_S1x64 (constant (F := Ideal) S_ .f32 0x47C35000#32))) (ix2 p q) = h p q - meanR h (ix1 q)
  rw [bcRowN_apply]
  show h p q - Ideal.div
          (broadcastInDim S1x64 ![1] bcast_S64_S1x64_1
              (Host.reduceAdd (F := Ideal) (arrN h : FVec Ideal S100000x64 .f32) (constant (F := Ideal) S_ .f32 0x00000000#32) reducesTo_S100000x64_S64_d0 h_S_) (ix2 0 q))
          (broadcastInDim S1x64 ![] bcast_S_S1x64 (constant (F := Ideal) S_ .f32 0x47C35000#32) (ix2 0 q)) = _
  rw [bcVecRow_apply, colSumN_apply]
  rfl

/-- The row count as a float: N − 0 with 0 the integer word converted. -/
theorem count_stage :
    subf (F := Ideal) (constant (F := Ideal) S_ .f32 0x47C35000#32) (sitofp (F := Ideal) .f32 (constantI S_ 32 0#32 : IVec S_ 32) : FVec Ideal S_ .f32)
      = fun _ => nW := by
  funext k
  show nW - (((0#32 : BitVec 32).toInt : ℝ) : EReal) = nW
  rw [show (0#32 : BitVec 32).toInt = 0 from rfl]
  simp

/-- N is positive. -/
theorem nW_pos : zeroW < nW := by
  rw [show zeroW = 0 from Ideal.ofBits_zero_f32, show nW = ((100000 : ℝ) : EReal) from Cert.BatchNorm.ofBits_hundred_thousand]
  exact_mod_cast (by norm_num : (0 : ℝ) < 100000)

/-- THE VARIANCE: the mean squared deviation, the quotient selected because N − 0 > 0. -/
theorem var_stage (h : Fin 100000 → Fin 64 → EReal) :
    select
        (broadcastInDim S64 ![] bcast_S_S64
          (cmpf (F := Ideal) .ogt ((fun _ => nW) : FVec Ideal S_ .f32) (constant (F := Ideal) S_ .f32 0x00000000#32)))
        (Host.divf (F := Ideal)
          (Host.reduceAdd
            (mulf (F := Ideal) (arrN (fun n k => h n k - meanR h (ix1 k)) : FVec Ideal S100000x64 .f32) (arrN (fun n k => h n k - meanR h (ix1 k)) : FVec Ideal S100000x64 .f32))
            (constant (F := Ideal) S_ .f32 0x00000000#32) reducesTo_S100000x64_S64_d0 h_S_)
          (broadcastInDim S64 ![] bcast_S_S64 ((fun _ => nW) : FVec Ideal S_ .f32)))
        (broadcastInDim S64 ![] bcast_S_S64 (id (constant (F := Ideal) S_ .f32 0x7FC00000#32 : FVec Ideal S_ .f32)))
      = varR h := by
  funext i
  obtain ⟨q, rfl⟩ : ∃ q, i = ix1 q := ⟨i 0, eq_ix1 i⟩
  have hc : Ideal.cmp .ogt nW zeroW = 1 := by
    show BitVec.ofBool (decide (zeroW < nW)) = 1
    rw [decide_eq_true nW_pos]; rfl
  show (if Ideal.cmp .ogt nW zeroW = 1 then
        Ideal.div (Host.reduceAdd
            (mulf (F := Ideal) (arrN (fun n k => h n k - meanR h (ix1 k)) : FVec Ideal S100000x64 .f32) (arrN (fun n k => h n k - meanR h (ix1 k)) : FVec Ideal S100000x64 .f32))
            (constant (F := Ideal) S_ .f32 0x00000000#32) reducesTo_S100000x64_S64_d0 h_S_ (ix1 q)) nW
      else _) = _
  rw [if_pos hc, colSumN_apply]
  rfl

/-- THE OUTPUT of a layer: centre, divide by the square root of variance plus ε, scale, shift, clamp, second dense layer. -/
theorem out_stage (h : Fin 100000 → Fin 64 → EReal) (mean var g bt : FVec Ideal S64 .f32) (W2 : FVec Ideal S64x64 .f32) (b2 : FVec Ideal S64 .f32) :
    addf (F := Ideal)
        (Host.dotGeneral (F := Ideal) dot_S100000x64_S64x64_S100000x64_1_0_0_1_n_n none
          (maximumf (F := Ideal)
            (addf (F := Ideal)
              (mulf (F := Ideal)
                (Host.divf (F := Ideal)
                  (subf (F := Ideal) (arrN h : FVec Ideal S100000x64 .f32)
                    (broadcastInDim S100000x64 ![0, 1] bcast_S1x64_S100000x64_0_1 (broadcastInDim S1x64 ![1] bcast_S64_S1x64_1 mean)))
                  (broadcastInDim S100000x64 ![0, 1] bcast_S1x64_S100000x64_0_1
                    (broadcastInDim S1x64 ![1] bcast_S64_S1x64_1
                      (Host.sqrt (F := Ideal) (addf (F := Ideal) var (broadcastInDim S64 ![] bcast_S_S64 (constant (F := Ideal) S_ .f32 0x3727C5AC#32)))))))
                (broadcastInDim S100000x64 ![0, 1] bcast_S1x64_S100000x64_0_1 (broadcastInDim S1x64 ![1] bcast_S64_S1x64_1 g)))
              (broadcastInDim S100000x64 ![0, 1] bcast_S1x64_S100000x64_0_1 (broadcastInDim S1x64 ![1] bcast_S64_S1x64_1 bt)))
            (broadcastInDim S100000x64 ![] bcast_S_S100000x64 (constant (F := Ideal) S_ .f32 0x00000000#32)))
          W2)
        (broadcastInDim S100000x64 ![0, 1] bcast_S1x64_S100000x64_0_1 (broadcastInDim S1x64 ![1] bcast_S64_S1x64_1 b2))
      = arrN (applyR h mean var g bt W2 b2) := by
  funext j
  obtain ⟨p, q, rfl⟩ : ∃ p q, j = ix2 p q := ⟨j 0, j 1, eq_ix2 j⟩
  rw [linN_apply]
  show _ = (∑ k : Fin 64, max (Ideal.div (h p k - mean (ix1 k)) (Ideal.sqrt (var (ix1 k) + epsW)) * g (ix1 k) + bt (ix1 k)) zeroW
      * W2 (ix2 k q)) + b2 (ix1 q)
  refine congrArg (· + b2 (ix1 q)) (Finset.sum_congr rfl fun k _ => congrArg (· * W2 (ix2 k q)) ?_)
  show max (Ideal.div (h p k - broadcastInDim S100000x64 ![0, 1] bcast_S1x64_S100000x64_0_1 (broadcastInDim S1x64 ![1] bcast_S64_S1x64_1 mean) (ix2 p k))
        (broadcastInDim S100000x64 ![0, 1] bcast_S1x64_S100000x64_0_1
          (broadcastInDim S1x64 ![1] bcast_S64_S1x64_1
            (Host.sqrt (F := Ideal) (addf (F := Ideal) var (broadcastInDim S64 ![] bcast_S_S64 (constant (F := Ideal) S_ .f32 0x3727C5AC#32))))) (ix2 p k))
        * broadcastInDim S100000x64 ![0, 1] bcast_S1x64_S100000x64_0_1 (broadcastInDim S1x64 ![1] bcast_S64_S1x64_1 g) (ix2 p k)
        + broadcastInDim S100000x64 ![0, 1] bcast_S1x64_S100000x64_0_1 (broadcastInDim S1x64 ![1] bcast_S64_S1x64_1 bt) (ix2 p k))
      (broadcastInDim S100000x64 ![] bcast_S_S100000x64 (constant (F := Ideal) S_ .f32 0x00000000#32) (ix2 p k)) = _
  rw [biasN_apply, biasN_apply, biasN_apply, biasN_apply]
  rfl

/-- THE CLAMP between the layers. -/
theorem hidden_stage (Lr : Fin 100000 → Fin 64 → EReal) :
    maximumf (F := Ideal) (arrN Lr : FVec Ideal S100000x64 .f32) (broadcastInDim S100000x64 ![] bcast_S_S100000x64 (constant (F := Ideal) S_ .f32 0x00000000#32)) = hidden Lr := by
  funext j
  obtain ⟨p, q, rfl⟩ : ∃ p q, j = ix2 p q := ⟨j 0, j 1, eq_ix2 j⟩
  rfl

/-! ## The two index arrays, and the gather and the scatter as functions of the edge index array -/

/-- Row 0 of the edge index array (the sources) and row 1 (the destinations), as vectors [E]. -/
def srcRow (ei : S2x1600000.Idx → BitVec 32) : S1600000.Idx → BitVec 32 :=
  shapeCast S1600000 (extractStridedSlice S1x1600000 ![0, 0] ei slices_S2x1600000_S1x1600000_0_0) shapeCasts_S1x1600000_S1600000
def dstRow (ei : S2x1600000.Idx → BitVec 32) : S1600000.Idx → BitVec 32 :=
  shapeCast S1600000 (extractStridedSlice S1x1600000 ![1, 0] ei slices_S2x1600000_S1x1600000_1_0) shapeCasts_S1x1600000_S1600000

/-- The gather's start indices [E, 1]: a negative source index is counted from the end (N is added to it). -/
def srcIdx (ei : S2x1600000.Idx → BitVec 32) : S1600000x1.Idx → BitVec 32 :=
  broadcastInDim S1600000x1 ![0] bcast_S1600000_S1600000x1_0
    (select (cmpi .slt (srcRow ei) (broadcastInDim S1600000 ![] bcast_S_S1600000 (constantI S_ 32 0#32)))
      (addi (srcRow ei) (broadcastInDim S1600000 ![] bcast_S_S1600000 (constantI S_ 32 100000#32)))
      (srcRow ei))

/-- The scatter's indices [E, 1]: the destinations as they are. -/
def dstIdx (ei : S2x1600000.Idx → BitVec 32) : S1600000x1.Idx → BitVec 32 :=
  broadcastInDim S1600000x1 ![0] bcast_S1600000_S1600000x1_0 (dstRow ei)

/-- THE GATHER of source rows: row e of the result is row src(e) of the node array. -/
def gatherSrc (ei : (⟨2, ![2, 1600000]⟩ : Shape).Idx → BitVec 32) : (Cert.Gine.SN.Idx → EReal) → (Cert.Gine.SE.Idx → EReal) :=
  fun x => Host.gather gather_S100000x64_S1600000x1_S1600000x64_1_0_n_n_0_1_164 x (srcIdx ei)

/-- THE ACCUMULATING SCATTER onto destination rows, into zeros. -/
def scatterDst (ei : (⟨2, ![2, 1600000]⟩ : Shape).Idx → BitVec 32) : (Cert.Gine.SE.Idx → EReal) → (Cert.Gine.SN.Idx → EReal) :=
  fun u => Host.scatterAdd (F := Ideal) scatter_S100000x64_S1600000x1_S1600000x64_1_0_0_1
    (broadcastInDim S100000x64 ![] bcast_S_S100000x64 (constant (F := Ideal) S_ .f32 0x00000000#32)) (dstIdx ei) u

/-! ## The line read array by array -/

set_option maxHeartbeats 4000000 in
set_option maxRecDepth 4096 in
/-- THE RESULT ARRAY after the whole line, from any contents: the two layers of the arguments. -/
theorem value (V : Valuation τ sig (Elt Ideal)) :
    after (ops (F := Ideal)) V (Proc.devRef .tc main_v94)
      = netR (gatherSrc (V (Proc.devRef .tc main_arg1))) (scatterDst (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  have k_main_arg0 : after (ops (F := Ideal)) V (Proc.devRef .tc main_arg0) = V (Proc.devRef .tc main_arg0) := rd_keep V main_arg0 (by decide)
  have k_main_arg1 : after (ops (F := Ideal)) V (Proc.devRef .tc main_arg1) = V (Proc.devRef .tc main_arg1) := rd_keep V main_arg1 (by decide)
  have k_main_arg2 : after (ops (F := Ideal)) V (Proc.devRef .tc main_arg2) = V (Proc.devRef .tc main_arg2) := rd_keep V main_arg2 (by decide)
  have k_main_arg3 : after (ops (F := Ideal)) V (Proc.devRef .tc main_arg3) = V (Proc.devRef .tc main_arg3) := rd_keep V main_arg3 (by decide)
  have k_main_arg4 : after (ops (F := Ideal)) V (Proc.devRef .tc main_arg4) = V (Proc.devRef .tc main_arg4) := rd_keep V main_arg4 (by decide)
  have k_main_arg5 : after (ops (F := Ideal)) V (Proc.devRef .tc main_arg5) = V (Proc.devRef .tc main_arg5) := rd_keep V main_arg5 (by decide)
  have k_main_arg6 : after (ops (F := Ideal)) V (Proc.devRef .tc main_arg6) = V (Proc.devRef .tc main_arg6) := rd_keep V main_arg6 (by decide)
  have k_main_arg7 : after (ops (F := Ideal)) V (Proc.devRef .tc main_arg7) = V (Proc.devRef .tc main_arg7) := rd_keep V main_arg7 (by decide)
  have k_main_arg8 : after (ops (F := Ideal)) V (Proc.devRef .tc main_arg8) = V (Proc.devRef .tc main_arg8) := rd_keep V main_arg8 (by decide)
  have k_main_arg9 : after (ops (F := Ideal)) V (Proc.devRef .tc main_arg9) = V (Proc.devRef .tc main_arg9) := rd_keep V main_arg9 (by decide)
  have k_main_arg10 : after (ops (F := Ideal)) V (Proc.devRef .tc main_arg10) = V (Proc.devRef .tc main_arg10) := rd_keep V main_arg10 (by decide)
  have k_main_arg11 : after (ops (F := Ideal)) V (Proc.devRef .tc main_arg11) = V (Proc.devRef .tc main_arg11) := rd_keep V main_arg11 (by decide)
  have k_main_arg12 : after (ops (F := Ideal)) V (Proc.devRef .tc main_arg12) = V (Proc.devRef .tc main_arg12) := rd_keep V main_arg12 (by decide)
  have k_main_arg13 : after (ops (F := Ideal)) V (Proc.devRef .tc main_arg13) = V (Proc.devRef .tc main_arg13) := rd_keep V main_arg13 (by decide)
  have k_main_arg14 : after (ops (F := Ideal)) V (Proc.devRef .tc main_arg14) = V (Proc.devRef .tc main_arg14) := rd_keep V main_arg14 (by decide)
  have k_main_arg15 : after (ops (F := Ideal)) V (Proc.devRef .tc main_arg15) = V (Proc.devRef .tc main_arg15) := rd_keep V main_arg15 (by decide)
  have k_main_arg16 : after (ops (F := Ideal)) V (Proc.devRef .tc main_arg16) = V (Proc.devRef .tc main_arg16) := rd_keep V main_arg16 (by decide)
  have k_main_arg17 : after (ops (F := Ideal)) V (Proc.devRef .tc main_arg17) = V (Proc.devRef .tc main_arg17) := rd_keep V main_arg17 (by decide)
  have k_main_arg18 : after (ops (F := Ideal)) V (Proc.devRef .tc main_arg18) = V (Proc.devRef .tc main_arg18) := rd_keep V main_arg18 (by decide)
  have e_row0 : after (ops (F := Ideal)) V (Proc.devRef .tc main_v1) = srcRow (V (Proc.devRef .tc main_arg1)) := by
    rw [rd_main_v1, rd_main_v0, k_main_arg1]
    rfl
  have e_row1 : after (ops (F := Ideal)) V (Proc.devRef .tc main_v3) = dstRow (V (Proc.devRef .tc main_arg1)) := by
    rw [rd_main_v3, rd_main_v2, k_main_arg1]
    rfl
  have e1_src : after (ops (F := Ideal)) V (Proc.devRef .tc main_v13) = srcIdx (V (Proc.devRef .tc main_arg1)) := by
    rw [rd_main_v13, rd_main_v12, rd_main_v11, rd_main_v10, rd_main_c_0, rd_main_v9, rd_main_v8, rd_main_c, e_row0]
    rfl
  have e1_dst : after (ops (F := Ideal)) V (Proc.devRef .tc main_v18) = dstIdx (V (Proc.devRef .tc main_arg1)) := by
    rw [rd_main_v18, e_row1]
    rfl
  have e1_msg : after (ops (F := Ideal)) V (Proc.devRef .tc main_v16) = (arrE (edgeMsg ((gatherSrc (V (Proc.devRef .tc main_arg1))) (V (Proc.devRef .tc main_arg0))) (V (Proc.devRef .tc main_arg2)) (V (Proc.devRef .tc main_arg3)) (V (Proc.devRef .tc main_arg4)))) := by
    rw [rd_main_v16, rd_main_call0_v0, rd_main_call0_cst, rd_main_v15, rd_main_v14, rd_main_v7, rd_main_v6, rd_main_v5, rd_main_v4, e1_src, k_main_arg4, k_main_arg3, k_main_arg2, k_main_arg0]
    exact edge_stage _ _ _ _
  have e1_agg : after (ops (F := Ideal)) V (Proc.devRef .tc main_v19) = (scatterDst (V (Proc.devRef .tc main_arg1))) (arrE (edgeMsg ((gatherSrc (V (Proc.devRef .tc main_arg1))) (V (Proc.devRef .tc main_arg0))) (V (Proc.devRef .tc main_arg2)) (V (Proc.devRef .tc main_arg3)) (V (Proc.devRef .tc main_arg4)))) := by
    rw [rd_main_v19, rd_main_v17, rd_main_cst, e1_msg, e1_dst]
    rfl
  have e1_h : after (ops (F := Ideal)) V (Proc.devRef .tc main_v24) = arrN (hOf (V (Proc.devRef .tc main_arg0)) ((scatterDst (V (Proc.devRef .tc main_arg1))) (arrE (edgeMsg ((gatherSrc (V (Proc.devRef .tc main_arg1))) (V (Proc.devRef .tc main_arg0))) (V (Proc.devRef .tc main_arg2)) (V (Proc.devRef .tc main_arg3)) (V (Proc.devRef .tc main_arg4))))) (V (Proc.devRef .tc main_arg5)) (V (Proc.devRef .tc main_arg6))) := by
    rw [rd_main_v24, rd_main_v23, rd_main_v22, rd_main_v21, rd_main_v20, e1_agg, k_main_arg6, k_main_arg5, k_main_arg0]
    exact h_stage _ _ _ _
  have e1_mean : after (ops (F := Ideal)) V (Proc.devRef .tc main_v27) = meanR (hOf (V (Proc.devRef .tc main_arg0)) ((scatterDst (V (Proc.devRef .tc main_arg1))) (arrE (edgeMsg ((gatherSrc (V (Proc.devRef .tc main_arg1))) (V (Proc.devRef .tc main_arg0))) (V (Proc.devRef .tc main_arg2)) (V (Proc.devRef .tc main_arg3)) (V (Proc.devRef .tc main_arg4))))) (V (Proc.devRef .tc main_arg5)) (V (Proc.devRef .tc main_arg6))) := by
    rw [rd_main_v27, rd_main_v26, rd_main_cst_2, rd_main_v25, rd_main_cst_1, e1_h]
    exact mean_stage _
  have e1_dev : after (ops (F := Ideal)) V (Proc.devRef .tc main_call1_v5) = arrN (fun n k => (hOf (V (Proc.devRef .tc main_arg0)) ((scatterDst (V (Proc.devRef .tc main_arg1))) (arrE (edgeMsg ((gatherSrc (V (Proc.devRef .tc main_arg1))) (V (Proc.devRef .tc main_arg0))) (V (Proc.devRef .tc main_arg2)) (V (Proc.devRef .tc main_arg3)) (V (Proc.devRef .tc main_arg4))))) (V (Proc.devRef .tc main_arg5)) (V (Proc.devRef .tc main_arg6))) n k - meanR (hOf (V (Proc.devRef .tc main_arg0)) ((scatterDst (V (Proc.devRef .tc main_arg1))) (arrE (edgeMsg ((gatherSrc (V (Proc.devRef .tc main_arg1))) (V (Proc.devRef .tc main_arg0))) (V (Proc.devRef .tc main_arg2)) (V (Proc.devRef .tc main_arg3)) (V (Proc.devRef .tc main_arg4))))) (V (Proc.devRef .tc main_arg5)) (V (Proc.devRef .tc main_arg6))) (ix1 k)) := by
    rw [rd_main_call1_v5, rd_main_call1_v4, rd_main_call1_v3, rd_main_call1_v2, rd_main_call1_cst_0, rd_main_call1_v1, rd_main_call1_v0, rd_main_call1_cst, e1_h]
    exact dev_stage _
  have e1_cnt : after (ops (F := Ideal)) V (Proc.devRef .tc main_call1_v8) = fun _ => nW := by
    rw [rd_main_call1_v8, rd_main_call1_cst_1, rd_main_call1_v7, rd_main_c_3]
    exact count_stage
  have e1_var : after (ops (F := Ideal)) V (Proc.devRef .tc main_v28) = varR (hOf (V (Proc.devRef .tc main_arg0)) ((scatterDst (V (Proc.devRef .tc main_arg1))) (arrE (edgeMsg ((gatherSrc (V (Proc.devRef .tc main_arg1))) (V (Proc.devRef .tc main_arg0))) (V (Proc.devRef .tc main_arg2)) (V (Proc.devRef .tc main_arg3)) (V (Proc.devRef .tc main_arg4))))) (V (Proc.devRef .tc main_arg5)) (V (Proc.devRef .tc main_arg6))) := by
    rw [rd_main_v28, rd_main_call1_call0_v1, rd_main_call1_call0_v0, rd_main_call1_cst_4, rd_main_call1_v12, rd_main_call1_cst_3, rd_main_call1_v11, rd_main_call1_v10, rd_main_call1_v9, rd_main_call1_cst_2, rd_main_call1_v6, e1_cnt, e1_dev]
    exact var_stage _
  have e1_out : after (ops (F := Ideal)) V (Proc.devRef .tc main_v48) = arrN (layerR (gatherSrc (V (Proc.devRef .tc main_arg1))) (scatterDst (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))) := by
    rw [rd_main_v48, rd_main_v47, rd_main_v46, rd_main_v45, rd_main_v44, rd_main_call2_v0, rd_main_call2_cst, rd_main_v43, rd_main_v42, rd_main_v41, rd_main_v40, rd_main_v39, rd_main_v38, rd_main_v37, rd_main_v36, rd_main_v35, rd_main_v34, rd_main_v33, rd_main_v32, rd_main_cst_4, rd_main_v31, rd_main_v30, rd_main_v29, e1_var, e1_mean, e1_h, k_main_arg10, k_main_arg9, k_main_arg8, k_main_arg7]
    exact out_stage _ _ _ _ _ _ _
  have e_hid : after (ops (F := Ideal)) V (Proc.devRef .tc main_v49) = hidden (layerR (gatherSrc (V (Proc.devRef .tc main_arg1))) (scatterDst (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))) := by
    rw [rd_main_v49, rd_main_call3_v0, rd_main_call3_cst, e1_out]
    exact hidden_stage _
  have e2_src : after (ops (F := Ideal)) V (Proc.devRef .tc main_v59) = srcIdx (V (Proc.devRef .tc main_arg1)) := by
    rw [rd_main_v59, rd_main_v58, rd_main_v57, rd_main_v56, rd_main_c_6, rd_main_v55, rd_main_v54, rd_main_c_5, e_row0]
    rfl
  have e2_dst : after (ops (F := Ideal)) V (Proc.devRef .tc main_v64) = dstIdx (V (Proc.devRef .tc main_arg1)) := by
    rw [rd_main_v64, e_row1]
    rfl
  have e2_msg : after (ops (F := Ideal)) V (Proc.devRef .tc main_v62) = (arrE (edgeMsg ((gatherSrc (V (Proc.devRef .tc main_arg1))) (hidden (layerR (gatherSrc (V (Proc.devRef .tc main_arg1))) (scatterDst (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))))) (V (Proc.devRef .tc main_arg2)) (V (Proc.devRef .tc main_arg11)) (V (Proc.devRef .tc main_arg12)))) := by
    rw [rd_main_v62, rd_main_call4_v0, rd_main_call4_cst, rd_main_v61, rd_main_v60, rd_main_v53, rd_main_v52, rd_main_v51, rd_main_v50, e2_src, e_hid, k_main_arg12, k_main_arg11, k_main_arg2]
    exact edge_stage _ _ _ _
  have e2_agg : after (ops (F := Ideal)) V (Proc.devRef .tc main_v65) = (scatterDst (V (Proc.devRef .tc main_arg1))) (arrE (edgeMsg ((gatherSrc (V (Proc.devRef .tc main_arg1))) (hidden (layerR (gatherSrc (V (Proc.devRef .tc main_arg1))) (scatterDst (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))))) (V (Proc.devRef .tc main_arg2)) (V (Proc.devRef .tc main_arg11)) (V (Proc.devRef .tc main_arg12)))) := by
    rw [rd_main_v65, rd_main_v63, rd_main_cst_7, e2_msg, e2_dst]
    rfl
  have e2_h : after (ops (F := Ideal)) V (Proc.devRef .tc main_v70) = arrN (hOf (hidden (layerR (gatherSrc (V (Proc.devRef .tc main_arg1))) (scatterDst (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)))) ((scatterDst (V (Proc.devRef .tc main_arg1))) (arrE (edgeMsg ((gatherSrc (V (Proc.devRef .tc main_arg1))) (hidden (layerR (gatherSrc (V (Proc.devRef .tc main_arg1))) (scatterDst (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))))) (V (Proc.devRef .tc main_arg2)) (V (Proc.devRef .tc main_arg11)) (V (Proc.devRef .tc main_arg12))))) (V (Proc.devRef .tc main_arg13)) (V (Proc.devRef .tc main_arg14))) := by
    rw [rd_main_v70, rd_main_v69, rd_main_v68, rd_main_v67, rd_main_v66, e2_agg, e_hid, k_main_arg14, k_main_arg13]
    exact h_stage _ _ _ _
  have e2_mean : after (ops (F := Ideal)) V (Proc.devRef .tc main_v73) = meanR (hOf (hidden (layerR (gatherSrc (V (Proc.devRef .tc main_arg1))) (scatterDst (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)))) ((scatterDst (V (Proc.devRef .tc main_arg1))) (arrE (edgeMsg ((gatherSrc (V (Proc.devRef .tc main_arg1))) (hidden (layerR (gatherSrc (V (Proc.devRef .tc main_arg1))) (scatterDst (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))))) (V (Proc.devRef .tc main_arg2)) (V (Proc.devRef .tc main_arg11)) (V (Proc.devRef .tc main_arg12))))) (V (Proc.devRef .tc main_arg13)) (V (Proc.devRef .tc main_arg14))) := by
    rw [rd_main_v73, rd_main_v72, rd_main_cst_9, rd_main_v71, rd_main_cst_8, e2_h]
    exact mean_stage _
  have e2_dev : after (ops (F := Ideal)) V (Proc.devRef .tc main_call5_v5) = arrN (fun n k => (hOf (hidden (layerR (gatherSrc (V (Proc.devRef .tc main_arg1))) (scatterDst (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)))) ((scatterDst (V (Proc.devRef .tc main_arg1))) (arrE (edgeMsg ((gatherSrc (V (Proc.devRef .tc main_arg1))) (hidden (layerR (gatherSrc (V (Proc.devRef .tc main_arg1))) (scatterDst (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))))) (V (Proc.devRef .tc main_arg2)) (V (Proc.devRef .tc main_arg11)) (V (Proc.devRef .tc main_arg12))))) (V (Proc.devRef .tc main_arg13)) (V (Proc.devRef .tc main_arg14))) n k - meanR (hOf (hidden (layerR (gatherSrc (V (Proc.devRef .tc main_arg1))) (scatterDst (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)))) ((scatterDst (V (Proc.devRef .tc main_arg1))) (arrE (edgeMsg ((gatherSrc (V (Proc.devRef .tc main_arg1))) (hidden (layerR (gatherSrc (V (Proc.devRef .tc main_arg1))) (scatterDst (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))))) (V (Proc.devRef .tc main_arg2)) (V (Proc.devRef .tc main_arg11)) (V (Proc.devRef .tc main_arg12))))) (V (Proc.devRef .tc main_arg13)) (V (Proc.devRef .tc main_arg14))) (ix1 k)) := by
    rw [rd_main_call5_v5, rd_main_call5_v4, rd_main_call5_v3, rd_main_call5_v2, rd_main_call5_cst_0, rd_main_call5_v1, rd_main_call5_v0, rd_main_call5_cst, e2_h]
    exact dev_stage _
  have e2_cnt : after (ops (F := Ideal)) V (Proc.devRef .tc main_call5_v8) = fun _ => nW := by
    rw [rd_main_call5_v8, rd_main_call5_cst_1, rd_main_call5_v7, rd_main_c_10]
    exact count_stage
  have e2_var : after (ops (F := Ideal)) V (Proc.devRef .tc main_v74) = varR (hOf (hidden (layerR (gatherSrc (V (Proc.devRef .tc main_arg1))) (scatterDst (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)))) ((scatterDst (V (Proc.devRef .tc main_arg1))) (arrE (edgeMsg ((gatherSrc (V (Proc.devRef .tc main_arg1))) (hidden (layerR (gatherSrc (V (Proc.devRef .tc main_arg1))) (scatterDst (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))))) (V (Proc.devRef .tc main_arg2)) (V (Proc.devRef .tc main_arg11)) (V (Proc.devRef .tc main_arg12))))) (V (Proc.devRef .tc main_arg13)) (V (Proc.devRef .tc main_arg14))) := by
    rw [rd_main_v74, rd_main_call5_call0_v1, rd_main_call5_call0_v0, rd_main_call5_cst_4, rd_main_call5_v12, rd_main_call5_cst_3, rd_main_call5_v11, rd_main_call5_v10, rd_main_call5_v9, rd_main_call5_cst_2, rd_main_call5_v6, e2_cnt, e2_dev]
    exact var_stage _
  have e2_out : after (ops (F := Ideal)) V (Proc.devRef .tc main_v94) = arrN (layerR (gatherSrc (V (Proc.devRef .tc main_arg1))) (scatterDst (V (Proc.devRef .tc main_arg1))) (hidden (layerR (gatherSrc (V (Proc.devRef .tc main_arg1))) (scatterDst (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)))) (V (Proc.devRef .tc main_arg2)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18))) := by
    rw [rd_main_v94, rd_main_v93, rd_main_v92, rd_main_v91, rd_main_v90, rd_main_call6_v0, rd_main_call6_cst, rd_main_v89, rd_main_v88, rd_main_v87, rd_main_v86, rd_main_v85, rd_main_v84, rd_main_v83, rd_main_v82, rd_main_v81, rd_main_v80, rd_main_v79, rd_main_v78, rd_main_cst_11, rd_main_v77, rd_main_v76, rd_main_v75, e2_var, e2_mean, e2_h, k_main_arg18, k_main_arg17, k_main_arg16, k_main_arg15]
    exact out_stage _ _ _ _ _ _ _
  exact e2_out

/-- On every device, from any memory with zero counters: every weakly fair execution of the reference terminates with
    the result array at the two layers of the argument arrays' launch contents, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v94)
          = netR (gatherSrc (m ((c.tc : Thread nD τ).loc main_arg1))) (scatterDst (m ((c.tc : Thread nD τ).loc main_arg1)))
              (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run (defs (F := Ideal)) _ _).mono
    (fun _ h c => ⟨(h c main_v94).trans (value (launchContents m c)),
      (h c main_arg0).trans (rd_keep (launchContents m c) main_arg0 (by decide)),
      (h c main_arg1).trans (rd_keep (launchContents m c) main_arg1 (by decide)),
      (h c main_arg2).trans (rd_keep (launchContents m c) main_arg2 (by decide)),
      (h c main_arg3).trans (rd_keep (launchContents m c) main_arg3 (by decide)),
      (h c main_arg4).trans (rd_keep (launchContents m c) main_arg4 (by decide)),
      (h c main_arg5).trans (rd_keep (launchContents m c) main_arg5 (by decide)),
      (h c main_arg6).trans (rd_keep (launchContents m c) main_arg6 (by decide)),
      (h c main_arg7).trans (rd_keep (launchContents m c) main_arg7 (by decide)),
      (h c main_arg8).trans (rd_keep (launchContents m c) main_arg8 (by decide)),
      (h c main_arg9).trans (rd_keep (launchContents m c) main_arg9 (by decide)),
      (h c main_arg10).trans (rd_keep (launchContents m c) main_arg10 (by decide)),
      (h c main_arg11).trans (rd_keep (launchContents m c) main_arg11 (by decide)),
      (h c main_arg12).trans (rd_keep (launchContents m c) main_arg12 (by decide)),
      (h c main_arg13).trans (rd_keep (launchContents m c) main_arg13 (by decide)),
      (h c main_arg14).trans (rd_keep (launchContents m c) main_arg14 (by decide)),
      (h c main_arg15).trans (rd_keep (launchContents m c) main_arg15 (by decide)),
      (h c main_arg16).trans (rd_keep (launchContents m c) main_arg16 (by decide)),
      (h c main_arg17).trans (rd_keep (launchContents m c) main_arg17 (by decide)),
      (h c main_arg18).trans (rd_keep (launchContents m c) main_arg18 (by decide))⟩)
    (Cert.ReferenceIdeal.RefRun.run m ρ)

end Cert.ReferenceIdeal.RefValue

end
-- ==== Proof.LibRealArrays.lean ====
/-
  Arrays of real numbers under the operations of a host program. Independent of any program.

  The ideal values of a float array are extended reals. Most algebraic laws (distributivity above all) hold on the
  extended reals only away from the infinities, so a proof that uses them first needs to know that the entries it
  meets are real numbers. This file gives that knowledge operation by operation: an entrywise product, sum,
  difference or maximum of real arrays is real; a constant, a broadcast and a gather only repeat entries of their
  operand; an accumulating scatter, a contraction and a sum over axes are finite sums of entries or of products of
  entries; a quotient by a nonzero real constant is real. Two refinements carry a sign: a finite sum of non-negative
  reals is a non-negative real (a count of edges, a sum of squares), and a non-negative real plus a positive real is
  positive, so that its reciprocal square root is a real number again.
-/
import proofs.«157355_j13657996001716_2_alg».proof.Proof.LibBatchNormMoments
import Idealize.ShloMosaic.PureOps.Ideal.Laws
import Idealize.ShloMosaic.Lib.ValueIdx

noncomputable section

namespace Cert.Lib.RealArrays

open Finset Idealize.ShloMosaic Cert.Gcn Cert.BatchNorm

/-! ### Non-negative and positive real numbers among the extended reals -/

/-- An extended real that is a non-negative real number. -/
def IsNonnegReal (v : EReal) : Prop := ∃ r : ℝ, 0 ≤ r ∧ v = (r : EReal)

/-- An extended real that is a positive real number. -/
def IsPosReal (v : EReal) : Prop := ∃ r : ℝ, 0 < r ∧ v = (r : EReal)

/-- A non-negative real number is a real number. -/
theorem IsNonnegReal.isReal {v : EReal} (h : IsNonnegReal v) : IsReal v := by
  obtain ⟨r, _, rfl⟩ := h; exact ⟨r, rfl⟩

/-- A positive real number is a real number. -/
theorem IsPosReal.isReal {v : EReal} (h : IsPosReal v) : IsReal v := by
  obtain ⟨r, _, rfl⟩ := h; exact ⟨r, rfl⟩

/-- A positive real number is a non-negative one. -/
theorem IsPosReal.isNonnegReal {v : EReal} (h : IsPosReal v) : IsNonnegReal v := by
  obtain ⟨r, hr, rfl⟩ := h; exact ⟨r, hr.le, rfl⟩

/-- Zero is a non-negative real. -/
theorem isNonnegReal_zero : IsNonnegReal (0 : EReal) := ⟨0, le_rfl, rfl⟩
/-- One is a positive real. -/
theorem isPosReal_one : IsPosReal (1 : EReal) := ⟨1, one_pos, rfl⟩

/-- The sum of two non-negative reals is a non-negative real. -/
theorem IsNonnegReal.add {u v : EReal} (hu : IsNonnegReal u) (hv : IsNonnegReal v) : IsNonnegReal (u + v) := by
  obtain ⟨a, ha, rfl⟩ := hu; obtain ⟨b, hb, rfl⟩ := hv
  exact ⟨a + b, add_nonneg ha hb, (EReal.coe_add a b).symm⟩

/-- A non-negative real plus a positive real is a positive real. -/
theorem IsNonnegReal.add_pos {u v : EReal} (hu : IsNonnegReal u) (hv : IsPosReal v) : IsPosReal (u + v) := by
  obtain ⟨a, ha, rfl⟩ := hu; obtain ⟨b, hb, rfl⟩ := hv
  exact ⟨a + b, add_pos_of_nonneg_of_pos ha hb, (EReal.coe_add a b).symm⟩

/-- The square of a real number is a non-negative real. -/
theorem _root_.Cert.Gcn.IsReal.mul_self_nonneg {v : EReal} (h : IsReal v) : IsNonnegReal (v * v) := by
  obtain ⟨a, rfl⟩ := h
  exact ⟨a * a, _root_.mul_self_nonneg a, (EReal.coe_mul a a).symm⟩

/-- A finite sum of non-negative reals is a non-negative real. -/
theorem IsNonnegReal.sum {ι : Type} (S : Finset ι) (f : ι → EReal) (hf : ∀ i ∈ S, IsNonnegReal (f i)) :
    IsNonnegReal (∑ i ∈ S, f i) := by
  classical
  induction S using Finset.induction_on with
  | empty => simpa using isNonnegReal_zero
  | insert a S ha ih =>
    rw [Finset.sum_insert ha]
    exact (hf a (Finset.mem_insert_self a S)).add (ih fun i hi => hf i (Finset.mem_insert_of_mem hi))

/-- A non-negative real divided by a positive real is a non-negative real. -/
theorem IsNonnegReal.div {u : EReal} (hu : IsNonnegReal u) {N : ℝ} (hN : 0 < N) :
    IsNonnegReal (Ideal.div u (N : EReal)) := by
  obtain ⟨a, ha, rfl⟩ := hu
  rw [Ideal.div_coe hN.ne']
  exact ⟨a * (1 / N), mul_nonneg ha (one_div_pos.mpr hN).le, (EReal.coe_mul a (1 / N)).symm⟩

/-- The reciprocal square root of a positive real is a real number. -/
theorem IsPosReal.rsqrt {v : EReal} (h : IsPosReal v) : IsReal (Ideal.rsqrt v) := by
  obtain ⟨r, hr, rfl⟩ := h; exact isReal_rsqrt hr

/-! ### Arrays of real numbers under the operations of a host program, at the ideal values

Each lemma says: if every entry of the operands is a real number, so is every entry of the result. The arrays,
index arrays and dimension numbers are arbitrary. -/

variable {s t : Shape} {φ : FTy}

/-- Entrywise product. -/
theorem real_mulf (x y : FVec Ideal s φ) (hx : ∀ i, IsReal (x i)) (hy : ∀ i, IsReal (y i)) :
    ∀ i, IsReal (mulf x y i) := fun i => (hx i).mul (hy i)

/-- Entrywise sum. -/
theorem real_addf (x y : FVec Ideal s φ) (hx : ∀ i, IsReal (x i)) (hy : ∀ i, IsReal (y i)) :
    ∀ i, IsReal (addf x y i) := fun i => (hx i).add (hy i)

/-- Entrywise difference. -/
theorem real_subf (x y : FVec Ideal s φ) (hx : ∀ i, IsReal (x i)) (hy : ∀ i, IsReal (y i)) :
    ∀ i, IsReal (subf x y i) := fun i => (hx i).sub (hy i)

/-- Entrywise maximum. -/
theorem real_maximumf (x y : FVec Ideal s φ) (hx : ∀ i, IsReal (x i)) (hy : ∀ i, IsReal (y i)) :
    ∀ i, IsReal (maximumf x y i) := fun i => (hx i).max (hy i)

/-- The entrywise square of an array of reals has non-negative real entries. -/
theorem nonneg_mulf_self (x : FVec Ideal s φ) (hx : ∀ i, IsReal (x i)) :
    ∀ i, IsNonnegReal (mulf x x i) := fun i => (hx i).mul_self_nonneg

/-- Entrywise sum of a non-negative and a positive array. -/
theorem pos_addf (x y : FVec Ideal s φ) (hx : ∀ i, IsNonnegReal (x i)) (hy : ∀ i, IsPosReal (y i)) :
    ∀ i, IsPosReal (addf x y i) := fun i => (hx i).add_pos (hy i)

/-- A splat constant: every entry is the value of the one word. -/
theorem prop_constant (P : EReal → Prop) (b : BitVec φ.bits) (hb : P (Ideal.ofBits φ b)) :
    ∀ i, P (constant (F := Ideal) s φ b i) := fun _ => hb

/-- A broadcast: every entry of the result is an entry of the operand, so a property of all entries carries over. -/
theorem prop_broadcastInDim (P : EReal → Prop) (dims : Fin s.rank → Fin t.rank) (h : s.BroadcastsInDim t dims)
    (x : s.Idx → EReal) (hx : ∀ i, P (x i)) : ∀ j, P (broadcastInDim t dims h x j) := fun _ => hx _

/-- A gather: every entry of the result is the operand's entry at some index, whatever the index array. -/
theorem prop_gather (P : EReal → Prop) {si : Shape} {w : Nat} (d : GatherDims s si t) (x : s.Idx → EReal)
    (idx : IVec si w) (hx : ∀ i, P (x i)) : ∀ j, P (Host.gather d x idx j) := fun _ => hx _

/-- An accumulating scatter: each entry is the operand's entry plus a finite sum of update entries. -/
theorem real_scatterAdd {si u : Shape} {w : Nat} (d : ScatterDims s si u) (x : FVec Ideal s φ) (idx : IVec si w)
    (upd : FVec Ideal u φ) (hx : ∀ i, IsReal (x i)) (hu : ∀ j, IsReal (upd j)) :
    ∀ i, IsReal (Host.scatterAdd d x idx upd i) := fun i =>
  (hx i).add (IsReal.sum _ _ fun j _ => hu j)

/-- An accumulating scatter of non-negative reals into non-negative reals. -/
theorem nonneg_scatterAdd {si u : Shape} {w : Nat} (d : ScatterDims s si u) (x : FVec Ideal s φ) (idx : IVec si w)
    (upd : FVec Ideal u φ) (hx : ∀ i, IsNonnegReal (x i)) (hu : ∀ j, IsNonnegReal (upd j)) :
    ∀ i, IsNonnegReal (Host.scatterAdd d x idx upd i) := fun i =>
  (hx i).add (IsNonnegReal.sum _ _ fun j _ => hu j)

/-- A contraction: each entry is a finite sum of products. -/
theorem real_dotGeneral {sl sr so : Shape} {φ₁ φ₂ : FTy} (d : DotDims sl sr so) (prec : Option ContractPrecision)
    (x : FVec Ideal sl φ₁) (y : FVec Ideal sr φ₂) (hx : ∀ i, IsReal (x i)) (hy : ∀ i, IsReal (y i)) :
    ∀ j, IsReal (Host.dotGeneral d prec x y j) := fun j => by
  simp only [Host.dotGeneral]
  rw [Ideal.dotGeneral_apply]
  exact IsReal.sum _ _ fun k _ => (hx _).mul (hy _)

/-- A sum over axes: each entry is the initial value plus a finite sum of operand entries. -/
theorem real_reduceAdd {axes : List (Fin s.rank)} {u : Shape} (x : FVec Ideal s φ) (init : u.Idx → Ideal φ)
    (h : s.ReducesTo axes t) (hu : 0 < u.numel) (hx : ∀ i, IsReal (x i)) (hinit : ∀ i, IsReal (init i)) :
    ∀ j, IsReal (Host.reduceAdd x init h hu j) := fun j =>
  (hinit _).add (IsReal.sum _ _ fun i _ => hx i)

/-- A sum over axes of non-negative reals from a non-negative initial value. -/
theorem nonneg_reduceAdd {axes : List (Fin s.rank)} {u : Shape} (x : FVec Ideal s φ) (init : u.Idx → Ideal φ)
    (h : s.ReducesTo axes t) (hu : 0 < u.numel) (hx : ∀ i, IsNonnegReal (x i)) (hinit : ∀ i, IsNonnegReal (init i)) :
    ∀ j, IsNonnegReal (Host.reduceAdd x init h hu j) := fun j =>
  (hinit _).add (IsNonnegReal.sum _ _ fun i _ => hx i)

/-- An entrywise quotient by an array whose entries are all one nonzero real. -/
theorem real_hostDivf (x y : FVec Ideal s φ) {N : ℝ} (hN : N ≠ 0) (hx : ∀ i, IsReal (x i))
    (hy : ∀ i, y i = (N : EReal)) : ∀ i, IsReal (Host.divf x y i) := fun i => by
  show IsReal (Ideal.div (x i) (y i))
  rw [hy i]; exact isReal_div (hx i) hN

/-- An entrywise quotient of non-negative reals by an array whose entries are all one positive real. -/
theorem nonneg_hostDivf (x y : FVec Ideal s φ) {N : ℝ} (hN : 0 < N) (hx : ∀ i, IsNonnegReal (x i))
    (hy : ∀ i, y i = (N : EReal)) : ∀ i, IsNonnegReal (Host.divf x y i) := fun i => by
  show IsNonnegReal (Ideal.div (x i) (y i))
  rw [hy i]; exact (hx i).div hN

/-- The entrywise reciprocal square root of positive reals. -/
theorem real_hostRsqrt (x : FVec Ideal s φ) (hx : ∀ i, IsPosReal (x i)) : ∀ i, IsReal (Host.rsqrt x i) :=
  fun i => (hx i).rsqrt

end Cert.Lib.RealArrays

end
-- ==== Proof.Bridge.lean ====
/-
  The two spellings of the layer agree on arrays of real numbers.

  For a column h_1 … h_N of reals with mean μ = (Σ h)/N, the mean squared deviation (Σ (h − μ)²)/N equals the second moment
  minus the squared mean (Σ h²)/N − μ², and is a non-negative real v; so the clamp max(·, 0) does nothing, v + ε > 0, and
  multiplying by (v + ε)^(−1/2) is dividing by (v + ε)^(1/2).  None of this survives an infinite entry (∞ − ∞), which is why
  every array is carried with the fact that its entries are real: sums, products, maxima, the abstract gather and scatter
  (assumed to keep real entries real) and the normalised output itself stay real, so the second layer is again a layer
  on real arrays.
-/
import proofs.«157355_j13657996001716_2_alg».proof.Proof.Net
import proofs.«157355_j13657996001716_2_alg».proof.Proof.LibRealArrays
import proofs.«157355_j13657996001716_2_alg».proof.Proof.LibRsqrtDiv

noncomputable section

namespace Cert.Gine

open Idealize.ShloMosaic Idealize.ShloMosaic.ValueIdx Cert.Gcn Cert.BatchNorm Finset

/-- Every entry of an array is a real number. -/
def RealArr {S : Shape} (a : S.Idx → EReal) : Prop := ∀ i, IsReal (a i)

theorem isReal_zeroW : IsReal zeroW := by
  unfold zeroW; rw [Cert.RowLaw.ofBits_zero]; exact isReal_zero

theorem zeroW_eq : zeroW = 0 := Cert.RowLaw.ofBits_zero

theorem nW_eq : nW = ((100000 : ℝ) : EReal) := ofBits_hundred_thousand

theorem card_rows : (100000 : ℝ) = (Fintype.card (Fin 100000) : ℝ) := by
  rw [Fintype.card_fin]; norm_num

section Layer

variable (G : (SN.Idx → EReal) → (SE.Idx → EReal)) (Sc : (SE.Idx → EReal) → (SN.Idx → EReal))
  (hG : ∀ x, RealArr x → RealArr (G x)) (hSc : ∀ u, RealArr u → RealArr (Sc u))

/-- A message is real when the gathered rows, the edge features and the edge weights are. -/
theorem edgeMsg_real {xj ea : SE.Idx → EReal} {We : SW.Idx → EReal} {be : SB.Idx → EReal}
    (hxj : RealArr xj) (hea : RealArr ea) (hWe : RealArr We) (hbe : RealArr be) (e : Fin 1600000) (d : Fin 64) :
    IsReal (edgeMsg xj ea We be e d) := by
  unfold edgeMsg
  exact ((hxj _).add ((IsReal.sum _ _ fun k _ => (hea _).mul (hWe _)).add (hbe _))).max isReal_zeroW

/-- The dense layer of real arrays is real. -/
theorem hOf_real {x agg : SN.Idx → EReal} {W : SW.Idx → EReal} {b : SB.Idx → EReal}
    (hx : RealArr x) (hagg : RealArr agg) (hW : RealArr W) (hb : RealArr b) (n : Fin 100000) (d : Fin 64) :
    IsReal (hOf x agg W b n d) := by
  unfold hOf
  exact (IsReal.sum _ _ fun k _ => ((hx _).add (hagg _)).mul (hW _)).add (hb _)

/-- The mean from the column sums is the mean from the column. -/
theorem meanK_eq (h : Fin 100000 → Fin 64 → EReal) : meanK (statsArr h) = meanR h := by
  funext i
  unfold meanK meanR statsArr
  rw [zeroW_eq, zero_add]
  rfl

/-- For a real column the clamped second-moment variance is the mean squared deviation, a non-negative real. -/
theorem varK_eq (h : Fin 100000 → Fin 64 → EReal) (hh : ∀ n d, IsReal (h n d)) (i : SB.Idx) :
    varK (statsArr h) i = varR h i ∧ ∃ v : ℝ, 0 ≤ v ∧ varR h i = (v : EReal) := by
  have hm := variance_moments (fun n => h n (i 0)) (fun n => hh n (i 0)) 100000 card_rows (by rw [Fintype.card_fin]; norm_num)
  obtain ⟨v, hv0, hv⟩ := variance_nonneg (fun n => h n (i 0)) (fun n => hh n (i 0)) 100000 card_rows (by rw [Fintype.card_fin]; norm_num)
  have hR : varR h i = (v : EReal) := by
    unfold varR meanR
    rw [zeroW_eq, nW_eq]
    exact hm.trans hv
  refine ⟨?_, v, hv0, hR⟩
  rw [hR]
  unfold varK meanK statsArr
  rw [zeroW_eq, nW_eq]
  have e1 : ((ix2 (1 : Fin 2) (i 0) : S2.Idx) 0).val = 1 := rfl
  have e0 : ((ix2 (0 : Fin 2) (i 0) : S2.Idx) 0).val = 0 := rfl
  simp only [e1, e0, if_true, if_false, one_ne_zero]
  have hv' : Ideal.div (∑ n : Fin 100000, h n (i 0) * h n (i 0)) ((100000 : ℝ) : EReal)
      - Ideal.div (∑ n : Fin 100000, h n (i 0)) ((100000 : ℝ) : EReal) * Ideal.div (∑ n : Fin 100000, h n (i 0)) ((100000 : ℝ) : EReal) = (v : EReal) := hv
  have e2 : ∀ n : Fin 100000, h n ((ix2 (1 : Fin 2) (i 0) : S2.Idx) 1) = h n (i 0) := fun _ => rfl
  have e3 : ∀ n : Fin 100000, h n ((ix2 (0 : Fin 2) (i 0) : S2.Idx) 1) = h n (i 0) := fun _ => rfl
  simp only [e2, e3]
  rw [hv']
  exact max_eq_left (by exact_mod_cast hv0)

end Layer

section Net

variable (G : (SN.Idx → EReal) → (SE.Idx → EReal)) (Sc : (SE.Idx → EReal) → (SN.Idx → EReal))

/-- With a real column, a real mean and a non-negative real variance, one normalised entry is the same number in both
    spellings, and it is real. -/
theorem norm_entry {a μ γ β : EReal} {v : ℝ} (ha : IsReal a) (hμ : IsReal μ) (hγ : IsReal γ) (hβ : IsReal β) (hv : 0 ≤ v) :
    max (((a - μ) * Ideal.rsqrt ((v : EReal) + epsW)) * γ + β) zeroW
        = max (Ideal.div (a - μ) (Ideal.sqrt ((v : EReal) + epsW)) * γ + β) zeroW
      ∧ IsReal (max (((a - μ) * Ideal.rsqrt ((v : EReal) + epsW)) * γ + β) zeroW) := by
  obtain ⟨e, he, hE⟩ := ofBits_eps_pos
  have hpos : (0 : EReal) < (v : EReal) + epsW := by
    unfold epsW; rw [hE, ← EReal.coe_add]; exact_mod_cast (by linarith : (0 : ℝ) < v + e)
  refine ⟨by rw [Cert.RowLaw.mul_rsqrt_eq_div_sqrt _ _ hpos], ?_⟩
  have hr : IsReal (Ideal.rsqrt ((v : EReal) + epsW)) := by
    unfold epsW; rw [hE]; exact isReal_rsqrt_var_eps hv he
  exact ((((ha.sub hμ).mul hr).mul hγ).add hβ).max isReal_zeroW

/-- The normalised, clamped, projected rows of a real column array: the two spellings agree and are real. -/
theorem apply_eq (h : Fin 100000 → Fin 64 → EReal) (hh : ∀ n d, IsReal (h n d)) {g bt : SB.Idx → EReal} {W2 : SW.Idx → EReal}
    {b2 : SB.Idx → EReal} (hg : RealArr g) (hbt : RealArr bt) (hW2 : RealArr W2) (hb2 : RealArr b2) :
    applyK h (meanK (statsArr h)) (varK (statsArr h)) g bt W2 b2 = applyR h (meanR h) (varR h) g bt W2 b2
      ∧ ∀ n d, IsReal (applyK h (meanK (statsArr h)) (varK (statsArr h)) g bt W2 b2 n d) := by
  have hmean : ∀ k : Fin 64, IsReal (meanR h (ix1 k)) := fun k => by
    unfold meanR; rw [nW_eq]
    exact isReal_div (isReal_zeroW.add (IsReal.sum _ _ fun n _ => hh n _)) (by norm_num)
  have key : ∀ n k, max (((h n k - meanK (statsArr h) (ix1 k)) * Ideal.rsqrt (varK (statsArr h) (ix1 k) + epsW)) * g (ix1 k) + bt (ix1 k)) zeroW
        = max (Ideal.div (h n k - meanR h (ix1 k)) (Ideal.sqrt (varR h (ix1 k) + epsW)) * g (ix1 k) + bt (ix1 k)) zeroW
      ∧ IsReal (max (((h n k - meanK (statsArr h) (ix1 k)) * Ideal.rsqrt (varK (statsArr h) (ix1 k) + epsW)) * g (ix1 k) + bt (ix1 k)) zeroW) := fun n k => by
    obtain ⟨hvk, v, hv0, hvR⟩ := varK_eq h hh (ix1 k)
    rw [meanK_eq, hvk, hvR]
    exact norm_entry (hh n k) (hmean k) (hg _) (hbt _) hv0
  refine ⟨?_, fun n d => ?_⟩
  · funext n d
    unfold applyK applyR
    exact congrArg (· + b2 (ix1 d)) (Finset.sum_congr rfl fun k _ => by rw [(key n k).1])
  · unfold applyK
    exact (IsReal.sum _ _ fun k _ => ((key n k).2).mul (hW2 _)).add (hb2 _)

/-- One layer on real arrays: the two spellings agree, and the result is real. -/
theorem layer_eq (hG : ∀ x, RealArr x → RealArr (G x)) (hSc : ∀ u, RealArr u → RealArr (Sc u))
    {x : SN.Idx → EReal} {ea : SE.Idx → EReal} {We : SW.Idx → EReal} {be : SB.Idx → EReal} {W1 : SW.Idx → EReal}
    {b1 g bt : SB.Idx → EReal} {W2 : SW.Idx → EReal} {b2 : SB.Idx → EReal}
    (hx : RealArr x) (hea : RealArr ea) (hWe : RealArr We) (hbe : RealArr be) (hW1 : RealArr W1) (hb1 : RealArr b1)
    (hg : RealArr g) (hbt : RealArr bt) (hW2 : RealArr W2) (hb2 : RealArr b2) :
    layerK G Sc x ea We be W1 b1 g bt W2 b2 = layerR G Sc x ea We be W1 b1 g bt W2 b2
      ∧ ∀ n d, IsReal (layerK G Sc x ea We be W1 b1 g bt W2 b2 n d) := by
  have hh : ∀ n d, IsReal (hOf x (Sc (arrE (edgeMsg (G x) ea We be))) W1 b1 n d) := fun n d =>
    hOf_real hx (hSc _ fun j => edgeMsg_real (hG x hx) hea hWe hbe (j 0) (j 1)) hW1 hb1 n d
  unfold layerK layerR
  exact apply_eq _ hh hg hbt hW2 hb2

/-- Both layers on real arrays: the two spellings of the network agree. -/
theorem net_eq (hG : ∀ x, RealArr x → RealArr (G x)) (hSc : ∀ u, RealArr u → RealArr (Sc u))
    {x : SN.Idx → EReal} {ea : SE.Idx → EReal}
    {We0 : SW.Idx → EReal} {be0 : SB.Idx → EReal} {W10 : SW.Idx → EReal} {b10 g0 bt0 : SB.Idx → EReal} {W20 : SW.Idx → EReal} {b20 : SB.Idx → EReal}
    {We1 : SW.Idx → EReal} {be1 : SB.Idx → EReal} {W11 : SW.Idx → EReal} {b11 g1 bt1 : SB.Idx → EReal} {W21 : SW.Idx → EReal} {b21 : SB.Idx → EReal}
    (hx : RealArr x) (hea : RealArr ea)
    (hWe0 : RealArr We0) (hbe0 : RealArr be0) (hW10 : RealArr W10) (hb10 : RealArr b10) (hg0 : RealArr g0) (hbt0 : RealArr bt0)
    (hW20 : RealArr W20) (hb20 : RealArr b20)
    (hWe1 : RealArr We1) (hbe1 : RealArr be1) (hW11 : RealArr W11) (hb11 : RealArr b11) (hg1 : RealArr g1) (hbt1 : RealArr bt1)
    (hW21 : RealArr W21) (hb21 : RealArr b21) :
    netK G Sc x ea We0 be0 W10 b10 g0 bt0 W20 b20 We1 be1 W11 b11 g1 bt1 W21 b21
      = netR G Sc x ea We0 be0 W10 b10 g0 bt0 W20 b20 We1 be1 W11 b11 g1 bt1 W21 b21 := by
  obtain ⟨e0, r0⟩ := layer_eq G Sc hG hSc hx hea hWe0 hbe0 hW10 hb10 hg0 hbt0 hW20 hb20
  have hhid : RealArr (hidden (layerK G Sc x ea We0 be0 W10 b10 g0 bt0 W20 b20)) := fun j => (r0 _ _).max isReal_zeroW
  unfold netK netR
  rw [← e0, (layer_eq G Sc hG hSc hhid hea hWe1 hbe1 hW11 hb11 hg1 hbt1 hW21 hb21).1]

end Net

end Cert.Gine

end
-- ==== Proof.LibAllFinite.lean ====
/-
  From a "finite inputs" precondition to real numbers, for an array of any shape over the extended reals.
  Such a precondition is, per float argument, an all-reduction (a reduce by `and` of a one-bit array into a
  result of one index) of the comparison |x| < +∞, entry by entry. An extended real whose absolute value
  max x (−x) is below the word of +∞ is neither −∞ nor +∞ (|−∞| = |+∞| = +∞), hence a real number; so when the
  all-reduction is one, every entry of the argument is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.AllFinite

open Idealize.ShloMosaic Idealize.ShloMosaic.ValueIdx

/-- A rank-0 array has one index. -/
instance scalarIdxSubsingleton : Subsingleton (⟨0, ![]⟩ : Shape).Idx := ⟨fun a b => funext fun d => d.elim0⟩

/-- An extended real whose absolute value is below the word of +∞ is a real number. -/
theorem real_of_abs_lt_top (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- `jnp.all(|x| < +∞)` being one — the host's all-reduction, over any axes, into one index, of the comparison of
    the host's absolute value of `x` with the broadcast word of +∞ — makes every entry of `x` a real number. -/
theorem real_of_all {s : Shape} {axes : List (Fin s.rank)} (x : s.Idx → EReal)
    (hb : (⟨0, ![]⟩ : Shape).BroadcastsInDim s ![]) (hr : s.ReducesTo axes ⟨0, ![]⟩)
    (hu : 0 < (⟨0, ![]⟩ : Shape).numel)
    (e : Host.reduce IntOp.andi (cmpf (F := Ideal) (φ := .f32) .olt (Host.absf (F := Ideal) (φ := .f32) x)
        (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  have hi := Host.reduce_andi_all _ _ hr hu ix0 e i
  have hc : broadcastInDim s ![] hb (constant (F := Ideal) ⟨0, ![]⟩ .f32 0x7F800000#32) i
      = Ideal.ofBits .f32 0x7F800000#32 := broadcastInDim_scalar_apply hb _ i
  refine real_of_abs_lt_top (x i) ?_
  rw [← hc]
  exact hi

end Cert.Lib.AllFinite

end
-- ==== Proof.Finite.lean ====
/-
  From the precondition to real numbers. The precondition is the conjunction, over the eighteen float arguments, of
  "every entry has absolute value below +∞", each conjunct an all-reduction by `and` of the entrywise comparison, and
  the conjunctions are nested to the left: ((…(c₀ ∧ c₂) ∧ c₃) ∧ …) ∧ c₁₈. When the whole is one, each conjunct is one
  (peeled from the outside, the last argument first), and an argument whose conjunct is one has only real entries:
  an extended real x with |x| < +∞ is neither −∞ nor +∞.
-/
import proofs.«157355_j13657996001716_2_alg».proof.Pre_finite_inputs
import proofs.«157355_j13657996001716_2_alg».proof.Proof.LibAllFinite
import proofs.«157355_j13657996001716_2_alg».proof.Proof.LibRealCollapse

noncomputable section

namespace Cert.Finite

open Idealize.ShloMosaic Cert.Pre_finite_inputs Cert.Lib.AllFinite

variable [Facts]

/-- When the precondition holds, every entry of every float argument is a real number. -/
theorem real_of_pre
    (a0 : FVec Ideal S100000x64 .f32) (a1 : IVec S2x1600000 32) (a2 : FVec Ideal S1600000x64 .f32)
    (a3 : FVec Ideal S64x64 .f32) (a4 : FVec Ideal S64 .f32) (a5 : FVec Ideal S64x64 .f32) (a6 : FVec Ideal S64 .f32)
    (a7 : FVec Ideal S64 .f32) (a8 : FVec Ideal S64 .f32) (a9 : FVec Ideal S64x64 .f32) (a10 : FVec Ideal S64 .f32)
    (a11 : FVec Ideal S64x64 .f32) (a12 : FVec Ideal S64 .f32) (a13 : FVec Ideal S64x64 .f32) (a14 : FVec Ideal S64 .f32)
    (a15 : FVec Ideal S64 .f32) (a16 : FVec Ideal S64 .f32) (a17 : FVec Ideal S64x64 .f32) (a18 : FVec Ideal S64 .f32)
    (h : fn (F := Ideal) a0 a1 a2 a3 a4 a5 a6 a7 a8 a9 a10 a11 a12 a13 a14 a15 a16 a17 a18 = fun _ => 1#1) :
      (∀ i, Cert.Gcn.IsReal (a0 i)) ∧
      (∀ i, Cert.Gcn.IsReal (a2 i)) ∧
      (∀ i, Cert.Gcn.IsReal (a3 i)) ∧
      (∀ i, Cert.Gcn.IsReal (a4 i)) ∧
      (∀ i, Cert.Gcn.IsReal (a5 i)) ∧
      (∀ i, Cert.Gcn.IsReal (a6 i)) ∧
      (∀ i, Cert.Gcn.IsReal (a7 i)) ∧
      (∀ i, Cert.Gcn.IsReal (a8 i)) ∧
      (∀ i, Cert.Gcn.IsReal (a9 i)) ∧
      (∀ i, Cert.Gcn.IsReal (a10 i)) ∧
      (∀ i, Cert.Gcn.IsReal (a11 i)) ∧
      (∀ i, Cert.Gcn.IsReal (a12 i)) ∧
      (∀ i, Cert.Gcn.IsReal (a13 i)) ∧
      (∀ i, Cert.Gcn.IsReal (a14 i)) ∧
      (∀ i, Cert.Gcn.IsReal (a15 i)) ∧
      (∀ i, Cert.Gcn.IsReal (a16 i)) ∧
      (∀ i, Cert.Gcn.IsReal (a17 i)) ∧
      (∀ i, Cert.Gcn.IsReal (a18 i)) := by
  -- read the scalar result at its one index and unfold the chain of operations: a left-nested conjunction
  have e := congrFun h ValueIdx.ix0
  dsimp only [fn, fn_part1, fn_part2, fn_part3, fn_part4, fn_part5, andi] at e
  -- a conjunction of one-bit words is one exactly when both are: peel the conjuncts, the last argument's first
  obtain ⟨e, r18⟩ := IntOp.andi_eq_one.1 e
  obtain ⟨e, r17⟩ := IntOp.andi_eq_one.1 e
  obtain ⟨e, r16⟩ := IntOp.andi_eq_one.1 e
  obtain ⟨e, r15⟩ := IntOp.andi_eq_one.1 e
  obtain ⟨e, r14⟩ := IntOp.andi_eq_one.1 e
  obtain ⟨e, r13⟩ := IntOp.andi_eq_one.1 e
  obtain ⟨e, r12⟩ := IntOp.andi_eq_one.1 e
  obtain ⟨e, r11⟩ := IntOp.andi_eq_one.1 e
  obtain ⟨e, r10⟩ := IntOp.andi_eq_one.1 e
  obtain ⟨e, r9⟩ := IntOp.andi_eq_one.1 e
  obtain ⟨e, r8⟩ := IntOp.andi_eq_one.1 e
  obtain ⟨e, r7⟩ := IntOp.andi_eq_one.1 e
  obtain ⟨e, r6⟩ := IntOp.andi_eq_one.1 e
  obtain ⟨e, r5⟩ := IntOp.andi_eq_one.1 e
  obtain ⟨e, r4⟩ := IntOp.andi_eq_one.1 e
  obtain ⟨e, r3⟩ := IntOp.andi_eq_one.1 e
  obtain ⟨r0, r2⟩ := IntOp.andi_eq_one.1 e
  -- each conjunct says: all |x| < +∞ over one argument, so every entry of that argument is a real number
  exact ⟨fun i => real_of_all a0 _ _ _ r0 i,
    fun i => real_of_all a2 _ _ _ r2 i,
    fun i => real_of_all a3 _ _ _ r3 i,
    fun i => real_of_all a4 _ _ _ r4 i,
    fun i => real_of_all a5 _ _ _ r5 i,
    fun i => real_of_all a6 _ _ _ r6 i,
    fun i => real_of_all a7 _ _ _ r7 i,
    fun i => real_of_all a8 _ _ _ r8 i,
    fun i => real_of_all a9 _ _ _ r9 i,
    fun i => real_of_all a10 _ _ _ r10 i,
    fun i => real_of_all a11 _ _ _ r11 i,
    fun i => real_of_all a12 _ _ _ r12 i,
    fun i => real_of_all a13 _ _ _ r13 i,
    fun i => real_of_all a14 _ _ _ r14 i,
    fun i => real_of_all a15 _ _ _ r15 i,
    fun i => real_of_all a16 _ _ _ r16 i,
    fun i => real_of_all a17 _ _ _ r17 i,
    fun i => real_of_all a18 _ _ _ r18 i⟩

end Cert.Finite

end
-- ==== Proof.lean ====
/-
  Two GINE graph-convolution layers with batch normalisation: a Pallas program of six kernel regions (per layer an edge
  kernel max(x[src] + ea·We + be, 0), a statistics kernel accumulating Σh and Σh² of h = (x + agg)·W1 + b1 over ten row
  blocks, and an apply kernel ((h − μ)·(v + ε)^(−1/2)·g + bt clamped at 0, times W2, plus b2) joined by a host gather and a
  host scatter-add, against the plain jnp reference that takes the variance as the mean squared deviation and divides by
  the square root.

  The three frames: the kernel programs' are the generated frame certificates; the reference's is its run with the result
  dropped.  The idealization rewrote nothing, so `preserves` is trivial.  The algebraic claim: the kernel program's result
  array, read through its twelve segments, is the two layers composed in the "column sums" spelling (KernelChain.lean over
  the six regions' values), the reference's is the same composition in the "mean squared deviation" spelling
  (RefValue.lean), the gather and the scatter-add being literally the same host operations on both sides; and under the
  precondition every float argument holds real numbers (Finite.lean), on which the two spellings agree (Bridge.lean): for
  a real column the second moment minus the squared mean is the mean squared deviation, a non-negative real, so the clamp
  is the identity and the reciprocal square root of v + ε > 0 is a division by the square root.
-/
import proofs.«157355_j13657996001716_2_alg».proof.Defs
import proofs.«157355_j13657996001716_2_alg».proof.Proof.Gen.Kernel
import proofs.«157355_j13657996001716_2_alg».proof.Proof.Gen.Kernel.Frame
import proofs.«157355_j13657996001716_2_alg».proof.Proof.Gen.KernelIdeal
import proofs.«157355_j13657996001716_2_alg».proof.Proof.Gen.KernelIdeal.Frame
import proofs.«157355_j13657996001716_2_alg».proof.Proof.Gen.ReferenceIdeal
import proofs.«157355_j13657996001716_2_alg».proof.Proof.Gen.Pre_finite_inputs
import proofs.«157355_j13657996001716_2_alg».proof.Proof.KernelRun
import proofs.«157355_j13657996001716_2_alg».proof.Proof.KernelChain
import proofs.«157355_j13657996001716_2_alg».proof.Proof.RefValue
import proofs.«157355_j13657996001716_2_alg».proof.Proof.Bridge
import proofs.«157355_j13657996001716_2_alg».proof.Proof.Finite
import proofs.«157355_j13657996001716_2_alg».proof.Proof.LibRealArrays
import Idealize.ShloMosaic.Adequacy
import Idealize.ShloMosaic.Init

noncomputable section

namespace Cert.Proof

open Idealize.ShloMosaic Idealize.SL.Sem Cert.Gine Cert.Gcn

/-- The gather of rows of a real array is real: every gathered entry is an entry of the operand. -/
theorem gather_real (ei : IVec Cert.KernelIdeal.S2x1600000 32) (x : SN.Idx → EReal) (hx : RealArr x) :
    RealArr (Cert.KernelIdeal.KValue.gatherSrc ei x) :=
  Cert.Lib.RealArrays.prop_gather IsReal _ x _ hx

/-- The scatter-add of real rows into zeros is real: every entry is 0 plus a finite sum of entries. -/
theorem scatter_real (ei : IVec Cert.KernelIdeal.S2x1600000 32) (u : SE.Idx → EReal) (hu : RealArr u) :
    RealArr (Cert.KernelIdeal.KValue.scatterDst ei u) :=
  Cert.Lib.RealArrays.real_scatterAdd _ _ _ u
    (Cert.Lib.RealArrays.prop_broadcastInDim IsReal _ _ _ (Cert.Lib.RealArrays.prop_constant IsReal _ isReal_zeroW)) hu

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end with the same array: the kernel program's is the composition in the column-sums spelling, the
    reference's in the squared-deviation spelling, of real arguments. -/
theorem algebraic : Cert.algebraic_KernelIdeal_ReferenceIdeal := by
  intro m ρ m' ρ' hpre hagree
  refine ⟨fun c => Cert.KernelIdeal.KValue.outK m c, ?_, ?_⟩
  · exact (θ_run Cert.KernelIdeal.defs _ _).mono
      (fun r h c => ⟨(h c).1.trans (Cert.KernelIdeal.KValue.W12_v59 m ρ c), (h c).2⟩)
      (Cert.KernelIdeal.KValue.run_boundary m ρ)
  · refine (θ_run Cert.ReferenceIdeal.defs _ _).mono (fun r h c => ⟨(h c).1.trans ?_, (h c).2⟩)
      (Cert.ReferenceIdeal.RefValue.run m' ρ')
    obtain ⟨a0, a1, a2, a3, a4, a5, a6, a7, a8, a9, a10, a11, a12, a13, a14, a15, a16, a17, a18⟩ := hagree c
    obtain ⟨r0, r2, r3, r4, r5, r6, r7, r8, r9, r10, r11, r12, r13, r14, r15, r16, r17, r18⟩ :=
      Cert.Finite.real_of_pre _ _ _ _ _ _ _ _ _ _ _ _ _ _ _ _ _ _ _ (hpre c)
    rw [a0, a1, a2, a3, a4, a5, a6, a7, a8, a9, a10, a11, a12, a13, a14, a15, a16, a17, a18]
    exact (net_eq _ _ (gather_real _) (scatter_real _) r0 r2 r3 r4 r5 r6 r7 r8 r9 r10 r11 r12 r13 r14 r15 r16 r17 r18).symm.trans
      (Cert.KernelIdeal.KValue.outK_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
